-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100000x128 : Shape := ⟨2, ![100000, 128]⟩
abbrev S50x4096 : Shape := ⟨2, ![50, 4096]⟩
abbrev S50x4096x128 : Shape := ⟨3, ![50, 4096, 128]⟩
abbrev S50x128 : Shape := ⟨2, ![50, 128]⟩
abbrev S10x64x128 : Shape := ⟨3, ![10, 64, 128]⟩
abbrev S_ : Shape := ⟨0, ![]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S4096x50x128 : Shape := ⟨3, ![4096, 50, 128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S50x4096x128, .f32⟩
  | .hbm, ⟨4, _⟩ => ⟨S4096x50x128, .f32⟩
  | .local .scVector .vmem, ⟨0, _⟩ => ⟨S50x128, .i32⟩
  | .local .scVector .vmem, ⟨1, _⟩ => ⟨S10x64x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_300_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (i : grid0.Coords) (c0_i32_49 : BitVec 32) : Fin 3 → Nat :=
  let c0_i32_51 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v43 : BitVec 32 := Scalar.addi v2 c0_i32_49
  let c0_i32_54 : BitVec 32 := 0#32
  ![0, v43.toNat, 0]
def k0_off3 (i : grid0.Coords) : Fin 3 → Nat :=
  let c1_i32_95 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_93 : BitVec 32 := 0#32
  let v81 : BitVec 32 := Scalar.addi v2 c0_i32_93
  let c0_i32_98 : BitVec 32 := 0#32
  ![1, v81.toNat, 0]
@[reducible] def k0_t1_loop : Scf.Loop 32 :=
  let c0_i32_108 : BitVec 32 := 0#32
  let c9_i32_109 : BitVec 32 := 9#32
  let v95 : BitVec 32 := Scalar.addi c0_i32_108 c9_i32_109
  let c1_i32_110 : BitVec 32 := 1#32
  ⟨c0_i32_108, v95, c1_i32_110⟩
def k0_off4 (i : grid0.Coords) (k0_t1 : Fin k0_t1_loop.trips) (c0_i32_301 : BitVec 32) : Fin 3 → Nat :=
  let c3_i32_300 : BitVec 32 := 3#32
  let c0_i32_108 : BitVec 32 := 0#32
  let c1_i32_110 : BitVec 32 := 1#32
  let arg27 : BitVec 32 := Scf.iv c0_i32_108 c1_i32_110 k0_t1
  let c10_i32 : BitVec 32 := 10#32
  let v274 : BitVec 32 := Scalar.muli arg27 c10_i32
  let v275 : BitVec 32 := Scalar.addi c3_i32_300 v274
  let v276 : BitVec 32 := Scalar.addi v275 c0_i32_301
  let c0_i32_310 : BitVec 32 := 0#32
  let v283 : BitVec 1 := Scalar.cmpi .sgt v276 c0_i32_310
  let v284 : BitVec 32 := Scalar.extui v283
  let c0_i32_311 : BitVec 32 := 0#32
  let v285 : BitVec 1 := Scalar.cmpi .slt v276 c0_i32_311
  let v286 : BitVec 32 := Scalar.extui v285
  let v287 : BitVec 32 := Scalar.subi v284 v286
  let c2_i32_309 : BitVec 32 := 2#32
  let c0_i32_312 : BitVec 32 := 0#32
  let v288 : BitVec 1 := Scalar.cmpi .sgt c2_i32_309 c0_i32_312
  let v289 : BitVec 32 := Scalar.extui v288
  let c0_i32_313 : BitVec 32 := 0#32
  let v290 : BitVec 1 := Scalar.cmpi .slt c2_i32_309 c0_i32_313
  let v291 : BitVec 32 := Scalar.extui v290
  let v292 : BitVec 32 := Scalar.subi v289 v291
  let v293 : BitVec 1 := Scalar.cmpi .ne v287 v292
  let v294 : BitVec 32 := Scalar.remsi v276 c2_i32_309
  let c0_i32_314 : BitVec 32 := 0#32
  let v295 : BitVec 1 := Scalar.cmpi .ne v294 c0_i32_314
  let v296 : BitVec 1 := Scalar.andi v293 v295
  let v282 : BitVec 32 := Scalar.divsi v276 c2_i32_309
  let c1_i32_315 : BitVec 32 := 1#32
  let v297 : BitVec 32 := Scalar.subi v282 c1_i32_315
  let v298 : BitVec 32 := Scalar.select v296 v297 v282
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_316 : BitVec 32 := 2#32
  let c0_i32_317 : BitVec 32 := 0#32
  let v299 : BitVec 1 := Scalar.cmpi .eq c2_i32_316 c0_i32_317
  let c1_i32_318 : BitVec 32 := 1#32
  let v300 : BitVec 32 := Scalar.select v299 c1_i32_318 c2_i32_316
  let v301 : BitVec 32 := Scalar.remsi v276 v300
  let c0_i32_320 : BitVec 32 := 0#32
  let v303 : BitVec 1 := Scalar.cmpi .slt v301 c0_i32_320
  let c0_i32_321 : BitVec 32 := 0#32
  let v304 : BitVec 1 := Scalar.cmpi .slt v300 c0_i32_321
  let v305 : BitVec 1 := Scalar.xori v303 v304
  let c0_i32_319 : BitVec 32 := 0#32
  let v302 : BitVec 1 := Scalar.cmpi .ne v301 c0_i32_319
  let v306 : BitVec 1 := Scalar.andi v305 v302
  let v307 : BitVec 32 := Scalar.addi v301 v300
  let v308 : BitVec 32 := Scalar.select v306 v307 v301
  let c64_i32_322 : BitVec 32 := 64#32
  let v309 : BitVec 32 := Scalar.muli v308 c64_i32_322
  let v310 : BitVec 32 := Scalar.addi v2 v309
  let c0_i32_326 : BitVec 32 := 0#32
  ![v298.toNat, v310.toNat, 0]
def k0_off5 (i : grid0.Coords) : Fin 3 → Nat :=
  let c0_i32_331 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_334 : BitVec 32 := 0#32
  ![0, v2.toNat, 0]
def k0_off6 (k0_t1 : Fin k0_t1_loop.trips) (c0_i32_301 : BitVec 32) : Fin 2 → Nat :=
  let c3_i32_300 : BitVec 32 := 3#32
  let c0_i32_108 : BitVec 32 := 0#32
  let c1_i32_110 : BitVec 32 := 1#32
  let arg27 : BitVec 32 := Scf.iv c0_i32_108 c1_i32_110 k0_t1
  let c10_i32 : BitVec 32 := 10#32
  let v274 : BitVec 32 := Scalar.muli arg27 c10_i32
  let v275 : BitVec 32 := Scalar.addi c3_i32_300 v274
  let v276 : BitVec 32 := Scalar.addi v275 c0_i32_301
  let c7_i32_338 : BitVec 32 := 7#32
  let v327 : BitVec 32 := Scalar.addi v276 c7_i32_338
  let c0_i32_340 : BitVec 32 := 0#32
  let v329 : BitVec 1 := Scalar.cmpi .sgt v327 c0_i32_340
  let v330 : BitVec 32 := Scalar.extui v329
  let c0_i32_341 : BitVec 32 := 0#32
  let v331 : BitVec 1 := Scalar.cmpi .slt v327 c0_i32_341
  let v332 : BitVec 32 := Scalar.extui v331
  let v333 : BitVec 32 := Scalar.subi v330 v332
  let c2_i32_339 : BitVec 32 := 2#32
  let c0_i32_342 : BitVec 32 := 0#32
  let v334 : BitVec 1 := Scalar.cmpi .sgt c2_i32_339 c0_i32_342
  let v335 : BitVec 32 := Scalar.extui v334
  let c0_i32_343 : BitVec 32 := 0#32
  let v336 : BitVec 1 := Scalar.cmpi .slt c2_i32_339 c0_i32_343
  let v337 : BitVec 32 := Scalar.extui v336
  let v338 : BitVec 32 := Scalar.subi v335 v337
  let v339 : BitVec 1 := Scalar.cmpi .ne v333 v338
  let v340 : BitVec 32 := Scalar.remsi v327 c2_i32_339
  let c0_i32_344 : BitVec 32 := 0#32
  let v341 : BitVec 1 := Scalar.cmpi .ne v340 c0_i32_344
  let v342 : BitVec 1 := Scalar.andi v339 v341
  let v328 : BitVec 32 := Scalar.divsi v327 c2_i32_339
  let c1_i32_345 : BitVec 32 := 1#32
  let v343 : BitVec 32 := Scalar.subi v328 c1_i32_345
  let v344 : BitVec 32 := Scalar.select v342 v343 v328
  let c2_i32_346 : BitVec 32 := 2#32
  let c0_i32_347 : BitVec 32 := 0#32
  let v345 : BitVec 1 := Scalar.cmpi .eq c2_i32_346 c0_i32_347
  let c1_i32_348 : BitVec 32 := 1#32
  let v346 : BitVec 32 := Scalar.select v345 c1_i32_348 c2_i32_346
  let v347 : BitVec 32 := Scalar.remsi v327 v346
  let c0_i32_350 : BitVec 32 := 0#32
  let v349 : BitVec 1 := Scalar.cmpi .slt v347 c0_i32_350
  let c0_i32_351 : BitVec 32 := 0#32
  let v350 : BitVec 1 := Scalar.cmpi .slt v346 c0_i32_351
  let v351 : BitVec 1 := Scalar.xori v349 v350
  let c0_i32_349 : BitVec 32 := 0#32
  let v348 : BitVec 1 := Scalar.cmpi .ne v347 c0_i32_349
  let v352 : BitVec 1 := Scalar.andi v351 v348
  let v353 : BitVec 32 := Scalar.addi v347 v346
  let v354 : BitVec 32 := Scalar.select v352 v353 v347
  let c64_i32_352 : BitVec 32 := 64#32
  let v355 : BitVec 32 := Scalar.muli v354 c64_i32_352
  ![v344.toNat, v355.toNat]
def k0_off7 (i : grid0.Coords) : Fin 3 → Nat :=
  let c46_i32 : BitVec 32 := 46#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_119 : BitVec 32 := 64#32
  let v101 : BitVec 32 := Scalar.addi v2 c64_i32_119
  let c0_i32_123 : BitVec 32 := 0#32
  ![46, v101.toNat, 0]
def k0_off8 (i : grid0.Coords) : Fin 3 → Nat :=
  let c0_i32_128 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_131 : BitVec 32 := 0#32
  ![0, v2.toNat, 0]
def k0_off9 (i : grid0.Coords) (c0_i32_142 : BitVec 32) : Fin 3 → Nat :=
  let c47_i32 : BitVec 32 := 47#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v123 : BitVec 32 := Scalar.addi v2 c0_i32_142
  let c0_i32_146 : BitVec 32 := 0#32
  ![47, v123.toNat, 0]
def k0_off10 (i : grid0.Coords) (c0_i32_189 : BitVec 32) : Fin 3 → Nat :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v167 : BitVec 32 := Scalar.addi v2 c0_i32_189
  let c0_i32_193 : BitVec 32 := 0#32
  ![48, v167.toNat, 0]
def k0_off11 (i : grid0.Coords) (c0_i32_236 : BitVec 32) : Fin 3 → Nat :=
  let c49_i32 : BitVec 32 := 49#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v211 : BitVec 32 := Scalar.addi v2 c0_i32_236
  let c0_i32_240 : BitVec 32 := 0#32
  ![49, v211.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  inb_S10x64x128_S1x64x128_0_0_0 : ∀ a, (![0, 0, 0] : Fin 3 → Nat) a + S1x64x128.size a ≤ S10x64x128.size a
  squeezes_S1x64x128_S64x128 : S1x64x128.Squeezes S64x128
  inb_S50x128_S1x64_0_0 : ∀ a, (![0, 0] : Fin 2 → Nat) a + S1x64.size a ≤ S50x128.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S10x64x128_S1x64x128_1_0_0 : ∀ a, (![1, 0, 0] : Fin 3 → Nat) a + S1x64x128.size a ≤ S10x64x128.size a
  inb_S50x128_S1x64_0_64 : ∀ a, (![0, 64] : Fin 2 → Nat) a + S1x64.size a ≤ S50x128.size a
  inb_S10x64x128_S1x64x128_2_0_0 : ∀ a, (![2, 0, 0] : Fin 3 → Nat) a + S1x64x128.size a ≤ S10x64x128.size a
  inb_S50x128_S1x64_1_0 : ∀ a, (![1, 0] : Fin 2 → Nat) a + S1x64.size a ≤ S50x128.size a
  inb_S10x64x128_S1x64x128_3_0_0 : ∀ a, (![3, 0, 0] : Fin 3 → Nat) a + S1x64x128.size a ≤ S10x64x128.size a
  inb_S50x128_S1x64_1_64 : ∀ a, (![1, 64] : Fin 2 → Nat) a + S1x64.size a ≤ S50x128.size a
  inb_S10x64x128_S1x64x128_4_0_0 : ∀ a, (![4, 0, 0] : Fin 3 → Nat) a + S1x64x128.size a ≤ S10x64x128.size a
  inb_S50x128_S1x64_2_0 : ∀ a, (![2, 0] : Fin 2 → Nat) a + S1x64.size a ≤ S50x128.size a
  inb_S10x64x128_S1x64x128_5_0_0 : ∀ a, (![5, 0, 0] : Fin 3 → Nat) a + S1x64x128.size a ≤ S10x64x128.size a
  inb_S50x128_S1x64_2_64 : ∀ a, (![2, 64] : Fin 2 → Nat) a + S1x64.size a ≤ S50x128.size a
  inb_S10x64x128_S1x64x128_6_0_0 : ∀ a, (![6, 0, 0] : Fin 3 → Nat) a + S1x64x128.size a ≤ S10x64x128.size a
  inb_S50x128_S1x64_3_0 : ∀ a, (![3, 0] : Fin 2 → Nat) a + S1x64.size a ≤ S50x128.size a
  inb_S10x64x128_S1x64x128_7_0_0 : ∀ a, (![7, 0, 0] : Fin 3 → Nat) a + S1x64x128.size a ≤ S10x64x128.size a
  inb_S50x128_S1x64_3_64 : ∀ a, (![3, 64] : Fin 2 → Nat) a + S1x64.size a ≤ S50x128.size a
  inb_S10x64x128_S1x64x128_8_0_0 : ∀ a, (![8, 0, 0] : Fin 3 → Nat) a + S1x64x128.size a ≤ S10x64x128.size a
  inb_S50x128_S1x64_4_0 : ∀ a, (![4, 0] : Fin 2 → Nat) a + S1x64.size a ≤ S50x128.size a
  inb_S10x64x128_S1x64x128_9_0_0 : ∀ a, (![9, 0, 0] : Fin 3 → Nat) a + S1x64x128.size a ≤ S10x64x128.size a
  inb_S50x128_S1x64_4_64 : ∀ a, (![4, 64] : Fin 2 → Nat) a + S1x64.size a ≤ S50x128.size a
  transposes_S50x4096x128_S4096x50x128_1_0_2 : S50x4096x128.Transposes [1, 0, 2] S4096x50x128
  hcc0_scratch2 : 0 + S_.numel ≤ 21
  hcc0_scratch3 : 1 + S_.numel ≤ 21
  hcc0_scratch4 : 2 + S_.numel ≤ 21
  hcc0_scratch5 : 3 + S_.numel ≤ 21
  hcc0_scratch6 : 4 + S_.numel ≤ 21
  hcc0_scratch7 : 5 + S_.numel ≤ 21
  hcc0_scratch8 : 6 + S_.numel ≤ 21
  hcc0_scratch9 : 7 + S_.numel ≤ 21
  hcc0_scratch10 : 8 + S_.numel ≤ 21
  hcc0_scratch11 : 9 + S_.numel ≤ 21
  hcc0_scratch12 : 10 + S_.numel ≤ 21
  hcc0_scratch13 : 11 + S_.numel ≤ 21
  hcc0_scratch14 : 12 + S_.numel ≤ 21
  hcc0_scratch15 : 13 + S_.numel ≤ 21
  hcc0_scratch16 : 14 + S_.numel ≤ 21
  hcc0_scratch17 : 15 + S_.numel ≤ 21
  hcc0_scratch18 : 16 + S_.numel ≤ 21
  hcc0_scratch19 : 17 + S_.numel ≤ 21
  hcc0_scratch20 : 18 + S_.numel ≤ 21
  hcc0_scratch21 : 19 + S_.numel ≤ 21
  hcc0_scoped0 : 20 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S50x128.size a ≤ S50x4096.size a
  k0_off2_inb : ∀ i : grid0.Coords, ∀ (r : Fin 2), ∀ a, (k0_off2 i (BitVec.ofNat 32 (64 * r.val))) a + S1x64x128.size a ≤ S50x4096x128.size a
  k0_off3_inb : ∀ i : grid0.Coords, ∀ a, (k0_off3 i) a + S1x64x128.size a ≤ S50x4096x128.size a
  k0_t1_ok : k0_t1_loop.OK
  k0_off4_inb : ∀ (i : grid0.Coords) (k0_t1 : Fin k0_t1_loop.trips), ∀ (r : Fin 10), ∀ a, (k0_off4 i k0_t1 (BitVec.ofNat 32 r.val)) a + S1x64x128.size a ≤ S50x4096x128.size a
  k0_off5_inb : ∀ i : grid0.Coords, ∀ a, (k0_off5 i) a + S1x64x128.size a ≤ S50x4096x128.size a
  k0_off6_inb : ∀ k0_t1 : Fin k0_t1_loop.trips, ∀ (r : Fin 10), ∀ a, (k0_off6 k0_t1 (BitVec.ofNat 32 r.val)) a + S1x64.size a ≤ S50x128.size a
  k0_off7_inb : ∀ i : grid0.Coords, ∀ a, (k0_off7 i) a + S1x64x128.size a ≤ S50x4096x128.size a
  k0_off8_inb : ∀ i : grid0.Coords, ∀ a, (k0_off8 i) a + S1x64x128.size a ≤ S50x4096x128.size a
  k0_off9_inb : ∀ i : grid0.Coords, ∀ (r : Fin 2), ∀ a, (k0_off9 i (BitVec.ofNat 32 (64 * r.val))) a + S1x64x128.size a ≤ S50x4096x128.size a
  k0_off10_inb : ∀ i : grid0.Coords, ∀ (r : Fin 2), ∀ a, (k0_off10 i (BitVec.ofNat 32 (64 * r.val))) a + S1x64x128.size a ≤ S50x4096x128.size a
  k0_off11_inb : ∀ i : grid0.Coords, ∀ (r : Fin 2), ∀ a, (k0_off11 i (BitVec.ofNat 32 (64 * r.val))) a + S1x64x128.size a ≤ S50x4096x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16
abbrev cc0_scratch17 : DmaSems sig S_ := SemArray.consecutive 15 S_ hcc0_scratch17
abbrev cc0_scratch18 : DmaSems sig S_ := SemArray.consecutive 16 S_ hcc0_scratch18
abbrev cc0_scratch19 : DmaSems sig S_ := SemArray.consecutive 17 S_ hcc0_scratch19
abbrev cc0_scratch20 : DmaSems sig S_ := SemArray.consecutive 18 S_ hcc0_scratch20
abbrev cc0_scratch21 : DmaSems sig S_ := SemArray.consecutive 19 S_ hcc0_scratch21
abbrev cc0_scoped0 : DmaSems sig S_ := SemArray.consecutive 20 S_ hcc0_scoped0

class Facts : Prop extends Facts₀ where

variable [Facts]
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S4096x50x128 : Shape := ⟨3, ![4096, 50, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.Spec.lean ====
/-
  An embedding lookup, stated on its own: a table of 100000 rows of 128 numbers, a 4096-by-50 array of row
  numbers held as 32-bit words, and the array of looked-up rows: entry (n, s, q) is column q of the row that the
  word at (n, s) names.  The same lookup is stated over the transposed array of row numbers (50 by 4096), where entry
  (s, n, q) is column q of the row named by the word at (s, n).  Nothing here depends on a program.
-/
import Idealize.ShloMosaic.Lib.ValueIdx

noncomputable section

namespace Cert.Proof.Bridge

open Idealize.ShloMosaic Idealize.ShloMosaic.ValueIdx

/-- The array of row numbers: 4096 by 50. -/
abbrev Ids : Shape := ⟨2, ![4096, 50]⟩
/-- The table: 100000 rows of 128 columns. -/
abbrev Table : Shape := ⟨2, ![100000, 128]⟩
/-- The looked-up rows: 4096 by 50 by 128. -/
abbrev Rows : Shape := ⟨3, ![4096, 50, 128]⟩
/-- The array of row numbers with its two axes exchanged: 50 by 4096. -/
abbrev IdsT : Shape := ⟨2, ![50, 4096]⟩
/-- The looked-up rows with their first two axes exchanged: 50 by 4096 by 128. -/
abbrev RowsT : Shape := ⟨3, ![50, 4096, 128]⟩

/-- Every row number, read as an unsigned word, names a row of the table. -/
def InRange (I : IVec Ids 32) : Prop := ∀ j : Ids.Idx, (I j).toNat < 100000

/-- The row a word names: the word itself when it is below 100000 (and, to be total, its residue otherwise). -/
def rowOf (v : BitVec 32) : Fin 100000 := ⟨v.toNat % 100000, Nat.mod_lt _ (by decide)⟩

/-- A word below 100000 names the row of its own value. -/
theorem rowOf_val {v : BitVec 32} (h : v.toNat < 100000) : (rowOf v).val = v.toNat := Nat.mod_eq_of_lt h

/-- THE LOOKUP: entry (n, s, q) is the table at (row named by I[n, s], q). -/
def lookup {E : Type} (I : IVec Ids 32) (Wt : Table.Idx → E) : Rows.Idx → E :=
  fun j => Wt (ix2 (rowOf (I (ix2 (n0 := 4096) (n1 := 50) (j 0) (j 1)))) (j 2 : Fin 128))

/-- The lookup over the transposed row numbers: entry (s, n, q) is the table at (row named by It[s, n], q). -/
def lookupT {E : Type} (It : IVec IdsT 32) (Wt : Table.Idx → E) : RowsT.Idx → E :=
  fun j => Wt (ix2 (rowOf (It (ix2 (n0 := 50) (n1 := 4096) (j 0) (j 1)))) (j 2 : Fin 128))

/-- The lookup read at coordinates. -/
theorem lookup_apply {E : Type} (I : IVec Ids 32) (Wt : Table.Idx → E) (n : Fin 4096) (s : Fin 50) (q : Fin 128) :
    lookup I Wt (ix3 n s q) = Wt (ix2 (rowOf (I (ix2 n s))) q) := rfl

/-- The transposed lookup read at coordinates. -/
theorem lookupT_apply {E : Type} (It : IVec IdsT 32) (Wt : Table.Idx → E) (s : Fin 50) (n : Fin 4096) (q : Fin 128) :
    lookupT It Wt (ix3 s n q) = Wt (ix2 (rowOf (It (ix2 s n))) q) := rfl

end Cert.Proof.Bridge

end
-- ==== Proof.RowGather.lean ====
/-
  A gather of whole rows through a three-axis table of row numbers, read at an index.

  For a table x of N rows by Fd columns and row numbers arranged R by C (held as an R-by-C-by-1 array of words),
  the gather's result is R by C by Fd, and its entry (r, c, q) is x at (row, q), where the row is the word at
  (r, c, 0) read as a signed number and clamped into [0, N − 1].  Sizes, element type and word width are parameters.
-/
import Idealize.ShloMosaic.Lib.ValueIdx

noncomputable section

namespace Cert.Proof.Bridge

open Idealize.ShloMosaic Idealize.ShloMosaic.ValueIdx

variable {α : Type}

/-- The dimension numbers of such a gather: the result's last axis runs along a row (the offset axis), the table's row
    axis is collapsed and is the one the single index component names, the index array's last axis holds that
    component, and a slice is one whole row. -/
abbrev rowDims (N R C Fd : ℕ)
    (wf : GatherDims.WF ⟨2, ![N, Fd]⟩ ⟨3, ![R, C, 1]⟩ ⟨3, ![R, C, Fd]⟩ [2] [0] [] [0] [] 2 ![1, Fd]) :
    GatherDims ⟨2, ![N, Fd]⟩ ⟨3, ![R, C, 1]⟩ ⟨3, ![R, C, Fd]⟩ where
  offsetDims := [2]
  collapsedSliceDims := [0]
  operandBatchingDims := []
  startIndicesBatchingDims := []
  startIndexMap := [0]
  indexVectorDim := 2
  sliceSizes := ![1, Fd]
  wf := wf

variable {N R C Fd w : ℕ}
  (wf : GatherDims.WF ⟨2, ![N, Fd]⟩ ⟨3, ![R, C, 1]⟩ ⟨3, ![R, C, Fd]⟩ [2] [0] [] [0] [] 2 ![1, Fd])

/-- The row that entry (r, c, ·) reads: the word at (r, c, 0), signed, clamped into [0, N − 1]. -/
def clampedRow (hN : 0 < N) (idx : IVec ⟨3, ![R, C, 1]⟩ w) (r : Fin R) (c : Fin C) : Fin N :=
  ⟨min (idx (ix3 r c (0 : Fin 1))).toInt.toNat (N - 1), by omega⟩

/-- THE ROW GATHER AT (r, c, q): the table at (clamped row of (r, c), q). -/
theorem gather_rows_apply (hN : 0 < N) (x : (⟨2, ![N, Fd]⟩ : Shape).Idx → α) (idx : IVec ⟨3, ![R, C, 1]⟩ w)
    (r : Fin R) (c : Fin C) (q : Fin Fd) :
    Host.gather (rowDims N R C Fd wf) x idx (ix3 r c q) = x (ix2 (clampedRow hN idx r c) q) := by
  unfold Host.gather
  congr 1
  funext a
  refine Fin.ext ?_
  match a with
  | ⟨0, _⟩ =>
    -- the row axis: no batching, no offset (it is collapsed); the start is the clamped word
    show (rowDims N R C Fd wf).start (ix3 r c q) idx 0 + (rowDims N R C Fd wf).batchCoord (ix3 r c q) 0
        + (rowDims N R C Fd wf).offCoord (ix3 r c q) 0 = _
    have hk : (0 : Fin (⟨2, ![N, Fd]⟩ : Shape).rank) ∉ (rowDims N R C Fd wf).sKept := by
      show (0 : Fin 2) ∉ ((List.finRange 2).filter (· ∉ ([0] : List (Fin 2))))
      decide
    rw [GatherDims.batchCoord_eq_zero _ _ _ List.not_mem_nil, GatherDims.offCoord_eq_zero _ _ _ hk]
    simp only [Nat.add_zero]
    have h0 : (0 : Fin (⟨2, ![N, Fd]⟩ : Shape).rank) ∈ (rowDims N R C Fd wf).startIndexMap := by
      show (0 : Fin 2) ∈ ([0] : List (Fin 2))
      decide
    unfold GatherDims.start
    rw [dif_pos h0]
    have hsi : (rowDims N R C Fd wf).siIdx (ix3 r c q)
        ⟨List.idxOf (0 : Fin 2) (rowDims N R C Fd wf).startIndexMap, List.idxOf_lt_length_iff.2 h0⟩
        = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: not named by the index, not batching; the offset is the result's last coordinate
    show (rowDims N R C Fd wf).start (ix3 r c q) idx 1 + (rowDims N R C Fd wf).batchCoord (ix3 r c q) 1
        + (rowDims N R C Fd wf).offCoord (ix3 r c q) 1 = q.val
    have hk : (1 : Fin (⟨2, ![N, Fd]⟩ : Shape).rank) ∈ (rowDims N R C Fd wf).sKept := by
      show (1 : Fin 2) ∈ ((List.finRange 2).filter (· ∉ ([0] : List (Fin 2))))
      decide
    have h1 : (1 : Fin (⟨2, ![N, Fd]⟩ : Shape).rank) ∉ (rowDims N R C Fd wf).startIndexMap := by
      show (1 : Fin 2) ∉ ([0] : List (Fin 2))
      decide
    rw [GatherDims.batchCoord_eq_zero _ _ _ List.not_mem_nil]
    unfold GatherDims.start GatherDims.offCoord
    rw [dif_neg h1, dif_pos hk]
    simp only [Nat.zero_add, Nat.add_zero]
    rfl

end Cert.Proof.Bridge

end
-- ==== Proof.RefSide.lean ====
/-
  The reference's side of the lookup: what the precondition says of the row numbers, and the reference's result as the
  specified lookup.

  The precondition requires every word w of the row numbers to satisfy 0 ≤ w ≤ 99999 as signed numbers; such a word,
  read unsigned, is below 100000.  The reference first replaces a negative word w by w + 100000 (the usual wrap of a
  negative position) and then gathers rows at the signed, clamped word.  For a word already in range neither the wrap
  nor the clamp changes anything, so the entry at (n, s, q) is the table at (word at (n, s), q).
-/
import proofs.«206438_g5171140624678_cont_8to1_c_1053_28_alg».proof.Proof.Gen.ReferenceIdeal.Read
import proofs.«206438_g5171140624678_cont_8to1_c_1053_28_alg».proof.Proof.Gen.Pre_input_domain
import proofs.«206438_g5171140624678_cont_8to1_c_1053_28_alg».proof.Proof.Spec
import proofs.«206438_g5171140624678_cont_8to1_c_1053_28_alg».proof.Proof.RowGather
import Idealize.ShloMosaic.Lib.ReduceAll

noncomputable section

namespace Cert.Proof.Bridge

open Idealize.ShloMosaic Idealize.ShloMosaic.ValueIdx

/-- A word between 0 and 99999 as a signed number is below 100000 as an unsigned one. -/
theorem toNat_lt_of_signed_range (v : BitVec 32) (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0
  rw [e1] at h1
  rw [BitVec.toInt_eq_toNat_cond] at h0 h1
  have := v.isLt
  split at h0 <;> omega

/-- A word below 100000 is its own value as a signed number. -/
theorem toInt_of_lt (v : BitVec 32) (h : v.toNat < 100000) : v.toInt = (v.toNat : Int) := by
  rw [BitVec.toInt_eq_toNat_cond]
  split <;> omega

section Pre
variable {F : FTy → Type} [FloatOps F] [Cert.Pre_input_domain.Facts]

instance : Subsingleton Cert.Pre_input_domain.S_.Idx := ⟨fun a b => funext fun d => d.elim0⟩

/-- THE PRECONDITION GIVES THE RANGE: if the input-domain predicate is all ones, every row number names a row. -/
theorem inRange_of_pre (I : IVec Cert.Pre_input_domain.S4096x50 32) (Wt : FVec F Cert.Pre_input_domain.S100000x128 .f32)
    (h : Cert.Pre_input_domain.fn (F := F) I Wt = (fun _ => 1#1)) : InRange I := by
  intro j
  have e := congrFun h ix0
  dsimp only [Cert.Pre_input_domain.fn] at e
  have e2 := (IntOp.andi_eq_one.1 e).2
  have e3 := Host.reduce_andi_all _ _ _ _ _ e2 j
  obtain ⟨hge, hle⟩ := IntOp.andi_eq_one.1 e3
  exact toNat_lt_of_signed_range (I j) (IntOp.cmpi_sge.1 hge) (IntOp.cmpi_sle.1 hle)

end Pre

section Ref
variable {F : FTy → Type} [FloatOps F]
open Cert.ReferenceIdeal Cert.ReferenceIdeal.Gen Cert.ReferenceIdeal.Read

/-- For a row number in range, the wrapped word the reference gathers at is the row number itself. -/
theorem wrapped_eq (I : (⟨S4096x50, .i32⟩ : BufTy).Contents (Elt F)) (hI : InRange I) (n : Fin 4096) (s : Fin 50) :
    val_main_v5 (F := F) I (ix3 n s (0 : Fin 1)) = I (ix2 n s) := by
  have hlt := hI (ix2 n s)
  have hnot : ¬ IntOp.cmpi .slt (I (ix2 n s)) 0#32 = 1#1 := by
    rw [IntOp.cmpi_slt, toInt_of_lt _ hlt]
    have e0 : (0#32 : BitVec 32).toInt = 0 := by decide
    rw [e0]
    omega
  have hidx : idx_main_v5 (ix3 n s (0 : Fin 1)) = ix2 n s := by
    funext a
    match a with
    | ⟨0, _⟩ => rfl
    | ⟨1, _⟩ => rfl
  rw [val_main_v5_apply, hidx, val_main_v4_apply, val_main_v1_apply, val_main_v0_apply, val_main_c_apply, eq_zero_of_ne_one hnot, select_zero]

/-- THE REFERENCE'S RESULT IS THE LOOKUP, for row numbers in range. -/
theorem reference_eq_lookup (I : (⟨S4096x50, .i32⟩ : BufTy).Contents (Elt F)) (Wt : (⟨S100000x128, .f32⟩ : BufTy).Contents (Elt F))
    (hI : InRange I) :
    Host.gather gather_S100000x128_S4096x50x1_S4096x50x128_2_0_n_n_0_2_1128 Wt (broadcastInDim S4096x50x1 ![0, 1] bcast_S4096x50_S4096x50x1_0_1 (select (cmpi .slt I (broadcastInDim S4096x50 ![] bcast_S_S4096x50 (constantI S_ 32 0#32))) (addi I (broadcastInDim S4096x50 ![] bcast_S_S4096x50 (constantI S_ 32 100000#32))) I))
      = lookup I Wt := by
  rw [val_main_v6_eq (F := F) I Wt]
  funext j
  obtain ⟨n, s, q, rfl⟩ : ∃ (n : Fin 4096) (s : Fin 50) (q : Fin 128), j = ix3 n s q := ⟨j 0, j 1, j 2, eq_ix3 j⟩
  show Host.gather (rowDims 100000 4096 50 128 gather_S100000x128_S4096x50x1_S4096x50x128_2_0_n_n_0_2_1128_wf) Wt
      (val_main_v5 (F := F) I) (ix3 n s q) = _
  rw [gather_rows_apply _ (by decide : 0 < 100000), lookup_apply]
  congr 2
  refine Fin.ext ?_
  have hlt := hI (ix2 n s)
  show min (val_main_v5 (F := F) I (ix3 n s (0 : Fin 1))).toInt.toNat (100000 - 1) = (rowOf (I (ix2 n s))).val
  rw [wrapped_eq I hI, rowOf_val hlt, toInt_of_lt _ hlt]
  omega

end Ref

end Cert.Proof.Bridge

end
-- ==== Proof.IdealSetup.lean ====
/-
  The idealized kernel as the launch theorem reads it, and a tile's own storage opened.

  The kernel runs on the thirty-two vector subcores of the device's two SparseCores. Each keeps, for the time of
  its task, two scratch buffers of its own (the tile's block of the index table, fifty rows of one hundred and
  twenty-eight row numbers; ten slots of sixty-four table rows) and twenty-one transfer semaphores (ten for the
  gathers into the slots, ten for the writes out of them, one for fetching the index block). Here they are taken
  out of the subcore's scoped storage by name: the semaphores as twenty-one counters at zero, the two buffers at
  whatever they hold, the remainder kept as it came.
-/
import proofs.«206438_g5171140624678_cont_8to1_c_1053_28_alg».proof.KernelIdeal
import proofs.«206438_g5171140624678_cont_8to1_c_1053_28_alg».proof.Proof.Gen.KernelIdeal
import proofs.«206438_g5171140624678_cont_8to1_c_1053_28_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.IdealKernel

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the body names them -/

/-- The transposed index table, the embedding table and the untransposed result, whole, as a vector subcore names them. -/
abbrev aI : Memref sig .scVector .hbm S50x4096 .i32 := Memref.whole main_v0_scv
abbrev aW : Memref sig .scVector .hbm S100000x128 .f32 := Memref.whole main_arg1_scv
abbrev aO : Memref sig .scVector .hbm S50x4096x128 .f32 := Memref.whole main_v1_scv
/-- A tile's block of row numbers and its ten slots of gathered rows. -/
abbrev sI : Memref sig .scVector .vmem S50x128 .i32 := Memref.whole cc0_scratch0
abbrev sR : Memref sig .scVector .vmem S10x64x128 .f32 := Memref.whole cc0_scratch1

/-! ## A tile's own semaphores, one by one -/

omit F in
theorem dma_scoped : ∀ k : DmaSem sig, (SemLoc.dma k : SemLoc sig).isScoped .scVector = true := by decide
omit F in
theorem reg_unscoped : ∀ s : Sem sig, ¬ (SemLoc.reg s : SemLoc sig).isScoped .scVector = true := by decide

omit F in
/-- A vector subcore's scoped cells are its twenty-one transfer semaphores. -/
theorem ownCells_V (d : Dev nD) (c : Fin τ.nSC) (i : Fin τ.nSub) :
    ownCells (sig := sig) (V d c i)
      = (Finset.univ : Finset (DmaSem sig)).map ⟨fun k => ((V d c i, SemLoc.dma k) : GSem nD τ sig), fun a b e => by
          have := (Prod.mk.inj e).2; injection this⟩ := by
  ext ⟨t, sm⟩
  simp only [mem_ownCells, Finset.mem_map, Finset.mem_univ, true_and, Function.Embedding.coeFn_mk]
  constructor
  · rintro ⟨rfl, hs⟩
    cases sm with
    | reg s => exact absurd hs (reg_unscoped s)
    | dma s => exact ⟨s, rfl⟩
  · rintro ⟨k, e⟩
    cases e
    exact ⟨rfl, dma_scoped k⟩

/-- The semaphores at zero, each a counter of its own: the ten the gathers complete on, the ten the writes out
    complete on, and the one the index block's fetch completes on. -/
theorem ownSems0_V21 (d : Dev nD) (c : Fin τ.nSC) (i : Fin τ.nSub) :
    (ownSems0 (V d c i) : sProp 𝕄)
      = iprop(semVal (V d c i, SemLoc.dma cc0_scratch2.sem) 0
        ∗ semVal (V d c i, SemLoc.dma cc0_scratch3.sem) 0
        ∗ semVal (V d c i, SemLoc.dma cc0_scratch4.sem) 0
        ∗ semVal (V d c i, SemLoc.dma cc0_scratch5.sem) 0
        ∗ semVal (V d c i, SemLoc.dma cc0_scratch6.sem) 0
        ∗ semVal (V d c i, SemLoc.dma cc0_scratch7.sem) 0
        ∗ semVal (V d c i, SemLoc.dma cc0_scratch8.sem) 0
        ∗ semVal (V d c i, SemLoc.dma cc0_scratch9.sem) 0
        ∗ semVal (V d c i, SemLoc.dma cc0_scratch10.sem) 0
        ∗ semVal (V d c i, SemLoc.dma cc0_scratch11.sem) 0
        ∗ semVal (V d c i, SemLoc.dma cc0_scratch12.sem) 0
        ∗ semVal (V d c i, SemLoc.dma cc0_scratch13.sem) 0
        ∗ semVal (V d c i, SemLoc.dma cc0_scratch14.sem) 0
        ∗ semVal (V d c i, SemLoc.dma cc0_scratch15.sem) 0
        ∗ semVal (V d c i, SemLoc.dma cc0_scratch16.sem) 0
        ∗ semVal (V d c i, SemLoc.dma cc0_scratch17.sem) 0
        ∗ semVal (V d c i, SemLoc.dma cc0_scratch18.sem) 0
        ∗ semVal (V d c i, SemLoc.dma cc0_scratch19.sem) 0
        ∗ semVal (V d c i, SemLoc.dma cc0_scratch20.sem) 0
        ∗ semVal (V d c i, SemLoc.dma cc0_scratch21.sem) 0
        ∗ semVal (V d c i, SemLoc.dma cc0_scoped0.sem) 0) := by
  unfold SparseCore.Cfg.ownSems0
  rw [ownCells_V, bigSep_map]
  rw [show (Finset.univ : Finset (DmaSem sig)) = {0, 1, 2, 3, 4, 5, 6, 7, 8, 9, 10, 11, 12, 13, 14, 15, 16, 17, 18, 19, 20} by decide]
  repeat rw [SparseCore.bigSep_insert' (by decide)]
  rw [bigSep_singleton]
  rfl

/-! ## A tile's two scratch buffers -/

/-- The index block and the slots are among the subcore's own buffers: they are them, at some contents, and the rest. -/
theorem ownBufs_V2 (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.IdealKernel

end
-- ==== Proof.IdealPieces.lean ====
/-
  What each tile is handed and what it hands back.

  Tile number w = 2·(vector subcore) + (SparseCore) works on columns [128·w, 128·w + 128) of the transposed id
  table (fifty rows of token positions, four thousand and ninety-six sequences): it reads that slab of row
  numbers, reads the embedding table, and fills the same columns of the untransposed result, entry (s, n, q)
  with entry q of the table row that id (s, n) names. The thirty-two slabs partition the id table and the
  thirty-two blocks partition the result; the table itself is read by all tiles at once, each through a share
  of its own.
-/
import proofs.«206438_g5171140624678_cont_8to1_c_1053_28_alg».proof.Proof.IdealSetup
import proofs.«206438_g5171140624678_cont_8to1_c_1053_28_alg».proof.Proof.Spec

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The transposed id table, the embedding table and the untransposed result, as locations of device `d`. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

theorem hdivI : 32 ∣ S50x4096.size 1 := ⟨128, rfl⟩
theorem hdivO : 32 ∣ S50x4096x128.size 1 := ⟨128, rfl⟩

/-- Tile `w`'s columns of the id table and of the result. -/
abbrev iPart (w : Fin 32) : Rect S50x4096 := Rect.part (s := S50x4096) (a₀ := 1) hdivI w
abbrev oPart (w : Fin 32) : Rect S50x4096x128 := Rect.part (s := S50x4096x128) (a₀ := 1) hdivO w
abbrev iSet (w : Fin 32) : Finset S50x4096.Idx := ((aI : Memref sig .scVector .hbm S50x4096 .i32).view.slice (iPart w)).set
abbrev oSet (w : Fin 32) : Finset S50x4096x128.Idx := ((aO : Memref sig .scVector .hbm S50x4096x128 .f32).view.slice (oPart w)).set

/-- The tile number of vector subcore `i` of SparseCore `c`. -/
def wid (c : Fin 2) (i : Fin 16) : Fin 32 := ⟨2 * i.val + c.val, by omega⟩

/-- A grid point's SparseCore and vector subcore as the device numbers them, and its tile number. -/
abbrev cV (L : grid0.Coords) : Fin τ.nSC := (L 0).castLE hcore0
abbrev jV (L : grid0.Coords) : Fin τ.nSub := (L 1).castLE hsub0
def widL (L : grid0.Coords) : Fin 32 := wid (Fin.cast rfl (L 0)) (Fin.cast rfl (L 1))
theorem widL_val (L : grid0.Coords) : (widL L).val = 2 * (L 1).val + (L 0).val := rfl

/-- What tile `w` is handed: its slab of the id table `It`, a share of the table `Wt`, its block of the result at
    whatever it held. -/
def goPts (d : Dev nD) (It : Buf (Elt F) (iLoc d)) (Wt : Buf (Elt F) (xLoc d)) (O0 : Buf (Elt F) (oLoc d)) (w : Fin 32) : sProp 𝕄 :=
  iprop((iLoc d ↦[iSet w]{fullShare} It) ∗ (xLoc d ↦{Transfers.shareTok fullShare 32 w} Wt) ∗ (oLoc d ↦[oSet w]{fullShare} O0))

/-- What it hands back: the same, its block of the result at the rows the ids name. -/
def tdPts (d : Dev nD) (It : Buf (Elt F) (iLoc d)) (Wt : Buf (Elt F) (xLoc d)) (w : Fin 32) : sProp 𝕄 :=
  iprop((iLoc d ↦[iSet w]{fullShare} It) ∗ (xLoc d ↦{Transfers.shareTok fullShare 32 w} Wt)
    ∗ (oLoc d ↦[oSet w]{fullShare} (lookupT It Wt : Buf (Elt F) (oLoc d))))

end Cert.Proof.IdealKernel

end
-- ==== Proof.IdealIface.lean ====
/-
  A tile's task, stated once: what a tile holds when it starts, the program it runs, and what it must hold when it ends.

  The launch memory fixes, on each device, the array of row numbers I, its exchange of axes It (what the host
  writes before the call), the table Wt and the old contents O0 of the untransposed result.  The tile at grid point L
  has number w(L) = 2·(second coordinate) + (first coordinate).  The obligation says: from tile w(L)'s slab of It, its
  share of Wt and its block of the result at O0, with its scoped storage and what it owes, the kernel's body ends with
  the block at the lookup over It, everything else as it was, and nothing more owed than before (except to its own
  scoped cells).
-/
import proofs.«206438_g5171140624678_cont_8to1_c_1053_28_alg».proof.Proof.IdealPieces

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The row numbers with their axes exchanged: what the host writes into the transposed id table before the call. -/
def It (d : Dev nD) : Buf (Elt F) (iLoc d) :=
  transpose S50x4096 [1, 0] (m ((SparseCore.T d).loc main_arg0)) transposes_S4096x50_S50x4096_1_0
/-- The table at launch. -/
def Wt (d : Dev nD) : Buf (Elt F) (xLoc d) := m (xLoc d)
/-- The untransposed result's contents at launch. -/
def O0 (d : Dev nD) : Buf (Elt F) (oLoc d) := m (oLoc d)

variable [FloatOps F]

/-- THE TILE'S OBLIGATION, at every device and grid point. -/
def BodyObl : Prop :=
  ∀ (d : Dev nD) (L : grid0.Coords) (O : CellTallies nD τ sig (HIx 1)) (W : Waits sig (HIx 1)), (∀ g, O g none = 0) →
    (iprop(levAts (K (F := F)).L (K (F := F)).lev ∗ emp ∗ goPts d (It m d) (Wt m d) (O0 m d) (widL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L aI (Memref.isWhole_whole _) aW (Memref.isWhole_whole _) aO (Memref.isWhole_whole _) sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(tdPts d (It m d) (Wt m d) (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.IdealKernel

end
-- ==== Proof.IdealCover.lean ====
/-
  The thirty-two tiles cover the arrays, and the tile numbers are the pairs (SparseCore, vector subcore).

  Tile w's columns [128·w, 128·w + 128) of the transposed id table are pairwise disjoint over w and together are the
  whole table, and likewise the blocks of the untransposed result; so an array held whole is its thirty-two pieces held
  apart.  The number w = 2·i + c runs over 0 … 31 exactly once as c runs over the two SparseCores and i over the sixteen
  vector subcores, so a family over tile numbers is the same family over those pairs.
-/
import proofs.«206438_g5171140624678_cont_8to1_c_1053_28_alg».proof.Proof.IdealIface

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The pieces of the two arrays -/

theorem iSet_eq (w : Fin 32) : iSet w = (iPart w).set := by
  show ((View.whole (main_v0_scv : Ref sig .scVector)).slice (iPart w)).set = _
  rw [View.set_slice]; exact Finset.map_refl
theorem oSet_eq (w : Fin 32) : oSet w = (oPart w).set := by
  show ((View.whole (main_v1_scv : Ref sig .scVector)).slice (oPart w)).set = _
  rw [View.set_slice]; exact Finset.map_refl

theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint hdivI h
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem iSets_cover : (Finset.univ : Finset (Fin 32)).biUnion iSet = Finset.univ :=
  (Finset.biUnion_congr rfl fun i _ => iSet_eq i).trans (Rect.biUnion_part hdivI)
theorem oSets_cover : (Finset.univ : Finset (Fin 32)).biUnion oSet = Finset.univ :=
  (Finset.biUnion_congr rfl fun i _ => oSet_eq i).trans (Rect.biUnion_part hdivO)

/-- The transposed id table held whole is its thirty-two slabs. -/
theorem iPts_slabs (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]; try rfl
/-- The untransposed result held whole is its thirty-two blocks. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]; try rfl

/-! ## Tile numbers are the pairs -/

/-- w = 2·i + c, with c = w mod 2 and i = w div 2. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- A family over the thirty-two tile numbers is the family over SparseCores and, within each, vector subcores. -/
theorem bigSep_tiles (Φ : Fin 32 → sProp 𝕄) :
    bigSep Finset.univ Φ = bigSep Finset.univ fun c : Fin 2 => bigSep Finset.univ fun i : Fin 16 => Φ (wid c i) := by
  rw [← Finset.map_univ_equiv widEquiv, bigSep_map, bigSep_univ_prod]
  rfl

/-- The same with the grid's own index types. -/
theorem bigSep_grid (Φ : Fin 32 → sProp 𝕄) :
    (bigSep Finset.univ fun c : Fin ((K (F := F)).nCore 0) => bigSep Finset.univ fun i : Fin ((K (F := F)).nSub 0) =>
      Φ (wid (Fin.cast nCore_zero c) (Fin.cast nSub_zero i))) = bigSep Finset.univ Φ := by
  rw [bigSep_tiles]
  exact bigSep_congr fun c _ => bigSep_congr fun i _ => congrArg Φ (congrArg₂ wid (Fin.ext rfl) (Fin.ext rfl))

end Cert.Proof.IdealKernel

end
-- ==== Proof.IdealObl.lean ====
/-
  What the launch is asked about the tiles, from one fact about a tile's task.

  The call hands SparseCore c the holdings of its sixteen tiles and each tile (c, i) its own — its slab of the exchanged
  row numbers, its share of the table, its block of the untransposed result — and takes the same back with the blocks
  filled by the lookup.  Handing a SparseCore's holdings on to its tiles and collecting them again changes nothing.  A
  tile's task, as the program's body table runs it at the tile's grid point, is the task the assumed fact speaks of.
  The launch needs no ghost state beyond the handshakes' own.
-/
import proofs.«206438_g5171140624678_cont_8to1_c_1053_28_alg».proof.Proof.IdealCover

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

instance goPts_storable (d : Dev nD) (It : Buf (Elt F) (iLoc d)) (Wt : Buf (Elt F) (xLoc d)) (O0 : Buf (Elt F) (oLoc d)) (w : Fin 32) :
    BI.Storable (upEmb : UEmb _ 𝕄) (goPts d It Wt O0 w) := by unfold goPts; infer_instance
instance tdPts_storable (d : Dev nD) (It : Buf (Elt F) (iLoc d)) (Wt : Buf (Elt F) (xLoc d)) (w : Fin 32) :
    BI.Storable (upEmb : UEmb _ 𝕄) (tdPts d It Wt w) := by unfold tdPts; infer_instance

/-! ## What the handshakes carry -/

/-- The call hands SparseCore c the sixteen tiles' holdings, tile (c, i) its own; and takes back the same with the
    blocks filled. -/
def P : (K (F := F)).Pay (nD := nD) (Val := Elt F) (Name := ℕ) (U := UU) where
  st := fun q d c => match q with
    | 0 => bigSep Finset.univ fun i : Fin ((K (F := F)).nSub 0) =>
        goPts d (It m d) (Wt m d) (O0 m d) (wid (Fin.cast nCore_zero c) (Fin.cast nSub_zero i))
  dn := fun q d c => match q with
    | 0 => bigSep Finset.univ fun i : Fin ((K (F := F)).nSub 0) =>
        tdPts d (It m d) (Wt m d) (wid (Fin.cast nCore_zero c) (Fin.cast nSub_zero i))
  go := fun q d c i => match q with
    | 0 => goPts d (It m d) (Wt m d) (O0 m d) (wid (Fin.cast nCore_zero c) (Fin.cast nSub_zero i))
  td := fun q d c i => match q with
    | 0 => tdPts d (It m d) (Wt m d) (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin ((K (F := F)).nSub 0) =>
        goPts d (It m d) (Wt m d) (O0 m d) (wid (Fin.cast nCore_zero c) (Fin.cast nSub_zero i))))
  dn q d c := match q with
    | 0 => (inferInstance : BI.Storable (upEmb : UEmb _ 𝕄) (bigSep Finset.univ fun i : Fin ((K (F := F)).nSub 0) =>
        tdPts d (It m d) (Wt m d) (wid (Fin.cast nCore_zero c) (Fin.cast nSub_zero i))))
  go q d c i := match q with
    | 0 => (inferInstance : BI.Storable (upEmb : UEmb _ 𝕄) (goPts d (It m d) (Wt m d) (O0 m d) (wid (Fin.cast nCore_zero c) (Fin.cast nSub_zero i))))
  td q d c i := match q with
    | 0 => (inferInstance : BI.Storable (upEmb : UEmb _ 𝕄) (tdPts d (It m d) (Wt m d) (wid (Fin.cast nCore_zero c) (Fin.cast nSub_zero i))))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) aI (Memref.isWhole_whole _) aW (Memref.isWhole_whole _) aO (Memref.isWhole_whole _) sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodyObl m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem vecSplit : (K (F := F)).VecSplit' (P m) 0 := by
  intro d c
  show (bigSep Finset.univ fun i : Fin ((K (F := F)).nSub 0) =>
        goPts d (It m d) (Wt m d) (O0 m d) (wid (Fin.cast nCore_zero c) (Fin.cast nSub_zero i)))
      ⊢ |={Set.univ}=> iprop((bigSep Finset.univ fun i : Fin ((K (F := F)).nSub 0) =>
        goPts d (It m d) (Wt m d) (O0 m d) (wid (Fin.cast nCore_zero c) (Fin.cast nSub_zero i)))
      ∗ ((bigSep Finset.univ fun i : Fin ((K (F := F)).nSub 0) =>
          tdPts d (It m d) (Wt m d) (wid (Fin.cast nCore_zero c) (Fin.cast nSub_zero i)))
        -∗ bigSep Finset.univ fun i : Fin ((K (F := F)).nSub 0) =>
          tdPts d (It m d) (Wt m d) (wid (Fin.cast nCore_zero c) (Fin.cast nSub_zero i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.IdealKernel

end
-- ==== Proof.Transposes.lean ====
/-
  Exchanging the first two axes, read at an index, and the lookup through it.

  The array of row numbers with its axes exchanged reads, at (s, n), the original at (n, s); an array over
  50 by 4096 by 128 with its first two axes exchanged reads, at (n, s, q), the original at (s, n, q).  Hence the
  lookup over the exchanged row numbers, with its own first two axes exchanged back, is the lookup itself.  The element
  type is arbitrary, and the evidence that the shapes are each other's permutation is any proof of it.
-/
import proofs.«206438_g5171140624678_cont_8to1_c_1053_28_alg».proof.Proof.Spec
import Idealize.ShloMosaic.Lib.Pipeline.Value

noncomputable section

namespace Cert.Proof.Bridge

open Idealize.ShloMosaic Idealize.ShloMosaic.ValueIdx

/-- The exchanged row numbers at (s, n) are the row numbers at (n, s). -/
theorem transpose_ids_apply {α : Type} (h : Ids.Transposes [1, 0] IdsT) (I : Ids.Idx → α) (s : Fin 50) (n : Fin 4096) :
    transpose IdsT [1, 0] I h (ix2 s n) = I (ix2 n s) :=
  transpose_apply [1, 0] I h (ix2 s n) (ix2 n s) fun b => match b with
    | ⟨0, _⟩ => rfl
    | ⟨1, _⟩ => rfl

/-- An array over 50 by 4096 by 128 with its first two axes exchanged reads, at (n, s, q), the array at (s, n, q). -/
theorem transpose_rows_apply {α : Type} (h : RowsT.Transposes [1, 0, 2] Rows) (Ot : RowsT.Idx → α)
    (n : Fin 4096) (s : Fin 50) (q : Fin 128) :
    transpose Rows [1, 0, 2] Ot h (ix3 n s q) = Ot (ix3 s n q) :=
  transpose_apply [1, 0, 2] Ot h (ix3 n s q) (ix3 s n q) fun b => match b with
    | ⟨0, _⟩ => rfl
    | ⟨1, _⟩ => rfl
    | ⟨2, _⟩ => rfl

/-- THE LOOKUP THROUGH THE TWO EXCHANGES: look up over the exchanged row numbers, exchange the result's first two axes
    back, and the result is the lookup. -/
theorem transpose_lookupT {E : Type} (h : RowsT.Transposes [1, 0, 2] Rows) (h' : Ids.Transposes [1, 0] IdsT)
    (I : IVec Ids 32) (Wt : Table.Idx → E) :
    transpose Rows [1, 0, 2] (lookupT (transpose IdsT [1, 0] I h') Wt) h = lookup I Wt := by
  funext j
  obtain ⟨n, s, q, rfl⟩ : ∃ (n : Fin 4096) (s : Fin 50) (q : Fin 128), j = ix3 n s q := ⟨j 0, j 1, j 2, eq_ix3 j⟩
  rw [transpose_rows_apply, lookupT_apply, transpose_ids_apply, lookup_apply]

end Cert.Proof.Bridge

end
-- ==== Proof.IdealLaunch.lean ====
/-
  The run of the whole device from one fact about a tile.

  Before the call the host exchanges the axes of the row numbers; the call hands each of the thirty-two tiles its slab
  of the exchanged row numbers, a share of the table and its block of the untransposed result, and takes them back with
  the block filled by the lookup; after the call the host exchanges the first two axes of the result.  Given that each
  tile, from what it is handed, ends with its block at the lookup over the exchanged row numbers, every fair execution
  of all threads ends with the final result at the lookup over the row numbers and with the two arguments unchanged.
-/
import proofs.«206438_g5171140624678_cont_8to1_c_1053_28_alg».proof.Proof.IdealObl
import proofs.«206438_g5171140624678_cont_8to1_c_1053_28_alg».proof.Proof.Transposes

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host's arrays and its two operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The exchange of the row numbers' axes, and the exchange of the result's first two. -/
abbrev opIn : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opOut : HloOp τ sig (Elt F) := StableHlo.unary main_v1 main_v2 ((transpose S4096x50x128 [1, 0, 2] · transposes_S50x4096x128_S4096x50x128_1_0_2) : (⟨S50x4096x128, .f32⟩ : BufTy).Contents (Elt F) → (⟨S4096x50x128, .f32⟩ : BufTy).Contents (Elt F))

abbrev SIn : Finset (DevRef τ sig) := {a0', v0'}
abbrev SOut : Finset (DevRef τ sig) := {v1', v2'}

theorem held_SIn (d : Dev nD) (W : Valuation τ sig (Elt F)) :
    (held (T d) SIn W : sProp 𝕄) = iprop((aLoc d ↦{fullShare} W a0') ∗ (iLoc d ↦{fullShare} W v0')) := by
  unfold held SIn
  rw [SparseCore.bigSep_insert' (by decide), bigSep_singleton]
theorem held_SOut (d : Dev nD) (W : Valuation τ sig (Elt F)) :
    (held (T d) SOut W : sProp 𝕄) = iprop((oLoc d ↦{fullShare} W v1') ∗ (rLoc d ↦{fullShare} W v2')) := by
  unfold held SOut
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch contents; and, after the call, the untransposed result at the lookup over the exchanged row numbers. -/
def V0 (d : Dev nD) : Valuation τ sig (Elt F) := fun b => m (d, b)
def V1 (d : Dev nD) : Valuation τ sig (Elt F) := Function.update (V0 m d) v1' (lookupT (It m d) (m (xLoc d)) : Buf (Elt F) (oLoc d))

theorem V1_v1 (d : Dev nD) : V1 m d v1' = (lookupT (It m d) (m (xLoc d)) : Buf (Elt F) (oLoc d)) := Function.update_self _ _ _
theorem V1_v2 (d : Dev nD) : V1 m d v2' = m (rLoc d) := Function.update_of_ne (show v2' ≠ v1' by decide) _ _

/-- After the first exchange: the row numbers as they were, the transposed id table at their exchange. -/
theorem held_SIn_after (d : Dev nD) :
    (held (T d) SIn ((opIn (F := F)).result (V0 m d)) : sProp 𝕄) = iprop((aLoc d ↦{fullShare} m (aLoc d)) ∗ (iLoc d ↦{fullShare} It m d)) := by
  rw [held_SIn, StableHlo.unary_result_ne' _ _ _ (V0 m d) (show (main_arg0 : Ref sig .tc) ≠ main_v0 by decide), StableHlo.unary_result']
  rfl

/-- After the second exchange: the final result at the lookup over the row numbers. -/
theorem held_SOut_after (d : Dev nD) :
    (held (T d) SOut ((opOut (F := F)).result (V1 m d)) : sProp 𝕄)
      = iprop((oLoc d ↦{fullShare} (lookupT (It m d) (m (xLoc d)) : Buf (Elt F) (oLoc d)))
        ∗ (rLoc d ↦{fullShare} (lookup (m (aLoc d)) (m (xLoc d)) : Buf (Elt F) (rLoc d)))) := by
  rw [held_SOut, StableHlo.unary_result_ne' _ _ _ (V1 m d) (show (main_v1 : Ref sig .tc) ≠ main_v2 by decide), StableHlo.unary_result', V1_v1]
  congr 2
  exact transpose_lookupT _ _ (m (aLoc d)) (m (xLoc d))

/-! ## What the call takes and hands back, over the thirty-two tiles -/

theorem st0_eq (d : Dev nD) :
    (bigSep Finset.univ fun c : Fin ((K (F := F)).nCore 0) => (P m).st 0 d c)
      = iprop((bigSep Finset.univ fun w : Fin 32 => iLoc d ↦[iSet w]{fullShare} It m d)
        ∗ (bigSep Finset.univ fun w : Fin 32 => xLoc d ↦{Transfers.shareTok fullShare 32 w} m (xLoc d))
        ∗ (bigSep Finset.univ fun w : Fin 32 => oLoc d ↦[oSet w]{fullShare} m (oLoc d))) := by
  show (bigSep Finset.univ fun c : Fin ((K (F := F)).nCore 0) => bigSep Finset.univ fun i : Fin ((K (F := F)).nSub 0) =>
      goPts d (It m d) (m (xLoc d)) (m (oLoc d)) (wid (Fin.cast nCore_zero c) (Fin.cast nSub_zero i))) = _
  rw [bigSep_grid (F := F) (fun w => goPts d (It m d) (m (xLoc d)) (m (oLoc d)) w)]
  unfold goPts
  rw [bigSep_sep', bigSep_sep']

theorem dn0_eq (d : Dev nD) :
    (bigSep Finset.univ fun c : Fin ((K (F := F)).nCore 0) => (P m).dn 0 d c)
      = iprop((bigSep Finset.univ fun w : Fin 32 => iLoc d ↦[iSet w]{fullShare} It m d)
        ∗ (bigSep Finset.univ fun w : Fin 32 => xLoc d ↦{Transfers.shareTok fullShare 32 w} m (xLoc d))
        ∗ (bigSep Finset.univ fun w : Fin 32 => oLoc d ↦[oSet w]{fullShare} (lookupT (It m d) (m (xLoc d)) : Buf (Elt F) (oLoc d)))) := by
  show (bigSep Finset.univ fun c : Fin ((K (F := F)).nCore 0) => bigSep Finset.univ fun i : Fin ((K (F := F)).nSub 0) =>
      tdPts d (It m d) (m (xLoc d)) (wid (Fin.cast nCore_zero c) (Fin.cast nSub_zero i))) = _
  rw [bigSep_grid (F := F) (fun w => tdPts d (It m d) (m (xLoc d)) w)]
  unfold tdPts
  rw [bigSep_sep', bigSep_sep']

variable [FloatOps F]

theorem hIn : (opIn (F := F)).bufs ⊆ SIn := Finset.Subset.refl _
theorem hOut : (opOut (F := F)).bufs ⊆ SOut := Finset.Subset.refl _

/-- What @main leaves the claim: the two arguments at their launch contents, the final result at the lookup. -/
abbrev FIN (d : Dev nD) : sProp 𝕄 :=
  iprop((aLoc d ↦{fullShare} m (aLoc d)) ∗ (xLoc d ↦{fullShare} m (xLoc d))
    ∗ (rLoc d ↦{fullShare} (lookup (m (aLoc d)) (m (xLoc d)) : Buf (Elt F) (rLoc d))))

/-- @main on device `d`'s TensorCore: the exchange of the row numbers, the call, the exchange of the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2⟩, -, -⟩, -⟩
  -- the first exchange
  iapply (wp_hlo_within 𝒱 (SparseCore.T d) none Set.univ (op := opIn) (S := SIn) hIn (V := V0 m d)) $$ [Hb Ha0 Hv0]
  · isplitl [Hb]; · iexact Hb
    rw [held_SIn]
    isplitl [Ha0]; · iexact Ha0
    iexact Hv0
  iintro ⟨Hb, Hheld⟩
  ihave Hh := (Entails.of_eq (held_SIn_after (F := F) m d)) $$ Hheld
  icases Hh with ⟨Ha0, Hv0⟩
  rw [wp_ret]; imodintro
  -- the arrays apart: the id table into slabs, the table into read shares, the result into blocks
  ihave Hv0 := (Entails.of_eq (iPts_slabs (F := F) d (It m d))) $$ Hv0
  ihave Ha1 := (Transfers.pointsTo_toks_split fullShare 32) $$ Ha1
  icases Ha1 with ⟨Hrem, Htoks⟩
  ihave Hv1 := (Entails.of_eq (oPts_blocks (F := F) d (m (oLoc d)))) $$ Hv1
  -- the call
  iapply ((K (F := F)).wp_run (D (F := F)) 𝒱 (EH := EH) (P := P m) κ d 0) $$ [Hst Hv0 Htoks Hv1 Hb Ha0 Hrem Hv2]
  isplitr; · iexact Hctx
  isplitl [Hst]; · iexact Hst
  isplitl [Hv0 Htoks Hv1]
  · rw [st0_eq]
    isplitl [Hv0]; · iexact Hv0
    isplitl [Htoks]; · iexact Htoks
    iexact Hv1
  iintro ⟨Hst, Hdn⟩
  ihave Hdn' := (Entails.of_eq (dn0_eq m d)) $$ Hdn
  icases Hdn' with ⟨-, Htoks, Hv1⟩
  -- the arrays whole again: the table from its shares, the result from its blocks
  ihave Ha1 := (Transfers.pointsTo_toks_join fullShare 32) $$ [Hrem Htoks]
  · isplitl [Hrem] <;> iassumption
  ihave Hv1 := (Entails.of_eq (oPts_blocks (F := F) d (lookupT (It m d) (m (xLoc d)) : Buf (Elt F) (oLoc d))).symm) $$ Hv1
  -- the second exchange
  iapply (wp_hlo_within 𝒱 (SparseCore.T d) none Set.univ (op := opOut) (S := SOut) hOut (V := V1 m d)) $$ [Hb Hv1 Hv2]
  · isplitl [Hb]; · iexact Hb
    rw [held_SOut, V1_v1, V1_v2]
    isplitl [Hv1]; · iexact Hv1
    iexact Hv2
  iintro ⟨Hb, Hheld⟩
  ihave Hh := (Entails.of_eq (held_SOut_after (F := F) m d)) $$ Hheld
  icases Hh with ⟨-, Hv2⟩
  rw [wp_ret]; imodintro; imodintro
  isplitl [Hst]; · iexact Hst
  isplitl [Ha0]; · iexact Ha0
  isplitl [Ha1]; · iexact Ha1
  iexact Hv2

/-! ## The final memory, read -/

def fq (d : Dev nD) (s' : Phys nD τ sig (Elt F)) : Prop :=
  s'.mem.mem (rLoc d) = (lookup (m (aLoc d)) (m (xLoc d)) : Buf (Elt F) (rLoc d))
    ∧ s'.mem.mem (aLoc d) = m (aLoc d) ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
    (f := (lookup (m (aLoc d)) (m (xLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the final result is the lookup over the launch's row numbers and table, and both are unchanged. -/
def QC : PUnit × MemSt nD τ sig (Elt F) → Prop := fun r => ∀ c : Dev nD,
  r.2.mem ((SparseCore.T c).loc main_v2) = (lookup (m ((SparseCore.T c).loc main_arg0)) (m ((SparseCore.T c).loc main_arg1)) : Buf (Elt F) _)
    ∧ r.2.mem ((SparseCore.T c).loc main_arg0) = m ((SparseCore.T c).loc main_arg0)
    ∧ r.2.mem ((SparseCore.T c).loc main_arg1) = m ((SparseCore.T c).loc main_arg1)

theorem run_main [∀ e, Nonempty (Elt F e)] (hbody : BodyObl m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealKernel

end
-- ==== Proof.WordSetup.lean ====
/-
  The kernel as printed, its numbers machine words, as the launch theorem reads it, and a tile's own storage opened.

  The kernel runs on the thirty-two vector subcores of the device's two SparseCores. Each keeps, for the time of
  its task, two scratch buffers of its own (the tile's block of the index table, fifty rows of one hundred and
  twenty-eight row numbers; ten slots of sixty-four table rows) and twenty-one transfer semaphores (ten for the
  gathers into the slots, ten for the writes out of them, one for fetching the index block). Here they are taken
  out of the subcore's scoped storage by name: the semaphores as twenty-one counters at zero, the two buffers at
  whatever they hold, the remainder kept as it came.
  The table's entries are here the thirty-two-bit words of the printed program: every step moves them, none computes
  with them, so the statements read as they would over any kind of entry.
-/
import proofs.«206438_g5171140624678_cont_8to1_c_1053_28_alg».proof.Kernel
import proofs.«206438_g5171140624678_cont_8to1_c_1053_28_alg».proof.Proof.Gen.Kernel
import proofs.«206438_g5171140624678_cont_8to1_c_1053_28_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.WordKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the body names them -/

/-- The transposed index table, the embedding table and the untransposed result, whole, as a vector subcore names them. -/
abbrev aI : Memref sig .scVector .hbm S50x4096 .i32 := Memref.whole main_v0_scv
abbrev aW : Memref sig .scVector .hbm S100000x128 .f32 := Memref.whole main_arg1_scv
abbrev aO : Memref sig .scVector .hbm S50x4096x128 .f32 := Memref.whole main_v1_scv
/-- A tile's block of row numbers and its ten slots of gathered rows. -/
abbrev sI : Memref sig .scVector .vmem S50x128 .i32 := Memref.whole cc0_scratch0
abbrev sR : Memref sig .scVector .vmem S10x64x128 .f32 := Memref.whole cc0_scratch1

/-! ## A tile's own semaphores, one by one -/

omit F in
theorem dma_scoped : ∀ k : DmaSem sig, (SemLoc.dma k : SemLoc sig).isScoped .scVector = true := by decide
omit F in
theorem reg_unscoped : ∀ s : Sem sig, ¬ (SemLoc.reg s : SemLoc sig).isScoped .scVector = true := by decide

omit F in
/-- A vector subcore's scoped cells are its twenty-one transfer semaphores. -/
theorem ownCells_V (d : Dev nD) (c : Fin τ.nSC) (i : Fin τ.nSub) :
    ownCells (sig := sig) (V d c i)
      = (Finset.univ : Finset (DmaSem sig)).map ⟨fun k => ((V d c i, SemLoc.dma k) : GSem nD τ sig), fun a b e => by
          have := (Prod.mk.inj e).2; injection this⟩ := by
  ext ⟨t, sm⟩
  simp only [mem_ownCells, Finset.mem_map, Finset.mem_univ, true_and, Function.Embedding.coeFn_mk]
  constructor
  · rintro ⟨rfl, hs⟩
    cases sm with
    | reg s => exact absurd hs (reg_unscoped s)
    | dma s => exact ⟨s, rfl⟩
  · rintro ⟨k, e⟩
    cases e
    exact ⟨rfl, dma_scoped k⟩

/-- The semaphores at zero, each a counter of its own: the ten the gathers complete on, the ten the writes out
    complete on, and the one the index block's fetch completes on. -/
theorem ownSems0_V21 (d : Dev nD) (c : Fin τ.nSC) (i : Fin τ.nSub) :
    (ownSems0 (V d c i) : sProp 𝕄)
      = iprop(semVal (V d c i, SemLoc.dma cc0_scratch2.sem) 0
        ∗ semVal (V d c i, SemLoc.dma cc0_scratch3.sem) 0
        ∗ semVal (V d c i, SemLoc.dma cc0_scratch4.sem) 0
        ∗ semVal (V d c i, SemLoc.dma cc0_scratch5.sem) 0
        ∗ semVal (V d c i, SemLoc.dma cc0_scratch6.sem) 0
        ∗ semVal (V d c i, SemLoc.dma cc0_scratch7.sem) 0
        ∗ semVal (V d c i, SemLoc.dma cc0_scratch8.sem) 0
        ∗ semVal (V d c i, SemLoc.dma cc0_scratch9.sem) 0
        ∗ semVal (V d c i, SemLoc.dma cc0_scratch10.sem) 0
        ∗ semVal (V d c i, SemLoc.dma cc0_scratch11.sem) 0
        ∗ semVal (V d c i, SemLoc.dma cc0_scratch12.sem) 0
        ∗ semVal (V d c i, SemLoc.dma cc0_scratch13.sem) 0
        ∗ semVal (V d c i, SemLoc.dma cc0_scratch14.sem) 0
        ∗ semVal (V d c i, SemLoc.dma cc0_scratch15.sem) 0
        ∗ semVal (V d c i, SemLoc.dma cc0_scratch16.sem) 0
        ∗ semVal (V d c i, SemLoc.dma cc0_scratch17.sem) 0
        ∗ semVal (V d c i, SemLoc.dma cc0_scratch18.sem) 0
        ∗ semVal (V d c i, SemLoc.dma cc0_scratch19.sem) 0
        ∗ semVal (V d c i, SemLoc.dma cc0_scratch20.sem) 0
        ∗ semVal (V d c i, SemLoc.dma cc0_scratch21.sem) 0
        ∗ semVal (V d c i, SemLoc.dma cc0_scoped0.sem) 0) := by
  unfold SparseCore.Cfg.ownSems0
  rw [ownCells_V, bigSep_map]
  rw [show (Finset.univ : Finset (DmaSem sig)) = {0, 1, 2, 3, 4, 5, 6, 7, 8, 9, 10, 11, 12, 13, 14, 15, 16, 17, 18, 19, 20} by decide]
  repeat rw [SparseCore.bigSep_insert' (by decide)]
  rw [bigSep_singleton]
  rfl

/-! ## A tile's two scratch buffers -/

/-- The index block and the slots are among the subcore's own buffers: they are them, at some contents, and the rest. -/
theorem ownBufs_V2 (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.WordKernel

end
-- ==== Proof.WordPieces.lean ====
/-
  What each tile is handed and what it hands back.

  Tile number w = 2·(vector subcore) + (SparseCore) works on columns [128·w, 128·w + 128) of the transposed id
  table (fifty rows of token positions, four thousand and ninety-six sequences): it reads that slab of row
  numbers, reads the embedding table, and fills the same columns of the untransposed result, entry (s, n, q)
  with entry q of the table row that id (s, n) names. The thirty-two slabs partition the id table and the
  thirty-two blocks partition the result; the table itself is read by all tiles at once, each through a share
  of its own.
  The table's entries are here the thirty-two-bit words of the printed program: every step moves them, none computes
  with them, so the statements read as they would over any kind of entry.
-/
import proofs.«206438_g5171140624678_cont_8to1_c_1053_28_alg».proof.Proof.WordSetup
import proofs.«206438_g5171140624678_cont_8to1_c_1053_28_alg».proof.Proof.Spec

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The transposed id table, the embedding table and the untransposed result, as locations of device `d`. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

theorem hdivI : 32 ∣ S50x4096.size 1 := ⟨128, rfl⟩
theorem hdivO : 32 ∣ S50x4096x128.size 1 := ⟨128, rfl⟩

/-- Tile `w`'s columns of the id table and of the result. -/
abbrev iPart (w : Fin 32) : Rect S50x4096 := Rect.part (s := S50x4096) (a₀ := 1) hdivI w
abbrev oPart (w : Fin 32) : Rect S50x4096x128 := Rect.part (s := S50x4096x128) (a₀ := 1) hdivO w
abbrev iSet (w : Fin 32) : Finset S50x4096.Idx := ((aI : Memref sig .scVector .hbm S50x4096 .i32).view.slice (iPart w)).set
abbrev oSet (w : Fin 32) : Finset S50x4096x128.Idx := ((aO : Memref sig .scVector .hbm S50x4096x128 .f32).view.slice (oPart w)).set

/-- The tile number of vector subcore `i` of SparseCore `c`. -/
def wid (c : Fin 2) (i : Fin 16) : Fin 32 := ⟨2 * i.val + c.val, by omega⟩

/-- A grid point's SparseCore and vector subcore as the device numbers them, and its tile number. -/
abbrev cV (L : grid0.Coords) : Fin τ.nSC := (L 0).castLE hcore0
abbrev jV (L : grid0.Coords) : Fin τ.nSub := (L 1).castLE hsub0
def widL (L : grid0.Coords) : Fin 32 := wid (Fin.cast rfl (L 0)) (Fin.cast rfl (L 1))
theorem widL_val (L : grid0.Coords) : (widL L).val = 2 * (L 1).val + (L 0).val := rfl

/-- What tile `w` is handed: its slab of the id table `It`, a share of the table `Wt`, its block of the result at
    whatever it held. -/
def goPts (d : Dev nD) (It : Buf (Elt F) (iLoc d)) (Wt : Buf (Elt F) (xLoc d)) (O0 : Buf (Elt F) (oLoc d)) (w : Fin 32) : sProp 𝕄 :=
  iprop((iLoc d ↦[iSet w]{fullShare} It) ∗ (xLoc d ↦{Transfers.shareTok fullShare 32 w} Wt) ∗ (oLoc d ↦[oSet w]{fullShare} O0))

/-- What it hands back: the same, its block of the result at the rows the ids name. -/
def tdPts (d : Dev nD) (It : Buf (Elt F) (iLoc d)) (Wt : Buf (Elt F) (xLoc d)) (w : Fin 32) : sProp 𝕄 :=
  iprop((iLoc d ↦[iSet w]{fullShare} It) ∗ (xLoc d ↦{Transfers.shareTok fullShare 32 w} Wt)
    ∗ (oLoc d ↦[oSet w]{fullShare} (lookupT It Wt : Buf (Elt F) (oLoc d))))

end Cert.Proof.WordKernel

end
-- ==== Proof.WordIface.lean ====
/-
  A tile's task, stated once: what a tile holds when it starts, the program it runs, and what it must hold when it ends.

  The launch memory fixes, on each device, the array of row numbers I, its exchange of axes It (what the host
  writes before the call), the table Wt and the old contents O0 of the untransposed result.  The tile at grid point L
  has number w(L) = 2·(second coordinate) + (first coordinate).  The obligation says: from tile w(L)'s slab of It, its
  share of Wt and its block of the result at O0, with its scoped storage and what it owes, the kernel's body ends with
  the block at the lookup over It, everything else as it was, and nothing more owed than before (except to its own
  scoped cells).
  The table's entries are here the thirty-two-bit words of the printed program: every step moves them, none computes
  with them, so the statements read as they would over any kind of entry.
-/
import proofs.«206438_g5171140624678_cont_8to1_c_1053_28_alg».proof.Proof.WordPieces

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The row numbers with their axes exchanged: what the host writes into the transposed id table before the call. -/
def It (d : Dev nD) : Buf (Elt F) (iLoc d) :=
  transpose S50x4096 [1, 0] (m ((SparseCore.T d).loc main_arg0)) transposes_S4096x50_S50x4096_1_0
/-- The table at launch. -/
def Wt (d : Dev nD) : Buf (Elt F) (xLoc d) := m (xLoc d)
/-- The untransposed result's contents at launch. -/
def O0 (d : Dev nD) : Buf (Elt F) (oLoc d) := m (oLoc d)

variable [FloatOps F]

/-- THE TILE'S OBLIGATION, at every device and grid point. -/
def BodyObl : Prop :=
  ∀ (d : Dev nD) (L : grid0.Coords) (O : CellTallies nD τ sig (HIx 1)) (W : Waits sig (HIx 1)), (∀ g, O g none = 0) →
    (iprop(levAts (K (F := F)).L (K (F := F)).lev ∗ emp ∗ goPts d (It m d) (Wt m d) (O0 m d) (widL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L aI (Memref.isWhole_whole _) aW (Memref.isWhole_whole _) aO (Memref.isWhole_whole _) sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(tdPts d (It m d) (Wt m d) (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.WordKernel

end
-- ==== Proof.WordCover.lean ====
/-
  The thirty-two tiles cover the arrays, and the tile numbers are the pairs (SparseCore, vector subcore).

  Tile w's columns [128·w, 128·w + 128) of the transposed id table are pairwise disjoint over w and together are the
  whole table, and likewise the blocks of the untransposed result; so an array held whole is its thirty-two pieces held
  apart.  The number w = 2·i + c runs over 0 … 31 exactly once as c runs over the two SparseCores and i over the sixteen
  vector subcores, so a family over tile numbers is the same family over those pairs.
  These are facts about index sets and tile numbers alone; they do not depend on how a table entry is read.
-/
import proofs.«206438_g5171140624678_cont_8to1_c_1053_28_alg».proof.Proof.WordIface

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The pieces of the two arrays -/

theorem iSet_eq (w : Fin 32) : iSet w = (iPart w).set := by
  show ((View.whole (main_v0_scv : Ref sig .scVector)).slice (iPart w)).set = _
  rw [View.set_slice]; exact Finset.map_refl
theorem oSet_eq (w : Fin 32) : oSet w = (oPart w).set := by
  show ((View.whole (main_v1_scv : Ref sig .scVector)).slice (oPart w)).set = _
  rw [View.set_slice]; exact Finset.map_refl

theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint hdivI h
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem iSets_cover : (Finset.univ : Finset (Fin 32)).biUnion iSet = Finset.univ :=
  (Finset.biUnion_congr rfl fun i _ => iSet_eq i).trans (Rect.biUnion_part hdivI)
theorem oSets_cover : (Finset.univ : Finset (Fin 32)).biUnion oSet = Finset.univ :=
  (Finset.biUnion_congr rfl fun i _ => oSet_eq i).trans (Rect.biUnion_part hdivO)

/-- The transposed id table held whole is its thirty-two slabs. -/
theorem iPts_slabs (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]; try rfl
/-- The untransposed result held whole is its thirty-two blocks. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]; try rfl

/-! ## Tile numbers are the pairs -/

/-- w = 2·i + c, with c = w mod 2 and i = w div 2. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- A family over the thirty-two tile numbers is the family over SparseCores and, within each, vector subcores. -/
theorem bigSep_tiles (Φ : Fin 32 → sProp 𝕄) :
    bigSep Finset.univ Φ = bigSep Finset.univ fun c : Fin 2 => bigSep Finset.univ fun i : Fin 16 => Φ (wid c i) := by
  rw [← Finset.map_univ_equiv widEquiv, bigSep_map, bigSep_univ_prod]
  rfl

/-- The same with the grid's own index types. -/
theorem bigSep_grid (Φ : Fin 32 → sProp 𝕄) :
    (bigSep Finset.univ fun c : Fin ((K (F := F)).nCore 0) => bigSep Finset.univ fun i : Fin ((K (F := F)).nSub 0) =>
      Φ (wid (Fin.cast nCore_zero c) (Fin.cast nSub_zero i))) = bigSep Finset.univ Φ := by
  rw [bigSep_tiles]
  exact bigSep_congr fun c _ => bigSep_congr fun i _ => congrArg Φ (congrArg₂ wid (Fin.ext rfl) (Fin.ext rfl))

end Cert.Proof.WordKernel

end
-- ==== Proof.WordObl.lean ====
/-
  What the launch is asked about the tiles, from one fact about a tile's task.

  The call hands SparseCore c the holdings of its sixteen tiles and each tile (c, i) its own — its slab of the exchanged
  row numbers, its share of the table, its block of the untransposed result — and takes the same back with the blocks
  filled by the lookup.  Handing a SparseCore's holdings on to its tiles and collecting them again changes nothing.  A
  tile's task, as the program's body table runs it at the tile's grid point, is the task the assumed fact speaks of.
  The launch needs no ghost state beyond the handshakes' own.
  The table's entries are here the thirty-two-bit words of the printed program: every step moves them, none computes
  with them, so the statements read as they would over any kind of entry.
-/
import proofs.«206438_g5171140624678_cont_8to1_c_1053_28_alg».proof.Proof.WordCover

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

instance goPts_storable (d : Dev nD) (It : Buf (Elt F) (iLoc d)) (Wt : Buf (Elt F) (xLoc d)) (O0 : Buf (Elt F) (oLoc d)) (w : Fin 32) :
    BI.Storable (upEmb : UEmb _ 𝕄) (goPts d It Wt O0 w) := by unfold goPts; infer_instance
instance tdPts_storable (d : Dev nD) (It : Buf (Elt F) (iLoc d)) (Wt : Buf (Elt F) (xLoc d)) (w : Fin 32) :
    BI.Storable (upEmb : UEmb _ 𝕄) (tdPts d It Wt w) := by unfold tdPts; infer_instance

/-! ## What the handshakes carry -/

/-- The call hands SparseCore c the sixteen tiles' holdings, tile (c, i) its own; and takes back the same with the
    blocks filled. -/
def P : (K (F := F)).Pay (nD := nD) (Val := Elt F) (Name := ℕ) (U := UU) where
  st := fun q d c => match q with
    | 0 => bigSep Finset.univ fun i : Fin ((K (F := F)).nSub 0) =>
        goPts d (It m d) (Wt m d) (O0 m d) (wid (Fin.cast nCore_zero c) (Fin.cast nSub_zero i))
  dn := fun q d c => match q with
    | 0 => bigSep Finset.univ fun i : Fin ((K (F := F)).nSub 0) =>
        tdPts d (It m d) (Wt m d) (wid (Fin.cast nCore_zero c) (Fin.cast nSub_zero i))
  go := fun q d c i => match q with
    | 0 => goPts d (It m d) (Wt m d) (O0 m d) (wid (Fin.cast nCore_zero c) (Fin.cast nSub_zero i))
  td := fun q d c i => match q with
    | 0 => tdPts d (It m d) (Wt m d) (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin ((K (F := F)).nSub 0) =>
        goPts d (It m d) (Wt m d) (O0 m d) (wid (Fin.cast nCore_zero c) (Fin.cast nSub_zero i))))
  dn q d c := match q with
    | 0 => (inferInstance : BI.Storable (upEmb : UEmb _ 𝕄) (bigSep Finset.univ fun i : Fin ((K (F := F)).nSub 0) =>
        tdPts d (It m d) (Wt m d) (wid (Fin.cast nCore_zero c) (Fin.cast nSub_zero i))))
  go q d c i := match q with
    | 0 => (inferInstance : BI.Storable (upEmb : UEmb _ 𝕄) (goPts d (It m d) (Wt m d) (O0 m d) (wid (Fin.cast nCore_zero c) (Fin.cast nSub_zero i))))
  td q d c i := match q with
    | 0 => (inferInstance : BI.Storable (upEmb : UEmb _ 𝕄) (tdPts d (It m d) (Wt m d) (wid (Fin.cast nCore_zero c) (Fin.cast nSub_zero i))))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) aI (Memref.isWhole_whole _) aW (Memref.isWhole_whole _) aO (Memref.isWhole_whole _) sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodyObl m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem vecSplit : (K (F := F)).VecSplit' (P m) 0 := by
  intro d c
  show (bigSep Finset.univ fun i : Fin ((K (F := F)).nSub 0) =>
        goPts d (It m d) (Wt m d) (O0 m d) (wid (Fin.cast nCore_zero c) (Fin.cast nSub_zero i)))
      ⊢ |={Set.univ}=> iprop((bigSep Finset.univ fun i : Fin ((K (F := F)).nSub 0) =>
        goPts d (It m d) (Wt m d) (O0 m d) (wid (Fin.cast nCore_zero c) (Fin.cast nSub_zero i)))
      ∗ ((bigSep Finset.univ fun i : Fin ((K (F := F)).nSub 0) =>
          tdPts d (It m d) (Wt m d) (wid (Fin.cast nCore_zero c) (Fin.cast nSub_zero i)))
        -∗ bigSep Finset.univ fun i : Fin ((K (F := F)).nSub 0) =>
          tdPts d (It m d) (Wt m d) (wid (Fin.cast nCore_zero c) (Fin.cast nSub_zero i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.WordKernel

end
-- ==== Proof.WordLaunch.lean ====
/-
  The run of the whole device from one fact about a tile.

  Before the call the host exchanges the axes of the row numbers; the call hands each of the thirty-two tiles its slab
  of the exchanged row numbers, a share of the table and its block of the untransposed result, and takes them back with
  the block filled by the lookup; after the call the host exchanges the first two axes of the result.  Given that each
  tile, from what it is handed, ends with its block at the lookup over the exchanged row numbers, every fair execution
  of all threads ends with the final result at the lookup over the row numbers and with the two arguments unchanged.
  The table's entries are here the thirty-two-bit words of the printed program: every step moves them, none computes
  with them, so the statements read as they would over any kind of entry.
-/
import proofs.«206438_g5171140624678_cont_8to1_c_1053_28_alg».proof.Proof.WordObl
import proofs.«206438_g5171140624678_cont_8to1_c_1053_28_alg».proof.Proof.Transposes

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host's arrays and its two operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The exchange of the row numbers' axes, and the exchange of the result's first two. -/
abbrev opIn : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opOut : HloOp τ sig (Elt F) := StableHlo.unary main_v1 main_v2 ((transpose S4096x50x128 [1, 0, 2] · transposes_S50x4096x128_S4096x50x128_1_0_2) : (⟨S50x4096x128, .f32⟩ : BufTy).Contents (Elt F) → (⟨S4096x50x128, .f32⟩ : BufTy).Contents (Elt F))

abbrev SIn : Finset (DevRef τ sig) := {a0', v0'}
abbrev SOut : Finset (DevRef τ sig) := {v1', v2'}

theorem held_SIn (d : Dev nD) (W : Valuation τ sig (Elt F)) :
    (held (T d) SIn W : sProp 𝕄) = iprop((aLoc d ↦{fullShare} W a0') ∗ (iLoc d ↦{fullShare} W v0')) := by
  unfold held SIn
  rw [SparseCore.bigSep_insert' (by decide), bigSep_singleton]
theorem held_SOut (d : Dev nD) (W : Valuation τ sig (Elt F)) :
    (held (T d) SOut W : sProp 𝕄) = iprop((oLoc d ↦{fullShare} W v1') ∗ (rLoc d ↦{fullShare} W v2')) := by
  unfold held SOut
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch contents; and, after the call, the untransposed result at the lookup over the exchanged row numbers. -/
def V0 (d : Dev nD) : Valuation τ sig (Elt F) := fun b => m (d, b)
def V1 (d : Dev nD) : Valuation τ sig (Elt F) := Function.update (V0 m d) v1' (lookupT (It m d) (m (xLoc d)) : Buf (Elt F) (oLoc d))

theorem V1_v1 (d : Dev nD) : V1 m d v1' = (lookupT (It m d) (m (xLoc d)) : Buf (Elt F) (oLoc d)) := Function.update_self _ _ _
theorem V1_v2 (d : Dev nD) : V1 m d v2' = m (rLoc d) := Function.update_of_ne (show v2' ≠ v1' by decide) _ _

/-- After the first exchange: the row numbers as they were, the transposed id table at their exchange. -/
theorem held_SIn_after (d : Dev nD) :
    (held (T d) SIn ((opIn (F := F)).result (V0 m d)) : sProp 𝕄) = iprop((aLoc d ↦{fullShare} m (aLoc d)) ∗ (iLoc d ↦{fullShare} It m d)) := by
  rw [held_SIn, StableHlo.unary_result_ne' _ _ _ (V0 m d) (show (main_arg0 : Ref sig .tc) ≠ main_v0 by decide), StableHlo.unary_result']
  rfl

/-- After the second exchange: the final result at the lookup over the row numbers. -/
theorem held_SOut_after (d : Dev nD) :
    (held (T d) SOut ((opOut (F := F)).result (V1 m d)) : sProp 𝕄)
      = iprop((oLoc d ↦{fullShare} (lookupT (It m d) (m (xLoc d)) : Buf (Elt F) (oLoc d)))
        ∗ (rLoc d ↦{fullShare} (lookup (m (aLoc d)) (m (xLoc d)) : Buf (Elt F) (rLoc d)))) := by
  rw [held_SOut, StableHlo.unary_result_ne' _ _ _ (V1 m d) (show (main_v1 : Ref sig .tc) ≠ main_v2 by decide), StableHlo.unary_result', V1_v1]
  congr 2
  exact transpose_lookupT _ _ (m (aLoc d)) (m (xLoc d))

/-! ## What the call takes and hands back, over the thirty-two tiles -/

theorem st0_eq (d : Dev nD) :
    (bigSep Finset.univ fun c : Fin ((K (F := F)).nCore 0) => (P m).st 0 d c)
      = iprop((bigSep Finset.univ fun w : Fin 32 => iLoc d ↦[iSet w]{fullShare} It m d)
        ∗ (bigSep Finset.univ fun w : Fin 32 => xLoc d ↦{Transfers.shareTok fullShare 32 w} m (xLoc d))
        ∗ (bigSep Finset.univ fun w : Fin 32 => oLoc d ↦[oSet w]{fullShare} m (oLoc d))) := by
  show (bigSep Finset.univ fun c : Fin ((K (F := F)).nCore 0) => bigSep Finset.univ fun i : Fin ((K (F := F)).nSub 0) =>
      goPts d (It m d) (m (xLoc d)) (m (oLoc d)) (wid (Fin.cast nCore_zero c) (Fin.cast nSub_zero i))) = _
  rw [bigSep_grid (F := F) (fun w => goPts d (It m d) (m (xLoc d)) (m (oLoc d)) w)]
  unfold goPts
  rw [bigSep_sep', bigSep_sep']

theorem dn0_eq (d : Dev nD) :
    (bigSep Finset.univ fun c : Fin ((K (F := F)).nCore 0) => (P m).dn 0 d c)
      = iprop((bigSep Finset.univ fun w : Fin 32 => iLoc d ↦[iSet w]{fullShare} It m d)
        ∗ (bigSep Finset.univ fun w : Fin 32 => xLoc d ↦{Transfers.shareTok fullShare 32 w} m (xLoc d))
        ∗ (bigSep Finset.univ fun w : Fin 32 => oLoc d ↦[oSet w]{fullShare} (lookupT (It m d) (m (xLoc d)) : Buf (Elt F) (oLoc d)))) := by
  show (bigSep Finset.univ fun c : Fin ((K (F := F)).nCore 0) => bigSep Finset.univ fun i : Fin ((K (F := F)).nSub 0) =>
      tdPts d (It m d) (m (xLoc d)) (wid (Fin.cast nCore_zero c) (Fin.cast nSub_zero i))) = _
  rw [bigSep_grid (F := F) (fun w => tdPts d (It m d) (m (xLoc d)) w)]
  unfold tdPts
  rw [bigSep_sep', bigSep_sep']

variable [FloatOps F]

theorem hIn : (opIn (F := F)).bufs ⊆ SIn := Finset.Subset.refl _
theorem hOut : (opOut (F := F)).bufs ⊆ SOut := Finset.Subset.refl _

/-- What @main leaves the claim: the two arguments at their launch contents, the final result at the lookup. -/
abbrev FIN (d : Dev nD) : sProp 𝕄 :=
  iprop((aLoc d ↦{fullShare} m (aLoc d)) ∗ (xLoc d ↦{fullShare} m (xLoc d))
    ∗ (rLoc d ↦{fullShare} (lookup (m (aLoc d)) (m (xLoc d)) : Buf (Elt F) (rLoc d))))

/-- @main on device `d`'s TensorCore: the exchange of the row numbers, the call, the exchange of the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2⟩, -, -⟩, -⟩
  -- the first exchange
  iapply (wp_hlo_within 𝒱 (SparseCore.T d) none Set.univ (op := opIn) (S := SIn) hIn (V := V0 m d)) $$ [Hb Ha0 Hv0]
  · isplitl [Hb]; · iexact Hb
    rw [held_SIn]
    isplitl [Ha0]; · iexact Ha0
    iexact Hv0
  iintro ⟨Hb, Hheld⟩
  ihave Hh := (Entails.of_eq (held_SIn_after (F := F) m d)) $$ Hheld
  icases Hh with ⟨Ha0, Hv0⟩
  rw [wp_ret]; imodintro
  -- the arrays apart: the id table into slabs, the table into read shares, the result into blocks
  ihave Hv0 := (Entails.of_eq (iPts_slabs (F := F) d (It m d))) $$ Hv0
  ihave Ha1 := (Transfers.pointsTo_toks_split fullShare 32) $$ Ha1
  icases Ha1 with ⟨Hrem, Htoks⟩
  ihave Hv1 := (Entails.of_eq (oPts_blocks (F := F) d (m (oLoc d)))) $$ Hv1
  -- the call
  iapply ((K (F := F)).wp_run (D (F := F)) 𝒱 (EH := EH) (P := P m) κ d 0) $$ [Hst Hv0 Htoks Hv1 Hb Ha0 Hrem Hv2]
  isplitr; · iexact Hctx
  isplitl [Hst]; · iexact Hst
  isplitl [Hv0 Htoks Hv1]
  · rw [st0_eq]
    isplitl [Hv0]; · iexact Hv0
    isplitl [Htoks]; · iexact Htoks
    iexact Hv1
  iintro ⟨Hst, Hdn⟩
  ihave Hdn' := (Entails.of_eq (dn0_eq m d)) $$ Hdn
  icases Hdn' with ⟨-, Htoks, Hv1⟩
  -- the arrays whole again: the table from its shares, the result from its blocks
  ihave Ha1 := (Transfers.pointsTo_toks_join fullShare 32) $$ [Hrem Htoks]
  · isplitl [Hrem] <;> iassumption
  ihave Hv1 := (Entails.of_eq (oPts_blocks (F := F) d (lookupT (It m d) (m (xLoc d)) : Buf (Elt F) (oLoc d))).symm) $$ Hv1
  -- the second exchange
  iapply (wp_hlo_within 𝒱 (SparseCore.T d) none Set.univ (op := opOut) (S := SOut) hOut (V := V1 m d)) $$ [Hb Hv1 Hv2]
  · isplitl [Hb]; · iexact Hb
    rw [held_SOut, V1_v1, V1_v2]
    isplitl [Hv1]; · iexact Hv1
    iexact Hv2
  iintro ⟨Hb, Hheld⟩
  ihave Hh := (Entails.of_eq (held_SOut_after (F := F) m d)) $$ Hheld
  icases Hh with ⟨-, Hv2⟩
  rw [wp_ret]; imodintro; imodintro
  isplitl [Hst]; · iexact Hst
  isplitl [Ha0]; · iexact Ha0
  isplitl [Ha1]; · iexact Ha1
  iexact Hv2

/-! ## The final memory, read -/

def fq (d : Dev nD) (s' : Phys nD τ sig (Elt F)) : Prop :=
  s'.mem.mem (rLoc d) = (lookup (m (aLoc d)) (m (xLoc d)) : Buf (Elt F) (rLoc d))
    ∧ s'.mem.mem (aLoc d) = m (aLoc d) ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
    (f := (lookup (m (aLoc d)) (m (xLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the final result is the lookup over the launch's row numbers and table, and both are unchanged. -/
def QC : PUnit × MemSt nD τ sig (Elt F) → Prop := fun r => ∀ c : Dev nD,
  r.2.mem ((SparseCore.T c).loc main_v2) = (lookup (m ((SparseCore.T c).loc main_arg0)) (m ((SparseCore.T c).loc main_arg1)) : Buf (Elt F) _)
    ∧ r.2.mem ((SparseCore.T c).loc main_arg0) = m ((SparseCore.T c).loc main_arg0)
    ∧ r.2.mem ((SparseCore.T c).loc main_arg1) = m ((SparseCore.T c).loc main_arg1)

theorem run_main [∀ e, Nonempty (Elt F e)] (hbody : BodyObl m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.WordKernel

end
-- ==== Proof.IdealSlab.lean ====
/-
  The slab of row numbers a tile fetches.

  A tile's first act is to copy its own columns of the transposed id table — all fifty rows, columns
  [128·w, 128·w + 128) for tile number w — into its index block. The program names that slab by the column its
  integer chain computes, 256·(vector subcore) + 128·(SparseCore) = 128·w; it is the w-th of the thirty-two equal
  parts the table is cut into along its columns.
-/
import proofs.«206438_g5171140624678_cont_8to1_c_1053_28_alg».proof.Proof.IdealPieces

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The slab of the id table the tile at grid point `L` fetches, as the program spells it. -/
abbrev iSlab (L : grid0.Coords) : Memref sig .scVector .hbm S50x128 .i32 :=
  (aI).slice (Rect.unit (s := S50x4096) (k0_off1 L) S50x128.size (k0_off1_inb L)) (fun _ => rfl)

/-- It covers exactly the tile's part of the id table: on the row axis both are everything, on the column axis
    both are the one hundred and twenty-eight columns from 128·w. -/
theorem set_iSlab (L : grid0.Coords) : (iSlab L).view.set = iSet (widL L) := by
  have h1 : (iSlab L).view.set = (Rect.unit (s := S50x4096) (k0_off1 L) S50x128.size (k0_off1_inb L)).set := by
    show ((View.whole (main_v0_scv : Ref sig .scVector)).slice _).set = _
    rw [View.set_slice]; exact Finset.map_refl
  have h2 : iSet (widL L) = (iPart (widL L)).set := by
    show ((View.whole (main_v0_scv : Ref sig .scVector)).slice _).set = _
    rw [View.set_slice]; exact Finset.map_refl
  rw [h1, h2]
  ext i
  rw [Rect.mem_set_unit, Rect.mem_set_unit, k0_off1_eq L]
  refine forall_congr' fun a => ?_
  have hw := widL_val L
  fin_cases a
  · simp [Shape.partIx, Shape.partSize]
  · simp [Shape.partIx, Shape.partSize, hw]
    omega

end Cert.Proof.IdealKernel

end
-- ==== Proof.IdealSlots.lean ====
/-
  The ten slots of a tile's row scratch.

  The scratch holds ten slabs of sixty-four rows of one hundred and twenty-eight numbers; slot b is the slab at
  leading coordinate b, read as a sixty-four by one hundred and twenty-eight array. Two different slots differ in
  the leading coordinate of every element, so they are disjoint; every element of the scratch lies in the slot
  its leading coordinate names, so together they are the whole scratch. Holding the scratch is therefore the same
  as holding the ten slots separately.
-/
import proofs.«206438_g5171140624678_cont_8to1_c_1053_28_alg».proof.Proof.IdealPieces

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem slot_inb : ∀ (b : Fin 10) (a : Fin 3), (![b.val, 0, 0] : Fin 3 → Nat) a + S1x64x128.size a ≤ S10x64x128.size a := by decide

/-- Slot `b` as a rectangle of the scratch: one slab at leading coordinate `b`, whole on the other two axes. -/
abbrev slotR (b : Fin 10) : Rect S10x64x128 := Rect.unit (s := S10x64x128) ![b.val, 0, 0] S1x64x128.size (slot_inb b)

/-- Slot `b` as the program reaches it: the slab, its leading axis of length one dropped. -/
abbrev slotM (b : Fin 10) : Memref sig .scVector .vmem S64x128 .f32 :=
  ((sR).slice (slotR b) (fun _ => rfl)).squeeze S64x128 squeezes_S1x64x128_S64x128

/-- The elements of the scratch under slot `b`. -/
abbrev slotSet (b : Fin 10) : Finset S10x64x128.Idx := (slotM b).view.set

/-! Each of the ten slots the program writes with a literal leading coordinate is the slot of that number. -/
theorem slotM_lit0 : ((sR).slice (Rect.unit (s := S10x64x128) ![0, 0, 0] S1x64x128.size inb_S10x64x128_S1x64x128_0_0_0) (fun _ => rfl)).squeeze S64x128 squeezes_S1x64x128_S64x128 = slotM 0 := rfl
theorem slotM_lit1 : ((sR).slice (Rect.unit (s := S10x64x128) ![1, 0, 0] S1x64x128.size inb_S10x64x128_S1x64x128_1_0_0) (fun _ => rfl)).squeeze S64x128 squeezes_S1x64x128_S64x128 = slotM 1 := rfl
theorem slotM_lit2 : ((sR).slice (Rect.unit (s := S10x64x128) ![2, 0, 0] S1x64x128.size inb_S10x64x128_S1x64x128_2_0_0) (fun _ => rfl)).squeeze S64x128 squeezes_S1x64x128_S64x128 = slotM 2 := rfl
theorem slotM_lit3 : ((sR).slice (Rect.unit (s := S10x64x128) ![3, 0, 0] S1x64x128.size inb_S10x64x128_S1x64x128_3_0_0) (fun _ => rfl)).squeeze S64x128 squeezes_S1x64x128_S64x128 = slotM 3 := rfl
theorem slotM_lit4 : ((sR).slice (Rect.unit (s := S10x64x128) ![4, 0, 0] S1x64x128.size inb_S10x64x128_S1x64x128_4_0_0) (fun _ => rfl)).squeeze S64x128 squeezes_S1x64x128_S64x128 = slotM 4 := rfl
theorem slotM_lit5 : ((sR).slice (Rect.unit (s := S10x64x128) ![5, 0, 0] S1x64x128.size inb_S10x64x128_S1x64x128_5_0_0) (fun _ => rfl)).squeeze S64x128 squeezes_S1x64x128_S64x128 = slotM 5 := rfl
theorem slotM_lit6 : ((sR).slice (Rect.unit (s := S10x64x128) ![6, 0, 0] S1x64x128.size inb_S10x64x128_S1x64x128_6_0_0) (fun _ => rfl)).squeeze S64x128 squeezes_S1x64x128_S64x128 = slotM 6 := rfl
theorem slotM_lit7 : ((sR).slice (Rect.unit (s := S10x64x128) ![7, 0, 0] S1x64x128.size inb_S10x64x128_S1x64x128_7_0_0) (fun _ => rfl)).squeeze S64x128 squeezes_S1x64x128_S64x128 = slotM 7 := rfl
theorem slotM_lit8 : ((sR).slice (Rect.unit (s := S10x64x128) ![8, 0, 0] S1x64x128.size inb_S10x64x128_S1x64x128_8_0_0) (fun _ => rfl)).squeeze S64x128 squeezes_S1x64x128_S64x128 = slotM 8 := rfl
theorem slotM_lit9 : ((sR).slice (Rect.unit (s := S10x64x128) ![9, 0, 0] S1x64x128.size inb_S10x64x128_S1x64x128_9_0_0) (fun _ => rfl)).squeeze S64x128 squeezes_S1x64x128_S64x128 = slotM 9 := rfl

/-- Dropping the unit axis moves no element: a slot's elements are its rectangle's. -/
theorem slotSet_eq (b : Fin 10) : slotSet b = (slotR b).set := by
  show (((View.whole (cc0_scratch1 : Ref sig .scVector)).slice _).reshape _ _).set = _
  rw [View.set_reshape, View.set_slice]; exact Finset.map_refl

/-- An element of the scratch is in slot `b` exactly when its leading coordinate is `b`. -/
theorem mem_slotSet (b : Fin 10) (i : S10x64x128.Idx) : i ∈ slotSet b ↔ (i 0).val = b.val := by
  rw [slotSet_eq, Rect.mem_set_unit]
  constructor
  · intro h
    have h0 := h 0
    simp at h0
    omega
  · intro h a
    have := (i a).isLt
    fin_cases a
    · simp; omega
    · simp; exact this
    · simp; exact this

/-- Different slots share no element. -/
theorem slots_disjoint : ∀ b ∈ (Finset.univ : Finset (Fin 10)), ∀ b' ∈ (Finset.univ : Finset (Fin 10)), b ≠ b' → Disjoint (slotSet b) (slotSet b') := by
  intro b _ b' _ h
  rw [slotSet_eq, slotSet_eq]
  refine Rect.unit_disjoint 0 ?_
  have : b.val ≠ b'.val := fun e => h (Fin.ext e)
  show b.val + 1 ≤ b'.val ∨ b'.val + 1 ≤ b.val
  omega

theorem slotSet_disjoint {b b' : Fin 10} (h : b ≠ b') : Disjoint (slotSet b) (slotSet b') :=
  slots_disjoint b (Finset.mem_univ _) b' (Finset.mem_univ _) h

/-- The ten slots are the whole scratch. -/
theorem slots_cover : (Finset.univ : Finset (Fin 10)).biUnion slotSet = Finset.univ := by
  ext i
  simp only [Finset.mem_biUnion, Finset.mem_univ, true_and, iff_true]
  exact ⟨⟨(i 0).val, (i 0).isLt⟩, (mem_slotSet _ i).mpr rfl⟩

/-- Holding a tile's row scratch is holding its ten slots. -/
theorem sR_slots (d : Dev nD) (c : Fin τ.nSC) (i : Fin τ.nSub) (f : Buf (Elt F) ((V d c i).loc cc0_scratch1)) :
    ((V d c i).loc cc0_scratch1 ↦{fullShare} f : sProp 𝕄)
      = bigSep Finset.univ fun b : Fin 10 => (V d c i).loc cc0_scratch1 ↦[(slotM b).view.set]{fullShare} f := by
  rw [← pointsTo_biUnion Finset.univ (ℓ := (V d c i).loc cc0_scratch1) slotSet slots_disjoint, slots_cover]; try rfl

end Cert.Proof.IdealKernel

end
-- ==== Proof.IdealOffsets.lean ====
/-
  The two offset chains of the loop in closed form.

  Inside the loop, trip k (of nine) and position r (of ten) handle chunk 3 + 10·k + r: the result's slab for that
  chunk starts at row (chunk / 2), column 128·(tile number) + 64·(chunk mod 2); the list of row numbers the gather
  started in the same step reads is chunk + 7's, at row ((chunk + 7) / 2) and column 64·((chunk + 7) mod 2) of the
  tile's index block. Both are finite statements over the grid, the trips and the positions, checked point by point.
-/
import proofs.«206438_g5171140624678_cont_8to1_c_1053_28_alg».proof.Proof.Gen.KernelIdeal

set_option Elab.async false

namespace Cert.Proof.IdealKernel

open Cert.KernelIdeal Cert.KernelIdeal.Gen
open Idealize.ShloMosaic

/-- The list window's offsets at trip `k`, position `r`: chunk `10 + 10·k + r`. -/
theorem k0_off6_eq : ∀ (k : Fin k0_t1_loop.trips) (r : Fin 10),
    k0_off6 k (BitVec.ofNat 32 r.val) = ![(10 + 10 * k.val + r.val) / 2, 64 * ((10 + 10 * k.val + r.val) % 2)] := by
  decide +kernel

/-- The result slab's offsets at grid point `L`, trip `k`, position `r`: chunk `3 + 10·k + r`. -/
theorem k0_off4_eq : ∀ (L : grid0.Coords) (k : Fin k0_t1_loop.trips) (r : Fin 10),
    k0_off4 L k (BitVec.ofNat 32 r.val)
      = ![(3 + 10 * k.val + r.val) / 2, 256 * (L 1).val + 128 * (L 0).val + 64 * ((3 + 10 * k.val + r.val) % 2), 0] := by
  decide +kernel

end Cert.Proof.IdealKernel
-- ==== Proof.IdealChunks.lean ====
/-
  The hundred chunks of a tile's block of the result.

  Tile number w fills columns [128·w, 128·w + 128) of every one of the fifty rows of the result. It does so in one
  hundred chunks of sixty-four columns: chunk c is row c / 2, the lower half of the tile's columns when c is even
  and the upper half when c is odd, all one hundred and twenty-eight entries of each. (The row is written
  (c / 2) mod 50 so that the offsets are inside the array for every natural number c; below one hundred the
  reduction does nothing.) Two different chunks below one hundred differ in the row or in the half, so they are
  disjoint; every element of the tile's block lies in the chunk its row and its half name, so the hundred chunks
  are the block. Holding the block is therefore holding the hundred chunks separately.

  The program never says "chunk c": each of its accesses names a slab of the result by offsets an integer chain
  computes. Each such slab is identified here with the chunk it is, as an equality of the two ways of reaching it;
  since a slab is determined by its offsets, it is enough that the offsets agree, and they do by the chains' closed
  forms and a little arithmetic (128·w = 256·(vector subcore) + 128·(SparseCore)).
-/
import proofs.«206438_g5171140624678_cont_8to1_c_1053_28_alg».proof.Proof.IdealPieces
import proofs.«206438_g5171140624678_cont_8to1_c_1053_28_alg».proof.Proof.IdealOffsets

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Where chunk `c` of tile `w` starts: row `(c / 2) mod 50`, column `128·w + 64·(c mod 2)`, entry `0`. -/
def chunkOff (w : Fin 32) (c : ℕ) : Fin 3 → Nat := ![(c / 2) % 50, 128 * w.val + 64 * (c % 2), 0]

theorem chunkOff_inb (w : Fin 32) (c : ℕ) : ∀ a, chunkOff w c a + S1x64x128.size a ≤ S50x4096x128.size a := by
  intro a
  have := w.isLt
  have := Nat.mod_lt (c / 2) (show 0 < 50 by decide)
  have := Nat.mod_lt c (show 0 < 2 by decide)
  fin_cases a <;> simp [chunkOff] <;> omega

/-- Chunk `c` of tile `w` as a rectangle of the result: one row, sixty-four columns, every entry. -/
abbrev oChunkR (w : Fin 32) (c : ℕ) : Rect S50x4096x128 := Rect.unit (s := S50x4096x128) (chunkOff w c) S1x64x128.size (chunkOff_inb w c)

/-- The chunk as the program reaches it: the slab, its leading axis of length one dropped. -/
abbrev oChunkM (w : Fin 32) (c : ℕ) : Memref sig .scVector .hbm S64x128 .f32 :=
  ((aO).slice (oChunkR w c) (fun _ => rfl)).squeeze S64x128 squeezes_S1x64x128_S64x128

/-- The elements of the result under the chunk. -/
abbrev oChunkSet (w : Fin 32) (c : ℕ) : Finset S50x4096x128.Idx := (oChunkM w c).view.set

/-- Dropping the unit axis moves no element: a chunk's elements are its rectangle's. -/
theorem oChunkSet_eq (w : Fin 32) (c : ℕ) : oChunkSet w c = (oChunkR w c).set := by
  show (((View.whole (main_v1_scv : Ref sig .scVector)).slice _).reshape _ _).set = _
  rw [View.set_reshape, View.set_slice]; exact Finset.map_refl

/-- A tile's block of the result is its part's elements. -/
theorem oSet_eq (w : Fin 32) : oSet w = (oPart w).set := by
  show ((View.whole (main_v1_scv : Ref sig .scVector)).slice _).set = _
  rw [View.set_slice]; exact Finset.map_refl

/-- An element is in chunk `c` of tile `w` exactly when its row is the chunk's and its column is in the chunk's half. -/
theorem mem_oChunkSet (w : Fin 32) (c : ℕ) (i : S50x4096x128.Idx) :
    i ∈ oChunkSet w c ↔ (i 0).val = (c / 2) % 50 ∧ 128 * w.val + 64 * (c % 2) ≤ (i 1).val ∧ (i 1).val < 128 * w.val + 64 * (c % 2) + 64 := by
  rw [oChunkSet_eq, Rect.mem_set_unit]
  constructor
  · intro h
    have h0 := h 0
    have h1 := h 1
    simp [chunkOff] at h0 h1
    omega
  · intro h a
    have := (i a).isLt
    fin_cases a
    · simp [chunkOff]; omega
    · simp [chunkOff]; omega
    · simp [chunkOff]; exact this

/-- An element is in tile `w`'s block exactly when its column is one of the tile's. -/
theorem mem_oSet (w : Fin 32) (i : S50x4096x128.Idx) : i ∈ oSet w ↔ 128 * w.val ≤ (i 1).val ∧ (i 1).val < 128 * w.val + 128 := by
  rw [oSet_eq, Rect.mem_set_unit]
  constructor
  · intro h
    have h1 := h 1
    simp [Shape.partIx, Shape.partSize] at h1
    omega
  · intro h a
    have := (i a).isLt
    fin_cases a
    · simp [Shape.partIx, Shape.partSize]; exact this
    · simp [Shape.partIx, Shape.partSize]; omega
    · simp [Shape.partIx, Shape.partSize]; exact this

/-- Different chunks below one hundred share no element: a common element would give them one row and one half. -/
theorem oChunks_disjoint (w : Fin 32) : ∀ c ∈ Finset.range 100, ∀ c' ∈ Finset.range 100, c ≠ c' → Disjoint (oChunkSet w c) (oChunkSet w c') := by
  intro c hc c' hc' hne
  rw [Finset.mem_range] at hc hc'
  rw [Finset.disjoint_left]
  intro i h h'
  rw [mem_oChunkSet] at h h'
  omega

theorem oChunkSet_disjoint (w : Fin 32) {c c' : ℕ} (hc : c < 100) (hc' : c' < 100) (h : c ≠ c') : Disjoint (oChunkSet w c) (oChunkSet w c') :=
  oChunks_disjoint w c (Finset.mem_range.mpr hc) c' (Finset.mem_range.mpr hc') h

/-- A chunk lies inside its tile's block. -/
theorem oChunkSet_subset (w : Fin 32) (c : ℕ) : oChunkSet w c ⊆ oSet w := by
  intro i h
  rw [mem_oChunkSet] at h
  rw [mem_oSet]
  omega

/-- The hundred chunks are the tile's block: the element at row `s`, column `128·w + x` is in chunk `2·s + x / 64`. -/
theorem oChunks_cover (w : Fin 32) : (Finset.range 100).biUnion (oChunkSet w) = oSet w := by
  ext i
  simp only [Finset.mem_biUnion, Finset.mem_range, mem_oChunkSet, mem_oSet]
  have h0 : (i 0).val < 50 := (i 0).isLt
  constructor
  · rintro ⟨c, hc, h⟩
    omega
  · intro h
    refine ⟨2 * (i 0).val + ((i 1).val - 128 * w.val) / 64, ?_, ?_⟩ <;> omega

/-- Holding a tile's block of the result is holding its hundred chunks. -/
theorem oPts_chunks (d : Dev nD) (f : Buf (Elt F) (oLoc d)) (w : Fin 32) :
    (oLoc d ↦[oSet w]{fullShare} f : sProp 𝕄) = bigSep (Finset.range 100) fun c => oLoc d ↦[(oChunkM w c).view.set]{fullShare} f := by
  rw [← pointsTo_biUnion (Finset.range 100) (ℓ := oLoc d) (oChunkSet w) (oChunks_disjoint w), oChunks_cover]

/-! ## The program's offsets are the chunks' -/

/-- The first two steps' offsets, position `r` of two: chunk `r`'s. -/
theorem off2_chunk (L : grid0.Coords) (r : Fin 2) (c : ℕ) (hc : c = r.val) : k0_off2 L (BitVec.ofNat 32 (64 * r.val)) = chunkOff (widL L) c := by
  have hr := r.isLt
  have hw := widL_val L
  rw [k0_off2_eq, hc]
  funext a
  fin_cases a <;> simp [chunkOff, hw] <;> omega

/-- The third step's offsets: chunk two's. -/
theorem off3_chunk (L : grid0.Coords) : k0_off3 L = chunkOff (widL L) 2 := by
  have hw := widL_val L
  rw [k0_off3_eq]
  funext a
  fin_cases a <;> simp [chunkOff, hw] <;> omega

/-- The loop's offsets at trip `k`, position `r`: chunk `3 + 10·k + r`'s. -/
theorem off4_chunk (L : grid0.Coords) (k : Fin k0_t1_loop.trips) (r : Fin 10) (c : ℕ) (hc : c = 3 + 10 * k.val + r.val) : k0_off4 L k (BitVec.ofNat 32 r.val) = chunkOff (widL L) c := by
  have hk : k.val < 9 := Nat.lt_of_lt_of_le k.isLt k0_t1_abs.2.1
  have hr := r.isLt
  have hw := widL_val L
  rw [k0_off4_eq, hc]
  funext a
  fin_cases a <;> simp [chunkOff, hw] <;> omega

/-- The first step after the loop: chunk ninety-three's. -/
theorem off7_chunk (L : grid0.Coords) : k0_off7 L = chunkOff (widL L) 93 := by
  have hw := widL_val L
  rw [k0_off7_eq]
  funext a
  fin_cases a <;> simp [chunkOff, hw] <;> omega

/-- The next two, position `r` of two: chunk `94 + r`'s. -/
theorem off9_chunk (L : grid0.Coords) (r : Fin 2) (c : ℕ) (hc : c = 94 + r.val) : k0_off9 L (BitVec.ofNat 32 (64 * r.val)) = chunkOff (widL L) c := by
  have hr := r.isLt
  have hw := widL_val L
  rw [k0_off9_eq, hc]
  funext a
  fin_cases a <;> simp [chunkOff, hw] <;> omega

/-- The next two: chunk `96 + r`'s. -/
theorem off10_chunk (L : grid0.Coords) (r : Fin 2) (c : ℕ) (hc : c = 96 + r.val) : k0_off10 L (BitVec.ofNat 32 (64 * r.val)) = chunkOff (widL L) c := by
  have hr := r.isLt
  have hw := widL_val L
  rw [k0_off10_eq, hc]
  funext a
  fin_cases a <;> simp [chunkOff, hw] <;> omega

/-- The last two: chunk `98 + r`'s. -/
theorem off11_chunk (L : grid0.Coords) (r : Fin 2) (c : ℕ) (hc : c = 98 + r.val) : k0_off11 L (BitVec.ofNat 32 (64 * r.val)) = chunkOff (widL L) c := by
  have hr := r.isLt
  have hw := widL_val L
  rw [k0_off11_eq, hc]
  funext a
  fin_cases a <;> simp [chunkOff, hw] <;> omega

/-! ## The program's spellings -/

/-- A slab of the result of a chunk's sizes whose offsets are chunk `c`'s of tile `w` is that chunk, whatever
    evidence it carries that it lies inside the array. -/
theorem oSpell {off : Fin 3 → Nat} (inb : ∀ a, off a + S1x64x128.size a ≤ S50x4096x128.size a) (w : Fin 32) (c : ℕ) (h : off = chunkOff w c) :
    ((aO).slice (Rect.unit (s := S50x4096x128) off S1x64x128.size inb) (fun _ => rfl)).squeeze S64x128 squeezes_S1x64x128_S64x128 = oChunkM w c := by
  subst h; rfl

/-- The first two steps' slabs, position `r` of two: chunk `r`. -/
theorem spell_off2 (L : grid0.Coords) (r : Fin 2) (c : ℕ) (hc : c = r.val) :
    ((aO).slice (Rect.unit (s := S50x4096x128) (k0_off2 L (BitVec.ofNat 32 (64 * r.val))) S1x64x128.size (k0_off2_inb L r)) (fun _ => rfl)).squeeze S64x128 squeezes_S1x64x128_S64x128
      = oChunkM (widL L) c := by
  exact oSpell _ _ _ (off2_chunk L r c hc)

/-- The third step's slab: chunk two. -/
theorem spell_off3 (L : grid0.Coords) :
    ((aO).slice (Rect.unit (s := S50x4096x128) (k0_off3 L) S1x64x128.size (k0_off3_inb L)) (fun _ => rfl)).squeeze S64x128 squeezes_S1x64x128_S64x128
      = oChunkM (widL L) 2 := by
  exact oSpell _ _ _ (off3_chunk L)

/-- The loop's slab at trip `k`, position `r`: chunk `3 + 10·k + r`. -/
theorem spell_off4 (L : grid0.Coords) (k : Fin k0_t1_loop.trips) (r : Fin 10) (c : ℕ) (hc : c = 3 + 10 * k.val + r.val) :
    ((aO).slice (Rect.unit (s := S50x4096x128) (k0_off4 L k (BitVec.ofNat 32 r.val)) S1x64x128.size (k0_off4_inb L k r)) (fun _ => rfl)).squeeze S64x128 squeezes_S1x64x128_S64x128
      = oChunkM (widL L) c := by
  exact oSpell _ _ _ (off4_chunk L k r c hc)

/-- The first step after the loop: chunk ninety-three. -/
theorem spell_off7 (L : grid0.Coords) :
    ((aO).slice (Rect.unit (s := S50x4096x128) (k0_off7 L) S1x64x128.size (k0_off7_inb L)) (fun _ => rfl)).squeeze S64x128 squeezes_S1x64x128_S64x128
      = oChunkM (widL L) 93 := by
  exact oSpell _ _ _ (off7_chunk L)

/-- The next two, position `r` of two: chunk `94 + r`. -/
theorem spell_off9 (L : grid0.Coords) (r : Fin 2) (c : ℕ) (hc : c = 94 + r.val) :
    ((aO).slice (Rect.unit (s := S50x4096x128) (k0_off9 L (BitVec.ofNat 32 (64 * r.val))) S1x64x128.size (k0_off9_inb L r)) (fun _ => rfl)).squeeze S64x128 squeezes_S1x64x128_S64x128
      = oChunkM (widL L) c := by
  exact oSpell _ _ _ (off9_chunk L r c hc)

/-- The next two: chunk `96 + r`. -/
theorem spell_off10 (L : grid0.Coords) (r : Fin 2) (c : ℕ) (hc : c = 96 + r.val) :
    ((aO).slice (Rect.unit (s := S50x4096x128) (k0_off10 L (BitVec.ofNat 32 (64 * r.val))) S1x64x128.size (k0_off10_inb L r)) (fun _ => rfl)).squeeze S64x128 squeezes_S1x64x128_S64x128
      = oChunkM (widL L) c := by
  exact oSpell _ _ _ (off10_chunk L r c hc)

/-- The last two: chunk `98 + r`. -/
theorem spell_off11 (L : grid0.Coords) (r : Fin 2) (c : ℕ) (hc : c = 98 + r.val) :
    ((aO).slice (Rect.unit (s := S50x4096x128) (k0_off11 L (BitVec.ofNat 32 (64 * r.val))) S1x64x128.size (k0_off11_inb L r)) (fun _ => rfl)).squeeze S64x128 squeezes_S1x64x128_S64x128
      = oChunkM (widL L) c := by
  exact oSpell _ _ _ (off11_chunk L r c hc)

end Cert.Proof.IdealKernel

end
-- ==== Proof.IdealLists.lean ====
/-
  The hundred lists of row numbers in a tile's index block.

  The index block holds the tile's slab of the id table: fifty rows of one hundred and twenty-eight row numbers.
  The gather for chunk c reads the sixty-four of them at row c / 2, the lower half of the row when c is even and
  the upper half when c is odd. (The row is written (c / 2) mod 50 so that the window is inside the block for
  every natural number c; below one hundred the reduction does nothing.) Different lists below one hundred differ
  in the row or in the half, and every element of the block lies in the list its row and half name: the hundred
  lists are disjoint and are the block. The program's ways of naming a list — ten with literal offsets before the
  loop, one through an integer chain inside it — are identified with the list they are.
-/
import proofs.«206438_g5171140624678_cont_8to1_c_1053_28_alg».proof.Proof.IdealPieces
import proofs.«206438_g5171140624678_cont_8to1_c_1053_28_alg».proof.Proof.IdealOffsets

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Where the list for chunk `c` starts: row `(c / 2) mod 50`, column `64·(c mod 2)`. -/
def listOff (c : ℕ) : Fin 2 → Nat := ![(c / 2) % 50, 64 * (c % 2)]

theorem listOff_inb (c : ℕ) : ∀ a, listOff c a + S1x64.size a ≤ S50x128.size a := by
  intro a
  have := Nat.mod_lt (c / 2) (show 0 < 50 by decide)
  have := Nat.mod_lt c (show 0 < 2 by decide)
  fin_cases a <;> simp [listOff] <;> omega

/-- The list for chunk `c` as a rectangle of the block: one row, sixty-four columns. -/
abbrev listR (c : ℕ) : Rect S50x128 := Rect.unit (s := S50x128) (listOff c) S1x64.size (listOff_inb c)

/-- The list as the program reaches it: the window, its leading axis of length one dropped. -/
abbrev listM (c : ℕ) : Memref sig .scVector .vmem S64 .i32 :=
  ((sI).slice (listR c) (fun _ => rfl)).squeeze S64 squeezes_S1x64_S64

/-- The elements of the block under the list. -/
abbrev listSet (c : ℕ) : Finset S50x128.Idx := (listM c).view.set

/-! Each of the ten lists the program reads with literal offsets before the loop is the list of that chunk. -/
theorem listM_lit0 : ((sI).slice (Rect.unit (s := S50x128) ![0, 0] S1x64.size inb_S50x128_S1x64_0_0) (fun _ => rfl)).squeeze S64 squeezes_S1x64_S64 = listM 0 := rfl
theorem listM_lit1 : ((sI).slice (Rect.unit (s := S50x128) ![0, 64] S1x64.size inb_S50x128_S1x64_0_64) (fun _ => rfl)).squeeze S64 squeezes_S1x64_S64 = listM 1 := rfl
theorem listM_lit2 : ((sI).slice (Rect.unit (s := S50x128) ![1, 0] S1x64.size inb_S50x128_S1x64_1_0) (fun _ => rfl)).squeeze S64 squeezes_S1x64_S64 = listM 2 := rfl
theorem listM_lit3 : ((sI).slice (Rect.unit (s := S50x128) ![1, 64] S1x64.size inb_S50x128_S1x64_1_64) (fun _ => rfl)).squeeze S64 squeezes_S1x64_S64 = listM 3 := rfl
theorem listM_lit4 : ((sI).slice (Rect.unit (s := S50x128) ![2, 0] S1x64.size inb_S50x128_S1x64_2_0) (fun _ => rfl)).squeeze S64 squeezes_S1x64_S64 = listM 4 := rfl
theorem listM_lit5 : ((sI).slice (Rect.unit (s := S50x128) ![2, 64] S1x64.size inb_S50x128_S1x64_2_64) (fun _ => rfl)).squeeze S64 squeezes_S1x64_S64 = listM 5 := rfl
theorem listM_lit6 : ((sI).slice (Rect.unit (s := S50x128) ![3, 0] S1x64.size inb_S50x128_S1x64_3_0) (fun _ => rfl)).squeeze S64 squeezes_S1x64_S64 = listM 6 := rfl
theorem listM_lit7 : ((sI).slice (Rect.unit (s := S50x128) ![3, 64] S1x64.size inb_S50x128_S1x64_3_64) (fun _ => rfl)).squeeze S64 squeezes_S1x64_S64 = listM 7 := rfl
theorem listM_lit8 : ((sI).slice (Rect.unit (s := S50x128) ![4, 0] S1x64.size inb_S50x128_S1x64_4_0) (fun _ => rfl)).squeeze S64 squeezes_S1x64_S64 = listM 8 := rfl
theorem listM_lit9 : ((sI).slice (Rect.unit (s := S50x128) ![4, 64] S1x64.size inb_S50x128_S1x64_4_64) (fun _ => rfl)).squeeze S64 squeezes_S1x64_S64 = listM 9 := rfl

/-- Dropping the unit axis moves no element: a list's elements are its rectangle's. -/
theorem listSet_eq (c : ℕ) : listSet c = (listR c).set := by
  show (((View.whole (cc0_scratch0 : Ref sig .scVector)).slice _).reshape _ _).set = _
  rw [View.set_reshape, View.set_slice]; exact Finset.map_refl

/-- An element of the block is in the list for chunk `c` exactly when its row is the chunk's and its column is in the chunk's half. -/
theorem mem_listSet (c : ℕ) (i : S50x128.Idx) :
    i ∈ listSet c ↔ (i 0).val = (c / 2) % 50 ∧ 64 * (c % 2) ≤ (i 1).val ∧ (i 1).val < 64 * (c % 2) + 64 := by
  rw [listSet_eq, Rect.mem_set_unit]
  constructor
  · intro h
    have h0 := h 0
    have h1 := h 1
    simp [listOff] at h0 h1
    omega
  · intro h a
    fin_cases a
    · simp [listOff]; omega
    · simp [listOff]; omega

/-- Different lists below one hundred share no element. -/
theorem lists_disjoint : ∀ c ∈ Finset.range 100, ∀ c' ∈ Finset.range 100, c ≠ c' → Disjoint (listSet c) (listSet c') := by
  intro c hc c' hc' hne
  rw [Finset.mem_range] at hc hc'
  rw [Finset.disjoint_left]
  intro i h h'
  rw [mem_listSet] at h h'
  omega

theorem listSet_disjoint {c c' : ℕ} (hc : c < 100) (hc' : c' < 100) (h : c ≠ c') : Disjoint (listSet c) (listSet c') :=
  lists_disjoint c (Finset.mem_range.mpr hc) c' (Finset.mem_range.mpr hc') h

/-- The hundred lists are the block: the element at row `s`, column `x` is in list `2·s + x / 64`. -/
theorem lists_cover : (Finset.range 100).biUnion listSet = Finset.univ := by
  ext i
  simp only [Finset.mem_biUnion, Finset.mem_range, mem_listSet, Finset.mem_univ, iff_true]
  have h0 : (i 0).val < 50 := (i 0).isLt
  have h1 : (i 1).val < 128 := (i 1).isLt
  refine ⟨2 * (i 0).val + (i 1).val / 64, ?_, ?_⟩ <;> omega

/-- Holding a tile's index block is holding its hundred lists. -/
theorem sI_lists (d : Dev nD) (c : Fin τ.nSC) (i : Fin τ.nSub) (f : Buf (Elt F) ((V d c i).loc cc0_scratch0)) :
    ((V d c i).loc cc0_scratch0 ↦{fullShare} f : sProp 𝕄)
      = bigSep (Finset.range 100) fun n => (V d c i).loc cc0_scratch0 ↦[(listM n).view.set]{fullShare} f := by
  rw [← pointsTo_biUnion (Finset.range 100) (ℓ := (V d c i).loc cc0_scratch0) listSet lists_disjoint, lists_cover]; try rfl

/-! ## The loop's spelling -/

/-- A window of the block of a list's sizes whose offsets are list `c`'s is that list, whatever evidence it carries
    that it lies inside the block. -/
theorem lSpell {off : Fin 2 → Nat} (inb : ∀ a, off a + S1x64.size a ≤ S50x128.size a) (c : ℕ) (h : off = listOff c) :
    ((sI).slice (Rect.unit (s := S50x128) off S1x64.size inb) (fun _ => rfl)).squeeze S64 squeezes_S1x64_S64 = listM c := by
  subst h; rfl

/-- The loop's offsets at trip `k`, position `r`: those of the list for chunk `10 + 10·k + r`. -/
theorem off6_list (k : Fin k0_t1_loop.trips) (r : Fin 10) (c : ℕ) (hc : c = 10 + 10 * k.val + r.val) :
    k0_off6 k (BitVec.ofNat 32 r.val) = listOff c := by
  have hk : k.val < 9 := Nat.lt_of_lt_of_le k.isLt k0_t1_abs.2.1
  have hr := r.isLt
  rw [k0_off6_eq, hc]
  funext a
  fin_cases a <;> simp [listOff] <;> omega

/-- The loop's window at trip `k`, position `r`: the list for chunk `10 + 10·k + r`. -/
theorem spell_off6 (k : Fin k0_t1_loop.trips) (r : Fin 10) (c : ℕ) (hc : c = 10 + 10 * k.val + r.val) :
    ((sI).slice (Rect.unit (s := S50x128) (k0_off6 k (BitVec.ofNat 32 r.val)) S1x64.size (k0_off6_inb k r)) (fun _ => rfl)).squeeze S64 squeezes_S1x64_S64
      = listM c := by
  exact lSpell _ _ (off6_list k r c hc)

end Cert.Proof.IdealKernel

end
-- ==== Proof.IdealTens.lean ====
/-
  A hundred separate things, taken ten at a time.

  A separating conjunction over the numbers below one hundred is the conjunction, over j below ten, of the ten
  conjuncts numbered 10·j, 10·j + 1, …, 10·j + 9 in that order. The numbers below 10·(n + 1) are those below 10·n
  and the ten from 10·n on, two disjoint sets; the ten are listed one by one; and the groups are collected by
  induction on their number.
-/
import proofs.«206438_g5171140624678_cont_8to1_c_1053_28_alg».proof.Proof.IdealPieces

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The ten numbers from `a` on, listed. -/
theorem Ico_ten (a : ℕ) : Finset.Ico a (a + 10) = insert (a + 0) (insert (a + 1) (insert (a + 2) (insert (a + 3) (insert (a + 4)
    (insert (a + 5) (insert (a + 6) (insert (a + 7) (insert (a + 8) {a + 9})))))))) := by
  ext x
  simp only [Finset.mem_Ico, Finset.mem_insert, Finset.mem_singleton]
  omega

/-- The conjunction over the ten numbers from `a` on, written out in order. -/
theorem bigSep_Ico_ten (Φ : ℕ → sProp 𝕄) (a : ℕ) :
    (bigSep (Finset.Ico a (a + 10)) Φ : sProp 𝕄)
      = iprop(Φ (a + 0) ∗ Φ (a + 1) ∗ Φ (a + 2) ∗ Φ (a + 3) ∗ Φ (a + 4) ∗ Φ (a + 5) ∗ Φ (a + 6) ∗ Φ (a + 7) ∗ Φ (a + 8) ∗ Φ (a + 9)) := by
  rw [Ico_ten]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_singleton]; omega)]
  rw [bigSep_singleton]

/-- One more group of ten. -/
theorem bigSep_range_ten_succ (Φ : ℕ → sProp 𝕄) (n : ℕ) :
    (bigSep (Finset.range (10 * (n + 1))) Φ : sProp 𝕄)
      = iprop(bigSep (Finset.range (10 * n)) Φ ∗ Φ (10 * n + 0) ∗ Φ (10 * n + 1) ∗ Φ (10 * n + 2) ∗ Φ (10 * n + 3) ∗ Φ (10 * n + 4) ∗ Φ (10 * n + 5) ∗ Φ (10 * n + 6) ∗ Φ (10 * n + 7) ∗ Φ (10 * n + 8) ∗ Φ (10 * n + 9)) := by
  have hU : Finset.range (10 * (n + 1)) = Finset.range (10 * n) ∪ Finset.Ico (10 * n) (10 * n + 10) := by
    ext x
    simp only [Finset.mem_range, Finset.mem_union, Finset.mem_Ico]
    omega
  have hD : Disjoint (Finset.range (10 * n)) (Finset.Ico (10 * n) (10 * n + 10)) := by
    rw [Finset.disjoint_left]
    intro x hx hx'
    simp only [Finset.mem_range] at hx
    simp only [Finset.mem_Ico] at hx'
    omega
  rw [hU, SparseCore.bigSep_union' hD, bigSep_Ico_ten]

/-- Any number of groups of ten. -/
theorem bigSep_range_tens (Φ : ℕ → sProp 𝕄) (n : ℕ) :
    (bigSep (Finset.range (10 * n)) Φ : sProp 𝕄)
      = bigSep (Finset.range n) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9)) := by
  induction n with
  | zero => rfl
  | succ n ih =>
    rw [bigSep_range_ten_succ, ih, Finset.range_add_one, SparseCore.bigSep_insert' Finset.notMem_range_self]
    exact BI.equiv_iff.mp ⟨Idealize.SL.BI.sep_comm, Idealize.SL.BI.sep_comm⟩

/-- A hundred, by tens. -/
theorem bigSep_tens (Φ : ℕ → sProp 𝕄) :
    (bigSep (Finset.range 100) Φ : sProp 𝕄)
      = bigSep (Finset.range 10) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9)) :=
  bigSep_range_tens Φ 10

/-- A hundred: the first ten, and the other nine groups. -/
theorem tens_head (Φ : ℕ → sProp 𝕄) :
    (bigSep (Finset.range 100) Φ : sProp 𝕄)
      = iprop((Φ (10 * 0 + 0) ∗ Φ (10 * 0 + 1) ∗ Φ (10 * 0 + 2) ∗ Φ (10 * 0 + 3) ∗ Φ (10 * 0 + 4) ∗ Φ (10 * 0 + 5) ∗ Φ (10 * 0 + 6) ∗ Φ (10 * 0 + 7) ∗ Φ (10 * 0 + 8) ∗ Φ (10 * 0 + 9))
          ∗ bigSep (Finset.Ico 1 10) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9))) := by
  rw [bigSep_tens]
  have h10 : Finset.range 10 = insert 0 (Finset.Ico 1 10) := by
    ext x
    simp only [Finset.mem_range, Finset.mem_insert, Finset.mem_Ico]
    omega
  rw [h10, SparseCore.bigSep_insert' (by simp)]

end Cert.Proof.IdealKernel

end
-- ==== Proof.IdealValues.lean ====
/-
  The values the transfers move, element by element.

  The geometry says which elements of which array a transfer touches; this says what is written there. An index of a
  slot, of a chunk of the result, of a list of row numbers or of the slab of ids is placed in its array by explicit
  coordinates. With those, the gather of the rows a list names is followed to the table rows it fetches, and the
  write-out of a slot to the entries of the result it fills; what it fills them with is the lookup.
-/
import proofs.«206438_g5171140624678_cont_8to1_c_1053_28_alg».proof.Proof.IdealSlab
import proofs.«206438_g5171140624678_cont_8to1_c_1053_28_alg».proof.Proof.IdealSlots
import proofs.«206438_g5171140624678_cont_8to1_c_1053_28_alg».proof.Proof.IdealChunks
import proofs.«206438_g5171140624678_cont_8to1_c_1053_28_alg».proof.Proof.IdealLists

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

open Idealize.ShloMosaic.ValueIdx

/-! ## Bounds -/

theorem row_lt (c : ℕ) : (c / 2) % 50 < 50 := Nat.mod_lt _ (by decide)
theorem col_lt (w : Fin 32) (c : ℕ) (t : Fin 64) : 128 * w.val + 64 * (c % 2) + t.val < 4096 := by
  have := w.isLt; have := t.isLt; have := Nat.mod_lt c (show 0 < 2 by decide); omega
theorem lcol_lt (c : ℕ) (t : Fin 64) : 64 * (c % 2) + t.val < 128 := by
  have := t.isLt; have := Nat.mod_lt c (show 0 < 2 by decide); omega
theorem scol_lt (w : Fin 32) (t : Fin 128) : 128 * w.val + t.val < 4096 := by
  have := w.isLt; have := t.isLt; omega

/-! ## Where each index of a slot, a chunk, a list lies in its array -/

theorem slotM_emb (b : Fin 10) (y : S64x128.Idx) :
    (slotM b).view.emb y = (ix3 (n0 := 10) (n1 := 64) (n2 := 128) b (y 0) (y 1) : S10x64x128.Idx) := by
  show (slotR b).emb (Shape.reshapeEquiv _ y) = _
  rw [Shape.reshapeEquiv_cons_one]
  funext a
  refine Fin.ext ?_
  match a with
  | ⟨0, _⟩ => simp [Rect.emb_apply]; rfl
  | ⟨1, _⟩ => simp [Rect.emb_apply]; rfl
  | ⟨2, _⟩ => simp [Rect.emb_apply]; rfl

theorem oChunkM_emb (w : Fin 32) (c : ℕ) (y : S64x128.Idx) :
    (oChunkM w c).view.emb y
      = (ix3 (n0 := 50) (n1 := 4096) (n2 := 128) ⟨(c / 2) % 50, row_lt c⟩ ⟨128 * w.val + 64 * (c % 2) + (y 0).val, col_lt w c (y 0)⟩ (y 1) : S50x4096x128.Idx) := by
  show (oChunkR w c).emb (Shape.reshapeEquiv _ y) = _
  rw [Shape.reshapeEquiv_cons_one]
  funext a
  refine Fin.ext ?_
  match a with
  | ⟨0, _⟩ => simp [Rect.emb_apply, chunkOff]; rfl
  | ⟨1, _⟩ => simp [Rect.emb_apply, chunkOff]; rfl
  | ⟨2, _⟩ => simp [Rect.emb_apply, chunkOff]; rfl

theorem listM_emb (c : ℕ) (x : S64.Idx) :
    (listM c).view.emb x
      = (ix2 (n0 := 50) (n1 := 128) ⟨(c / 2) % 50, row_lt c⟩ ⟨64 * (c % 2) + (x 0).val, lcol_lt c (x 0)⟩ : S50x128.Idx) := by
  show (listR c).emb (Shape.reshapeEquiv _ x) = _
  rw [Shape.reshapeEquiv_cons_one]
  funext a
  refine Fin.ext ?_
  match a with
  | ⟨0, _⟩ => simp [Rect.emb_apply, listOff]; rfl
  | ⟨1, _⟩ => simp [Rect.emb_apply, listOff]; rfl

/-- Where each index of the slab of row numbers lies in the id table: same row, the tile's first column further on. -/
theorem iSlab_emb (L : grid0.Coords) (j : S50x128.Idx) :
    (iSlab L).view.emb j = (ix2 (n0 := 50) (n1 := 4096) (j 0) ⟨128 * (widL L).val + (j 1).val, scol_lt (widL L) (j 1)⟩ : S50x4096.Idx) := by
  show (Rect.unit (s := S50x4096) (k0_off1 L) S50x128.size (k0_off1_inb L)).emb j = _
  have hw := widL_val L
  funext a
  refine Fin.ext ?_
  match a with
  | ⟨0, _⟩ => simp [Rect.emb_apply, k0_off1_eq]
  | ⟨1, _⟩ => simp [Rect.emb_apply, k0_off1_eq]; omega

/-! ## What the transfers land

`It` is the transposed id table, `Wt` the embedding table. A tile's index block holds the tile's columns of `It`; the
gather for chunk `c` reads the chunk's sixty-four row numbers there and fetches those rows of `Wt` into a slot; the
write-out copies the slot to the chunk of the result. Each is followed here element by element. -/

/-- What a slot holds once the rows for chunk `c` of tile `w` have been gathered into it: row `t` of the slot is the
    table row that the id at row `c / 2`, column `128·w + 64·(c mod 2) + t` names. It does not depend on which slot.
    (The reductions modulo 50 and 4096 only make the indices total; they do nothing for the chunks that exist.) -/
def slotVal (It : S50x4096.Idx → Elt F .i32) (Wt : S100000x128.Idx → Elt F .f32) (w : Fin 32) (c : ℕ) : S10x64x128.Idx → Elt F .f32 :=
  fun i => Wt (ix2 (n0 := 100000) (n1 := 128)
    (rowOf (It (ix2 (n0 := 50) (n1 := 4096) ⟨(c / 2) % 50, row_lt c⟩ ⟨(128 * w.val + 64 * (c % 2) + (i 1).val) % 4096, Nat.mod_lt _ (by decide)⟩)))
    (i 2 : Fin 128))

/-- The embedding table, whole, as the gather names its source. -/
abbrev aWs : Memref sig .scVector .hbm S100000x128 .f32 :=
  (aW).slice (Rect.unit (s := S100000x128) ![0, 0] S100000x128.size inb_S100000x128_S100000x128_0_0) (fun _ => rfl)

/-- A list read off the index block: entry `t` of the list for chunk `c` is the block at row `c / 2`, column `64·(c mod 2) + t`. -/
theorem list_read (c : ℕ) (C : S50x128.Idx → Elt F .i32) (x : S64.Idx) :
    (listM c).view.read (Elt F) C x = C (ix2 (n0 := 50) (n1 := 128) ⟨(c / 2) % 50, row_lt c⟩ ⟨64 * (c % 2) + (x 0).val, lcol_lt c (x 0)⟩) := by
  rw [View.read_apply, listM_emb]; exact cast_eq _ _

/-- The table row the gather fetches for row `k` of the slot: the one the id at row `c / 2`, column `128·w + 64·(c mod 2) + k`
    names, when the index block holds the tile's columns of the id table and every word read is a row of the table. -/
theorem rows_list (It : S50x4096.Idx → Elt F .i32) (w : Fin 32) (c : ℕ) (C : S50x128.Idx → Elt F .i32)
    (hC : ∀ j : S50x128.Idx, C j = It (ix2 (n0 := 50) (n1 := 4096) (j 0) ⟨128 * w.val + (j 1).val, scol_lt w (j 1)⟩))
    (hn : S64.numel = S64x128.size gathers_S100000x128_S64x128.axis')
    (hin : ∀ x, ((listM c).view.read (Elt F) C x).toNat < S100000x128.size gathers_S100000x128_S64x128.axis)
    (k : Fin 64) :
    (SparseCore.rows ((listM c).view.read (Elt F) C) hn hin k).val
      = (rowOf (It (ix2 (n0 := 50) (n1 := 4096) ⟨(c / 2) % 50, row_lt c⟩ ⟨(128 * w.val + 64 * (c % 2) + k.val) % 4096, Nat.mod_lt _ (by decide)⟩))).val := by
  have hx0 : ((S64.rowMajor.symm (k.cast hn.symm)) 0).val = k.val := by
    have h1 := Shape.rowMajor_val_one (S64.rowMajor.symm (k.cast hn.symm))
    rw [Equiv.apply_symm_apply] at h1
    exact h1.symm
  show ((listM c).view.read (Elt F) C (S64.rowMajor.symm (k.cast hn.symm))).toNat = _
  have hlt := hin (S64.rowMajor.symm (k.cast hn.symm))
  rw [list_read, hC] at hlt ⊢
  have hI : (ix2 (n0 := 50) (n1 := 4096) ⟨(c / 2) % 50, row_lt c⟩ ⟨128 * w.val + (64 * (c % 2) + ((S64.rowMajor.symm (k.cast hn.symm)) 0).val), by rw [hx0]; have := col_lt w c k; omega⟩ : S50x4096.Idx)
      = ix2 (n0 := 50) (n1 := 4096) ⟨(c / 2) % 50, row_lt c⟩ ⟨(128 * w.val + 64 * (c % 2) + k.val) % 4096, Nat.mod_lt _ (by decide)⟩ := by
    refine congrArg (ix2 _) (Fin.ext ?_)
    have hm := Nat.mod_eq_of_lt (col_lt w c k)
    show 128 * w.val + (64 * (c % 2) + _) = (128 * w.val + 64 * (c % 2) + k.val) % 4096
    rw [hx0]; omega
  have e := congrArg (fun j => (It j).toNat) hI
  have hlt' : (It (ix2 (n0 := 50) (n1 := 4096) ⟨(c / 2) % 50, row_lt c⟩ ⟨(128 * w.val + 64 * (c % 2) + k.val) % 4096, Nat.mod_lt _ (by decide)⟩)).toNat < 100000 := by
    rw [← hI]; exact hlt
  exact e.trans (Nat.mod_eq_of_lt hlt').symm

/-- WHAT A GATHER LANDS. With the index block holding the tile's columns of the id table, the gather for chunk `c` leaves
    in slot `b`, at every element of the slot, the rows for chunk `c`. -/
theorem gather_lands (It : S50x4096.Idx → Elt F .i32) (Wt : S100000x128.Idx → Elt F .f32) (w : Fin 32) (b : Fin 10) (c : ℕ)
    (C : S50x128.Idx → Elt F .i32)
    (hC : ∀ j : S50x128.Idx, C j = It (ix2 (n0 := 50) (n1 := 4096) (j 0) ⟨128 * w.val + (j 1).val, scol_lt w (j 1)⟩))
    (hn : S64.numel = S64x128.size gathers_S100000x128_S64x128.axis')
    (hin : ∀ x, ((listM c).view.read (Elt F) C x).toNat < S100000x128.size gathers_S100000x128_S64x128.axis)
    (prev : S10x64x128.Idx → Elt F .f32) :
    ∀ i ∈ (slotM b).view.set,
      (slotM b).view.writes (Elt F) prev [⟨Rect.whole S64x128, SparseCore.gatherPayload gathers_S100000x128_S64x128 ((aWs).view.read (Elt F) Wt) (SparseCore.rows ((listM c).view.read (Elt F) C) hn hin)⟩] i
        = slotVal It Wt w c i := by
  intro i hi
  obtain ⟨y, -, rfl⟩ := Finset.mem_map.mp hi
  rw [View.writes_singleton]
  have he : (slotM b).view.emb y = ((slotM b).view.slice (Rect.whole S64x128)).emb y := by
    show _ = (slotM b).view.emb ((Rect.whole S64x128).emb y)
    rw [Rect.emb_whole_apply]
  conv_lhs => rw [he]
  rw [View.write_emb_of_mem _ _ (Finset.mem_univ _), slotM_emb]
  refine (cast_eq _ _).trans ?_
  show (aWs.view.read (Elt F) Wt) (gathers_S100000x128_S64x128.idx (SparseCore.rows ((listM c).view.read (Elt F) C) hn hin) y) = _
  rw [View.read_apply]
  refine (cast_eq _ _).trans ?_
  unfold slotVal
  refine congrArg Wt ?_
  funext a
  refine Fin.ext ?_
  match a with
  | ⟨0, _⟩ =>
    show ((Rect.unit (s := S100000x128) ![0, 0] S100000x128.size inb_S100000x128_S100000x128_0_0).emb _ ⟨0, _⟩).val = (rowOf _).val
    rw [Rect.emb_apply]
    have hz := Shape.Gathers.idx_axis gathers_S100000x128_S64x128 (SparseCore.rows ((listM c).view.read (Elt F) C) hn hin) y
    have hr := rows_list It w c C hC hn hin (y 0)
    show 0 + 1 * (gathers_S100000x128_S64x128.idx (SparseCore.rows ((listM c).view.read (Elt F) C) hn hin) y gathers_S100000x128_S64x128.axis).val = _
    rw [Nat.zero_add, Nat.one_mul, hz]
    exact hr
  | ⟨1, _⟩ =>
    show ((Rect.unit (s := S100000x128) ![0, 0] S100000x128.size inb_S100000x128_S100000x128_0_0).emb _ ⟨1, _⟩).val = (y 1).val
    rw [Rect.emb_apply]
    have hz := Shape.Gathers.idx_of_ne gathers_S100000x128_S64x128 (SparseCore.rows ((listM c).view.read (Elt F) C) hn hin) y ⟨1, by decide⟩ (by decide)
    show 0 + 1 * _ = _
    rw [Nat.zero_add, Nat.one_mul]
    exact hz

/-- After the fetch of the index block it holds the tile's columns of the id table: the fetch writes the whole block
    with the slab read off `It`. -/
theorem slab_block (L : grid0.Coords) (It : S50x4096.Idx → Elt F .i32) (fi : S50x128.Idx → Elt F .i32) (j : S50x128.Idx) :
    View.write (Elt F) (sI).view fi ((iSlab L).view.read (Elt F) It) Finset.univ j
      = It (ix2 (n0 := 50) (n1 := 4096) (j 0) ⟨128 * (widL L).val + (j 1).val, scol_lt (widL L) (j 1)⟩) := by
  have h := congrFun (View.write_whole_univ (Val := Elt F) (cc0_scratch0 : Ref sig .scVector) fi ((iSlab L).view.read (Elt F) It)) j
  refine h.trans ?_
  rw [View.read_apply, iSlab_emb]; exact cast_eq _ _

/-- Copying a whole array's worth of values unchanged is the identity on them. -/
theorem same_apply (g : S64x128.Idx → Elt F .f32) : (ReadAs.same : ReadAs (Elt F) S64x128 .f32 S64x128 .f32).apply g = g := rfl

/-- WHAT A WRITE-OUT LANDS. If slot `b` holds the rows for chunk `c` of tile `w`, then copying it over the chunk leaves,
    at every element of the chunk, the lookup: entry (s, n, q) of the result is entry q of the table row that id (s, n) names. -/
theorem write_lands (It : S50x4096.Idx → Elt F .i32) (Wt : S100000x128.Idx → Elt F .f32) (w : Fin 32) (b : Fin 10) (c : ℕ)
    (f : S10x64x128.Idx → Elt F .f32) (hf : ∀ i ∈ (slotM b).view.set, f i = slotVal It Wt w c i)
    (D : S64x128.Idx → Elt F .f32) (hD : D = (slotM b).view.read (Elt F) f)
    (prev : S50x4096x128.Idx → Elt F .f32) :
    ∀ i ∈ (oChunkM w c).view.set,
      (oChunkM w c).view.writes (Elt F) prev [⟨Rect.whole S64x128, D⟩] i = lookupT It Wt i := by
  intro i hi
  obtain ⟨y, -, rfl⟩ := Finset.mem_map.mp hi
  rw [View.writes_singleton]
  have he : (oChunkM w c).view.emb y = ((oChunkM w c).view.slice (Rect.whole S64x128)).emb y := by
    show _ = (oChunkM w c).view.emb ((Rect.whole S64x128).emb y)
    rw [Rect.emb_whole_apply]
  conv_lhs => rw [he]
  rw [View.write_emb_of_mem _ _ (Finset.mem_univ _), oChunkM_emb]
  refine (cast_eq _ _).trans ?_
  subst hD
  rw [View.read_apply]
  refine (cast_eq _ _).trans ?_
  rw [hf _ (View.emb_mem_set _ y), slotM_emb]
  have hm : (⟨(128 * w.val + 64 * (c % 2) + (y 0).val) % 4096, Nat.mod_lt _ (by decide)⟩ : Fin 4096)
      = ⟨128 * w.val + 64 * (c % 2) + (y 0).val, col_lt w c (y 0)⟩ := Fin.ext (Nat.mod_eq_of_lt (col_lt w c (y 0)))
  show Wt (ix2 (n0 := 100000) (n1 := 128) (rowOf (It (ix2 (n0 := 50) (n1 := 4096) ⟨(c / 2) % 50, row_lt c⟩ ⟨(128 * w.val + 64 * (c % 2) + (y 0).val) % 4096, Nat.mod_lt _ (by decide)⟩))) (y 1))
    = Wt (ix2 (n0 := 100000) (n1 := 128) (rowOf (It (ix2 (n0 := 50) (n1 := 4096) ⟨(c / 2) % 50, row_lt c⟩ ⟨128 * w.val + 64 * (c % 2) + (y 0).val, col_lt w c (y 0)⟩))) (y 1))
  rw [hm]

end Cert.Proof.IdealKernel

end
-- ==== Proof.IdealJoin.lean ====
/-
  Ten slots put back together, the table's source window, and ten read shares.

  Three small facts used where a tile's task begins and ends. The window through which the gathers read the table
  is the whole table. The ten slots of the row scratch, held separately at whatever each then holds, are the whole
  scratch at some contents, and conversely the whole scratch at given contents is the ten slots at those contents.
  And a share of some elements splits into a remainder and ten smaller read shares, which join back to it.
-/
import proofs.«206438_g5171140624678_cont_8to1_c_1053_28_alg».proof.Proof.IdealSlots
import proofs.«206438_g5171140624678_cont_8to1_c_1053_28_alg».proof.Proof.IdealValues

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The gathers' source is the whole table -/

/-- The window the gathers read through starts at the origin and has the table's own sizes: it is every element. -/
theorem aWs_set : (aWs).view.set = (Finset.univ : Finset S100000x128.Idx) := by
  have h : (aWs).view.set = (Rect.unit (s := S100000x128) ![0, 0] S100000x128.size inb_S100000x128_S100000x128_0_0).set := by
    show ((View.whole (main_arg1_scv : Ref sig .scVector)).slice _).set = _
    rw [View.set_slice]; exact Finset.map_refl
  rw [h]
  exact Rect.set_eq_univ_of_whole _ (by decide)

/-- Holding the elements under that window, as a vector subcore names them, is holding the table. -/
theorem pts_aWs (d : Dev nD) (c : Fin τ.nSC) (i : Fin τ.nSub) (q : PosShare TreeShare) (f : Buf (Elt F) (xLoc d)) :
    ((aWs).view.loc (V d c i) ↦[(aWs).view.set]{q} f : sProp 𝕄) = (xLoc d ↦{q} f) := by
  rw [aWs_set]

/-! ## The ten slots, apart and together -/

/-- The whole scratch at given contents is the ten slots at those contents, one after the other. -/
theorem sR_split10 (d : Dev nD) (c : Fin τ.nSC) (i : Fin τ.nSub) (f : Buf (Elt F) ((V d c i).loc cc0_scratch1)) :
    ((V d c i).loc cc0_scratch1 ↦{fullShare} f : sProp 𝕄)
      ⊢ iprop(((V d c i).loc cc0_scratch1 ↦[(slotM 0).view.set]{fullShare} f)
          ∗ ((V d c i).loc cc0_scratch1 ↦[(slotM 1).view.set]{fullShare} f)
          ∗ ((V d c i).loc cc0_scratch1 ↦[(slotM 2).view.set]{fullShare} f)
          ∗ ((V d c i).loc cc0_scratch1 ↦[(slotM 3).view.set]{fullShare} f)
          ∗ ((V d c i).loc cc0_scratch1 ↦[(slotM 4).view.set]{fullShare} f)
          ∗ ((V d c i).loc cc0_scratch1 ↦[(slotM 5).view.set]{fullShare} f)
          ∗ ((V d c i).loc cc0_scratch1 ↦[(slotM 6).view.set]{fullShare} f)
          ∗ ((V d c i).loc cc0_scratch1 ↦[(slotM 7).view.set]{fullShare} f)
          ∗ ((V d c i).loc cc0_scratch1 ↦[(slotM 8).view.set]{fullShare} f)
          ∗ ((V d c i).loc cc0_scratch1 ↦[(slotM 9).view.set]{fullShare} f)) := by
  rw [sR_slots, show (Finset.univ : Finset (Fin 10)) = {0, 1, 2, 3, 4, 5, 6, 7, 8, 9} by decide]
  repeat rw [SparseCore.bigSep_insert' (by decide)]
  rw [bigSep_singleton]

/-- The ten slots, each at its own contents, are the whole scratch at contents that agree with each on its slot. -/
theorem sR_join10 (d : Dev nD) (c : Fin τ.nSC) (i : Fin τ.nSub) (f0 f1 f2 f3 f4 f5 f6 f7 f8 f9 : Buf (Elt F) ((V d c i).loc cc0_scratch1)) :
    (iprop(((V d c i).loc cc0_scratch1 ↦[(slotM 0).view.set]{fullShare} f0)
          ∗ ((V d c i).loc cc0_scratch1 ↦[(slotM 1).view.set]{fullShare} f1)
          ∗ ((V d c i).loc cc0_scratch1 ↦[(slotM 2).view.set]{fullShare} f2)
          ∗ ((V d c i).loc cc0_scratch1 ↦[(slotM 3).view.set]{fullShare} f3)
          ∗ ((V d c i).loc cc0_scratch1 ↦[(slotM 4).view.set]{fullShare} f4)
          ∗ ((V d c i).loc cc0_scratch1 ↦[(slotM 5).view.set]{fullShare} f5)
          ∗ ((V d c i).loc cc0_scratch1 ↦[(slotM 6).view.set]{fullShare} f6)
          ∗ ((V d c i).loc cc0_scratch1 ↦[(slotM 7).view.set]{fullShare} f7)
          ∗ ((V d c i).loc cc0_scratch1 ↦[(slotM 8).view.set]{fullShare} f8)
          ∗ ((V d c i).loc cc0_scratch1 ↦[(slotM 9).view.set]{fullShare} f9)) : sProp 𝕄)
      ⊢ iprop(∃ f, (V d c i).loc cc0_scratch1 ↦{fullShare} f) := by
  have e : (bigSep Finset.univ fun b : Fin 10 => (V d c i).loc cc0_scratch1 ↦[slotSet b]{fullShare} (![f0, f1, f2, f3, f4, f5, f6, f7, f8, f9] b : Buf (Elt F) ((V d c i).loc cc0_scratch1)) : sProp 𝕄)
      = iprop(((V d c i).loc cc0_scratch1 ↦[(slotM 0).view.set]{fullShare} f0)
          ∗ ((V d c i).loc cc0_scratch1 ↦[(slotM 1).view.set]{fullShare} f1)
          ∗ ((V d c i).loc cc0_scratch1 ↦[(slotM 2).view.set]{fullShare} f2)
          ∗ ((V d c i).loc cc0_scratch1 ↦[(slotM 3).view.set]{fullShare} f3)
          ∗ ((V d c i).loc cc0_scratch1 ↦[(slotM 4).view.set]{fullShare} f4)
          ∗ ((V d c i).loc cc0_scratch1 ↦[(slotM 5).view.set]{fullShare} f5)
          ∗ ((V d c i).loc cc0_scratch1 ↦[(slotM 6).view.set]{fullShare} f6)
          ∗ ((V d c i).loc cc0_scratch1 ↦[(slotM 7).view.set]{fullShare} f7)
          ∗ ((V d c i).loc cc0_scratch1 ↦[(slotM 8).view.set]{fullShare} f8)
          ∗ ((V d c i).loc cc0_scratch1 ↦[(slotM 9).view.set]{fullShare} f9)) := by
    rw [show (Finset.univ : Finset (Fin 10)) = {0, 1, 2, 3, 4, 5, 6, 7, 8, 9} by decide]
    repeat rw [SparseCore.bigSep_insert' (by decide)]
    rw [bigSep_singleton]
    rfl
  rw [← e]
  refine (pointsTo_biUnion_join (ℓ := (V d c i).loc cc0_scratch1) Finset.univ slotSet (fun b : Fin 10 => (![f0, f1, f2, f3, f4, f5, f6, f7, f8, f9] b : Buf (Elt F) ((V d c i).loc cc0_scratch1))) f0 slots_disjoint).trans ?_
  iintro ⟨%g, -, Hg⟩
  rw [slots_cover]
  iexists g; iexact Hg

/-- The same with the contents left unnamed. -/
theorem sR_join (d : Dev nD) (c : Fin τ.nSC) (i : Fin τ.nSub) :
    (bigSep Finset.univ fun b : Fin 10 => iprop(∃ f : Buf (Elt F) ((V d c i).loc cc0_scratch1), (V d c i).loc cc0_scratch1 ↦[(slotM b).view.set]{fullShare} f) : sProp 𝕄)
      ⊢ iprop(∃ f, (V d c i).loc cc0_scratch1 ↦{fullShare} f) := by
  rw [show (Finset.univ : Finset (Fin 10)) = {0, 1, 2, 3, 4, 5, 6, 7, 8, 9} by decide]
  repeat rw [SparseCore.bigSep_insert' (by decide)]
  rw [bigSep_singleton]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iapply (sR_join10 d c i f0 f1 f2 f3 f4 f5 f6 f7 f8 f9)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## Ten read shares -/

section Shares

variable {ℓ : Loc nD τ sig} {S : Finset (Idx ℓ)} {q : PosShare TreeShare} {f : Buf (Elt F) ℓ}

/-- A share of some elements is a remainder and ten read shares, -/
theorem toks10_split :
    (ℓ ↦[S]{q} f : sProp 𝕄)
      ⊢ iprop((ℓ ↦[S]{Transfers.shareDrop q 10} f)
          ∗ (ℓ ↦[S]{Transfers.shareTok q 10 0} f)
          ∗ (ℓ ↦[S]{Transfers.shareTok q 10 1} f)
          ∗ (ℓ ↦[S]{Transfers.shareTok q 10 2} f)
          ∗ (ℓ ↦[S]{Transfers.shareTok q 10 3} f)
          ∗ (ℓ ↦[S]{Transfers.shareTok q 10 4} f)
          ∗ (ℓ ↦[S]{Transfers.shareTok q 10 5} f)
          ∗ (ℓ ↦[S]{Transfers.shareTok q 10 6} f)
          ∗ (ℓ ↦[S]{Transfers.shareTok q 10 7} f)
          ∗ (ℓ ↦[S]{Transfers.shareTok q 10 8} f)
          ∗ (ℓ ↦[S]{Transfers.shareTok q 10 9} f)) := by
  have h := Transfers.pointsTo_toks_split (Lvl := ℕ) (ℓ := ℓ) (S := S) (f := f) (Ix := HIx 1) (Name := ℕ) (U := UU) q 10
  rw [show (Finset.univ : Finset (Fin 10)) = {0, 1, 2, 3, 4, 5, 6, 7, 8, 9} by decide] at h
  repeat rw [SparseCore.bigSep_insert' (by decide)] at h
  rw [bigSep_singleton] at h
  exact h

/-- and they join back to it. -/
theorem toks10_join :
    (iprop((ℓ ↦[S]{Transfers.shareDrop q 10} f)
          ∗ (ℓ ↦[S]{Transfers.shareTok q 10 0} f)
          ∗ (ℓ ↦[S]{Transfers.shareTok q 10 1} f)
          ∗ (ℓ ↦[S]{Transfers.shareTok q 10 2} f)
          ∗ (ℓ ↦[S]{Transfers.shareTok q 10 3} f)
          ∗ (ℓ ↦[S]{Transfers.shareTok q 10 4} f)
          ∗ (ℓ ↦[S]{Transfers.shareTok q 10 5} f)
          ∗ (ℓ ↦[S]{Transfers.shareTok q 10 6} f)
          ∗ (ℓ ↦[S]{Transfers.shareTok q 10 7} f)
          ∗ (ℓ ↦[S]{Transfers.shareTok q 10 8} f)
          ∗ (ℓ ↦[S]{Transfers.shareTok q 10 9} f)) : sProp 𝕄)
      ⊢ (ℓ ↦[S]{q} f) := by
  have h := Transfers.pointsTo_toks_join (Lvl := ℕ) (ℓ := ℓ) (S := S) (f := f) (Ix := HIx 1) (Name := ℕ) (U := UU) q 10
  rw [show (Finset.univ : Finset (Fin 10)) = {0, 1, 2, 3, 4, 5, 6, 7, 8, 9} by decide] at h
  repeat rw [SparseCore.bigSep_insert' (by decide)] at h
  rw [bigSep_singleton] at h
  exact h

end Shares

end Cert.Proof.IdealKernel

end
-- ==== Proof.IdealInv.lean ====
/-
  A tile's task, trip by trip: what it holds between two trips of its loop.

  A tile moves one hundred chunks, chunk c being sixty-four table rows: it gathers them, by the row numbers in a
  window of its index block, into slot c mod 10 of its scratch, and writes the slot out to rows of the result.
  Ten gathers and ten writes are issued per trip of the loop, seven gathers and three writes always in flight,
  each on a semaphore of its slot's own. Counting chunks in tens, before trip n: the groups below n are written
  and waited for; of group n the first three chunks are being written out of slots 0 to 2 and the other seven are
  being gathered into slots 3 to 9; the groups above n are untouched. A transfer in flight holds what it will
  deliver — the slot at the rows its chunk's ids name, the chunk of the result at those rows — so the invariant
  states the values as well as the ownership. The rest of this file restates a piece held in one spelling of its
  offsets in another, opens and closes the piles of groups, and brings what a trip leaves back to this form.
-/
import proofs.«206438_g5171140624678_cont_8to1_c_1053_28_alg».proof.Proof.IdealPieces
import proofs.«206438_g5171140624678_cont_8to1_c_1053_28_alg».proof.Proof.IdealSlab
import proofs.«206438_g5171140624678_cont_8to1_c_1053_28_alg».proof.Proof.IdealSlots
import proofs.«206438_g5171140624678_cont_8to1_c_1053_28_alg».proof.Proof.IdealChunks
import proofs.«206438_g5171140624678_cont_8to1_c_1053_28_alg».proof.Proof.IdealLists
import proofs.«206438_g5171140624678_cont_8to1_c_1053_28_alg».proof.Proof.IdealTens
import proofs.«206438_g5171140624678_cont_8to1_c_1053_28_alg».proof.Proof.IdealValues
import proofs.«206438_g5171140624678_cont_8to1_c_1053_28_alg».proof.Proof.IdealJoin

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- a result chunk / a list window in the spelling of an arbitrary offset vector -/
abbrev oAt (off : Fin 3 → Nat) (inb : ∀ a, off a + S1x64x128.size a ≤ S50x4096x128.size a) : Memref sig .scVector .hbm S64x128 .f32 :=
  ((aO).slice (Rect.unit (s := S50x4096x128) off S1x64x128.size inb) (fun _ => rfl)).squeeze S64x128 squeezes_S1x64x128_S64x128
abbrev sAt (offS : Fin 3 → Nat) (inbS : ∀ a, offS a + S1x64x128.size a ≤ S10x64x128.size a) : Memref sig .scVector .vmem S64x128 .f32 :=
  ((sR).slice (Rect.unit (s := S10x64x128) offS S1x64x128.size inbS) (fun _ => rfl)).squeeze S64x128 squeezes_S1x64x128_S64x128
abbrev lAt (off : Fin 2 → Nat) (inb : ∀ a, off a + S1x64.size a ≤ S50x128.size a) : Memref sig .scVector .vmem S64 .i32 :=
  ((sI).slice (Rect.unit (s := S50x128) off S1x64.size inb) (fun _ => rfl)).squeeze S64 squeezes_S1x64_S64

variable [FloatOps F]
variable (d : Dev nD) (L : grid0.Coords)
variable (q : PosShare TreeShare) (O : CellTallies nD τ sig (HIx 1)) (W : Waits sig (HIx 1))
variable (Wt : Buf (Elt F) (xLoc d)) (O0 OV : Buf (Elt F) (oLoc d))
variable (C : Buf (Elt F) ((V d (cV L) (jV L)).loc cc0_scratch0)) (SV : ℕ → Buf (Elt F) ((V d (cV L) (jV L)).loc cc0_scratch1))

abbrev OUTp (c : ℕ) (f : Buf (Elt F) (oLoc d)) : sProp 𝕄 := (oChunkM (widL L) c).view.loc (V d (cV L) (jV L)) ↦[(oChunkM (widL L) c).view.set]{fullShare} f
abbrev LSTp (c : ℕ) : sProp 𝕄 := (listM c).view.loc (V d (cV L) (jV L)) ↦[(listM c).view.set]{fullShare} C
abbrev SLOTp (offS : Fin 3 → Nat) (inbS : ∀ a, offS a + S1x64x128.size a ≤ S10x64x128.size a) (f : Buf (Elt F) ((V d (cV L) (jV L)).loc cc0_scratch1)) : sProp 𝕄 := (sAt offS inbS).view.loc (V d (cV L) (jV L)) ↦[(sAt offS inbS).view.set]{fullShare} f
abbrev TOKp (b : Fin 10) : sProp 𝕄 := (aWs).view.loc (V d (cV L) (jV L)) ↦[(aWs).view.set]{Transfers.shareTok q 10 b} Wt

omit [FloatOps F] in
/-- a chunk held in the canonical spelling is the chunk held in the spelling of any equal offset vector -/
theorem OUTp_at {off : Fin 3 → Nat} (inb : ∀ a, off a + S1x64x128.size a ≤ S50x4096x128.size a) (c : ℕ) (h : off = chunkOff (widL L) c)
    (f : Buf (Elt F) (oLoc d)) :
    (OUTp d L c f : sProp 𝕄) = ((oAt off inb).view.loc (V d (cV L) (jV L)) ↦[(oAt off inb).view.set]{fullShare} f) := by
  subst h; rfl
omit [FloatOps F] in
theorem LSTp_at {off : Fin 2 → Nat} (inb : ∀ a, off a + S1x64.size a ≤ S50x128.size a) (c : ℕ) (h : off = listOff c) :
    (LSTp d L C c : sProp 𝕄) = ((lAt off inb).view.loc (V d (cV L) (jV L)) ↦[(lAt off inb).view.set]{fullShare} C) := by
  subst h; rfl

def grpO (f : Buf (Elt F) (oLoc d)) (j : ℕ) : sProp 𝕄 := iprop(OUTp d L (10 * j + 0) f ∗ OUTp d L (10 * j + 1) f ∗ OUTp d L (10 * j + 2) f ∗ OUTp d L (10 * j + 3) f ∗ OUTp d L (10 * j + 4) f ∗ OUTp d L (10 * j + 5) f ∗ OUTp d L (10 * j + 6) f ∗ OUTp d L (10 * j + 7) f ∗ OUTp d L (10 * j + 8) f ∗ OUTp d L (10 * j + 9) f)
def grpL (j : ℕ) : sProp 𝕄 := iprop(LSTp d L C (10 * j + 0) ∗ LSTp d L C (10 * j + 1) ∗ LSTp d L C (10 * j + 2) ∗ LSTp d L C (10 * j + 3) ∗ LSTp d L C (10 * j + 4) ∗ LSTp d L C (10 * j + 5) ∗ LSTp d L C (10 * j + 6) ∗ LSTp d L C (10 * j + 7) ∗ LSTp d L C (10 * j + 8) ∗ LSTp d L C (10 * j + 9))

abbrev gF (sem : DmaSem sig) (offS : Fin 3 → Nat) (inbS : ∀ a, offS a + S1x64x128.size a ≤ S10x64x128.size a) (b : Fin 10) (c : ℕ) : sProp 𝕄 :=
  Transfers.Flight countersEmb (V d (cV L) (jV L)) (SemLoc.dma sem) (default : HIx 1) 262144
    iprop(((SLOTp d L offS inbS (SV c)) ∗ (LSTp d L C c)) ∗ (TOKp d L q Wt b))
abbrev wF (sem : DmaSem sig) (offS : Fin 3 → Nat) (inbS : ∀ a, offS a + S1x64x128.size a ≤ S10x64x128.size a) (c : ℕ) : sProp 𝕄 :=
  Transfers.Flight countersEmb (V d (cV L) (jV L)) (SemLoc.dma sem) (default : HIx 1) 262144
    iprop((OUTp d L c OV) ∗ (SLOTp d L offS inbS (SV c)))

def inv (n : ℕ) (_ : PUnit) : sProp 𝕄 :=
  iprop(Transfers.MayWaits (V d (cV L) (jV L)) (none : HIx 1) O
    ∗ (gF d L q Wt C SV (⟨3, by decide⟩ : DmaSem sig) ![3, 0, 0] inb_S10x64x128_S1x64x128_3_0_0 3 (10 * n + 3) ∗ gF d L q Wt C SV (⟨4, by decide⟩ : DmaSem sig) ![4, 0, 0] inb_S10x64x128_S1x64x128_4_0_0 4 (10 * n + 4) ∗ gF d L q Wt C SV (⟨5, by decide⟩ : DmaSem sig) ![5, 0, 0] inb_S10x64x128_S1x64x128_5_0_0 5 (10 * n + 5) ∗ gF d L q Wt C SV (⟨6, by decide⟩ : DmaSem sig) ![6, 0, 0] inb_S10x64x128_S1x64x128_6_0_0 6 (10 * n + 6) ∗ gF d L q Wt C SV (⟨7, by decide⟩ : DmaSem sig) ![7, 0, 0] inb_S10x64x128_S1x64x128_7_0_0 7 (10 * n + 7) ∗ gF d L q Wt C SV (⟨8, by decide⟩ : DmaSem sig) ![8, 0, 0] inb_S10x64x128_S1x64x128_8_0_0 8 (10 * n + 8) ∗ gF d L q Wt C SV (⟨9, by decide⟩ : DmaSem sig) ![9, 0, 0] inb_S10x64x128_S1x64x128_9_0_0 9 (10 * n + 9))
    ∗ (wF d L OV SV (⟨10, by decide⟩ : DmaSem sig) ![0, 0, 0] inb_S10x64x128_S1x64x128_0_0_0 (10 * n + 0) ∗ wF d L OV SV (⟨11, by decide⟩ : DmaSem sig) ![1, 0, 0] inb_S10x64x128_S1x64x128_1_0_0 (10 * n + 1) ∗ wF d L OV SV (⟨12, by decide⟩ : DmaSem sig) ![2, 0, 0] inb_S10x64x128_S1x64x128_2_0_0 (10 * n + 2))
    ∗ (semVal (V d (cV L) (jV L), SemLoc.dma (⟨0, by decide⟩ : DmaSem sig)) 0 ∗ semVal (V d (cV L) (jV L), SemLoc.dma (⟨1, by decide⟩ : DmaSem sig)) 0 ∗ semVal (V d (cV L) (jV L), SemLoc.dma (⟨2, by decide⟩ : DmaSem sig)) 0)
    ∗ (TOKp d L q Wt 0 ∗ TOKp d L q Wt 1 ∗ TOKp d L q Wt 2)
    ∗ (semVal (V d (cV L) (jV L), SemLoc.dma (⟨13, by decide⟩ : DmaSem sig)) 0 ∗ semVal (V d (cV L) (jV L), SemLoc.dma (⟨14, by decide⟩ : DmaSem sig)) 0 ∗ semVal (V d (cV L) (jV L), SemLoc.dma (⟨15, by decide⟩ : DmaSem sig)) 0 ∗ semVal (V d (cV L) (jV L), SemLoc.dma (⟨16, by decide⟩ : DmaSem sig)) 0 ∗ semVal (V d (cV L) (jV L), SemLoc.dma (⟨17, by decide⟩ : DmaSem sig)) 0 ∗ semVal (V d (cV L) (jV L), SemLoc.dma (⟨18, by decide⟩ : DmaSem sig)) 0 ∗ semVal (V d (cV L) (jV L), SemLoc.dma (⟨19, by decide⟩ : DmaSem sig)) 0)
    ∗ (OUTp d L (10 * n + 3) O0 ∗ OUTp d L (10 * n + 4) O0 ∗ OUTp d L (10 * n + 5) O0 ∗ OUTp d L (10 * n + 6) O0 ∗ OUTp d L (10 * n + 7) O0 ∗ OUTp d L (10 * n + 8) O0 ∗ OUTp d L (10 * n + 9) O0)
    ∗ (LSTp d L C (10 * n + 0) ∗ LSTp d L C (10 * n + 1) ∗ LSTp d L C (10 * n + 2))
    ∗ bigSep (Finset.Ico (n + 1) 10) (grpO d L O0) ∗ bigSep (Finset.Ico (n + 1) 10) (grpL d L C)
    ∗ bigSep (Finset.range n) (grpO d L OV) ∗ bigSep (Finset.range n) (grpL d L C)
    ∗ ∃ W', ⌜∀ p ∈ W', p ∈ W ∨ p.2 = none⌝ ∗ owes (V d (cV L) (jV L)) O W')

omit [FloatOps F] in
/-- the groups above n: the next one, opened, and the groups above it -/
theorem pop_O (f : Buf (Elt F) (oLoc d)) (n : ℕ) (h : n + 1 < 10) :
    (bigSep (Finset.Ico (n + 1) 10) (grpO d L f) : sProp 𝕄)
      = iprop((OUTp d L (10 * (n + 1) + 0) f ∗ OUTp d L (10 * (n + 1) + 1) f ∗ OUTp d L (10 * (n + 1) + 2) f ∗ OUTp d L (10 * (n + 1) + 3) f ∗ OUTp d L (10 * (n + 1) + 4) f ∗ OUTp d L (10 * (n + 1) + 5) f ∗ OUTp d L (10 * (n + 1) + 6) f ∗ OUTp d L (10 * (n + 1) + 7) f ∗ OUTp d L (10 * (n + 1) + 8) f ∗ OUTp d L (10 * (n + 1) + 9) f) ∗ bigSep (Finset.Ico (n + 1 + 1) 10) (grpO d L f)) := by
  have e : Finset.Ico (n + 1) 10 = insert (n + 1) (Finset.Ico (n + 1 + 1) 10) := by
    ext x; simp only [Finset.mem_Ico, Finset.mem_insert]; omega
  rw [e, SparseCore.bigSep_insert' (by simp)]; rfl
omit [FloatOps F] in
theorem pop_L (n : ℕ) (h : n + 1 < 10) :
    (bigSep (Finset.Ico (n + 1) 10) (grpL d L C) : sProp 𝕄)
      = iprop((LSTp d L C (10 * (n + 1) + 0) ∗ LSTp d L C (10 * (n + 1) + 1) ∗ LSTp d L C (10 * (n + 1) + 2) ∗ LSTp d L C (10 * (n + 1) + 3) ∗ LSTp d L C (10 * (n + 1) + 4) ∗ LSTp d L C (10 * (n + 1) + 5) ∗ LSTp d L C (10 * (n + 1) + 6) ∗ LSTp d L C (10 * (n + 1) + 7) ∗ LSTp d L C (10 * (n + 1) + 8) ∗ LSTp d L C (10 * (n + 1) + 9)) ∗ bigSep (Finset.Ico (n + 1 + 1) 10) (grpL d L C)) := by
  have e : Finset.Ico (n + 1) 10 = insert (n + 1) (Finset.Ico (n + 1 + 1) 10) := by
    ext x; simp only [Finset.mem_Ico, Finset.mem_insert]; omega
  rw [e, SparseCore.bigSep_insert' (by simp)]; rfl
omit [FloatOps F] in
/-- a finished group joins the groups below n -/
theorem push_O (f : Buf (Elt F) (oLoc d)) (n : ℕ) :
    (bigSep (Finset.range (n + 1)) (grpO d L f) : sProp 𝕄)
      = iprop((OUTp d L (10 * n + 0) f ∗ OUTp d L (10 * n + 1) f ∗ OUTp d L (10 * n + 2) f ∗ OUTp d L (10 * n + 3) f ∗ OUTp d L (10 * n + 4) f ∗ OUTp d L (10 * n + 5) f ∗ OUTp d L (10 * n + 6) f ∗ OUTp d L (10 * n + 7) f ∗ OUTp d L (10 * n + 8) f ∗ OUTp d L (10 * n + 9) f) ∗ bigSep (Finset.range n) (grpO d L f)) := by
  rw [Finset.range_add_one, SparseCore.bigSep_insert' Finset.notMem_range_self]; rfl
omit [FloatOps F] in
theorem push_L (n : ℕ) :
    (bigSep (Finset.range (n + 1)) (grpL d L C) : sProp 𝕄)
      = iprop((LSTp d L C (10 * n + 0) ∗ LSTp d L C (10 * n + 1) ∗ LSTp d L C (10 * n + 2) ∗ LSTp d L C (10 * n + 3) ∗ LSTp d L C (10 * n + 4) ∗ LSTp d L C (10 * n + 5) ∗ LSTp d L C (10 * n + 6) ∗ LSTp d L C (10 * n + 7) ∗ LSTp d L C (10 * n + 8) ∗ LSTp d L C (10 * n + 9)) ∗ bigSep (Finset.range n) (grpL d L C)) := by
  rw [Finset.range_add_one, SparseCore.bigSep_insert' Finset.notMem_range_self]; rfl

omit [FloatOps F] in
/-- a tile's semaphores at zero, each named by its number -/
theorem ownSems0_lit (d : Dev nD) (c : Fin τ.nSC) (i : Fin τ.nSub) :
    (ownSems0 (V d c i) : sProp 𝕄)
      = iprop(semVal (V d c i, SemLoc.dma (⟨0, by decide⟩ : DmaSem sig)) 0 ∗ semVal (V d c i, SemLoc.dma (⟨1, by decide⟩ : DmaSem sig)) 0 ∗ semVal (V d c i, SemLoc.dma (⟨2, by decide⟩ : DmaSem sig)) 0 ∗ semVal (V d c i, SemLoc.dma (⟨3, by decide⟩ : DmaSem sig)) 0 ∗ semVal (V d c i, SemLoc.dma (⟨4, by decide⟩ : DmaSem sig)) 0 ∗ semVal (V d c i, SemLoc.dma (⟨5, by decide⟩ : DmaSem sig)) 0 ∗ semVal (V d c i, SemLoc.dma (⟨6, by decide⟩ : DmaSem sig)) 0 ∗ semVal (V d c i, SemLoc.dma (⟨7, by decide⟩ : DmaSem sig)) 0 ∗ semVal (V d c i, SemLoc.dma (⟨8, by decide⟩ : DmaSem sig)) 0 ∗ semVal (V d c i, SemLoc.dma (⟨9, by decide⟩ : DmaSem sig)) 0 ∗ semVal (V d c i, SemLoc.dma (⟨10, by decide⟩ : DmaSem sig)) 0 ∗ semVal (V d c i, SemLoc.dma (⟨11, by decide⟩ : DmaSem sig)) 0 ∗ semVal (V d c i, SemLoc.dma (⟨12, by decide⟩ : DmaSem sig)) 0 ∗ semVal (V d c i, SemLoc.dma (⟨13, by decide⟩ : DmaSem sig)) 0 ∗ semVal (V d c i, SemLoc.dma (⟨14, by decide⟩ : DmaSem sig)) 0 ∗ semVal (V d c i, SemLoc.dma (⟨15, by decide⟩ : DmaSem sig)) 0 ∗ semVal (V d c i, SemLoc.dma (⟨16, by decide⟩ : DmaSem sig)) 0 ∗ semVal (V d c i, SemLoc.dma (⟨17, by decide⟩ : DmaSem sig)) 0 ∗ semVal (V d c i, SemLoc.dma (⟨18, by decide⟩ : DmaSem sig)) 0 ∗ semVal (V d c i, SemLoc.dma (⟨19, by decide⟩ : DmaSem sig)) 0 ∗ semVal (V d c i, SemLoc.dma (⟨20, by decide⟩ : DmaSem sig)) 0) := by
  rw [ownSems0_V21]; rfl

/-! ## What a trip leaves, brought back to the invariant's form -/

theorem gF_of_raw (hV1 : ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) C) hn hin)) →
        ∀ i ∈ (sAt offS inbS).view.set, (sAt offS inbS).view.writes (Elt F) prev [⟨Rect.whole S64x128, pay⟩] i = SV c i) (sem : DmaSem sig) (b : Fin 10) (c : ℕ) (hc : c < 100)
    {offS : Fin 3 → Nat} (inbS : ∀ a, offS a + S1x64x128.size a ≤ S10x64x128.size a) (hs : offS = ![b.val, 0, 0])
    {off : Fin 2 → Nat} (inbL : ∀ a, off a + S1x64.size a ≤ S50x128.size a) (hl : off = listOff c)
    (prev : Buf (Elt F) ((V d (cV L) (jV L)).loc cc0_scratch1)) (pay : S64x128.Idx → Elt F .f32)
    (hpay : ∃ hn hin, pay = SparseCore.gatherPayload gathers_S100000x128_S64x128 ((aWs).view.read (Elt F) Wt)
          (SparseCore.rows ((lAt off inbL).view.read (Elt F) C) hn hin)) :
    (Transfers.Flight countersEmb (V d (cV L) (jV L)) (SemLoc.dma sem) (default : HIx 1) 262144
      iprop((((sAt offS inbS).view.loc (V d (cV L) (jV L)) ↦[(sAt offS inbS).view.set]{fullShare} (sAt offS inbS).view.writes (Elt F) prev [⟨Rect.whole S64x128, pay⟩])
          ∗ ((lAt off inbL).view.loc (V d (cV L) (jV L)) ↦[(lAt off inbL).view.set]{fullShare} C)) ∗ (TOKp d L q Wt b)) : sProp 𝕄)
      ⊢ gF d L q Wt C SV sem offS inbS b c := by
  have hv := hV1 c hc b inbS hs inbL hl prev pay hpay
  subst hl
  refine Transfers.Flight_mono countersEmb _ ?_
  iintro ⟨⟨Hd, Ho⟩, Hs⟩
  isplitl [Hd Ho]
  · isplitl [Hd]
    · iapply (Entails.of_eq (pointsTo_congr hv)); iexact Hd
    · iexact Ho
  · iexact Hs

theorem wF_of_raw (hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = SV c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = OV i) (sem : DmaSem sig) (b : Fin 10) (c : ℕ) (hc : c < 100)
    {offS : Fin 3 → Nat} (inbS : ∀ a, offS a + S1x64x128.size a ≤ S10x64x128.size a) (hs : offS = ![b.val, 0, 0])
    {off : Fin 3 → Nat} (inbO : ∀ a, off a + S1x64x128.size a ≤ S50x4096x128.size a) (ho : off = chunkOff (widL L) c)
    (prevO : Buf (Elt F) (oLoc d)) (f : Buf (Elt F) ((V d (cV L) (jV L)).loc cc0_scratch1)) (Dp : S64x128.Idx → Elt F .f32)
    (hf : ∀ i ∈ (sAt offS inbS).view.set, f i = SV c i) (hD : Dp = ReadAs.same.apply ((sAt offS inbS).view.read (Elt F) f)) :
    (Transfers.Flight countersEmb (V d (cV L) (jV L)) (SemLoc.dma sem) (default : HIx 1) 262144
      iprop(((oAt off inbO).view.loc (V d (cV L) (jV L)) ↦[(oAt off inbO).view.set]{fullShare} (oAt off inbO).view.writes (Elt F) prevO [⟨Rect.whole S64x128, Dp⟩])
          ∗ ((sAt offS inbS).view.loc (V d (cV L) (jV L)) ↦[(sAt offS inbS).view.set]{fullShare} f)) : sProp 𝕄)
      ⊢ wF d L OV SV sem offS inbS c := by
  subst ho
  have hv := hV2 c hc b inbS hs prevO f hf Dp hD
  refine Transfers.Flight_mono countersEmb _ ?_
  iintro ⟨Hd, Hs⟩
  isplitl [Hd]
  · iapply (Entails.of_eq (pointsTo_congr hv)); iexact Hd
  · iapply (Entails.of_eq (pointsTo_congr hf)); iexact Hs

theorem OUTp_of_raw (hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = SV c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = OV i) (b : Fin 10) (c : ℕ) (hc : c < 100)
    {offS : Fin 3 → Nat} (inbS : ∀ a, offS a + S1x64x128.size a ≤ S10x64x128.size a) (hs : offS = ![b.val, 0, 0])
    {off : Fin 3 → Nat} (inbO : ∀ a, off a + S1x64x128.size a ≤ S50x4096x128.size a) (ho : off = chunkOff (widL L) c)
    (prevO : Buf (Elt F) (oLoc d)) (f : Buf (Elt F) ((V d (cV L) (jV L)).loc cc0_scratch1)) (Dp : S64x128.Idx → Elt F .f32)
    (hf : ∀ i ∈ (sAt offS inbS).view.set, f i = SV c i) (hD : Dp = ReadAs.same.apply ((sAt offS inbS).view.read (Elt F) f)) :
    ((oAt off inbO).view.loc (V d (cV L) (jV L)) ↦[(oAt off inbO).view.set]{fullShare} (oAt off inbO).view.writes (Elt F) prevO [⟨Rect.whole S64x128, Dp⟩] : sProp 𝕄)
      ⊢ OUTp d L c OV := by
  subst ho
  exact Entails.of_eq (pointsTo_congr (hV2 c hc b inbS hs prevO f hf Dp hD))

omit [FloatOps F] in
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.Proof.IdealKernel

end
-- ==== Proof.IdealBody.lean ====
/-
  A tile's task, from what it is handed to what it hands back.

  The tile is handed its slab of the transposed id table, a share of the embedding table and its block of the
  result. It fetches the slab into its index block; every row number there is a row of the table, because every
  id is (the claim's precondition), so each of its hundred gathers is in range. Slab, block, scratch and share
  are dealt into the pieces the transfers move — a list window, a result chunk and a share token per transfer,
  ten slots — and the task is run: the fetch; the first ten gathers and three write-outs; the loop, by its
  invariant; the last seven write-outs and the last waits. At the end every chunk of the block holds, at row p
  and column q, entry q of the table row named by the id at the chunk's position p: the block is the lookup of the
  ids restricted to the tile's columns. The pieces are put together again and handed back.
-/
import proofs.«206438_g5171140624678_cont_8to1_c_1053_28_alg».proof.Proof.IdealInv
import proofs.«206438_g5171140624678_cont_8to1_c_1053_28_alg».proof.Proof.IdealIface
import proofs.«206438_g5171140624678_cont_8to1_c_1053_28_alg».proof.Proof.Transposes

noncomputable section

namespace Cert.Proof.IdealKernel

open Cert.KernelIdeal Cert.KernelIdeal.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Every row number a gather reads is a row of the table: a list window of the index block, after the block's
    fetch, holds words of the tile's slab of the transposed id table, each below one hundred thousand. -/
theorem inb_of_range (fI : Buf (Elt F) (iLoc d)) (hI : ∀ j, (fI j).toNat < 100000)
    (fs : Buf (Elt F) ((V d (cV L) (jV L)).loc cc0_scratch0)) (pay : S50x128.Idx → Elt F .i32)
    (hpay : pay = (iSlab L).view.read (Elt F) fI)
    (row : Fin 2 → Nat) (hk : ∀ a, row a + S1x64.size a ≤ S50x128.size a)
    (hst : ∀ a, (Rect.unit (s := S50x128) row S1x64.size hk).stride a = 1)
    (hq : (Rect.unit (s := S50x128) row S1x64.size hk).shape.Squeezes S64) :
    ∀ x, (View.read (Elt F) (((sI).slice (Rect.unit (s := S50x128) row S1x64.size hk) hst).squeeze S64 hq).view
        (View.write (Elt F) (sI).view fs pay Finset.univ) x).toNat < 100000 := by
  subst hpay; intro x
  have e : View.read (Elt F) (((sI).slice (Rect.unit (s := S50x128) row S1x64.size hk) hst).squeeze S64 hq).view
        (View.write (Elt F) (sI).view fs ((iSlab L).view.read (Elt F) fI) Finset.univ) x
      = View.read (Elt F) (sI).view (View.write (Elt F) (sI).view fs ((iSlab L).view.read (Elt F) fI) Finset.univ)
          ((Rect.unit (s := S50x128) row S1x64.size hk).emb ((Shape.reshapeEquiv hq.numel_eq) x)) := by
    rw [View.read_apply, View.read_apply]; rfl
  rw [e, View.write_whole_univ]
  simp only [Memref.view_whole, View.read_whole]
  rw [show ∀ j, (iSlab L).view.read (Elt F) fI j = fI ((iSlab L).view.emb j) from fun j => (View.read_apply _ _).trans (cast_eq _ _)]
  exact hI _

/-! ## Dealing the pieces, and putting them together again -/

omit [FloatOps F] in
theorem pts_iSlab (f : Buf (Elt F) (iLoc d)) :
    ((iSlab L).view.loc (V d (cV L) (jV L)) ↦[(iSlab L).view.set]{fullShare} f : sProp 𝕄) = (iLoc d ↦[iSet (widL L)]{fullShare} f) := by
  rw [set_iSlab]

omit [FloatOps F] in
/-- the tile's block of the result: the first group's ten chunks and the groups above -/
theorem out_entry (f : Buf (Elt F) (oLoc d)) :
    (oLoc d ↦[oSet (widL L)]{fullShare} f : sProp 𝕄)
      = iprop((OUTp d L (10 * 0 + 0) f ∗ OUTp d L (10 * 0 + 1) f ∗ OUTp d L (10 * 0 + 2) f ∗ OUTp d L (10 * 0 + 3) f ∗ OUTp d L (10 * 0 + 4) f ∗ OUTp d L (10 * 0 + 5) f ∗ OUTp d L (10 * 0 + 6) f ∗ OUTp d L (10 * 0 + 7) f ∗ OUTp d L (10 * 0 + 8) f ∗ OUTp d L (10 * 0 + 9) f) ∗ bigSep (Finset.Ico 1 10) (grpO d L f)) := by
  rw [oPts_chunks, tens_head]; rfl
omit [FloatOps F] in
/-- the last group's ten chunks and the groups below: the tile's block again -/
theorem out_exit (f : Buf (Elt F) (oLoc d)) (n : ℕ) (hn : n + 1 = 10) :
    (iprop((OUTp d L (10 * n + 0) f ∗ OUTp d L (10 * n + 1) f ∗ OUTp d L (10 * n + 2) f ∗ OUTp d L (10 * n + 3) f ∗ OUTp d L (10 * n + 4) f ∗ OUTp d L (10 * n + 5) f ∗ OUTp d L (10 * n + 6) f ∗ OUTp d L (10 * n + 7) f ∗ OUTp d L (10 * n + 8) f ∗ OUTp d L (10 * n + 9) f) ∗ bigSep (Finset.range n) (grpO d L f)) : sProp 𝕄)
      = (oLoc d ↦[oSet (widL L)]{fullShare} f) := by
  rw [← push_O, hn, oPts_chunks, bigSep_tens]; rfl
omit [FloatOps F] in
/-- the index block: the first group's ten list windows and the groups above -/
theorem lst_entry (C : Buf (Elt F) ((V d (cV L) (jV L)).loc cc0_scratch0)) :
    ((sI).view.loc (V d (cV L) (jV L)) ↦{fullShare} C : sProp 𝕄)
      = iprop((LSTp d L C (10 * 0 + 0) ∗ LSTp d L C (10 * 0 + 1) ∗ LSTp d L C (10 * 0 + 2) ∗ LSTp d L C (10 * 0 + 3) ∗ LSTp d L C (10 * 0 + 4) ∗ LSTp d L C (10 * 0 + 5) ∗ LSTp d L C (10 * 0 + 6) ∗ LSTp d L C (10 * 0 + 7) ∗ LSTp d L C (10 * 0 + 8) ∗ LSTp d L C (10 * 0 + 9)) ∗ bigSep (Finset.Ico 1 10) (grpL d L C)) := by
  show ((V d (cV L) (jV L)).loc cc0_scratch0 ↦{fullShare} C : sProp 𝕄) = _
  rw [sI_lists, tens_head]; rfl
omit [FloatOps F] in
theorem lst_exit (C : Buf (Elt F) ((V d (cV L) (jV L)).loc cc0_scratch0)) (n : ℕ) (hn : n + 1 = 10) :
    (iprop((LSTp d L C (10 * n + 0) ∗ LSTp d L C (10 * n + 1) ∗ LSTp d L C (10 * n + 2) ∗ LSTp d L C (10 * n + 3) ∗ LSTp d L C (10 * n + 4) ∗ LSTp d L C (10 * n + 5) ∗ LSTp d L C (10 * n + 6) ∗ LSTp d L C (10 * n + 7) ∗ LSTp d L C (10 * n + 8) ∗ LSTp d L C (10 * n + 9)) ∗ bigSep (Finset.range n) (grpL d L C)) : sProp 𝕄)
      = ((V d (cV L) (jV L)).loc cc0_scratch0 ↦{fullShare} C) := by
  rw [← push_L, hn, sI_lists, bigSep_tens]; rfl
omit [FloatOps F] in
/-- the scratch of slots whole is its ten slots, and back at whatever each holds -/
theorem slots_entry (f : Buf (Elt F) ((V d (cV L) (jV L)).loc cc0_scratch1)) :
    ((V d (cV L) (jV L)).loc cc0_scratch1 ↦{fullShare} f : sProp 𝕄) ⊢ iprop(SLOTp d L ![0, 0, 0] inb_S10x64x128_S1x64x128_0_0_0 f ∗ SLOTp d L ![1, 0, 0] inb_S10x64x128_S1x64x128_1_0_0 f ∗ SLOTp d L ![2, 0, 0] inb_S10x64x128_S1x64x128_2_0_0 f ∗ SLOTp d L ![3, 0, 0] inb_S10x64x128_S1x64x128_3_0_0 f ∗ SLOTp d L ![4, 0, 0] inb_S10x64x128_S1x64x128_4_0_0 f ∗ SLOTp d L ![5, 0, 0] inb_S10x64x128_S1x64x128_5_0_0 f ∗ SLOTp d L ![6, 0, 0] inb_S10x64x128_S1x64x128_6_0_0 f ∗ SLOTp d L ![7, 0, 0] inb_S10x64x128_S1x64x128_7_0_0 f ∗ SLOTp d L ![8, 0, 0] inb_S10x64x128_S1x64x128_8_0_0 f ∗ SLOTp d L ![9, 0, 0] inb_S10x64x128_S1x64x128_9_0_0 f) :=
  sR_split10 d (cV L) (jV L) f
omit [FloatOps F] in
theorem slots_exit (f0 f1 f2 f3 f4 f5 f6 f7 f8 f9 : Buf (Elt F) ((V d (cV L) (jV L)).loc cc0_scratch1)) :
    (iprop(SLOTp d L ![0, 0, 0] inb_S10x64x128_S1x64x128_0_0_0 f0 ∗ SLOTp d L ![1, 0, 0] inb_S10x64x128_S1x64x128_1_0_0 f1 ∗ SLOTp d L ![2, 0, 0] inb_S10x64x128_S1x64x128_2_0_0 f2 ∗ SLOTp d L ![3, 0, 0] inb_S10x64x128_S1x64x128_3_0_0 f3 ∗ SLOTp d L ![4, 0, 0] inb_S10x64x128_S1x64x128_4_0_0 f4 ∗ SLOTp d L ![5, 0, 0] inb_S10x64x128_S1x64x128_5_0_0 f5 ∗ SLOTp d L ![6, 0, 0] inb_S10x64x128_S1x64x128_6_0_0 f6 ∗ SLOTp d L ![7, 0, 0] inb_S10x64x128_S1x64x128_7_0_0 f7 ∗ SLOTp d L ![8, 0, 0] inb_S10x64x128_S1x64x128_8_0_0 f8 ∗ SLOTp d L ![9, 0, 0] inb_S10x64x128_S1x64x128_9_0_0 f9) : sProp 𝕄) ⊢ iprop(∃ f, (V d (cV L) (jV L)).loc cc0_scratch1 ↦{fullShare} f) :=
  sR_join10 d (cV L) (jV L) f0 f1 f2 f3 f4 f5 f6 f7 f8 f9
omit [FloatOps F] in
/-- a share of the table: a remainder and one token per gather semaphore, and back -/
theorem toks_entry (q : PosShare TreeShare) (Wt : Buf (Elt F) (xLoc d)) :
    (xLoc d ↦{q} Wt : sProp 𝕄) ⊢ iprop((xLoc d ↦{Transfers.shareDrop q 10} Wt) ∗ TOKp d L q Wt 0 ∗ TOKp d L q Wt 1 ∗ TOKp d L q Wt 2 ∗ TOKp d L q Wt 3 ∗ TOKp d L q Wt 4 ∗ TOKp d L q Wt 5 ∗ TOKp d L q Wt 6 ∗ TOKp d L q Wt 7 ∗ TOKp d L q Wt 8 ∗ TOKp d L q Wt 9) := by
  refine toks10_split.trans ?_
  iintro ⟨Hrem, H0, H1, H2, H3, H4, H5, H6, H7, H8, H9⟩
  isplitl [Hrem]; · iexact Hrem
  isplitl [H0]; · iapply (Entails.of_eq (pts_aWs (F := F) d (cV L) (jV L) _ _).symm); iexact H0
  isplitl [H1]; · iapply (Entails.of_eq (pts_aWs (F := F) d (cV L) (jV L) _ _).symm); iexact H1
  isplitl [H2]; · iapply (Entails.of_eq (pts_aWs (F := F) d (cV L) (jV L) _ _).symm); iexact H2
  isplitl [H3]; · iapply (Entails.of_eq (pts_aWs (F := F) d (cV L) (jV L) _ _).symm); iexact H3
  isplitl [H4]; · iapply (Entails.of_eq (pts_aWs (F := F) d (cV L) (jV L) _ _).symm); iexact H4
  isplitl [H5]; · iapply (Entails.of_eq (pts_aWs (F := F) d (cV L) (jV L) _ _).symm); iexact H5
  isplitl [H6]; · iapply (Entails.of_eq (pts_aWs (F := F) d (cV L) (jV L) _ _).symm); iexact H6
  isplitl [H7]; · iapply (Entails.of_eq (pts_aWs (F := F) d (cV L) (jV L) _ _).symm); iexact H7
  isplitl [H8]; · iapply (Entails.of_eq (pts_aWs (F := F) d (cV L) (jV L) _ _).symm); iexact H8
  iapply (Entails.of_eq (pts_aWs (F := F) d (cV L) (jV L) _ _).symm); iexact H9
omit [FloatOps F] in
theorem toks_exit (q : PosShare TreeShare) (Wt : Buf (Elt F) (xLoc d)) :
    (iprop((xLoc d ↦{Transfers.shareDrop q 10} Wt) ∗ TOKp d L q Wt 0 ∗ TOKp d L q Wt 1 ∗ TOKp d L q Wt 2 ∗ TOKp d L q Wt 3 ∗ TOKp d L q Wt 4 ∗ TOKp d L q Wt 5 ∗ TOKp d L q Wt 6 ∗ TOKp d L q Wt 7 ∗ TOKp d L q Wt 8 ∗ TOKp d L q Wt 9) : sProp 𝕄) ⊢ (xLoc d ↦{q} Wt) := by
  iintro ⟨Hrem, H0, H1, H2, H3, H4, H5, H6, H7, H8, H9⟩
  iapply toks10_join
  isplitl [Hrem]; · iexact Hrem
  isplitl [H0]; · iapply (Entails.of_eq (pts_aWs (F := F) d (cV L) (jV L) _ _)); iexact H0
  isplitl [H1]; · iapply (Entails.of_eq (pts_aWs (F := F) d (cV L) (jV L) _ _)); iexact H1
  isplitl [H2]; · iapply (Entails.of_eq (pts_aWs (F := F) d (cV L) (jV L) _ _)); iexact H2
  isplitl [H3]; · iapply (Entails.of_eq (pts_aWs (F := F) d (cV L) (jV L) _ _)); iexact H3
  isplitl [H4]; · iapply (Entails.of_eq (pts_aWs (F := F) d (cV L) (jV L) _ _)); iexact H4
  isplitl [H5]; · iapply (Entails.of_eq (pts_aWs (F := F) d (cV L) (jV L) _ _)); iexact H5
  isplitl [H6]; · iapply (Entails.of_eq (pts_aWs (F := F) d (cV L) (jV L) _ _)); iexact H6
  isplitl [H7]; · iapply (Entails.of_eq (pts_aWs (F := F) d (cV L) (jV L) _ _)); iexact H7
  isplitl [H8]; · iapply (Entails.of_eq (pts_aWs (F := F) d (cV L) (jV L) _ _)); iexact H8
  iapply (Entails.of_eq (pts_aWs (F := F) d (cV L) (jV L) _ _)); iexact H9

/-! ## The values: what a gather and a write-out land -/

variable (It : Buf (Elt F) (iLoc d)) (Wt : Buf (Elt F) (xLoc d))

omit [FloatOps F] in
theorem hV1_tile (fi : Buf (Elt F) ((V d (cV L) (jV L)).loc cc0_scratch0)) :
    ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) (View.write (Elt F) (sI).view fi ((iSlab L).view.read (Elt F) It) Finset.univ)) hn hin)) →
        ∀ i ∈ (sAt offS inbS).view.set, (sAt offS inbS).view.writes (Elt F) prev [⟨Rect.whole S64x128, pay⟩] i = (slotVal It Wt (widL L)) c i := by
  intro c hc b offS inbS hs off inbL hl prev pay hp
  obtain ⟨hn, hin, hp⟩ := hp
  subst hs hl hp
  exact gather_lands It Wt (widL L) b c _ (slab_block L It fi) hn hin prev
omit [FloatOps F] in
theorem hV2_tile :
    ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = (slotVal It Wt (widL L)) c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = (lookupT It Wt : Buf (Elt F) (oLoc d)) i := by
  intro c hc b offS inbS hs prevO f hf Dp hD
  subst hs
  exact write_lands It Wt (widL L) b c f hf Dp hD prevO

/-! ## The task -/

set_option maxHeartbeats 32000000 in
/-- The task of the tile at grid point `L`: from its slab of the id table, its share of the table and its block
    of the result, with its own scratch and semaphores, to the block holding the rows its ids name. -/
theorem tile_run (hIt : ∀ j, (It j).toNat < 100000) (O0 : Buf (Elt F) (oLoc d))
    (O : CellTallies nD τ sig (HIx 1)) (W : Waits sig (HIx 1)) (hO : ∀ g, O g none = 0) :
    (iprop(levAts (K (F := F)).L (K (F := F)).lev ∗ emp ∗ goPts d It Wt O0 (widL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L aI (Memref.isWhole_whole _) aW (Memref.isWhole_whole _) aO (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19 cc0_scratch20 cc0_scratch21
            cc0_scoped0)
          fun _ => iprop(tdPts d It Wt (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V facts d (cV L) (jV L), SparseCore.Cfg.scopedSems0_V (Val := Elt F) d (cV L) (jV L), ownSems0_lit, ownBufs_V2]
  unfold goPts tdPts
  iintro ⟨#Hlv, -, ⟨HIt, Hx, HoB⟩, ⟨⟨%fi, Hi⟩, ⟨%fr, Hr⟩, Hbrest⟩, ⟨Hs0, Hs1, Hs2, Hs3, Hs4, Hs5, Hs6, Hs7, Hs8, Hs9, Hs10, Hs11, Hs12, Hs13, Hs14, Hs15, Hs16, Hs17, Hs18, Hs19, Hs20⟩, HO⟩
  ihave Hmw := ((K (F := F)).mayWaits_none (thr := V d (cV L) (jV L)) hO) $$ Hlv
  -- the pieces the transfers move
  ihave HI := (Entails.of_eq (pts_iSlab (F := F) d L _).symm) $$ HIt
  ihave Hx := (toks_entry (F := F) d L _ _) $$ Hx
  icases Hx with ⟨Hxrem, HW0, HW1, HW2, HW3, HW4, HW5, HW6, HW7, HW8, HW9⟩
  ihave HoB := (Entails.of_eq (out_entry (F := F) d L _)) $$ HoB
  icases HoB with ⟨⟨Ho0, Ho1, Ho2, Ho3, Ho4, Ho5, Ho6, Ho7, Ho8, Ho9⟩, HaO⟩
  ihave Hi := (Entails.of_eq (show ((sI).view.loc (V d (cV L) (jV L)) ↦{fullShare} fi : sProp 𝕄) = ((V d (cV L) (jV L)).loc cc0_scratch0 ↦{fullShare} fi) from rfl).symm) $$ Hi
  ihave Hr := (slots_entry (F := F) d L fr) $$ Hr
  icases Hr with ⟨Hr0, Hr1, Hr2, Hr3, Hr4, Hr5, Hr6, Hr7, Hr8, Hr9⟩
  -- the index block's fetch and its wait
  sl_exec (disch := first | exact View.amount_pos _ _ (by decide) | exact View.dmaCredit_pos _ (by decide) | decide)
  have hinb := fun fs row hk hst hq => inb_of_range (F := F) d L It hIt fs (tile_run.sl.dma0 d L It) rfl row hk hst hq
  have hV1 : ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) (View.write (Elt F) (sI).view fi (tile_run.sl.dma0 d L It) Finset.univ)) hn hin)) →
        ∀ i ∈ (sAt offS inbS).view.set, (sAt offS inbS).view.writes (Elt F) prev [⟨Rect.whole S64x128, pay⟩] i = (slotVal It Wt (widL L)) c i := hV1_tile (F := F) d L It Wt fi
  have hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = (slotVal It Wt (widL L)) c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = (lookupT It Wt : Buf (Elt F) (oLoc d)) i := hV2_tile (F := F) d L It Wt
  ihave Hi := (Entails.of_eq (lst_entry (F := F) d L (View.write (Elt F) (sI).view fi (tile_run.sl.dma0 d L It) Finset.univ))) $$ Hi
  icases Hi with ⟨⟨Hl0, Hl1, Hl2, Hl3, Hl4, Hl5, Hl6, Hl7, Hl8, Hl9⟩, HaL⟩
  -- the first three write-outs spell their chunks through the straight-line offsets
  ihave Ho0 := (Entails.of_eq (OUTp_at (F := F) d L (k0_off2_inb L 0) (10 * 0 + 0) (off2_chunk L 0 _ rfl) _)) $$ Ho0
  ihave Ho1 := (Entails.of_eq (OUTp_at (F := F) d L (k0_off2_inb L 1) (10 * 0 + 1) (off2_chunk L 1 _ rfl) _)) $$ Ho1
  ihave Ho2 := (Entails.of_eq (OUTp_at (F := F) d L (k0_off3_inb L) (10 * 0 + 2) (off3_chunk L) _)) $$ Ho2
  -- seven gathers, then three steps
  sl_exec (disch := first | exact View.amount_pos _ _ (by decide) | exact View.dmaCredit_pos _ (by decide) | decide)
  iclear HW3 HW4 HW5 HW6 HW7 HW8 HW9
  sl_for (inv d L (Transfers.shareTok fullShare 32 (widL L)) O W Wt O0 (lookupT It Wt : Buf (Elt F) (oLoc d)) (View.write (Elt F) (sI).view fi (tile_run.sl.dma0 d L It) Finset.univ) (slotVal It Wt (widL L))) $$ [Hmw Hs3 Hs4 Hs5 Hs6 Hs7 Hs8 Hs9 Hs10 Hs11 Hs12 Hs0 Hs1 Hs2 HW0 HW1 HW2 Hs13 Hs14 Hs15 Hs16 Hs17 Hs18 Hs19 Ho3 Ho4 Ho5 Ho6 Ho7 Ho8 Ho9 Hl0 Hl1 Hl2 HaO HaL HO]
  case region =>
    intro k _
    unfold inv
    iintro ⟨Hmw, ⟨Hg3, Hg4, Hg5, Hg6, Hg7, Hg8, Hg9⟩, ⟨Hw0, Hw1, Hw2⟩, ⟨Hs0, Hs1, Hs2⟩, ⟨HW0, HW1, HW2⟩, ⟨Hs13, Hs14, Hs15, Hs16, Hs17, Hs18, Hs19⟩, ⟨Ho3, Ho4, Ho5, Ho6, Ho7, Ho8, Ho9⟩, ⟨Hl0, Hl1, Hl2⟩, HaO, HaL, HdO, HdL, %W', %hW', HO⟩
    have hk9 : k.val + 1 < 10 := by have := lt_of_lt_of_le k.isLt k0_t1_abs.2.1; omega
    ihave HaO := (Entails.of_eq (pop_O (F := F) d L O0 k.val hk9)) $$ HaO
    icases HaO with ⟨⟨Hp0, Hp1, Hp2, Hp3, Hp4, Hp5, Hp6, Hp7, Hp8, Hp9⟩, HaO⟩
    ihave HaL := (Entails.of_eq (pop_L (F := F) d L _ k.val hk9)) $$ HaL
    icases HaL with ⟨⟨Hq0, Hq1, Hq2, Hq3, Hq4, Hq5, Hq6, Hq7, Hq8, Hq9⟩, HaL⟩
    ihave Ho3 := (Entails.of_eq (OUTp_at (F := F) d L (k0_off4_inb L k 0) (10 * k.val + 3) (off4_chunk L k 0 _ (by simp only [Fin.val_ofNat]; omega)) _)) $$ Ho3
    ihave Ho4 := (Entails.of_eq (OUTp_at (F := F) d L (k0_off4_inb L k 1) (10 * k.val + 4) (off4_chunk L k 1 _ (by simp only [Fin.val_ofNat]; omega)) _)) $$ Ho4
    ihave Ho5 := (Entails.of_eq (OUTp_at (F := F) d L (k0_off4_inb L k 2) (10 * k.val + 5) (off4_chunk L k 2 _ (by simp only [Fin.val_ofNat]; omega)) _)) $$ Ho5
    ihave Ho6 := (Entails.of_eq (OUTp_at (F := F) d L (k0_off4_inb L k 3) (10 * k.val + 6) (off4_chunk L k 3 _ (by simp only [Fin.val_ofNat]; omega)) _)) $$ Ho6
    ihave Ho7 := (Entails.of_eq (OUTp_at (F := F) d L (k0_off4_inb L k 4) (10 * k.val + 7) (off4_chunk L k 4 _ (by simp only [Fin.val_ofNat]; omega)) _)) $$ Ho7
    ihave Ho8 := (Entails.of_eq (OUTp_at (F := F) d L (k0_off4_inb L k 5) (10 * k.val + 8) (off4_chunk L k 5 _ (by simp only [Fin.val_ofNat]; omega)) _)) $$ Ho8
    ihave Ho9 := (Entails.of_eq (OUTp_at (F := F) d L (k0_off4_inb L k 6) (10 * k.val + 9) (off4_chunk L k 6 _ (by simp only [Fin.val_ofNat]; omega)) _)) $$ Ho9
    ihave Hp0 := (Entails.of_eq (OUTp_at (F := F) d L (k0_off4_inb L k 7) (10 * (k.val + 1) + 0) (off4_chunk L k 7 _ (by simp only [Fin.val_ofNat]; omega)) _)) $$ Hp0
    ihave Hp1 := (Entails.of_eq (OUTp_at (F := F) d L (k0_off4_inb L k 8) (10 * (k.val + 1) + 1) (off4_chunk L k 8 _ (by simp only [Fin.val_ofNat]; omega)) _)) $$ Hp1
    ihave Hp2 := (Entails.of_eq (OUTp_at (F := F) d L (k0_off4_inb L k 9) (10 * (k.val + 1) + 2) (off4_chunk L k 9 _ (by simp only [Fin.val_ofNat]; omega)) _)) $$ Hp2
    ihave Hq0 := (Entails.of_eq (LSTp_at (F := F) d L _ (k0_off6_inb k 0) (10 * (k.val + 1) + 0) (off6_list k 0 _ (by simp only [Fin.val_ofNat]; omega)))) $$ Hq0
    ihave Hq1 := (Entails.of_eq (LSTp_at (F := F) d L _ (k0_off6_inb k 1) (10 * (k.val + 1) + 1) (off6_list k 1 _ (by simp only [Fin.val_ofNat]; omega)))) $$ Hq1
    ihave Hq2 := (Entails.of_eq (LSTp_at (F := F) d L _ (k0_off6_inb k 2) (10 * (k.val + 1) + 2) (off6_list k 2 _ (by simp only [Fin.val_ofNat]; omega)))) $$ Hq2
    ihave Hq3 := (Entails.of_eq (LSTp_at (F := F) d L _ (k0_off6_inb k 3) (10 * (k.val + 1) + 3) (off6_list k 3 _ (by simp only [Fin.val_ofNat]; omega)))) $$ Hq3
    ihave Hq4 := (Entails.of_eq (LSTp_at (F := F) d L _ (k0_off6_inb k 4) (10 * (k.val + 1) + 4) (off6_list k 4 _ (by simp only [Fin.val_ofNat]; omega)))) $$ Hq4
    ihave Hq5 := (Entails.of_eq (LSTp_at (F := F) d L _ (k0_off6_inb k 5) (10 * (k.val + 1) + 5) (off6_list k 5 _ (by simp only [Fin.val_ofNat]; omega)))) $$ Hq5
    ihave Hq6 := (Entails.of_eq (LSTp_at (F := F) d L _ (k0_off6_inb k 6) (10 * (k.val + 1) + 6) (off6_list k 6 _ (by simp only [Fin.val_ofNat]; omega)))) $$ Hq6
    ihave Hq7 := (Entails.of_eq (LSTp_at (F := F) d L _ (k0_off6_inb k 7) (10 * (k.val + 1) + 7) (off6_list k 7 _ (by simp only [Fin.val_ofNat]; omega)))) $$ Hq7
    ihave Hq8 := (Entails.of_eq (LSTp_at (F := F) d L _ (k0_off6_inb k 8) (10 * (k.val + 1) + 8) (off6_list k 8 _ (by simp only [Fin.val_ofNat]; omega)))) $$ Hq8
    ihave Hq9 := (Entails.of_eq (LSTp_at (F := F) d L _ (k0_off6_inb k 9) (10 * (k.val + 1) + 9) (off6_list k 9 _ (by simp only [Fin.val_ofNat]; omega)))) $$ Hq9
    sl_exec (disch := first | exact View.amount_pos _ _ (by decide) | exact View.dmaCredit_pos _ (by decide) | decide)
    icases Hg3_dst with ⟨Hsl3, Hls3⟩
    sl_exec (disch := first | exact View.amount_pos _ _ (by decide) | exact View.dmaCredit_pos _ (by decide) | decide)
    icases Hg4_dst with ⟨Hsl4, Hls4⟩
    sl_exec (disch := first | exact View.amount_pos _ _ (by decide) | exact View.dmaCredit_pos _ (by decide) | decide)
    icases Hg5_dst with ⟨Hsl5, Hls5⟩
    sl_exec (disch := first | exact View.amount_pos _ _ (by decide) | exact View.dmaCredit_pos _ (by decide) | decide)
    icases Hg6_dst with ⟨Hsl6, Hls6⟩
    sl_exec (disch := first | exact View.amount_pos _ _ (by decide) | exact View.dmaCredit_pos _ (by decide) | decide)
    icases Hg7_dst with ⟨Hsl7, Hls7⟩
    sl_exec (disch := first | exact View.amount_pos _ _ (by decide) | exact View.dmaCredit_pos _ (by decide) | decide)
    icases Hg8_dst with ⟨Hsl8, Hls8⟩
    sl_exec (disch := first | exact View.amount_pos _ _ (by decide) | exact View.dmaCredit_pos _ (by decide) | decide)
    icases Hg9_dst with ⟨Hsl9, Hls9⟩
    sl_exec (disch := first | exact View.amount_pos _ _ (by decide) | exact View.dmaCredit_pos _ (by decide) | decide)
    sl_step
    iclear Hg3_src Hg4_src Hg5_src Hg6_src Hg7_src Hg8_src Hg9_src
    have hk : k.val < 9 := lt_of_lt_of_le k.isLt k0_t1_abs.2.1
    isplitl [Hmw]; · iexact Hmw
    isplitl [Hg3 Hg4 Hg5 Hg6 Hg7 Hg8 Hg9]
    · isplitl [Hg3]
      · iapply (gF_of_raw (F := F) d L (Transfers.shareTok fullShare 32 (widL L)) Wt (View.write (Elt F) (sI).view fi (tile_run.sl.dma0 d L It) Finset.univ) (slotVal It Wt (widL L)) hV1 _ 3 (10 * (k.val + 1) + 3) (by omega) inb_S10x64x128_S1x64x128_3_0_0 rfl (k0_off6_inb k 3) (off6_list k 3 _ (by simp only [Fin.val_ofNat]; omega)) _ _ ?hp3) $$ Hg3
        case hp3 => exact ⟨_, _, rfl⟩
      isplitl [Hg4]
      · iapply (gF_of_raw (F := F) d L (Transfers.shareTok fullShare 32 (widL L)) Wt (View.write (Elt F) (sI).view fi (tile_run.sl.dma0 d L It) Finset.univ) (slotVal It Wt (widL L)) hV1 _ 4 (10 * (k.val + 1) + 4) (by omega) inb_S10x64x128_S1x64x128_4_0_0 rfl (k0_off6_inb k 4) (off6_list k 4 _ (by simp only [Fin.val_ofNat]; omega)) _ _ ?hp4) $$ Hg4
        case hp4 => exact ⟨_, _, rfl⟩
      isplitl [Hg5]
      · iapply (gF_of_raw (F := F) d L (Transfers.shareTok fullShare 32 (widL L)) Wt (View.write (Elt F) (sI).view fi (tile_run.sl.dma0 d L It) Finset.univ) (slotVal It Wt (widL L)) hV1 _ 5 (10 * (k.val + 1) + 5) (by omega) inb_S10x64x128_S1x64x128_5_0_0 rfl (k0_off6_inb k 5) (off6_list k 5 _ (by simp only [Fin.val_ofNat]; omega)) _ _ ?hp5) $$ Hg5
        case hp5 => exact ⟨_, _, rfl⟩
      isplitl [Hg6]
      · iapply (gF_of_raw (F := F) d L (Transfers.shareTok fullShare 32 (widL L)) Wt (View.write (Elt F) (sI).view fi (tile_run.sl.dma0 d L It) Finset.univ) (slotVal It Wt (widL L)) hV1 _ 6 (10 * (k.val + 1) + 6) (by omega) inb_S10x64x128_S1x64x128_6_0_0 rfl (k0_off6_inb k 6) (off6_list k 6 _ (by simp only [Fin.val_ofNat]; omega)) _ _ ?hp6) $$ Hg6
        case hp6 => exact ⟨_, _, rfl⟩
      isplitl [Hg7]
      · iapply (gF_of_raw (F := F) d L (Transfers.shareTok fullShare 32 (widL L)) Wt (View.write (Elt F) (sI).view fi (tile_run.sl.dma0 d L It) Finset.univ) (slotVal It Wt (widL L)) hV1 _ 7 (10 * (k.val + 1) + 7) (by omega) inb_S10x64x128_S1x64x128_7_0_0 rfl (k0_off6_inb k 7) (off6_list k 7 _ (by simp only [Fin.val_ofNat]; omega)) _ _ ?hp7) $$ Hg7
        case hp7 => exact ⟨_, _, rfl⟩
      isplitl [Hg8]
      · iapply (gF_of_raw (F := F) d L (Transfers.shareTok fullShare 32 (widL L)) Wt (View.write (Elt F) (sI).view fi (tile_run.sl.dma0 d L It) Finset.univ) (slotVal It Wt (widL L)) hV1 _ 8 (10 * (k.val + 1) + 8) (by omega) inb_S10x64x128_S1x64x128_8_0_0 rfl (k0_off6_inb k 8) (off6_list k 8 _ (by simp only [Fin.val_ofNat]; omega)) _ _ ?hp8) $$ Hg8
        case hp8 => exact ⟨_, _, rfl⟩
      iapply (gF_of_raw (F := F) d L (Transfers.shareTok fullShare 32 (widL L)) Wt (View.write (Elt F) (sI).view fi (tile_run.sl.dma0 d L It) Finset.univ) (slotVal It Wt (widL L)) hV1 _ 9 (10 * (k.val + 1) + 9) (by omega) inb_S10x64x128_S1x64x128_9_0_0 rfl (k0_off6_inb k 9) (off6_list k 9 _ (by simp only [Fin.val_ofNat]; omega)) _ _ ?hp9) $$ Hg9
      case hp9 => exact ⟨_, _, rfl⟩
    isplitl [Hw0 Hw1 Hw2]
    · isplitl [Hw0]
      · iapply (wF_of_raw (F := F) d L (lookupT It Wt : Buf (Elt F) (oLoc d)) (slotVal It Wt (widL L)) hV2 _ 0 (10 * (k.val + 1) + 0) (by omega) inb_S10x64x128_S1x64x128_0_0_0 rfl (k0_off4_inb L k 7) (off4_chunk L k 7 _ (by simp only [Fin.val_ofNat]; omega)) _ _ _ ?hf0 ?hD0) $$ Hw0
        case hD0 => rfl
        case hf0 => exact hV1 (10 * (k.val + 1) + 0) (by omega) 0 inb_S10x64x128_S1x64x128_0_0_0 rfl (k0_off6_inb k 0) (off6_list k 0 _ (by simp only [Fin.val_ofNat]; omega)) _ _ ⟨_, _, rfl⟩
      isplitl [Hw1]
      · iapply (wF_of_raw (F := F) d L (lookupT It Wt : Buf (Elt F) (oLoc d)) (slotVal It Wt (widL L)) hV2 _ 1 (10 * (k.val + 1) + 1) (by omega) inb_S10x64x128_S1x64x128_1_0_0 rfl (k0_off4_inb L k 8) (off4_chunk L k 8 _ (by simp only [Fin.val_ofNat]; omega)) _ _ _ ?hf1 ?hD1) $$ Hw1
        case hD1 => rfl
        case hf1 => exact hV1 (10 * (k.val + 1) + 1) (by omega) 1 inb_S10x64x128_S1x64x128_1_0_0 rfl (k0_off6_inb k 1) (off6_list k 1 _ (by simp only [Fin.val_ofNat]; omega)) _ _ ⟨_, _, rfl⟩
      iapply (wF_of_raw (F := F) d L (lookupT It Wt : Buf (Elt F) (oLoc d)) (slotVal It Wt (widL L)) hV2 _ 2 (10 * (k.val + 1) + 2) (by omega) inb_S10x64x128_S1x64x128_2_0_0 rfl (k0_off4_inb L k 9) (off4_chunk L k 9 _ (by simp only [Fin.val_ofNat]; omega)) _ _ _ ?hf2 ?hD2) $$ Hw2
      case hD2 => rfl
      case hf2 => exact hV1 (10 * (k.val + 1) + 2) (by omega) 2 inb_S10x64x128_S1x64x128_2_0_0 rfl (k0_off6_inb k 2) (off6_list k 2 _ (by simp only [Fin.val_ofNat]; omega)) _ _ ⟨_, _, rfl⟩
    isplitl [Hs0 Hs1 Hs2]
    · isplitl [Hs0]
      · iexact Hs0
      isplitl [Hs1]
      · iexact Hs1
      iexact Hs2
    isplitl [HW0 HW1 HW2]
    · isplitl [HW0]
      · iexact HW0
      isplitl [HW1]
      · iexact HW1
      iexact HW2
    isplitl [Hs13 Hs14 Hs15 Hs16 Hs17 Hs18 Hs19]
    · isplitl [Hs13]
      · iexact Hs13
      isplitl [Hs14]
      · iexact Hs14
      isplitl [Hs15]
      · iexact Hs15
      isplitl [Hs16]
      · iexact Hs16
      isplitl [Hs17]
      · iexact Hs17
      isplitl [Hs18]
      · iexact Hs18
      iexact Hs19
    isplitl [Hp3 Hp4 Hp5 Hp6 Hp7 Hp8 Hp9]
    · isplitl [Hp3]
      · iexact Hp3
      isplitl [Hp4]
      · iexact Hp4
      isplitl [Hp5]
      · iexact Hp5
      isplitl [Hp6]
      · iexact Hp6
      isplitl [Hp7]
      · iexact Hp7
      isplitl [Hp8]
      · iexact Hp8
      iexact Hp9
    isplitl [Hq0 Hq1 Hq2]
    · isplitl [Hq0]
      · iapply (Entails.of_eq (LSTp_at (F := F) d L (View.write (Elt F) (sI).view fi (tile_run.sl.dma0 d L It) Finset.univ) (k0_off6_inb k 0) (10 * (k.val + 1) + 0) (off6_list k 0 _ (by simp only [Fin.val_ofNat]; omega))).symm) $$ Hq0
      isplitl [Hq1]
      · iapply (Entails.of_eq (LSTp_at (F := F) d L (View.write (Elt F) (sI).view fi (tile_run.sl.dma0 d L It) Finset.univ) (k0_off6_inb k 1) (10 * (k.val + 1) + 1) (off6_list k 1 _ (by simp only [Fin.val_ofNat]; omega))).symm) $$ Hq1
      iapply (Entails.of_eq (LSTp_at (F := F) d L (View.write (Elt F) (sI).view fi (tile_run.sl.dma0 d L It) Finset.univ) (k0_off6_inb k 2) (10 * (k.val + 1) + 2) (off6_list k 2 _ (by simp only [Fin.val_ofNat]; omega))).symm) $$ Hq2
    isplitl [HaO]; · iexact HaO
    isplitl [HaL]; · iexact HaL
    isplitl [HdO Hw0_dst Hw1_dst Hw2_dst Ho3 Ho4 Ho5 Ho6 Ho7 Ho8 Ho9]
    · iapply (Entails.of_eq (push_O (F := F) d L (lookupT It Wt : Buf (Elt F) (oLoc d)) k.val).symm)
      isplitr [HdO]
      · isplitl [Hw0_dst]
        · iexact Hw0_dst
        isplitl [Hw1_dst]
        · iexact Hw1_dst
        isplitl [Hw2_dst]
        · iexact Hw2_dst
        isplitl [Ho3]
        · iapply (OUTp_of_raw (F := F) d L (lookupT It Wt : Buf (Elt F) (oLoc d)) (slotVal It Wt (widL L)) hV2 3 (10 * k.val + 3) (by omega) inb_S10x64x128_S1x64x128_3_0_0 rfl (k0_off4_inb L k 0) (off4_chunk L k 0 _ (by simp only [Fin.val_ofNat]; omega)) _ ((slotVal It Wt (widL L)) (10 * k.val + 3)) _ (fun _ _ => rfl) ?hDo3) $$ Ho3
          case hDo3 => rfl
        isplitl [Ho4]
        · iapply (OUTp_of_raw (F := F) d L (lookupT It Wt : Buf (Elt F) (oLoc d)) (slotVal It Wt (widL L)) hV2 4 (10 * k.val + 4) (by omega) inb_S10x64x128_S1x64x128_4_0_0 rfl (k0_off4_inb L k 1) (off4_chunk L k 1 _ (by simp only [Fin.val_ofNat]; omega)) _ ((slotVal It Wt (widL L)) (10 * k.val + 4)) _ (fun _ _ => rfl) ?hDo4) $$ Ho4
          case hDo4 => rfl
        isplitl [Ho5]
        · iapply (OUTp_of_raw (F := F) d L (lookupT It Wt : Buf (Elt F) (oLoc d)) (slotVal It Wt (widL L)) hV2 5 (10 * k.val + 5) (by omega) inb_S10x64x128_S1x64x128_5_0_0 rfl (k0_off4_inb L k 2) (off4_chunk L k 2 _ (by simp only [Fin.val_ofNat]; omega)) _ ((slotVal It Wt (widL L)) (10 * k.val + 5)) _ (fun _ _ => rfl) ?hDo5) $$ Ho5
          case hDo5 => rfl
        isplitl [Ho6]
        · iapply (OUTp_of_raw (F := F) d L (lookupT It Wt : Buf (Elt F) (oLoc d)) (slotVal It Wt (widL L)) hV2 6 (10 * k.val + 6) (by omega) inb_S10x64x128_S1x64x128_6_0_0 rfl (k0_off4_inb L k 3) (off4_chunk L k 3 _ (by simp only [Fin.val_ofNat]; omega)) _ ((slotVal It Wt (widL L)) (10 * k.val + 6)) _ (fun _ _ => rfl) ?hDo6) $$ Ho6
          case hDo6 => rfl
        isplitl [Ho7]
        · iapply (OUTp_of_raw (F := F) d L (lookupT It Wt : Buf (Elt F) (oLoc d)) (slotVal It Wt (widL L)) hV2 7 (10 * k.val + 7) (by omega) inb_S10x64x128_S1x64x128_7_0_0 rfl (k0_off4_inb L k 4) (off4_chunk L k 4 _ (by simp only [Fin.val_ofNat]; omega)) _ ((slotVal It Wt (widL L)) (10 * k.val + 7)) _ (fun _ _ => rfl) ?hDo7) $$ Ho7
          case hDo7 => rfl
        isplitl [Ho8]
        · iapply (OUTp_of_raw (F := F) d L (lookupT It Wt : Buf (Elt F) (oLoc d)) (slotVal It Wt (widL L)) hV2 8 (10 * k.val + 8) (by omega) inb_S10x64x128_S1x64x128_8_0_0 rfl (k0_off4_inb L k 5) (off4_chunk L k 5 _ (by simp only [Fin.val_ofNat]; omega)) _ ((slotVal It Wt (widL L)) (10 * k.val + 8)) _ (fun _ _ => rfl) ?hDo8) $$ Ho8
          case hDo8 => rfl
        iapply (OUTp_of_raw (F := F) d L (lookupT It Wt : Buf (Elt F) (oLoc d)) (slotVal It Wt (widL L)) hV2 9 (10 * k.val + 9) (by omega) inb_S10x64x128_S1x64x128_9_0_0 rfl (k0_off4_inb L k 6) (off4_chunk L k 6 _ (by simp only [Fin.val_ofNat]; omega)) _ ((slotVal It Wt (widL L)) (10 * k.val + 9)) _ (fun _ _ => rfl) ?hDo9) $$ Ho9
        case hDo9 => rfl
      · iexact HdO
    isplitl [HdL Hl0 Hl1 Hl2 Hls3 Hls4 Hls5 Hls6 Hls7 Hls8 Hls9]
    · iapply (Entails.of_eq (push_L (F := F) d L (View.write (Elt F) (sI).view fi (tile_run.sl.dma0 d L It) Finset.univ) k.val).symm)
      isplitr [HdL]
      · isplitl [Hl0]
        · iexact Hl0
        isplitl [Hl1]
        · iexact Hl1
        isplitl [Hl2]
        · iexact Hl2
        isplitl [Hls3]
        · iexact Hls3
        isplitl [Hls4]
        · iexact Hls4
        isplitl [Hls5]
        · iexact Hls5
        isplitl [Hls6]
        · iexact Hls6
        isplitl [Hls7]
        · iexact Hls7
        isplitl [Hls8]
        · iexact Hls8
        iexact Hls9
      · iexact HdL
    iexists _; isplitr
    on_goal 2 => iexact HO
    ipureintro; exact ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (hW'))))))))))))))))))))
  · unfold inv
    isplitl [Hmw]; · iexact Hmw
    isplitl [Hs3 Hs4 Hs5 Hs6 Hs7 Hs8 Hs9]
    · isplitl [Hs3]
      · iapply (gF_of_raw (F := F) d L (Transfers.shareTok fullShare 32 (widL L)) Wt (View.write (Elt F) (sI).view fi (tile_run.sl.dma0 d L It) Finset.univ) (slotVal It Wt (widL L)) hV1 _ 3 (10 * 0 + 3) (by omega) inb_S10x64x128_S1x64x128_3_0_0 rfl (listOff_inb _) rfl _ _ ?hp3) $$ Hs3
        case hp3 => exact ⟨_, _, rfl⟩
      isplitl [Hs4]
      · iapply (gF_of_raw (F := F) d L (Transfers.shareTok fullShare 32 (widL L)) Wt (View.write (Elt F) (sI).view fi (tile_run.sl.dma0 d L It) Finset.univ) (slotVal It Wt (widL L)) hV1 _ 4 (10 * 0 + 4) (by omega) inb_S10x64x128_S1x64x128_4_0_0 rfl (listOff_inb _) rfl _ _ ?hp4) $$ Hs4
        case hp4 => exact ⟨_, _, rfl⟩
      isplitl [Hs5]
      · iapply (gF_of_raw (F := F) d L (Transfers.shareTok fullShare 32 (widL L)) Wt (View.write (Elt F) (sI).view fi (tile_run.sl.dma0 d L It) Finset.univ) (slotVal It Wt (widL L)) hV1 _ 5 (10 * 0 + 5) (by omega) inb_S10x64x128_S1x64x128_5_0_0 rfl (listOff_inb _) rfl _ _ ?hp5) $$ Hs5
        case hp5 => exact ⟨_, _, rfl⟩
      isplitl [Hs6]
      · iapply (gF_of_raw (F := F) d L (Transfers.shareTok fullShare 32 (widL L)) Wt (View.write (Elt F) (sI).view fi (tile_run.sl.dma0 d L It) Finset.univ) (slotVal It Wt (widL L)) hV1 _ 6 (10 * 0 + 6) (by omega) inb_S10x64x128_S1x64x128_6_0_0 rfl (listOff_inb _) rfl _ _ ?hp6) $$ Hs6
        case hp6 => exact ⟨_, _, rfl⟩
      isplitl [Hs7]
      · iapply (gF_of_raw (F := F) d L (Transfers.shareTok fullShare 32 (widL L)) Wt (View.write (Elt F) (sI).view fi (tile_run.sl.dma0 d L It) Finset.univ) (slotVal It Wt (widL L)) hV1 _ 7 (10 * 0 + 7) (by omega) inb_S10x64x128_S1x64x128_7_0_0 rfl (listOff_inb _) rfl _ _ ?hp7) $$ Hs7
        case hp7 => exact ⟨_, _, rfl⟩
      isplitl [Hs8]
      · iapply (gF_of_raw (F := F) d L (Transfers.shareTok fullShare 32 (widL L)) Wt (View.write (Elt F) (sI).view fi (tile_run.sl.dma0 d L It) Finset.univ) (slotVal It Wt (widL L)) hV1 _ 8 (10 * 0 + 8) (by omega) inb_S10x64x128_S1x64x128_8_0_0 rfl (listOff_inb _) rfl _ _ ?hp8) $$ Hs8
        case hp8 => exact ⟨_, _, rfl⟩
      iapply (gF_of_raw (F := F) d L (Transfers.shareTok fullShare 32 (widL L)) Wt (View.write (Elt F) (sI).view fi (tile_run.sl.dma0 d L It) Finset.univ) (slotVal It Wt (widL L)) hV1 _ 9 (10 * 0 + 9) (by omega) inb_S10x64x128_S1x64x128_9_0_0 rfl (listOff_inb _) rfl _ _ ?hp9) $$ Hs9
      case hp9 => exact ⟨_, _, rfl⟩
    isplitl [Hs10 Hs11 Hs12]
    · isplitl [Hs10]
      · iapply (wF_of_raw (F := F) d L (lookupT It Wt : Buf (Elt F) (oLoc d)) (slotVal It Wt (widL L)) hV2 _ 0 (10 * 0 + 0) (by omega) inb_S10x64x128_S1x64x128_0_0_0 rfl (k0_off2_inb L 0) (off2_chunk L 0 _ rfl) _ _ _ ?hf0 ?hD0) $$ Hs10
        case hD0 => rfl
        case hf0 => exact hV1 (10 * 0 + 0) (by omega) 0 inb_S10x64x128_S1x64x128_0_0_0 rfl (listOff_inb _) rfl _ _ ⟨_, _, rfl⟩
      isplitl [Hs11]
      · iapply (wF_of_raw (F := F) d L (lookupT It Wt : Buf (Elt F) (oLoc d)) (slotVal It Wt (widL L)) hV2 _ 1 (10 * 0 + 1) (by omega) inb_S10x64x128_S1x64x128_1_0_0 rfl (k0_off2_inb L 1) (off2_chunk L 1 _ rfl) _ _ _ ?hf1 ?hD1) $$ Hs11
        case hD1 => rfl
        case hf1 => exact hV1 (10 * 0 + 1) (by omega) 1 inb_S10x64x128_S1x64x128_1_0_0 rfl (listOff_inb _) rfl _ _ ⟨_, _, rfl⟩
      iapply (wF_of_raw (F := F) d L (lookupT It Wt : Buf (Elt F) (oLoc d)) (slotVal It Wt (widL L)) hV2 _ 2 (10 * 0 + 2) (by omega) inb_S10x64x128_S1x64x128_2_0_0 rfl (k0_off3_inb L) (off3_chunk L) _ _ _ ?hf2 ?hD2) $$ Hs12
      case hD2 => rfl
      case hf2 => exact hV1 (10 * 0 + 2) (by omega) 2 inb_S10x64x128_S1x64x128_2_0_0 rfl (listOff_inb _) rfl _ _ ⟨_, _, rfl⟩
    isplitl [Hs0 Hs1 Hs2]
    · isplitl [Hs0]
      · iexact Hs0
      isplitl [Hs1]
      · iexact Hs1
      iexact Hs2
    isplitl [HW0 HW1 HW2]
    · isplitl [HW0]
      · iexact HW0
      isplitl [HW1]
      · iexact HW1
      iexact HW2
    isplitl [Hs13 Hs14 Hs15 Hs16 Hs17 Hs18 Hs19]
    · isplitl [Hs13]
      · iexact Hs13
      isplitl [Hs14]
      · iexact Hs14
      isplitl [Hs15]
      · iexact Hs15
      isplitl [Hs16]
      · iexact Hs16
      isplitl [Hs17]
      · iexact Hs17
      isplitl [Hs18]
      · iexact Hs18
      iexact Hs19
    isplitl [Ho3 Ho4 Ho5 Ho6 Ho7 Ho8 Ho9]
    · isplitl [Ho3]
      · iexact Ho3
      isplitl [Ho4]
      · iexact Ho4
      isplitl [Ho5]
      · iexact Ho5
      isplitl [Ho6]
      · iexact Ho6
      isplitl [Ho7]
      · iexact Ho7
      isplitl [Ho8]
      · iexact Ho8
      iexact Ho9
    isplitl [Hl0 Hl1 Hl2]
    · isplitl [Hl0]
      · iexact Hl0
      isplitl [Hl1]
      · iexact Hl1
      iexact Hl2
    isplitl [HaO]; · iexact HaO
    isplitl [HaL]; · iexact HaL
    isplitl []; · rw [Finset.range_zero, bigSep_empty]; iempintro
    isplitl []; · rw [Finset.range_zero, bigSep_empty]; iempintro
    iexists _; isplitr
    on_goal 2 => iexact HO
    ipureintro; exact ins_ok _ (ins_ok _ (ins_ok _ (ins_ok _ ((fun p hp => Or.inl hp)))))
  -- after the loop: the last seven write-outs, the last waits
  iintro %acc HI
  unfold inv
  icases HI with ⟨Hmw, ⟨Hg3, Hg4, Hg5, Hg6, Hg7, Hg8, Hg9⟩, ⟨Hw0, Hw1, Hw2⟩, ⟨Hs0, Hs1, Hs2⟩, ⟨HW0, HW1, HW2⟩, ⟨Hs13, Hs14, Hs15, Hs16, Hs17, Hs18, Hs19⟩, ⟨Ho3, Ho4, Ho5, Ho6, Ho7, Ho8, Ho9⟩, ⟨Hl0, Hl1, Hl2⟩, HaO, HaL, HdO, HdL, %W', %hW', HO⟩
  have hT : (Scf.trips k0_t1_loop.lb k0_t1_loop.ub k0_t1_loop.st) = 9 := by decide
  ihave Ho3 := (Entails.of_eq (OUTp_at (F := F) d L (k0_off7_inb L) (10 * (Scf.trips k0_t1_loop.lb k0_t1_loop.ub k0_t1_loop.st) + 3) ((off7_chunk L).trans (congrArg (chunkOff (widL L)) (by rw [hT]))) _)) $$ Ho3
  ihave Ho4 := (Entails.of_eq (OUTp_at (F := F) d L (k0_off9_inb L 0) (10 * (Scf.trips k0_t1_loop.lb k0_t1_loop.ub k0_t1_loop.st) + 4) (off9_chunk L 0 _ (by rw [hT]; rfl)) _)) $$ Ho4
  ihave Ho5 := (Entails.of_eq (OUTp_at (F := F) d L (k0_off9_inb L 1) (10 * (Scf.trips k0_t1_loop.lb k0_t1_loop.ub k0_t1_loop.st) + 5) (off9_chunk L 1 _ (by rw [hT]; rfl)) _)) $$ Ho5
  ihave Ho6 := (Entails.of_eq (OUTp_at (F := F) d L (k0_off10_inb L 0) (10 * (Scf.trips k0_t1_loop.lb k0_t1_loop.ub k0_t1_loop.st) + 6) (off10_chunk L 0 _ (by rw [hT]; rfl)) _)) $$ Ho6
  ihave Ho7 := (Entails.of_eq (OUTp_at (F := F) d L (k0_off10_inb L 1) (10 * (Scf.trips k0_t1_loop.lb k0_t1_loop.ub k0_t1_loop.st) + 7) (off10_chunk L 1 _ (by rw [hT]; rfl)) _)) $$ Ho7
  ihave Ho8 := (Entails.of_eq (OUTp_at (F := F) d L (k0_off11_inb L 0) (10 * (Scf.trips k0_t1_loop.lb k0_t1_loop.ub k0_t1_loop.st) + 8) (off11_chunk L 0 _ (by rw [hT]; rfl)) _)) $$ Ho8
  ihave Ho9 := (Entails.of_eq (OUTp_at (F := F) d L (k0_off11_inb L 1) (10 * (Scf.trips k0_t1_loop.lb k0_t1_loop.ub k0_t1_loop.st) + 9) (off11_chunk L 1 _ (by rw [hT]; rfl)) _)) $$ Ho9
  sl_exec (disch := first | exact View.amount_pos _ _ (by decide) | exact View.dmaCredit_pos _ (by decide) | decide)
  icases Hg3_dst with ⟨Hsl3, Hls3⟩
  sl_exec (disch := first | exact View.amount_pos _ _ (by decide) | exact View.dmaCredit_pos _ (by decide) | decide)
  icases Hg4_dst with ⟨Hsl4, Hls4⟩
  sl_exec (disch := first | exact View.amount_pos _ _ (by decide) | exact View.dmaCredit_pos _ (by decide) | decide)
  icases Hg5_dst with ⟨Hsl5, Hls5⟩
  sl_exec (disch := first | exact View.amount_pos _ _ (by decide) | exact View.dmaCredit_pos _ (by decide) | decide)
  icases Hg6_dst with ⟨Hsl6, Hls6⟩
  sl_exec (disch := first | exact View.amount_pos _ _ (by decide) | exact View.dmaCredit_pos _ (by decide) | decide)
  icases Hg7_dst with ⟨Hsl7, Hls7⟩
  sl_exec (disch := first | exact View.amount_pos _ _ (by decide) | exact View.dmaCredit_pos _ (by decide) | decide)
  icases Hg8_dst with ⟨Hsl8, Hls8⟩
  sl_exec (disch := first | exact View.amount_pos _ _ (by decide) | exact View.dmaCredit_pos _ (by decide) | decide)
  icases Hg9_dst with ⟨Hsl9, Hls9⟩
  sl_exec (disch := first | exact View.amount_pos _ _ (by decide) | exact View.dmaCredit_pos _ (by decide) | decide)
  sl_step
  iclear HaO HaL Hmw
  isplitl [HI Hxrem HW0 HW1 HW2 Hg3_src Hg4_src Hg5_src Hg6_src Hg7_src Hg8_src Hg9_src HdO Hw0_dst Hw1_dst Hw2_dst Ho3 Ho4 Ho5 Ho6 Ho7 Ho8 Ho9]
  · isplitl [HI]; · iapply (Entails.of_eq (pts_iSlab (F := F) d L _)); iexact HI
    isplitl [Hxrem HW0 HW1 HW2 Hg3_src Hg4_src Hg5_src Hg6_src Hg7_src Hg8_src Hg9_src]
    · iapply (toks_exit (F := F) d L _ _)
      isplitl [Hxrem]; · iexact Hxrem
      isplitl [HW0]
      · iexact HW0
      isplitl [HW1]
      · iexact HW1
      isplitl [HW2]
      · iexact HW2
      isplitl [Hg3_src]
      · iexact Hg3_src
      isplitl [Hg4_src]
      · iexact Hg4_src
      isplitl [Hg5_src]
      · iexact Hg5_src
      isplitl [Hg6_src]
      · iexact Hg6_src
      isplitl [Hg7_src]
      · iexact Hg7_src
      isplitl [Hg8_src]
      · iexact Hg8_src
      iexact Hg9_src
    · iapply (Entails.of_eq (out_exit (F := F) d L (lookupT It Wt : Buf (Elt F) (oLoc d)) (Scf.trips k0_t1_loop.lb k0_t1_loop.ub k0_t1_loop.st) (by rw [hT])))
      isplitr [HdO]
      · isplitl [Hw0_dst]
        · iexact Hw0_dst
        isplitl [Hw1_dst]
        · iexact Hw1_dst
        isplitl [Hw2_dst]
        · iexact Hw2_dst
        isplitl [Ho3]
        · iapply (OUTp_of_raw (F := F) d L (lookupT It Wt : Buf (Elt F) (oLoc d)) (slotVal It Wt (widL L)) hV2 3 (10 * (Scf.trips k0_t1_loop.lb k0_t1_loop.ub k0_t1_loop.st) + 3) (by rw [hT]; decide) inb_S10x64x128_S1x64x128_3_0_0 rfl (k0_off7_inb L) ((off7_chunk L).trans (congrArg (chunkOff (widL L)) (by rw [hT]))) _ ((slotVal It Wt (widL L)) (10 * (Scf.trips k0_t1_loop.lb k0_t1_loop.ub k0_t1_loop.st) + 3)) _ (fun _ _ => rfl) ?hDe3) $$ Ho3
          case hDe3 => rfl
        isplitl [Ho4]
        · iapply (OUTp_of_raw (F := F) d L (lookupT It Wt : Buf (Elt F) (oLoc d)) (slotVal It Wt (widL L)) hV2 4 (10 * (Scf.trips k0_t1_loop.lb k0_t1_loop.ub k0_t1_loop.st) + 4) (by rw [hT]; decide) inb_S10x64x128_S1x64x128_4_0_0 rfl (k0_off9_inb L 0) (off9_chunk L 0 _ (by rw [hT]; rfl)) _ ((slotVal It Wt (widL L)) (10 * (Scf.trips k0_t1_loop.lb k0_t1_loop.ub k0_t1_loop.st) + 4)) _ (fun _ _ => rfl) ?hDe4) $$ Ho4
          case hDe4 => rfl
        isplitl [Ho5]
        · iapply (OUTp_of_raw (F := F) d L (lookupT It Wt : Buf (Elt F) (oLoc d)) (slotVal It Wt (widL L)) hV2 5 (10 * (Scf.trips k0_t1_loop.lb k0_t1_loop.ub k0_t1_loop.st) + 5) (by rw [hT]; decide) inb_S10x64x128_S1x64x128_5_0_0 rfl (k0_off9_inb L 1) (off9_chunk L 1 _ (by rw [hT]; rfl)) _ ((slotVal It Wt (widL L)) (10 * (Scf.trips k0_t1_loop.lb k0_t1_loop.ub k0_t1_loop.st) + 5)) _ (fun _ _ => rfl) ?hDe5) $$ Ho5
          case hDe5 => rfl
        isplitl [Ho6]
        · iapply (OUTp_of_raw (F := F) d L (lookupT It Wt : Buf (Elt F) (oLoc d)) (slotVal It Wt (widL L)) hV2 6 (10 * (Scf.trips k0_t1_loop.lb k0_t1_loop.ub k0_t1_loop.st) + 6) (by rw [hT]; decide) inb_S10x64x128_S1x64x128_6_0_0 rfl (k0_off10_inb L 0) (off10_chunk L 0 _ (by rw [hT]; rfl)) _ ((slotVal It Wt (widL L)) (10 * (Scf.trips k0_t1_loop.lb k0_t1_loop.ub k0_t1_loop.st) + 6)) _ (fun _ _ => rfl) ?hDe6) $$ Ho6
          case hDe6 => rfl
        isplitl [Ho7]
        · iapply (OUTp_of_raw (F := F) d L (lookupT It Wt : Buf (Elt F) (oLoc d)) (slotVal It Wt (widL L)) hV2 7 (10 * (Scf.trips k0_t1_loop.lb k0_t1_loop.ub k0_t1_loop.st) + 7) (by rw [hT]; decide) inb_S10x64x128_S1x64x128_7_0_0 rfl (k0_off10_inb L 1) (off10_chunk L 1 _ (by rw [hT]; rfl)) _ ((slotVal It Wt (widL L)) (10 * (Scf.trips k0_t1_loop.lb k0_t1_loop.ub k0_t1_loop.st) + 7)) _ (fun _ _ => rfl) ?hDe7) $$ Ho7
          case hDe7 => rfl
        isplitl [Ho8]
        · iapply (OUTp_of_raw (F := F) d L (lookupT It Wt : Buf (Elt F) (oLoc d)) (slotVal It Wt (widL L)) hV2 8 (10 * (Scf.trips k0_t1_loop.lb k0_t1_loop.ub k0_t1_loop.st) + 8) (by rw [hT]; decide) inb_S10x64x128_S1x64x128_8_0_0 rfl (k0_off11_inb L 0) (off11_chunk L 0 _ (by rw [hT]; rfl)) _ ((slotVal It Wt (widL L)) (10 * (Scf.trips k0_t1_loop.lb k0_t1_loop.ub k0_t1_loop.st) + 8)) _ (fun _ _ => rfl) ?hDe8) $$ Ho8
          case hDe8 => rfl
        iapply (OUTp_of_raw (F := F) d L (lookupT It Wt : Buf (Elt F) (oLoc d)) (slotVal It Wt (widL L)) hV2 9 (10 * (Scf.trips k0_t1_loop.lb k0_t1_loop.ub k0_t1_loop.st) + 9) (by rw [hT]; decide) inb_S10x64x128_S1x64x128_9_0_0 rfl (k0_off11_inb L 1) (off11_chunk L 1 _ (by rw [hT]; rfl)) _ ((slotVal It Wt (widL L)) (10 * (Scf.trips k0_t1_loop.lb k0_t1_loop.ub k0_t1_loop.st) + 9)) _ (fun _ _ => rfl) ?hDe9) $$ Ho9
        case hDe9 => rfl
      · iexact HdO
  isplitl [HdL Hl0 Hl1 Hl2 Hls3 Hls4 Hls5 Hls6 Hls7 Hls8 Hls9 Hw0_src Hw1_src Hw2_src Hsl3 Hsl4 Hsl5 Hsl6 Hsl7 Hsl8 Hsl9 Hbrest]
  · isplitl [HdL Hl0 Hl1 Hl2 Hls3 Hls4 Hls5 Hls6 Hls7 Hls8 Hls9]
    · iexists _
      iapply (Entails.of_eq (lst_exit (F := F) d L (View.write (Elt F) (sI).view fi (tile_run.sl.dma0 d L It) Finset.univ) (Scf.trips k0_t1_loop.lb k0_t1_loop.ub k0_t1_loop.st) (by rw [hT])))
      isplitr [HdL]
      · isplitl [Hl0]
        · iexact Hl0
        isplitl [Hl1]
        · iexact Hl1
        isplitl [Hl2]
        · iexact Hl2
        isplitl [Hls3]
        · iexact Hls3
        isplitl [Hls4]
        · iexact Hls4
        isplitl [Hls5]
        · iexact Hls5
        isplitl [Hls6]
        · iexact Hls6
        isplitl [Hls7]
        · iexact Hls7
        isplitl [Hls8]
        · iexact Hls8
        iexact Hls9
      · iexact HdL
    isplitl [Hw0_src Hw1_src Hw2_src Hsl3 Hsl4 Hsl5 Hsl6 Hsl7 Hsl8 Hsl9]
    · iapply (slots_exit (F := F) d L _ _ _ _ _ _ _ _ _ _)
      isplitl [Hw0_src]
      · iexact Hw0_src
      isplitl [Hw1_src]
      · iexact Hw1_src
      isplitl [Hw2_src]
      · iexact Hw2_src
      isplitl [Hsl3]
      · iexact Hsl3
      isplitl [Hsl4]
      · iexact Hsl4
      isplitl [Hsl5]
      · iexact Hsl5
      isplitl [Hsl6]
      · iexact Hsl6
      isplitl [Hsl7]
      · iexact Hsl7
      isplitl [Hsl8]
      · iexact Hsl8
      iexact Hsl9
    · iexact Hbrest
  isplitl [Hs0 Hs1 Hs2 Hg3 Hg4 Hg5 Hg6 Hg7 Hg8 Hg9 Hw0 Hw1 Hw2 Hs13 Hs14 Hs15 Hs16 Hs17 Hs18 Hs19 Hs20]
  · isplitl [Hs0]
    · iexact Hs0
    isplitl [Hs1]
    · iexact Hs1
    isplitl [Hs2]
    · iexact Hs2
    isplitl [Hg3]
    · iexact Hg3
    isplitl [Hg4]
    · iexact Hg4
    isplitl [Hg5]
    · iexact Hg5
    isplitl [Hg6]
    · iexact Hg6
    isplitl [Hg7]
    · iexact Hg7
    isplitl [Hg8]
    · iexact Hg8
    isplitl [Hg9]
    · iexact Hg9
    isplitl [Hw0]
    · iexact Hw0
    isplitl [Hw1]
    · iexact Hw1
    isplitl [Hw2]
    · iexact Hw2
    isplitl [Hs13]
    · iexact Hs13
    isplitl [Hs14]
    · iexact Hs14
    isplitl [Hs15]
    · iexact Hs15
    isplitl [Hs16]
    · iexact Hs16
    isplitl [Hs17]
    · iexact Hs17
    isplitl [Hs18]
    · iexact Hs18
    isplitl [Hs19]
    · iexact Hs19
    iexact Hs20
  iexists _; isplitr
  on_goal 2 => iexact HO
  ipureintro; exact ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (hW')))))))))))))))))

/-- Every tile's task, at the launch memory `m`, when every token id names a row of the table. -/
theorem tile_body (m : (ℓ : Loc nD τ sig) → Buf (Elt F) ℓ) (hI : ∀ d : Dev nD, InRange (m ((SparseCore.T d).loc main_arg0))) :
    BodyObl m := by
  intro d L O W hO
  refine tile_run (F := F) d L (It m d) (Wt m d) ?_ (O0 m d) O W hO
  intro j
  obtain ⟨s, n, rfl⟩ : ∃ (s : Fin 50) (n : Fin 4096), j = ValueIdx.ix2 s n := ⟨j 0, j 1, ValueIdx.eq_ix2 j⟩
  unfold It
  rw [transpose_ids_apply]
  exact hI d _

end Cert.Proof.IdealKernel

end
-- ==== Proof.WordSlab.lean ====
/-
  The slab of row numbers a tile fetches.

  A tile's first act is to copy its own columns of the transposed id table — all fifty rows, columns
  [128·w, 128·w + 128) for tile number w — into its index block. The program names that slab by the column its
  integer chain computes, 256·(vector subcore) + 128·(SparseCore) = 128·w; it is the w-th of the thirty-two equal
  parts the table is cut into along its columns.
  The table's entries are here the thirty-two-bit words of the printed program: every step moves them, none computes
  with them, so the statements read as they would over any kind of entry.
-/
import proofs.«206438_g5171140624678_cont_8to1_c_1053_28_alg».proof.Proof.WordPieces

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The slab of the id table the tile at grid point `L` fetches, as the program spells it. -/
abbrev iSlab (L : grid0.Coords) : Memref sig .scVector .hbm S50x128 .i32 :=
  (aI).slice (Rect.unit (s := S50x4096) (k0_off1 L) S50x128.size (k0_off1_inb L)) (fun _ => rfl)

/-- It covers exactly the tile's part of the id table: on the row axis both are everything, on the column axis
    both are the one hundred and twenty-eight columns from 128·w. -/
theorem set_iSlab (L : grid0.Coords) : (iSlab L).view.set = iSet (widL L) := by
  have h1 : (iSlab L).view.set = (Rect.unit (s := S50x4096) (k0_off1 L) S50x128.size (k0_off1_inb L)).set := by
    show ((View.whole (main_v0_scv : Ref sig .scVector)).slice _).set = _
    rw [View.set_slice]; exact Finset.map_refl
  have h2 : iSet (widL L) = (iPart (widL L)).set := by
    show ((View.whole (main_v0_scv : Ref sig .scVector)).slice _).set = _
    rw [View.set_slice]; exact Finset.map_refl
  rw [h1, h2]
  ext i
  rw [Rect.mem_set_unit, Rect.mem_set_unit, k0_off1_eq L]
  refine forall_congr' fun a => ?_
  have hw := widL_val L
  fin_cases a
  · simp [Shape.partIx, Shape.partSize]
  · simp [Shape.partIx, Shape.partSize, hw]
    omega

end Cert.Proof.WordKernel

end
-- ==== Proof.WordSlots.lean ====
/-
  The ten slots of a tile's row scratch.

  The scratch holds ten slabs of sixty-four rows of one hundred and twenty-eight numbers; slot b is the slab at
  leading coordinate b, read as a sixty-four by one hundred and twenty-eight array. Two different slots differ in
  the leading coordinate of every element, so they are disjoint; every element of the scratch lies in the slot
  its leading coordinate names, so together they are the whole scratch. Holding the scratch is therefore the same
  as holding the ten slots separately.
  The table's entries are here the thirty-two-bit words of the printed program: every step moves them, none computes
  with them, so the statements read as they would over any kind of entry.
-/
import proofs.«206438_g5171140624678_cont_8to1_c_1053_28_alg».proof.Proof.WordPieces

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem slot_inb : ∀ (b : Fin 10) (a : Fin 3), (![b.val, 0, 0] : Fin 3 → Nat) a + S1x64x128.size a ≤ S10x64x128.size a := by decide

/-- Slot `b` as a rectangle of the scratch: one slab at leading coordinate `b`, whole on the other two axes. -/
abbrev slotR (b : Fin 10) : Rect S10x64x128 := Rect.unit (s := S10x64x128) ![b.val, 0, 0] S1x64x128.size (slot_inb b)

/-- Slot `b` as the program reaches it: the slab, its leading axis of length one dropped. -/
abbrev slotM (b : Fin 10) : Memref sig .scVector .vmem S64x128 .f32 :=
  ((sR).slice (slotR b) (fun _ => rfl)).squeeze S64x128 squeezes_S1x64x128_S64x128

/-- The elements of the scratch under slot `b`. -/
abbrev slotSet (b : Fin 10) : Finset S10x64x128.Idx := (slotM b).view.set

/-! Each of the ten slots the program writes with a literal leading coordinate is the slot of that number. -/
theorem slotM_lit0 : ((sR).slice (Rect.unit (s := S10x64x128) ![0, 0, 0] S1x64x128.size inb_S10x64x128_S1x64x128_0_0_0) (fun _ => rfl)).squeeze S64x128 squeezes_S1x64x128_S64x128 = slotM 0 := rfl
theorem slotM_lit1 : ((sR).slice (Rect.unit (s := S10x64x128) ![1, 0, 0] S1x64x128.size inb_S10x64x128_S1x64x128_1_0_0) (fun _ => rfl)).squeeze S64x128 squeezes_S1x64x128_S64x128 = slotM 1 := rfl
theorem slotM_lit2 : ((sR).slice (Rect.unit (s := S10x64x128) ![2, 0, 0] S1x64x128.size inb_S10x64x128_S1x64x128_2_0_0) (fun _ => rfl)).squeeze S64x128 squeezes_S1x64x128_S64x128 = slotM 2 := rfl
theorem slotM_lit3 : ((sR).slice (Rect.unit (s := S10x64x128) ![3, 0, 0] S1x64x128.size inb_S10x64x128_S1x64x128_3_0_0) (fun _ => rfl)).squeeze S64x128 squeezes_S1x64x128_S64x128 = slotM 3 := rfl
theorem slotM_lit4 : ((sR).slice (Rect.unit (s := S10x64x128) ![4, 0, 0] S1x64x128.size inb_S10x64x128_S1x64x128_4_0_0) (fun _ => rfl)).squeeze S64x128 squeezes_S1x64x128_S64x128 = slotM 4 := rfl
theorem slotM_lit5 : ((sR).slice (Rect.unit (s := S10x64x128) ![5, 0, 0] S1x64x128.size inb_S10x64x128_S1x64x128_5_0_0) (fun _ => rfl)).squeeze S64x128 squeezes_S1x64x128_S64x128 = slotM 5 := rfl
theorem slotM_lit6 : ((sR).slice (Rect.unit (s := S10x64x128) ![6, 0, 0] S1x64x128.size inb_S10x64x128_S1x64x128_6_0_0) (fun _ => rfl)).squeeze S64x128 squeezes_S1x64x128_S64x128 = slotM 6 := rfl
theorem slotM_lit7 : ((sR).slice (Rect.unit (s := S10x64x128) ![7, 0, 0] S1x64x128.size inb_S10x64x128_S1x64x128_7_0_0) (fun _ => rfl)).squeeze S64x128 squeezes_S1x64x128_S64x128 = slotM 7 := rfl
theorem slotM_lit8 : ((sR).slice (Rect.unit (s := S10x64x128) ![8, 0, 0] S1x64x128.size inb_S10x64x128_S1x64x128_8_0_0) (fun _ => rfl)).squeeze S64x128 squeezes_S1x64x128_S64x128 = slotM 8 := rfl
theorem slotM_lit9 : ((sR).slice (Rect.unit (s := S10x64x128) ![9, 0, 0] S1x64x128.size inb_S10x64x128_S1x64x128_9_0_0) (fun _ => rfl)).squeeze S64x128 squeezes_S1x64x128_S64x128 = slotM 9 := rfl

/-- Dropping the unit axis moves no element: a slot's elements are its rectangle's. -/
theorem slotSet_eq (b : Fin 10) : slotSet b = (slotR b).set := by
  show (((View.whole (cc0_scratch1 : Ref sig .scVector)).slice _).reshape _ _).set = _
  rw [View.set_reshape, View.set_slice]; exact Finset.map_refl

/-- An element of the scratch is in slot `b` exactly when its leading coordinate is `b`. -/
theorem mem_slotSet (b : Fin 10) (i : S10x64x128.Idx) : i ∈ slotSet b ↔ (i 0).val = b.val := by
  rw [slotSet_eq, Rect.mem_set_unit]
  constructor
  · intro h
    have h0 := h 0
    simp at h0
    omega
  · intro h a
    have := (i a).isLt
    fin_cases a
    · simp; omega
    · simp; exact this
    · simp; exact this

/-- Different slots share no element. -/
theorem slots_disjoint : ∀ b ∈ (Finset.univ : Finset (Fin 10)), ∀ b' ∈ (Finset.univ : Finset (Fin 10)), b ≠ b' → Disjoint (slotSet b) (slotSet b') := by
  intro b _ b' _ h
  rw [slotSet_eq, slotSet_eq]
  refine Rect.unit_disjoint 0 ?_
  have : b.val ≠ b'.val := fun e => h (Fin.ext e)
  show b.val + 1 ≤ b'.val ∨ b'.val + 1 ≤ b.val
  omega

theorem slotSet_disjoint {b b' : Fin 10} (h : b ≠ b') : Disjoint (slotSet b) (slotSet b') :=
  slots_disjoint b (Finset.mem_univ _) b' (Finset.mem_univ _) h

/-- The ten slots are the whole scratch. -/
theorem slots_cover : (Finset.univ : Finset (Fin 10)).biUnion slotSet = Finset.univ := by
  ext i
  simp only [Finset.mem_biUnion, Finset.mem_univ, true_and, iff_true]
  exact ⟨⟨(i 0).val, (i 0).isLt⟩, (mem_slotSet _ i).mpr rfl⟩

/-- Holding a tile's row scratch is holding its ten slots. -/
theorem sR_slots (d : Dev nD) (c : Fin τ.nSC) (i : Fin τ.nSub) (f : Buf (Elt F) ((V d c i).loc cc0_scratch1)) :
    ((V d c i).loc cc0_scratch1 ↦{fullShare} f : sProp 𝕄)
      = bigSep Finset.univ fun b : Fin 10 => (V d c i).loc cc0_scratch1 ↦[(slotM b).view.set]{fullShare} f := by
  rw [← pointsTo_biUnion Finset.univ (ℓ := (V d c i).loc cc0_scratch1) slotSet slots_disjoint, slots_cover]; try rfl

end Cert.Proof.WordKernel

end
-- ==== Proof.WordOffsets.lean ====
/-
  The two offset chains of the loop in closed form.

  Inside the loop, trip k (of nine) and position r (of ten) handle chunk 3 + 10·k + r: the result's slab for that
  chunk starts at row (chunk / 2), column 128·(tile number) + 64·(chunk mod 2); the list of row numbers the gather
  started in the same step reads is chunk + 7's, at row ((chunk + 7) / 2) and column 64·((chunk + 7) mod 2) of the
  tile's index block. Both are finite statements over the grid, the trips and the positions, checked point by point.
  These are facts about positions alone; they do not depend on how a table entry is read.
-/
import proofs.«206438_g5171140624678_cont_8to1_c_1053_28_alg».proof.Proof.Gen.Kernel

set_option Elab.async false

namespace Cert.Proof.WordKernel

open Cert.Kernel Cert.Kernel.Gen
open Idealize.ShloMosaic

/-- The list window's offsets at trip `k`, position `r`: chunk `10 + 10·k + r`. -/
theorem k0_off6_eq : ∀ (k : Fin k0_t1_loop.trips) (r : Fin 10),
    k0_off6 k (BitVec.ofNat 32 r.val) = ![(10 + 10 * k.val + r.val) / 2, 64 * ((10 + 10 * k.val + r.val) % 2)] := by
  decide +kernel

/-- The result slab's offsets at grid point `L`, trip `k`, position `r`: chunk `3 + 10·k + r`. -/
theorem k0_off4_eq : ∀ (L : grid0.Coords) (k : Fin k0_t1_loop.trips) (r : Fin 10),
    k0_off4 L k (BitVec.ofNat 32 r.val)
      = ![(3 + 10 * k.val + r.val) / 2, 256 * (L 1).val + 128 * (L 0).val + 64 * ((3 + 10 * k.val + r.val) % 2), 0] := by
  decide +kernel

end Cert.Proof.WordKernel
-- ==== Proof.WordChunks.lean ====
/-
  The hundred chunks of a tile's block of the result.

  Tile number w fills columns [128·w, 128·w + 128) of every one of the fifty rows of the result. It does so in one
  hundred chunks of sixty-four columns: chunk c is row c / 2, the lower half of the tile's columns when c is even
  and the upper half when c is odd, all one hundred and twenty-eight entries of each. (The row is written
  (c / 2) mod 50 so that the offsets are inside the array for every natural number c; below one hundred the
  reduction does nothing.) Two different chunks below one hundred differ in the row or in the half, so they are
  disjoint; every element of the tile's block lies in the chunk its row and its half name, so the hundred chunks
  are the block. Holding the block is therefore holding the hundred chunks separately.

  The program never says "chunk c": each of its accesses names a slab of the result by offsets an integer chain
  computes. Each such slab is identified here with the chunk it is, as an equality of the two ways of reaching it;
  since a slab is determined by its offsets, it is enough that the offsets agree, and they do by the chains' closed
  forms and a little arithmetic (128·w = 256·(vector subcore) + 128·(SparseCore)).
  The table's entries are here the thirty-two-bit words of the printed program: every step moves them, none computes
  with them, so the statements read as they would over any kind of entry.
-/
import proofs.«206438_g5171140624678_cont_8to1_c_1053_28_alg».proof.Proof.WordPieces
import proofs.«206438_g5171140624678_cont_8to1_c_1053_28_alg».proof.Proof.WordOffsets

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Where chunk `c` of tile `w` starts: row `(c / 2) mod 50`, column `128·w + 64·(c mod 2)`, entry `0`. -/
def chunkOff (w : Fin 32) (c : ℕ) : Fin 3 → Nat := ![(c / 2) % 50, 128 * w.val + 64 * (c % 2), 0]

theorem chunkOff_inb (w : Fin 32) (c : ℕ) : ∀ a, chunkOff w c a + S1x64x128.size a ≤ S50x4096x128.size a := by
  intro a
  have := w.isLt
  have := Nat.mod_lt (c / 2) (show 0 < 50 by decide)
  have := Nat.mod_lt c (show 0 < 2 by decide)
  fin_cases a <;> simp [chunkOff] <;> omega

/-- Chunk `c` of tile `w` as a rectangle of the result: one row, sixty-four columns, every entry. -/
abbrev oChunkR (w : Fin 32) (c : ℕ) : Rect S50x4096x128 := Rect.unit (s := S50x4096x128) (chunkOff w c) S1x64x128.size (chunkOff_inb w c)

/-- The chunk as the program reaches it: the slab, its leading axis of length one dropped. -/
abbrev oChunkM (w : Fin 32) (c : ℕ) : Memref sig .scVector .hbm S64x128 .f32 :=
  ((aO).slice (oChunkR w c) (fun _ => rfl)).squeeze S64x128 squeezes_S1x64x128_S64x128

/-- The elements of the result under the chunk. -/
abbrev oChunkSet (w : Fin 32) (c : ℕ) : Finset S50x4096x128.Idx := (oChunkM w c).view.set

/-- Dropping the unit axis moves no element: a chunk's elements are its rectangle's. -/
theorem oChunkSet_eq (w : Fin 32) (c : ℕ) : oChunkSet w c = (oChunkR w c).set := by
  show (((View.whole (main_v1_scv : Ref sig .scVector)).slice _).reshape _ _).set = _
  rw [View.set_reshape, View.set_slice]; exact Finset.map_refl

/-- A tile's block of the result is its part's elements. -/
theorem oSet_eq (w : Fin 32) : oSet w = (oPart w).set := by
  show ((View.whole (main_v1_scv : Ref sig .scVector)).slice _).set = _
  rw [View.set_slice]; exact Finset.map_refl

/-- An element is in chunk `c` of tile `w` exactly when its row is the chunk's and its column is in the chunk's half. -/
theorem mem_oChunkSet (w : Fin 32) (c : ℕ) (i : S50x4096x128.Idx) :
    i ∈ oChunkSet w c ↔ (i 0).val = (c / 2) % 50 ∧ 128 * w.val + 64 * (c % 2) ≤ (i 1).val ∧ (i 1).val < 128 * w.val + 64 * (c % 2) + 64 := by
  rw [oChunkSet_eq, Rect.mem_set_unit]
  constructor
  · intro h
    have h0 := h 0
    have h1 := h 1
    simp [chunkOff] at h0 h1
    omega
  · intro h a
    have := (i a).isLt
    fin_cases a
    · simp [chunkOff]; omega
    · simp [chunkOff]; omega
    · simp [chunkOff]; exact this

/-- An element is in tile `w`'s block exactly when its column is one of the tile's. -/
theorem mem_oSet (w : Fin 32) (i : S50x4096x128.Idx) : i ∈ oSet w ↔ 128 * w.val ≤ (i 1).val ∧ (i 1).val < 128 * w.val + 128 := by
  rw [oSet_eq, Rect.mem_set_unit]
  constructor
  · intro h
    have h1 := h 1
    simp [Shape.partIx, Shape.partSize] at h1
    omega
  · intro h a
    have := (i a).isLt
    fin_cases a
    · simp [Shape.partIx, Shape.partSize]; exact this
    · simp [Shape.partIx, Shape.partSize]; omega
    · simp [Shape.partIx, Shape.partSize]; exact this

/-- Different chunks below one hundred share no element: a common element would give them one row and one half. -/
theorem oChunks_disjoint (w : Fin 32) : ∀ c ∈ Finset.range 100, ∀ c' ∈ Finset.range 100, c ≠ c' → Disjoint (oChunkSet w c) (oChunkSet w c') := by
  intro c hc c' hc' hne
  rw [Finset.mem_range] at hc hc'
  rw [Finset.disjoint_left]
  intro i h h'
  rw [mem_oChunkSet] at h h'
  omega

theorem oChunkSet_disjoint (w : Fin 32) {c c' : ℕ} (hc : c < 100) (hc' : c' < 100) (h : c ≠ c') : Disjoint (oChunkSet w c) (oChunkSet w c') :=
  oChunks_disjoint w c (Finset.mem_range.mpr hc) c' (Finset.mem_range.mpr hc') h

/-- A chunk lies inside its tile's block. -/
theorem oChunkSet_subset (w : Fin 32) (c : ℕ) : oChunkSet w c ⊆ oSet w := by
  intro i h
  rw [mem_oChunkSet] at h
  rw [mem_oSet]
  omega

/-- The hundred chunks are the tile's block: the element at row `s`, column `128·w + x` is in chunk `2·s + x / 64`. -/
theorem oChunks_cover (w : Fin 32) : (Finset.range 100).biUnion (oChunkSet w) = oSet w := by
  ext i
  simp only [Finset.mem_biUnion, Finset.mem_range, mem_oChunkSet, mem_oSet]
  have h0 : (i 0).val < 50 := (i 0).isLt
  constructor
  · rintro ⟨c, hc, h⟩
    omega
  · intro h
    refine ⟨2 * (i 0).val + ((i 1).val - 128 * w.val) / 64, ?_, ?_⟩ <;> omega

/-- Holding a tile's block of the result is holding its hundred chunks. -/
theorem oPts_chunks (d : Dev nD) (f : Buf (Elt F) (oLoc d)) (w : Fin 32) :
    (oLoc d ↦[oSet w]{fullShare} f : sProp 𝕄) = bigSep (Finset.range 100) fun c => oLoc d ↦[(oChunkM w c).view.set]{fullShare} f := by
  rw [← pointsTo_biUnion (Finset.range 100) (ℓ := oLoc d) (oChunkSet w) (oChunks_disjoint w), oChunks_cover]

/-! ## The program's offsets are the chunks' -/

/-- The first two steps' offsets, position `r` of two: chunk `r`'s. -/
theorem off2_chunk (L : grid0.Coords) (r : Fin 2) (c : ℕ) (hc : c = r.val) : k0_off2 L (BitVec.ofNat 32 (64 * r.val)) = chunkOff (widL L) c := by
  have hr := r.isLt
  have hw := widL_val L
  rw [k0_off2_eq, hc]
  funext a
  fin_cases a <;> simp [chunkOff, hw] <;> omega

/-- The third step's offsets: chunk two's. -/
theorem off3_chunk (L : grid0.Coords) : k0_off3 L = chunkOff (widL L) 2 := by
  have hw := widL_val L
  rw [k0_off3_eq]
  funext a
  fin_cases a <;> simp [chunkOff, hw] <;> omega

/-- The loop's offsets at trip `k`, position `r`: chunk `3 + 10·k + r`'s. -/
theorem off4_chunk (L : grid0.Coords) (k : Fin k0_t1_loop.trips) (r : Fin 10) (c : ℕ) (hc : c = 3 + 10 * k.val + r.val) : k0_off4 L k (BitVec.ofNat 32 r.val) = chunkOff (widL L) c := by
  have hk : k.val < 9 := Nat.lt_of_lt_of_le k.isLt k0_t1_abs.2.1
  have hr := r.isLt
  have hw := widL_val L
  rw [k0_off4_eq, hc]
  funext a
  fin_cases a <;> simp [chunkOff, hw] <;> omega

/-- The first step after the loop: chunk ninety-three's. -/
theorem off7_chunk (L : grid0.Coords) : k0_off7 L = chunkOff (widL L) 93 := by
  have hw := widL_val L
  rw [k0_off7_eq]
  funext a
  fin_cases a <;> simp [chunkOff, hw] <;> omega

/-- The next two, position `r` of two: chunk `94 + r`'s. -/
theorem off9_chunk (L : grid0.Coords) (r : Fin 2) (c : ℕ) (hc : c = 94 + r.val) : k0_off9 L (BitVec.ofNat 32 (64 * r.val)) = chunkOff (widL L) c := by
  have hr := r.isLt
  have hw := widL_val L
  rw [k0_off9_eq, hc]
  funext a
  fin_cases a <;> simp [chunkOff, hw] <;> omega

/-- The next two: chunk `96 + r`'s. -/
theorem off10_chunk (L : grid0.Coords) (r : Fin 2) (c : ℕ) (hc : c = 96 + r.val) : k0_off10 L (BitVec.ofNat 32 (64 * r.val)) = chunkOff (widL L) c := by
  have hr := r.isLt
  have hw := widL_val L
  rw [k0_off10_eq, hc]
  funext a
  fin_cases a <;> simp [chunkOff, hw] <;> omega

/-- The last two: chunk `98 + r`'s. -/
theorem off11_chunk (L : grid0.Coords) (r : Fin 2) (c : ℕ) (hc : c = 98 + r.val) : k0_off11 L (BitVec.ofNat 32 (64 * r.val)) = chunkOff (widL L) c := by
  have hr := r.isLt
  have hw := widL_val L
  rw [k0_off11_eq, hc]
  funext a
  fin_cases a <;> simp [chunkOff, hw] <;> omega

/-! ## The program's spellings -/

/-- A slab of the result of a chunk's sizes whose offsets are chunk `c`'s of tile `w` is that chunk, whatever
    evidence it carries that it lies inside the array. -/
theorem oSpell {off : Fin 3 → Nat} (inb : ∀ a, off a + S1x64x128.size a ≤ S50x4096x128.size a) (w : Fin 32) (c : ℕ) (h : off = chunkOff w c) :
    ((aO).slice (Rect.unit (s := S50x4096x128) off S1x64x128.size inb) (fun _ => rfl)).squeeze S64x128 squeezes_S1x64x128_S64x128 = oChunkM w c := by
  subst h; rfl

/-- The first two steps' slabs, position `r` of two: chunk `r`. -/
theorem spell_off2 (L : grid0.Coords) (r : Fin 2) (c : ℕ) (hc : c = r.val) :
    ((aO).slice (Rect.unit (s := S50x4096x128) (k0_off2 L (BitVec.ofNat 32 (64 * r.val))) S1x64x128.size (k0_off2_inb L r)) (fun _ => rfl)).squeeze S64x128 squeezes_S1x64x128_S64x128
      = oChunkM (widL L) c := by
  exact oSpell _ _ _ (off2_chunk L r c hc)

/-- The third step's slab: chunk two. -/
theorem spell_off3 (L : grid0.Coords) :
    ((aO).slice (Rect.unit (s := S50x4096x128) (k0_off3 L) S1x64x128.size (k0_off3_inb L)) (fun _ => rfl)).squeeze S64x128 squeezes_S1x64x128_S64x128
      = oChunkM (widL L) 2 := by
  exact oSpell _ _ _ (off3_chunk L)

/-- The loop's slab at trip `k`, position `r`: chunk `3 + 10·k + r`. -/
theorem spell_off4 (L : grid0.Coords) (k : Fin k0_t1_loop.trips) (r : Fin 10) (c : ℕ) (hc : c = 3 + 10 * k.val + r.val) :
    ((aO).slice (Rect.unit (s := S50x4096x128) (k0_off4 L k (BitVec.ofNat 32 r.val)) S1x64x128.size (k0_off4_inb L k r)) (fun _ => rfl)).squeeze S64x128 squeezes_S1x64x128_S64x128
      = oChunkM (widL L) c := by
  exact oSpell _ _ _ (off4_chunk L k r c hc)

/-- The first step after the loop: chunk ninety-three. -/
theorem spell_off7 (L : grid0.Coords) :
    ((aO).slice (Rect.unit (s := S50x4096x128) (k0_off7 L) S1x64x128.size (k0_off7_inb L)) (fun _ => rfl)).squeeze S64x128 squeezes_S1x64x128_S64x128
      = oChunkM (widL L) 93 := by
  exact oSpell _ _ _ (off7_chunk L)

/-- The next two, position `r` of two: chunk `94 + r`. -/
theorem spell_off9 (L : grid0.Coords) (r : Fin 2) (c : ℕ) (hc : c = 94 + r.val) :
    ((aO).slice (Rect.unit (s := S50x4096x128) (k0_off9 L (BitVec.ofNat 32 (64 * r.val))) S1x64x128.size (k0_off9_inb L r)) (fun _ => rfl)).squeeze S64x128 squeezes_S1x64x128_S64x128
      = oChunkM (widL L) c := by
  exact oSpell _ _ _ (off9_chunk L r c hc)

/-- The next two: chunk `96 + r`. -/
theorem spell_off10 (L : grid0.Coords) (r : Fin 2) (c : ℕ) (hc : c = 96 + r.val) :
    ((aO).slice (Rect.unit (s := S50x4096x128) (k0_off10 L (BitVec.ofNat 32 (64 * r.val))) S1x64x128.size (k0_off10_inb L r)) (fun _ => rfl)).squeeze S64x128 squeezes_S1x64x128_S64x128
      = oChunkM (widL L) c := by
  exact oSpell _ _ _ (off10_chunk L r c hc)

/-- The last two: chunk `98 + r`. -/
theorem spell_off11 (L : grid0.Coords) (r : Fin 2) (c : ℕ) (hc : c = 98 + r.val) :
    ((aO).slice (Rect.unit (s := S50x4096x128) (k0_off11 L (BitVec.ofNat 32 (64 * r.val))) S1x64x128.size (k0_off11_inb L r)) (fun _ => rfl)).squeeze S64x128 squeezes_S1x64x128_S64x128
      = oChunkM (widL L) c := by
  exact oSpell _ _ _ (off11_chunk L r c hc)

end Cert.Proof.WordKernel

end
-- ==== Proof.WordLists.lean ====
/-
  The hundred lists of row numbers in a tile's index block.

  The index block holds the tile's slab of the id table: fifty rows of one hundred and twenty-eight row numbers.
  The gather for chunk c reads the sixty-four of them at row c / 2, the lower half of the row when c is even and
  the upper half when c is odd. (The row is written (c / 2) mod 50 so that the window is inside the block for
  every natural number c; below one hundred the reduction does nothing.) Different lists below one hundred differ
  in the row or in the half, and every element of the block lies in the list its row and half name: the hundred
  lists are disjoint and are the block. The program's ways of naming a list — ten with literal offsets before the
  loop, one through an integer chain inside it — are identified with the list they are.
  The table's entries are here the thirty-two-bit words of the printed program: every step moves them, none computes
  with them, so the statements read as they would over any kind of entry.
-/
import proofs.«206438_g5171140624678_cont_8to1_c_1053_28_alg».proof.Proof.WordPieces
import proofs.«206438_g5171140624678_cont_8to1_c_1053_28_alg».proof.Proof.WordOffsets

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Where the list for chunk `c` starts: row `(c / 2) mod 50`, column `64·(c mod 2)`. -/
def listOff (c : ℕ) : Fin 2 → Nat := ![(c / 2) % 50, 64 * (c % 2)]

theorem listOff_inb (c : ℕ) : ∀ a, listOff c a + S1x64.size a ≤ S50x128.size a := by
  intro a
  have := Nat.mod_lt (c / 2) (show 0 < 50 by decide)
  have := Nat.mod_lt c (show 0 < 2 by decide)
  fin_cases a <;> simp [listOff] <;> omega

/-- The list for chunk `c` as a rectangle of the block: one row, sixty-four columns. -/
abbrev listR (c : ℕ) : Rect S50x128 := Rect.unit (s := S50x128) (listOff c) S1x64.size (listOff_inb c)

/-- The list as the program reaches it: the window, its leading axis of length one dropped. -/
abbrev listM (c : ℕ) : Memref sig .scVector .vmem S64 .i32 :=
  ((sI).slice (listR c) (fun _ => rfl)).squeeze S64 squeezes_S1x64_S64

/-- The elements of the block under the list. -/
abbrev listSet (c : ℕ) : Finset S50x128.Idx := (listM c).view.set

/-! Each of the ten lists the program reads with literal offsets before the loop is the list of that chunk. -/
theorem listM_lit0 : ((sI).slice (Rect.unit (s := S50x128) ![0, 0] S1x64.size inb_S50x128_S1x64_0_0) (fun _ => rfl)).squeeze S64 squeezes_S1x64_S64 = listM 0 := rfl
theorem listM_lit1 : ((sI).slice (Rect.unit (s := S50x128) ![0, 64] S1x64.size inb_S50x128_S1x64_0_64) (fun _ => rfl)).squeeze S64 squeezes_S1x64_S64 = listM 1 := rfl
theorem listM_lit2 : ((sI).slice (Rect.unit (s := S50x128) ![1, 0] S1x64.size inb_S50x128_S1x64_1_0) (fun _ => rfl)).squeeze S64 squeezes_S1x64_S64 = listM 2 := rfl
theorem listM_lit3 : ((sI).slice (Rect.unit (s := S50x128) ![1, 64] S1x64.size inb_S50x128_S1x64_1_64) (fun _ => rfl)).squeeze S64 squeezes_S1x64_S64 = listM 3 := rfl
theorem listM_lit4 : ((sI).slice (Rect.unit (s := S50x128) ![2, 0] S1x64.size inb_S50x128_S1x64_2_0) (fun _ => rfl)).squeeze S64 squeezes_S1x64_S64 = listM 4 := rfl
theorem listM_lit5 : ((sI).slice (Rect.unit (s := S50x128) ![2, 64] S1x64.size inb_S50x128_S1x64_2_64) (fun _ => rfl)).squeeze S64 squeezes_S1x64_S64 = listM 5 := rfl
theorem listM_lit6 : ((sI).slice (Rect.unit (s := S50x128) ![3, 0] S1x64.size inb_S50x128_S1x64_3_0) (fun _ => rfl)).squeeze S64 squeezes_S1x64_S64 = listM 6 := rfl
theorem listM_lit7 : ((sI).slice (Rect.unit (s := S50x128) ![3, 64] S1x64.size inb_S50x128_S1x64_3_64) (fun _ => rfl)).squeeze S64 squeezes_S1x64_S64 = listM 7 := rfl
theorem listM_lit8 : ((sI).slice (Rect.unit (s := S50x128) ![4, 0] S1x64.size inb_S50x128_S1x64_4_0) (fun _ => rfl)).squeeze S64 squeezes_S1x64_S64 = listM 8 := rfl
theorem listM_lit9 : ((sI).slice (Rect.unit (s := S50x128) ![4, 64] S1x64.size inb_S50x128_S1x64_4_64) (fun _ => rfl)).squeeze S64 squeezes_S1x64_S64 = listM 9 := rfl

/-- Dropping the unit axis moves no element: a list's elements are its rectangle's. -/
theorem listSet_eq (c : ℕ) : listSet c = (listR c).set := by
  show (((View.whole (cc0_scratch0 : Ref sig .scVector)).slice _).reshape _ _).set = _
  rw [View.set_reshape, View.set_slice]; exact Finset.map_refl

/-- An element of the block is in the list for chunk `c` exactly when its row is the chunk's and its column is in the chunk's half. -/
theorem mem_listSet (c : ℕ) (i : S50x128.Idx) :
    i ∈ listSet c ↔ (i 0).val = (c / 2) % 50 ∧ 64 * (c % 2) ≤ (i 1).val ∧ (i 1).val < 64 * (c % 2) + 64 := by
  rw [listSet_eq, Rect.mem_set_unit]
  constructor
  · intro h
    have h0 := h 0
    have h1 := h 1
    simp [listOff] at h0 h1
    omega
  · intro h a
    fin_cases a
    · simp [listOff]; omega
    · simp [listOff]; omega

/-- Different lists below one hundred share no element. -/
theorem lists_disjoint : ∀ c ∈ Finset.range 100, ∀ c' ∈ Finset.range 100, c ≠ c' → Disjoint (listSet c) (listSet c') := by
  intro c hc c' hc' hne
  rw [Finset.mem_range] at hc hc'
  rw [Finset.disjoint_left]
  intro i h h'
  rw [mem_listSet] at h h'
  omega

theorem listSet_disjoint {c c' : ℕ} (hc : c < 100) (hc' : c' < 100) (h : c ≠ c') : Disjoint (listSet c) (listSet c') :=
  lists_disjoint c (Finset.mem_range.mpr hc) c' (Finset.mem_range.mpr hc') h

/-- The hundred lists are the block: the element at row `s`, column `x` is in list `2·s + x / 64`. -/
theorem lists_cover : (Finset.range 100).biUnion listSet = Finset.univ := by
  ext i
  simp only [Finset.mem_biUnion, Finset.mem_range, mem_listSet, Finset.mem_univ, iff_true]
  have h0 : (i 0).val < 50 := (i 0).isLt
  have h1 : (i 1).val < 128 := (i 1).isLt
  refine ⟨2 * (i 0).val + (i 1).val / 64, ?_, ?_⟩ <;> omega

/-- Holding a tile's index block is holding its hundred lists. -/
theorem sI_lists (d : Dev nD) (c : Fin τ.nSC) (i : Fin τ.nSub) (f : Buf (Elt F) ((V d c i).loc cc0_scratch0)) :
    ((V d c i).loc cc0_scratch0 ↦{fullShare} f : sProp 𝕄)
      = bigSep (Finset.range 100) fun n => (V d c i).loc cc0_scratch0 ↦[(listM n).view.set]{fullShare} f := by
  rw [← pointsTo_biUnion (Finset.range 100) (ℓ := (V d c i).loc cc0_scratch0) listSet lists_disjoint, lists_cover]; try rfl

/-! ## The loop's spelling -/

/-- A window of the block of a list's sizes whose offsets are list `c`'s is that list, whatever evidence it carries
    that it lies inside the block. -/
theorem lSpell {off : Fin 2 → Nat} (inb : ∀ a, off a + S1x64.size a ≤ S50x128.size a) (c : ℕ) (h : off = listOff c) :
    ((sI).slice (Rect.unit (s := S50x128) off S1x64.size inb) (fun _ => rfl)).squeeze S64 squeezes_S1x64_S64 = listM c := by
  subst h; rfl

/-- The loop's offsets at trip `k`, position `r`: those of the list for chunk `10 + 10·k + r`. -/
theorem off6_list (k : Fin k0_t1_loop.trips) (r : Fin 10) (c : ℕ) (hc : c = 10 + 10 * k.val + r.val) :
    k0_off6 k (BitVec.ofNat 32 r.val) = listOff c := by
  have hk : k.val < 9 := Nat.lt_of_lt_of_le k.isLt k0_t1_abs.2.1
  have hr := r.isLt
  rw [k0_off6_eq, hc]
  funext a
  fin_cases a <;> simp [listOff] <;> omega

/-- The loop's window at trip `k`, position `r`: the list for chunk `10 + 10·k + r`. -/
theorem spell_off6 (k : Fin k0_t1_loop.trips) (r : Fin 10) (c : ℕ) (hc : c = 10 + 10 * k.val + r.val) :
    ((sI).slice (Rect.unit (s := S50x128) (k0_off6 k (BitVec.ofNat 32 r.val)) S1x64.size (k0_off6_inb k r)) (fun _ => rfl)).squeeze S64 squeezes_S1x64_S64
      = listM c := by
  exact lSpell _ _ (off6_list k r c hc)

end Cert.Proof.WordKernel

end
-- ==== Proof.WordTens.lean ====
/-
  A hundred separate things, taken ten at a time.

  A separating conjunction over the numbers below one hundred is the conjunction, over j below ten, of the ten
  conjuncts numbered 10·j, 10·j + 1, …, 10·j + 9 in that order. The numbers below 10·(n + 1) are those below 10·n
  and the ten from 10·n on, two disjoint sets; the ten are listed one by one; and the groups are collected by
  induction on their number.
  The table's entries are here the thirty-two-bit words of the printed program: every step moves them, none computes
  with them, so the statements read as they would over any kind of entry.
-/
import proofs.«206438_g5171140624678_cont_8to1_c_1053_28_alg».proof.Proof.WordPieces

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The ten numbers from `a` on, listed. -/
theorem Ico_ten (a : ℕ) : Finset.Ico a (a + 10) = insert (a + 0) (insert (a + 1) (insert (a + 2) (insert (a + 3) (insert (a + 4)
    (insert (a + 5) (insert (a + 6) (insert (a + 7) (insert (a + 8) {a + 9})))))))) := by
  ext x
  simp only [Finset.mem_Ico, Finset.mem_insert, Finset.mem_singleton]
  omega

/-- The conjunction over the ten numbers from `a` on, written out in order. -/
theorem bigSep_Ico_ten (Φ : ℕ → sProp 𝕄) (a : ℕ) :
    (bigSep (Finset.Ico a (a + 10)) Φ : sProp 𝕄)
      = iprop(Φ (a + 0) ∗ Φ (a + 1) ∗ Φ (a + 2) ∗ Φ (a + 3) ∗ Φ (a + 4) ∗ Φ (a + 5) ∗ Φ (a + 6) ∗ Φ (a + 7) ∗ Φ (a + 8) ∗ Φ (a + 9)) := by
  rw [Ico_ten]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_insert, Finset.mem_singleton]; omega)]
  rw [SparseCore.bigSep_insert' (by simp only [Finset.mem_singleton]; omega)]
  rw [bigSep_singleton]

/-- One more group of ten. -/
theorem bigSep_range_ten_succ (Φ : ℕ → sProp 𝕄) (n : ℕ) :
    (bigSep (Finset.range (10 * (n + 1))) Φ : sProp 𝕄)
      = iprop(bigSep (Finset.range (10 * n)) Φ ∗ Φ (10 * n + 0) ∗ Φ (10 * n + 1) ∗ Φ (10 * n + 2) ∗ Φ (10 * n + 3) ∗ Φ (10 * n + 4) ∗ Φ (10 * n + 5) ∗ Φ (10 * n + 6) ∗ Φ (10 * n + 7) ∗ Φ (10 * n + 8) ∗ Φ (10 * n + 9)) := by
  have hU : Finset.range (10 * (n + 1)) = Finset.range (10 * n) ∪ Finset.Ico (10 * n) (10 * n + 10) := by
    ext x
    simp only [Finset.mem_range, Finset.mem_union, Finset.mem_Ico]
    omega
  have hD : Disjoint (Finset.range (10 * n)) (Finset.Ico (10 * n) (10 * n + 10)) := by
    rw [Finset.disjoint_left]
    intro x hx hx'
    simp only [Finset.mem_range] at hx
    simp only [Finset.mem_Ico] at hx'
    omega
  rw [hU, SparseCore.bigSep_union' hD, bigSep_Ico_ten]

/-- Any number of groups of ten. -/
theorem bigSep_range_tens (Φ : ℕ → sProp 𝕄) (n : ℕ) :
    (bigSep (Finset.range (10 * n)) Φ : sProp 𝕄)
      = bigSep (Finset.range n) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9)) := by
  induction n with
  | zero => rfl
  | succ n ih =>
    rw [bigSep_range_ten_succ, ih, Finset.range_add_one, SparseCore.bigSep_insert' Finset.notMem_range_self]
    exact BI.equiv_iff.mp ⟨Idealize.SL.BI.sep_comm, Idealize.SL.BI.sep_comm⟩

/-- A hundred, by tens. -/
theorem bigSep_tens (Φ : ℕ → sProp 𝕄) :
    (bigSep (Finset.range 100) Φ : sProp 𝕄)
      = bigSep (Finset.range 10) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9)) :=
  bigSep_range_tens Φ 10

/-- A hundred: the first ten, and the other nine groups. -/
theorem tens_head (Φ : ℕ → sProp 𝕄) :
    (bigSep (Finset.range 100) Φ : sProp 𝕄)
      = iprop((Φ (10 * 0 + 0) ∗ Φ (10 * 0 + 1) ∗ Φ (10 * 0 + 2) ∗ Φ (10 * 0 + 3) ∗ Φ (10 * 0 + 4) ∗ Φ (10 * 0 + 5) ∗ Φ (10 * 0 + 6) ∗ Φ (10 * 0 + 7) ∗ Φ (10 * 0 + 8) ∗ Φ (10 * 0 + 9))
          ∗ bigSep (Finset.Ico 1 10) fun j => iprop(Φ (10 * j + 0) ∗ Φ (10 * j + 1) ∗ Φ (10 * j + 2) ∗ Φ (10 * j + 3) ∗ Φ (10 * j + 4) ∗ Φ (10 * j + 5) ∗ Φ (10 * j + 6) ∗ Φ (10 * j + 7) ∗ Φ (10 * j + 8) ∗ Φ (10 * j + 9))) := by
  rw [bigSep_tens]
  have h10 : Finset.range 10 = insert 0 (Finset.Ico 1 10) := by
    ext x
    simp only [Finset.mem_range, Finset.mem_insert, Finset.mem_Ico]
    omega
  rw [h10, SparseCore.bigSep_insert' (by simp)]

end Cert.Proof.WordKernel

end
-- ==== Proof.WordValues.lean ====
/-
  The values the transfers move, element by element.

  The geometry says which elements of which array a transfer touches; this says what is written there. An index of a
  slot, of a chunk of the result, of a list of row numbers or of the slab of ids is placed in its array by explicit
  coordinates. With those, the gather of the rows a list names is followed to the table rows it fetches, and the
  write-out of a slot to the entries of the result it fills; what it fills them with is the lookup.
  The table's entries are here the thirty-two-bit words of the printed program: every step moves them, none computes
  with them, so the statements read as they would over any kind of entry.
-/
import proofs.«206438_g5171140624678_cont_8to1_c_1053_28_alg».proof.Proof.WordSlab
import proofs.«206438_g5171140624678_cont_8to1_c_1053_28_alg».proof.Proof.WordSlots
import proofs.«206438_g5171140624678_cont_8to1_c_1053_28_alg».proof.Proof.WordChunks
import proofs.«206438_g5171140624678_cont_8to1_c_1053_28_alg».proof.Proof.WordLists

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

open Idealize.ShloMosaic.ValueIdx

/-! ## Bounds -/

theorem row_lt (c : ℕ) : (c / 2) % 50 < 50 := Nat.mod_lt _ (by decide)
theorem col_lt (w : Fin 32) (c : ℕ) (t : Fin 64) : 128 * w.val + 64 * (c % 2) + t.val < 4096 := by
  have := w.isLt; have := t.isLt; have := Nat.mod_lt c (show 0 < 2 by decide); omega
theorem lcol_lt (c : ℕ) (t : Fin 64) : 64 * (c % 2) + t.val < 128 := by
  have := t.isLt; have := Nat.mod_lt c (show 0 < 2 by decide); omega
theorem scol_lt (w : Fin 32) (t : Fin 128) : 128 * w.val + t.val < 4096 := by
  have := w.isLt; have := t.isLt; omega

/-! ## Where each index of a slot, a chunk, a list lies in its array -/

theorem slotM_emb (b : Fin 10) (y : S64x128.Idx) :
    (slotM b).view.emb y = (ix3 (n0 := 10) (n1 := 64) (n2 := 128) b (y 0) (y 1) : S10x64x128.Idx) := by
  show (slotR b).emb (Shape.reshapeEquiv _ y) = _
  rw [Shape.reshapeEquiv_cons_one]
  funext a
  refine Fin.ext ?_
  match a with
  | ⟨0, _⟩ => simp [Rect.emb_apply]; rfl
  | ⟨1, _⟩ => simp [Rect.emb_apply]; rfl
  | ⟨2, _⟩ => simp [Rect.emb_apply]; rfl

theorem oChunkM_emb (w : Fin 32) (c : ℕ) (y : S64x128.Idx) :
    (oChunkM w c).view.emb y
      = (ix3 (n0 := 50) (n1 := 4096) (n2 := 128) ⟨(c / 2) % 50, row_lt c⟩ ⟨128 * w.val + 64 * (c % 2) + (y 0).val, col_lt w c (y 0)⟩ (y 1) : S50x4096x128.Idx) := by
  show (oChunkR w c).emb (Shape.reshapeEquiv _ y) = _
  rw [Shape.reshapeEquiv_cons_one]
  funext a
  refine Fin.ext ?_
  match a with
  | ⟨0, _⟩ => simp [Rect.emb_apply, chunkOff]; rfl
  | ⟨1, _⟩ => simp [Rect.emb_apply, chunkOff]; rfl
  | ⟨2, _⟩ => simp [Rect.emb_apply, chunkOff]; rfl

theorem listM_emb (c : ℕ) (x : S64.Idx) :
    (listM c).view.emb x
      = (ix2 (n0 := 50) (n1 := 128) ⟨(c / 2) % 50, row_lt c⟩ ⟨64 * (c % 2) + (x 0).val, lcol_lt c (x 0)⟩ : S50x128.Idx) := by
  show (listR c).emb (Shape.reshapeEquiv _ x) = _
  rw [Shape.reshapeEquiv_cons_one]
  funext a
  refine Fin.ext ?_
  match a with
  | ⟨0, _⟩ => simp [Rect.emb_apply, listOff]; rfl
  | ⟨1, _⟩ => simp [Rect.emb_apply, listOff]; rfl

/-- Where each index of the slab of row numbers lies in the id table: same row, the tile's first column further on. -/
theorem iSlab_emb (L : grid0.Coords) (j : S50x128.Idx) :
    (iSlab L).view.emb j = (ix2 (n0 := 50) (n1 := 4096) (j 0) ⟨128 * (widL L).val + (j 1).val, scol_lt (widL L) (j 1)⟩ : S50x4096.Idx) := by
  show (Rect.unit (s := S50x4096) (k0_off1 L) S50x128.size (k0_off1_inb L)).emb j = _
  have hw := widL_val L
  funext a
  refine Fin.ext ?_
  match a with
  | ⟨0, _⟩ => simp [Rect.emb_apply, k0_off1_eq]
  | ⟨1, _⟩ => simp [Rect.emb_apply, k0_off1_eq]; omega

/-! ## What the transfers land

`It` is the transposed id table, `Wt` the embedding table. A tile's index block holds the tile's columns of `It`; the
gather for chunk `c` reads the chunk's sixty-four row numbers there and fetches those rows of `Wt` into a slot; the
write-out copies the slot to the chunk of the result. Each is followed here element by element. -/

/-- What a slot holds once the rows for chunk `c` of tile `w` have been gathered into it: row `t` of the slot is the
    table row that the id at row `c / 2`, column `128·w + 64·(c mod 2) + t` names. It does not depend on which slot.
    (The reductions modulo 50 and 4096 only make the indices total; they do nothing for the chunks that exist.) -/
def slotVal (It : S50x4096.Idx → Elt F .i32) (Wt : S100000x128.Idx → Elt F .f32) (w : Fin 32) (c : ℕ) : S10x64x128.Idx → Elt F .f32 :=
  fun i => Wt (ix2 (n0 := 100000) (n1 := 128)
    (rowOf (It (ix2 (n0 := 50) (n1 := 4096) ⟨(c / 2) % 50, row_lt c⟩ ⟨(128 * w.val + 64 * (c % 2) + (i 1).val) % 4096, Nat.mod_lt _ (by decide)⟩)))
    (i 2 : Fin 128))

/-- The embedding table, whole, as the gather names its source. -/
abbrev aWs : Memref sig .scVector .hbm S100000x128 .f32 :=
  (aW).slice (Rect.unit (s := S100000x128) ![0, 0] S100000x128.size inb_S100000x128_S100000x128_0_0) (fun _ => rfl)

/-- A list read off the index block: entry `t` of the list for chunk `c` is the block at row `c / 2`, column `64·(c mod 2) + t`. -/
theorem list_read (c : ℕ) (C : S50x128.Idx → Elt F .i32) (x : S64.Idx) :
    (listM c).view.read (Elt F) C x = C (ix2 (n0 := 50) (n1 := 128) ⟨(c / 2) % 50, row_lt c⟩ ⟨64 * (c % 2) + (x 0).val, lcol_lt c (x 0)⟩) := by
  rw [View.read_apply, listM_emb]; exact cast_eq _ _

/-- The table row the gather fetches for row `k` of the slot: the one the id at row `c / 2`, column `128·w + 64·(c mod 2) + k`
    names, when the index block holds the tile's columns of the id table and every word read is a row of the table. -/
theorem rows_list (It : S50x4096.Idx → Elt F .i32) (w : Fin 32) (c : ℕ) (C : S50x128.Idx → Elt F .i32)
    (hC : ∀ j : S50x128.Idx, C j = It (ix2 (n0 := 50) (n1 := 4096) (j 0) ⟨128 * w.val + (j 1).val, scol_lt w (j 1)⟩))
    (hn : S64.numel = S64x128.size gathers_S100000x128_S64x128.axis')
    (hin : ∀ x, ((listM c).view.read (Elt F) C x).toNat < S100000x128.size gathers_S100000x128_S64x128.axis)
    (k : Fin 64) :
    (SparseCore.rows ((listM c).view.read (Elt F) C) hn hin k).val
      = (rowOf (It (ix2 (n0 := 50) (n1 := 4096) ⟨(c / 2) % 50, row_lt c⟩ ⟨(128 * w.val + 64 * (c % 2) + k.val) % 4096, Nat.mod_lt _ (by decide)⟩))).val := by
  have hx0 : ((S64.rowMajor.symm (k.cast hn.symm)) 0).val = k.val := by
    have h1 := Shape.rowMajor_val_one (S64.rowMajor.symm (k.cast hn.symm))
    rw [Equiv.apply_symm_apply] at h1
    exact h1.symm
  show ((listM c).view.read (Elt F) C (S64.rowMajor.symm (k.cast hn.symm))).toNat = _
  have hlt := hin (S64.rowMajor.symm (k.cast hn.symm))
  rw [list_read, hC] at hlt ⊢
  have hI : (ix2 (n0 := 50) (n1 := 4096) ⟨(c / 2) % 50, row_lt c⟩ ⟨128 * w.val + (64 * (c % 2) + ((S64.rowMajor.symm (k.cast hn.symm)) 0).val), by rw [hx0]; have := col_lt w c k; omega⟩ : S50x4096.Idx)
      = ix2 (n0 := 50) (n1 := 4096) ⟨(c / 2) % 50, row_lt c⟩ ⟨(128 * w.val + 64 * (c % 2) + k.val) % 4096, Nat.mod_lt _ (by decide)⟩ := by
    refine congrArg (ix2 _) (Fin.ext ?_)
    have hm := Nat.mod_eq_of_lt (col_lt w c k)
    show 128 * w.val + (64 * (c % 2) + _) = (128 * w.val + 64 * (c % 2) + k.val) % 4096
    rw [hx0]; omega
  have e := congrArg (fun j => (It j).toNat) hI
  have hlt' : (It (ix2 (n0 := 50) (n1 := 4096) ⟨(c / 2) % 50, row_lt c⟩ ⟨(128 * w.val + 64 * (c % 2) + k.val) % 4096, Nat.mod_lt _ (by decide)⟩)).toNat < 100000 := by
    rw [← hI]; exact hlt
  exact e.trans (Nat.mod_eq_of_lt hlt').symm

/-- WHAT A GATHER LANDS. With the index block holding the tile's columns of the id table, the gather for chunk `c` leaves
    in slot `b`, at every element of the slot, the rows for chunk `c`. -/
theorem gather_lands (It : S50x4096.Idx → Elt F .i32) (Wt : S100000x128.Idx → Elt F .f32) (w : Fin 32) (b : Fin 10) (c : ℕ)
    (C : S50x128.Idx → Elt F .i32)
    (hC : ∀ j : S50x128.Idx, C j = It (ix2 (n0 := 50) (n1 := 4096) (j 0) ⟨128 * w.val + (j 1).val, scol_lt w (j 1)⟩))
    (hn : S64.numel = S64x128.size gathers_S100000x128_S64x128.axis')
    (hin : ∀ x, ((listM c).view.read (Elt F) C x).toNat < S100000x128.size gathers_S100000x128_S64x128.axis)
    (prev : S10x64x128.Idx → Elt F .f32) :
    ∀ i ∈ (slotM b).view.set,
      (slotM b).view.writes (Elt F) prev [⟨Rect.whole S64x128, SparseCore.gatherPayload gathers_S100000x128_S64x128 ((aWs).view.read (Elt F) Wt) (SparseCore.rows ((listM c).view.read (Elt F) C) hn hin)⟩] i
        = slotVal It Wt w c i := by
  intro i hi
  obtain ⟨y, -, rfl⟩ := Finset.mem_map.mp hi
  rw [View.writes_singleton]
  have he : (slotM b).view.emb y = ((slotM b).view.slice (Rect.whole S64x128)).emb y := by
    show _ = (slotM b).view.emb ((Rect.whole S64x128).emb y)
    rw [Rect.emb_whole_apply]
  conv_lhs => rw [he]
  rw [View.write_emb_of_mem _ _ (Finset.mem_univ _), slotM_emb]
  refine (cast_eq _ _).trans ?_
  show (aWs.view.read (Elt F) Wt) (gathers_S100000x128_S64x128.idx (SparseCore.rows ((listM c).view.read (Elt F) C) hn hin) y) = _
  rw [View.read_apply]
  refine (cast_eq _ _).trans ?_
  unfold slotVal
  refine congrArg Wt ?_
  funext a
  refine Fin.ext ?_
  match a with
  | ⟨0, _⟩ =>
    show ((Rect.unit (s := S100000x128) ![0, 0] S100000x128.size inb_S100000x128_S100000x128_0_0).emb _ ⟨0, _⟩).val = (rowOf _).val
    rw [Rect.emb_apply]
    have hz := Shape.Gathers.idx_axis gathers_S100000x128_S64x128 (SparseCore.rows ((listM c).view.read (Elt F) C) hn hin) y
    have hr := rows_list It w c C hC hn hin (y 0)
    show 0 + 1 * (gathers_S100000x128_S64x128.idx (SparseCore.rows ((listM c).view.read (Elt F) C) hn hin) y gathers_S100000x128_S64x128.axis).val = _
    rw [Nat.zero_add, Nat.one_mul, hz]
    exact hr
  | ⟨1, _⟩ =>
    show ((Rect.unit (s := S100000x128) ![0, 0] S100000x128.size inb_S100000x128_S100000x128_0_0).emb _ ⟨1, _⟩).val = (y 1).val
    rw [Rect.emb_apply]
    have hz := Shape.Gathers.idx_of_ne gathers_S100000x128_S64x128 (SparseCore.rows ((listM c).view.read (Elt F) C) hn hin) y ⟨1, by decide⟩ (by decide)
    show 0 + 1 * _ = _
    rw [Nat.zero_add, Nat.one_mul]
    exact hz

/-- After the fetch of the index block it holds the tile's columns of the id table: the fetch writes the whole block
    with the slab read off `It`. -/
theorem slab_block (L : grid0.Coords) (It : S50x4096.Idx → Elt F .i32) (fi : S50x128.Idx → Elt F .i32) (j : S50x128.Idx) :
    View.write (Elt F) (sI).view fi ((iSlab L).view.read (Elt F) It) Finset.univ j
      = It (ix2 (n0 := 50) (n1 := 4096) (j 0) ⟨128 * (widL L).val + (j 1).val, scol_lt (widL L) (j 1)⟩) := by
  have h := congrFun (View.write_whole_univ (Val := Elt F) (cc0_scratch0 : Ref sig .scVector) fi ((iSlab L).view.read (Elt F) It)) j
  refine h.trans ?_
  rw [View.read_apply, iSlab_emb]; exact cast_eq _ _

/-- Copying a whole array's worth of values unchanged is the identity on them. -/
theorem same_apply (g : S64x128.Idx → Elt F .f32) : (ReadAs.same : ReadAs (Elt F) S64x128 .f32 S64x128 .f32).apply g = g := rfl

/-- WHAT A WRITE-OUT LANDS. If slot `b` holds the rows for chunk `c` of tile `w`, then copying it over the chunk leaves,
    at every element of the chunk, the lookup: entry (s, n, q) of the result is entry q of the table row that id (s, n) names. -/
theorem write_lands (It : S50x4096.Idx → Elt F .i32) (Wt : S100000x128.Idx → Elt F .f32) (w : Fin 32) (b : Fin 10) (c : ℕ)
    (f : S10x64x128.Idx → Elt F .f32) (hf : ∀ i ∈ (slotM b).view.set, f i = slotVal It Wt w c i)
    (D : S64x128.Idx → Elt F .f32) (hD : D = (slotM b).view.read (Elt F) f)
    (prev : S50x4096x128.Idx → Elt F .f32) :
    ∀ i ∈ (oChunkM w c).view.set,
      (oChunkM w c).view.writes (Elt F) prev [⟨Rect.whole S64x128, D⟩] i = lookupT It Wt i := by
  intro i hi
  obtain ⟨y, -, rfl⟩ := Finset.mem_map.mp hi
  rw [View.writes_singleton]
  have he : (oChunkM w c).view.emb y = ((oChunkM w c).view.slice (Rect.whole S64x128)).emb y := by
    show _ = (oChunkM w c).view.emb ((Rect.whole S64x128).emb y)
    rw [Rect.emb_whole_apply]
  conv_lhs => rw [he]
  rw [View.write_emb_of_mem _ _ (Finset.mem_univ _), oChunkM_emb]
  refine (cast_eq _ _).trans ?_
  subst hD
  rw [View.read_apply]
  refine (cast_eq _ _).trans ?_
  rw [hf _ (View.emb_mem_set _ y), slotM_emb]
  have hm : (⟨(128 * w.val + 64 * (c % 2) + (y 0).val) % 4096, Nat.mod_lt _ (by decide)⟩ : Fin 4096)
      = ⟨128 * w.val + 64 * (c % 2) + (y 0).val, col_lt w c (y 0)⟩ := Fin.ext (Nat.mod_eq_of_lt (col_lt w c (y 0)))
  show Wt (ix2 (n0 := 100000) (n1 := 128) (rowOf (It (ix2 (n0 := 50) (n1 := 4096) ⟨(c / 2) % 50, row_lt c⟩ ⟨(128 * w.val + 64 * (c % 2) + (y 0).val) % 4096, Nat.mod_lt _ (by decide)⟩))) (y 1))
    = Wt (ix2 (n0 := 100000) (n1 := 128) (rowOf (It (ix2 (n0 := 50) (n1 := 4096) ⟨(c / 2) % 50, row_lt c⟩ ⟨128 * w.val + 64 * (c % 2) + (y 0).val, col_lt w c (y 0)⟩))) (y 1))
  rw [hm]

end Cert.Proof.WordKernel

end
-- ==== Proof.WordJoin.lean ====
/-
  Ten slots put back together, the table's source window, and ten read shares.

  Three small facts used where a tile's task begins and ends. The window through which the gathers read the table
  is the whole table. The ten slots of the row scratch, held separately at whatever each then holds, are the whole
  scratch at some contents, and conversely the whole scratch at given contents is the ten slots at those contents.
  And a share of some elements splits into a remainder and ten smaller read shares, which join back to it.
  The table's entries are here the thirty-two-bit words of the printed program: every step moves them, none computes
  with them, so the statements read as they would over any kind of entry.
-/
import proofs.«206438_g5171140624678_cont_8to1_c_1053_28_alg».proof.Proof.WordSlots
import proofs.«206438_g5171140624678_cont_8to1_c_1053_28_alg».proof.Proof.WordValues

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The gathers' source is the whole table -/

/-- The window the gathers read through starts at the origin and has the table's own sizes: it is every element. -/
theorem aWs_set : (aWs).view.set = (Finset.univ : Finset S100000x128.Idx) := by
  have h : (aWs).view.set = (Rect.unit (s := S100000x128) ![0, 0] S100000x128.size inb_S100000x128_S100000x128_0_0).set := by
    show ((View.whole (main_arg1_scv : Ref sig .scVector)).slice _).set = _
    rw [View.set_slice]; exact Finset.map_refl
  rw [h]
  exact Rect.set_eq_univ_of_whole _ (by decide)

/-- Holding the elements under that window, as a vector subcore names them, is holding the table. -/
theorem pts_aWs (d : Dev nD) (c : Fin τ.nSC) (i : Fin τ.nSub) (q : PosShare TreeShare) (f : Buf (Elt F) (xLoc d)) :
    ((aWs).view.loc (V d c i) ↦[(aWs).view.set]{q} f : sProp 𝕄) = (xLoc d ↦{q} f) := by
  rw [aWs_set]

/-! ## The ten slots, apart and together -/

/-- The whole scratch at given contents is the ten slots at those contents, one after the other. -/
theorem sR_split10 (d : Dev nD) (c : Fin τ.nSC) (i : Fin τ.nSub) (f : Buf (Elt F) ((V d c i).loc cc0_scratch1)) :
    ((V d c i).loc cc0_scratch1 ↦{fullShare} f : sProp 𝕄)
      ⊢ iprop(((V d c i).loc cc0_scratch1 ↦[(slotM 0).view.set]{fullShare} f)
          ∗ ((V d c i).loc cc0_scratch1 ↦[(slotM 1).view.set]{fullShare} f)
          ∗ ((V d c i).loc cc0_scratch1 ↦[(slotM 2).view.set]{fullShare} f)
          ∗ ((V d c i).loc cc0_scratch1 ↦[(slotM 3).view.set]{fullShare} f)
          ∗ ((V d c i).loc cc0_scratch1 ↦[(slotM 4).view.set]{fullShare} f)
          ∗ ((V d c i).loc cc0_scratch1 ↦[(slotM 5).view.set]{fullShare} f)
          ∗ ((V d c i).loc cc0_scratch1 ↦[(slotM 6).view.set]{fullShare} f)
          ∗ ((V d c i).loc cc0_scratch1 ↦[(slotM 7).view.set]{fullShare} f)
          ∗ ((V d c i).loc cc0_scratch1 ↦[(slotM 8).view.set]{fullShare} f)
          ∗ ((V d c i).loc cc0_scratch1 ↦[(slotM 9).view.set]{fullShare} f)) := by
  rw [sR_slots, show (Finset.univ : Finset (Fin 10)) = {0, 1, 2, 3, 4, 5, 6, 7, 8, 9} by decide]
  repeat rw [SparseCore.bigSep_insert' (by decide)]
  rw [bigSep_singleton]

/-- The ten slots, each at its own contents, are the whole scratch at contents that agree with each on its slot. -/
theorem sR_join10 (d : Dev nD) (c : Fin τ.nSC) (i : Fin τ.nSub) (f0 f1 f2 f3 f4 f5 f6 f7 f8 f9 : Buf (Elt F) ((V d c i).loc cc0_scratch1)) :
    (iprop(((V d c i).loc cc0_scratch1 ↦[(slotM 0).view.set]{fullShare} f0)
          ∗ ((V d c i).loc cc0_scratch1 ↦[(slotM 1).view.set]{fullShare} f1)
          ∗ ((V d c i).loc cc0_scratch1 ↦[(slotM 2).view.set]{fullShare} f2)
          ∗ ((V d c i).loc cc0_scratch1 ↦[(slotM 3).view.set]{fullShare} f3)
          ∗ ((V d c i).loc cc0_scratch1 ↦[(slotM 4).view.set]{fullShare} f4)
          ∗ ((V d c i).loc cc0_scratch1 ↦[(slotM 5).view.set]{fullShare} f5)
          ∗ ((V d c i).loc cc0_scratch1 ↦[(slotM 6).view.set]{fullShare} f6)
          ∗ ((V d c i).loc cc0_scratch1 ↦[(slotM 7).view.set]{fullShare} f7)
          ∗ ((V d c i).loc cc0_scratch1 ↦[(slotM 8).view.set]{fullShare} f8)
          ∗ ((V d c i).loc cc0_scratch1 ↦[(slotM 9).view.set]{fullShare} f9)) : sProp 𝕄)
      ⊢ iprop(∃ f, (V d c i).loc cc0_scratch1 ↦{fullShare} f) := by
  have e : (bigSep Finset.univ fun b : Fin 10 => (V d c i).loc cc0_scratch1 ↦[slotSet b]{fullShare} (![f0, f1, f2, f3, f4, f5, f6, f7, f8, f9] b : Buf (Elt F) ((V d c i).loc cc0_scratch1)) : sProp 𝕄)
      = iprop(((V d c i).loc cc0_scratch1 ↦[(slotM 0).view.set]{fullShare} f0)
          ∗ ((V d c i).loc cc0_scratch1 ↦[(slotM 1).view.set]{fullShare} f1)
          ∗ ((V d c i).loc cc0_scratch1 ↦[(slotM 2).view.set]{fullShare} f2)
          ∗ ((V d c i).loc cc0_scratch1 ↦[(slotM 3).view.set]{fullShare} f3)
          ∗ ((V d c i).loc cc0_scratch1 ↦[(slotM 4).view.set]{fullShare} f4)
          ∗ ((V d c i).loc cc0_scratch1 ↦[(slotM 5).view.set]{fullShare} f5)
          ∗ ((V d c i).loc cc0_scratch1 ↦[(slotM 6).view.set]{fullShare} f6)
          ∗ ((V d c i).loc cc0_scratch1 ↦[(slotM 7).view.set]{fullShare} f7)
          ∗ ((V d c i).loc cc0_scratch1 ↦[(slotM 8).view.set]{fullShare} f8)
          ∗ ((V d c i).loc cc0_scratch1 ↦[(slotM 9).view.set]{fullShare} f9)) := by
    rw [show (Finset.univ : Finset (Fin 10)) = {0, 1, 2, 3, 4, 5, 6, 7, 8, 9} by decide]
    repeat rw [SparseCore.bigSep_insert' (by decide)]
    rw [bigSep_singleton]
    rfl
  rw [← e]
  refine (pointsTo_biUnion_join (ℓ := (V d c i).loc cc0_scratch1) Finset.univ slotSet (fun b : Fin 10 => (![f0, f1, f2, f3, f4, f5, f6, f7, f8, f9] b : Buf (Elt F) ((V d c i).loc cc0_scratch1))) f0 slots_disjoint).trans ?_
  iintro ⟨%g, -, Hg⟩
  rw [slots_cover]
  iexists g; iexact Hg

/-- The same with the contents left unnamed. -/
theorem sR_join (d : Dev nD) (c : Fin τ.nSC) (i : Fin τ.nSub) :
    (bigSep Finset.univ fun b : Fin 10 => iprop(∃ f : Buf (Elt F) ((V d c i).loc cc0_scratch1), (V d c i).loc cc0_scratch1 ↦[(slotM b).view.set]{fullShare} f) : sProp 𝕄)
      ⊢ iprop(∃ f, (V d c i).loc cc0_scratch1 ↦{fullShare} f) := by
  rw [show (Finset.univ : Finset (Fin 10)) = {0, 1, 2, 3, 4, 5, 6, 7, 8, 9} by decide]
  repeat rw [SparseCore.bigSep_insert' (by decide)]
  rw [bigSep_singleton]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iapply (sR_join10 d c i f0 f1 f2 f3 f4 f5 f6 f7 f8 f9)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## Ten read shares -/

section Shares

variable {ℓ : Loc nD τ sig} {S : Finset (Idx ℓ)} {q : PosShare TreeShare} {f : Buf (Elt F) ℓ}

/-- A share of some elements is a remainder and ten read shares, -/
theorem toks10_split :
    (ℓ ↦[S]{q} f : sProp 𝕄)
      ⊢ iprop((ℓ ↦[S]{Transfers.shareDrop q 10} f)
          ∗ (ℓ ↦[S]{Transfers.shareTok q 10 0} f)
          ∗ (ℓ ↦[S]{Transfers.shareTok q 10 1} f)
          ∗ (ℓ ↦[S]{Transfers.shareTok q 10 2} f)
          ∗ (ℓ ↦[S]{Transfers.shareTok q 10 3} f)
          ∗ (ℓ ↦[S]{Transfers.shareTok q 10 4} f)
          ∗ (ℓ ↦[S]{Transfers.shareTok q 10 5} f)
          ∗ (ℓ ↦[S]{Transfers.shareTok q 10 6} f)
          ∗ (ℓ ↦[S]{Transfers.shareTok q 10 7} f)
          ∗ (ℓ ↦[S]{Transfers.shareTok q 10 8} f)
          ∗ (ℓ ↦[S]{Transfers.shareTok q 10 9} f)) := by
  have h := Transfers.pointsTo_toks_split (Lvl := ℕ) (ℓ := ℓ) (S := S) (f := f) (Ix := HIx 1) (Name := ℕ) (U := UU) q 10
  rw [show (Finset.univ : Finset (Fin 10)) = {0, 1, 2, 3, 4, 5, 6, 7, 8, 9} by decide] at h
  repeat rw [SparseCore.bigSep_insert' (by decide)] at h
  rw [bigSep_singleton] at h
  exact h

/-- and they join back to it. -/
theorem toks10_join :
    (iprop((ℓ ↦[S]{Transfers.shareDrop q 10} f)
          ∗ (ℓ ↦[S]{Transfers.shareTok q 10 0} f)
          ∗ (ℓ ↦[S]{Transfers.shareTok q 10 1} f)
          ∗ (ℓ ↦[S]{Transfers.shareTok q 10 2} f)
          ∗ (ℓ ↦[S]{Transfers.shareTok q 10 3} f)
          ∗ (ℓ ↦[S]{Transfers.shareTok q 10 4} f)
          ∗ (ℓ ↦[S]{Transfers.shareTok q 10 5} f)
          ∗ (ℓ ↦[S]{Transfers.shareTok q 10 6} f)
          ∗ (ℓ ↦[S]{Transfers.shareTok q 10 7} f)
          ∗ (ℓ ↦[S]{Transfers.shareTok q 10 8} f)
          ∗ (ℓ ↦[S]{Transfers.shareTok q 10 9} f)) : sProp 𝕄)
      ⊢ (ℓ ↦[S]{q} f) := by
  have h := Transfers.pointsTo_toks_join (Lvl := ℕ) (ℓ := ℓ) (S := S) (f := f) (Ix := HIx 1) (Name := ℕ) (U := UU) q 10
  rw [show (Finset.univ : Finset (Fin 10)) = {0, 1, 2, 3, 4, 5, 6, 7, 8, 9} by decide] at h
  repeat rw [SparseCore.bigSep_insert' (by decide)] at h
  rw [bigSep_singleton] at h
  exact h

end Shares

end Cert.Proof.WordKernel

end
-- ==== Proof.WordInv.lean ====
/-
  A tile's task, trip by trip: what it holds between two trips of its loop.

  A tile moves one hundred chunks, chunk c being sixty-four table rows: it gathers them, by the row numbers in a
  window of its index block, into slot c mod 10 of its scratch, and writes the slot out to rows of the result.
  Ten gathers and ten writes are issued per trip of the loop, seven gathers and three writes always in flight,
  each on a semaphore of its slot's own. Counting chunks in tens, before trip n: the groups below n are written
  and waited for; of group n the first three chunks are being written out of slots 0 to 2 and the other seven are
  being gathered into slots 3 to 9; the groups above n are untouched. A transfer in flight holds what it will
  deliver — the slot at the rows its chunk's ids name, the chunk of the result at those rows — so the invariant
  states the values as well as the ownership. The rest of this file restates a piece held in one spelling of its
  offsets in another, opens and closes the piles of groups, and brings what a trip leaves back to this form.
  The table's entries are here the thirty-two-bit words of the printed program: every step moves them, none computes
  with them, so the statements read as they would over any kind of entry.
-/
import proofs.«206438_g5171140624678_cont_8to1_c_1053_28_alg».proof.Proof.WordPieces
import proofs.«206438_g5171140624678_cont_8to1_c_1053_28_alg».proof.Proof.WordSlab
import proofs.«206438_g5171140624678_cont_8to1_c_1053_28_alg».proof.Proof.WordSlots
import proofs.«206438_g5171140624678_cont_8to1_c_1053_28_alg».proof.Proof.WordChunks
import proofs.«206438_g5171140624678_cont_8to1_c_1053_28_alg».proof.Proof.WordLists
import proofs.«206438_g5171140624678_cont_8to1_c_1053_28_alg».proof.Proof.WordTens
import proofs.«206438_g5171140624678_cont_8to1_c_1053_28_alg».proof.Proof.WordValues
import proofs.«206438_g5171140624678_cont_8to1_c_1053_28_alg».proof.Proof.WordJoin

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- a result chunk / a list window in the spelling of an arbitrary offset vector -/
abbrev oAt (off : Fin 3 → Nat) (inb : ∀ a, off a + S1x64x128.size a ≤ S50x4096x128.size a) : Memref sig .scVector .hbm S64x128 .f32 :=
  ((aO).slice (Rect.unit (s := S50x4096x128) off S1x64x128.size inb) (fun _ => rfl)).squeeze S64x128 squeezes_S1x64x128_S64x128
abbrev sAt (offS : Fin 3 → Nat) (inbS : ∀ a, offS a + S1x64x128.size a ≤ S10x64x128.size a) : Memref sig .scVector .vmem S64x128 .f32 :=
  ((sR).slice (Rect.unit (s := S10x64x128) offS S1x64x128.size inbS) (fun _ => rfl)).squeeze S64x128 squeezes_S1x64x128_S64x128
abbrev lAt (off : Fin 2 → Nat) (inb : ∀ a, off a + S1x64.size a ≤ S50x128.size a) : Memref sig .scVector .vmem S64 .i32 :=
  ((sI).slice (Rect.unit (s := S50x128) off S1x64.size inb) (fun _ => rfl)).squeeze S64 squeezes_S1x64_S64

variable [FloatOps F]
variable (d : Dev nD) (L : grid0.Coords)
variable (q : PosShare TreeShare) (O : CellTallies nD τ sig (HIx 1)) (W : Waits sig (HIx 1))
variable (Wt : Buf (Elt F) (xLoc d)) (O0 OV : Buf (Elt F) (oLoc d))
variable (C : Buf (Elt F) ((V d (cV L) (jV L)).loc cc0_scratch0)) (SV : ℕ → Buf (Elt F) ((V d (cV L) (jV L)).loc cc0_scratch1))

abbrev OUTp (c : ℕ) (f : Buf (Elt F) (oLoc d)) : sProp 𝕄 := (oChunkM (widL L) c).view.loc (V d (cV L) (jV L)) ↦[(oChunkM (widL L) c).view.set]{fullShare} f
abbrev LSTp (c : ℕ) : sProp 𝕄 := (listM c).view.loc (V d (cV L) (jV L)) ↦[(listM c).view.set]{fullShare} C
abbrev SLOTp (offS : Fin 3 → Nat) (inbS : ∀ a, offS a + S1x64x128.size a ≤ S10x64x128.size a) (f : Buf (Elt F) ((V d (cV L) (jV L)).loc cc0_scratch1)) : sProp 𝕄 := (sAt offS inbS).view.loc (V d (cV L) (jV L)) ↦[(sAt offS inbS).view.set]{fullShare} f
abbrev TOKp (b : Fin 10) : sProp 𝕄 := (aWs).view.loc (V d (cV L) (jV L)) ↦[(aWs).view.set]{Transfers.shareTok q 10 b} Wt

omit [FloatOps F] in
/-- a chunk held in the canonical spelling is the chunk held in the spelling of any equal offset vector -/
theorem OUTp_at {off : Fin 3 → Nat} (inb : ∀ a, off a + S1x64x128.size a ≤ S50x4096x128.size a) (c : ℕ) (h : off = chunkOff (widL L) c)
    (f : Buf (Elt F) (oLoc d)) :
    (OUTp d L c f : sProp 𝕄) = ((oAt off inb).view.loc (V d (cV L) (jV L)) ↦[(oAt off inb).view.set]{fullShare} f) := by
  subst h; rfl
omit [FloatOps F] in
theorem LSTp_at {off : Fin 2 → Nat} (inb : ∀ a, off a + S1x64.size a ≤ S50x128.size a) (c : ℕ) (h : off = listOff c) :
    (LSTp d L C c : sProp 𝕄) = ((lAt off inb).view.loc (V d (cV L) (jV L)) ↦[(lAt off inb).view.set]{fullShare} C) := by
  subst h; rfl

def grpO (f : Buf (Elt F) (oLoc d)) (j : ℕ) : sProp 𝕄 := iprop(OUTp d L (10 * j + 0) f ∗ OUTp d L (10 * j + 1) f ∗ OUTp d L (10 * j + 2) f ∗ OUTp d L (10 * j + 3) f ∗ OUTp d L (10 * j + 4) f ∗ OUTp d L (10 * j + 5) f ∗ OUTp d L (10 * j + 6) f ∗ OUTp d L (10 * j + 7) f ∗ OUTp d L (10 * j + 8) f ∗ OUTp d L (10 * j + 9) f)
def grpL (j : ℕ) : sProp 𝕄 := iprop(LSTp d L C (10 * j + 0) ∗ LSTp d L C (10 * j + 1) ∗ LSTp d L C (10 * j + 2) ∗ LSTp d L C (10 * j + 3) ∗ LSTp d L C (10 * j + 4) ∗ LSTp d L C (10 * j + 5) ∗ LSTp d L C (10 * j + 6) ∗ LSTp d L C (10 * j + 7) ∗ LSTp d L C (10 * j + 8) ∗ LSTp d L C (10 * j + 9))

abbrev gF (sem : DmaSem sig) (offS : Fin 3 → Nat) (inbS : ∀ a, offS a + S1x64x128.size a ≤ S10x64x128.size a) (b : Fin 10) (c : ℕ) : sProp 𝕄 :=
  Transfers.Flight countersEmb (V d (cV L) (jV L)) (SemLoc.dma sem) (default : HIx 1) 262144
    iprop(((SLOTp d L offS inbS (SV c)) ∗ (LSTp d L C c)) ∗ (TOKp d L q Wt b))
abbrev wF (sem : DmaSem sig) (offS : Fin 3 → Nat) (inbS : ∀ a, offS a + S1x64x128.size a ≤ S10x64x128.size a) (c : ℕ) : sProp 𝕄 :=
  Transfers.Flight countersEmb (V d (cV L) (jV L)) (SemLoc.dma sem) (default : HIx 1) 262144
    iprop((OUTp d L c OV) ∗ (SLOTp d L offS inbS (SV c)))

def inv (n : ℕ) (_ : PUnit) : sProp 𝕄 :=
  iprop(Transfers.MayWaits (V d (cV L) (jV L)) (none : HIx 1) O
    ∗ (gF d L q Wt C SV (⟨3, by decide⟩ : DmaSem sig) ![3, 0, 0] inb_S10x64x128_S1x64x128_3_0_0 3 (10 * n + 3) ∗ gF d L q Wt C SV (⟨4, by decide⟩ : DmaSem sig) ![4, 0, 0] inb_S10x64x128_S1x64x128_4_0_0 4 (10 * n + 4) ∗ gF d L q Wt C SV (⟨5, by decide⟩ : DmaSem sig) ![5, 0, 0] inb_S10x64x128_S1x64x128_5_0_0 5 (10 * n + 5) ∗ gF d L q Wt C SV (⟨6, by decide⟩ : DmaSem sig) ![6, 0, 0] inb_S10x64x128_S1x64x128_6_0_0 6 (10 * n + 6) ∗ gF d L q Wt C SV (⟨7, by decide⟩ : DmaSem sig) ![7, 0, 0] inb_S10x64x128_S1x64x128_7_0_0 7 (10 * n + 7) ∗ gF d L q Wt C SV (⟨8, by decide⟩ : DmaSem sig) ![8, 0, 0] inb_S10x64x128_S1x64x128_8_0_0 8 (10 * n + 8) ∗ gF d L q Wt C SV (⟨9, by decide⟩ : DmaSem sig) ![9, 0, 0] inb_S10x64x128_S1x64x128_9_0_0 9 (10 * n + 9))
    ∗ (wF d L OV SV (⟨10, by decide⟩ : DmaSem sig) ![0, 0, 0] inb_S10x64x128_S1x64x128_0_0_0 (10 * n + 0) ∗ wF d L OV SV (⟨11, by decide⟩ : DmaSem sig) ![1, 0, 0] inb_S10x64x128_S1x64x128_1_0_0 (10 * n + 1) ∗ wF d L OV SV (⟨12, by decide⟩ : DmaSem sig) ![2, 0, 0] inb_S10x64x128_S1x64x128_2_0_0 (10 * n + 2))
    ∗ (semVal (V d (cV L) (jV L), SemLoc.dma (⟨0, by decide⟩ : DmaSem sig)) 0 ∗ semVal (V d (cV L) (jV L), SemLoc.dma (⟨1, by decide⟩ : DmaSem sig)) 0 ∗ semVal (V d (cV L) (jV L), SemLoc.dma (⟨2, by decide⟩ : DmaSem sig)) 0)
    ∗ (TOKp d L q Wt 0 ∗ TOKp d L q Wt 1 ∗ TOKp d L q Wt 2)
    ∗ (semVal (V d (cV L) (jV L), SemLoc.dma (⟨13, by decide⟩ : DmaSem sig)) 0 ∗ semVal (V d (cV L) (jV L), SemLoc.dma (⟨14, by decide⟩ : DmaSem sig)) 0 ∗ semVal (V d (cV L) (jV L), SemLoc.dma (⟨15, by decide⟩ : DmaSem sig)) 0 ∗ semVal (V d (cV L) (jV L), SemLoc.dma (⟨16, by decide⟩ : DmaSem sig)) 0 ∗ semVal (V d (cV L) (jV L), SemLoc.dma (⟨17, by decide⟩ : DmaSem sig)) 0 ∗ semVal (V d (cV L) (jV L), SemLoc.dma (⟨18, by decide⟩ : DmaSem sig)) 0 ∗ semVal (V d (cV L) (jV L), SemLoc.dma (⟨19, by decide⟩ : DmaSem sig)) 0)
    ∗ (OUTp d L (10 * n + 3) O0 ∗ OUTp d L (10 * n + 4) O0 ∗ OUTp d L (10 * n + 5) O0 ∗ OUTp d L (10 * n + 6) O0 ∗ OUTp d L (10 * n + 7) O0 ∗ OUTp d L (10 * n + 8) O0 ∗ OUTp d L (10 * n + 9) O0)
    ∗ (LSTp d L C (10 * n + 0) ∗ LSTp d L C (10 * n + 1) ∗ LSTp d L C (10 * n + 2))
    ∗ bigSep (Finset.Ico (n + 1) 10) (grpO d L O0) ∗ bigSep (Finset.Ico (n + 1) 10) (grpL d L C)
    ∗ bigSep (Finset.range n) (grpO d L OV) ∗ bigSep (Finset.range n) (grpL d L C)
    ∗ ∃ W', ⌜∀ p ∈ W', p ∈ W ∨ p.2 = none⌝ ∗ owes (V d (cV L) (jV L)) O W')

omit [FloatOps F] in
/-- the groups above n: the next one, opened, and the groups above it -/
theorem pop_O (f : Buf (Elt F) (oLoc d)) (n : ℕ) (h : n + 1 < 10) :
    (bigSep (Finset.Ico (n + 1) 10) (grpO d L f) : sProp 𝕄)
      = iprop((OUTp d L (10 * (n + 1) + 0) f ∗ OUTp d L (10 * (n + 1) + 1) f ∗ OUTp d L (10 * (n + 1) + 2) f ∗ OUTp d L (10 * (n + 1) + 3) f ∗ OUTp d L (10 * (n + 1) + 4) f ∗ OUTp d L (10 * (n + 1) + 5) f ∗ OUTp d L (10 * (n + 1) + 6) f ∗ OUTp d L (10 * (n + 1) + 7) f ∗ OUTp d L (10 * (n + 1) + 8) f ∗ OUTp d L (10 * (n + 1) + 9) f) ∗ bigSep (Finset.Ico (n + 1 + 1) 10) (grpO d L f)) := by
  have e : Finset.Ico (n + 1) 10 = insert (n + 1) (Finset.Ico (n + 1 + 1) 10) := by
    ext x; simp only [Finset.mem_Ico, Finset.mem_insert]; omega
  rw [e, SparseCore.bigSep_insert' (by simp)]; rfl
omit [FloatOps F] in
theorem pop_L (n : ℕ) (h : n + 1 < 10) :
    (bigSep (Finset.Ico (n + 1) 10) (grpL d L C) : sProp 𝕄)
      = iprop((LSTp d L C (10 * (n + 1) + 0) ∗ LSTp d L C (10 * (n + 1) + 1) ∗ LSTp d L C (10 * (n + 1) + 2) ∗ LSTp d L C (10 * (n + 1) + 3) ∗ LSTp d L C (10 * (n + 1) + 4) ∗ LSTp d L C (10 * (n + 1) + 5) ∗ LSTp d L C (10 * (n + 1) + 6) ∗ LSTp d L C (10 * (n + 1) + 7) ∗ LSTp d L C (10 * (n + 1) + 8) ∗ LSTp d L C (10 * (n + 1) + 9)) ∗ bigSep (Finset.Ico (n + 1 + 1) 10) (grpL d L C)) := by
  have e : Finset.Ico (n + 1) 10 = insert (n + 1) (Finset.Ico (n + 1 + 1) 10) := by
    ext x; simp only [Finset.mem_Ico, Finset.mem_insert]; omega
  rw [e, SparseCore.bigSep_insert' (by simp)]; rfl
omit [FloatOps F] in
/-- a finished group joins the groups below n -/
theorem push_O (f : Buf (Elt F) (oLoc d)) (n : ℕ) :
    (bigSep (Finset.range (n + 1)) (grpO d L f) : sProp 𝕄)
      = iprop((OUTp d L (10 * n + 0) f ∗ OUTp d L (10 * n + 1) f ∗ OUTp d L (10 * n + 2) f ∗ OUTp d L (10 * n + 3) f ∗ OUTp d L (10 * n + 4) f ∗ OUTp d L (10 * n + 5) f ∗ OUTp d L (10 * n + 6) f ∗ OUTp d L (10 * n + 7) f ∗ OUTp d L (10 * n + 8) f ∗ OUTp d L (10 * n + 9) f) ∗ bigSep (Finset.range n) (grpO d L f)) := by
  rw [Finset.range_add_one, SparseCore.bigSep_insert' Finset.notMem_range_self]; rfl
omit [FloatOps F] in
theorem push_L (n : ℕ) :
    (bigSep (Finset.range (n + 1)) (grpL d L C) : sProp 𝕄)
      = iprop((LSTp d L C (10 * n + 0) ∗ LSTp d L C (10 * n + 1) ∗ LSTp d L C (10 * n + 2) ∗ LSTp d L C (10 * n + 3) ∗ LSTp d L C (10 * n + 4) ∗ LSTp d L C (10 * n + 5) ∗ LSTp d L C (10 * n + 6) ∗ LSTp d L C (10 * n + 7) ∗ LSTp d L C (10 * n + 8) ∗ LSTp d L C (10 * n + 9)) ∗ bigSep (Finset.range n) (grpL d L C)) := by
  rw [Finset.range_add_one, SparseCore.bigSep_insert' Finset.notMem_range_self]; rfl

omit [FloatOps F] in
/-- a tile's semaphores at zero, each named by its number -/
theorem ownSems0_lit (d : Dev nD) (c : Fin τ.nSC) (i : Fin τ.nSub) :
    (ownSems0 (V d c i) : sProp 𝕄)
      = iprop(semVal (V d c i, SemLoc.dma (⟨0, by decide⟩ : DmaSem sig)) 0 ∗ semVal (V d c i, SemLoc.dma (⟨1, by decide⟩ : DmaSem sig)) 0 ∗ semVal (V d c i, SemLoc.dma (⟨2, by decide⟩ : DmaSem sig)) 0 ∗ semVal (V d c i, SemLoc.dma (⟨3, by decide⟩ : DmaSem sig)) 0 ∗ semVal (V d c i, SemLoc.dma (⟨4, by decide⟩ : DmaSem sig)) 0 ∗ semVal (V d c i, SemLoc.dma (⟨5, by decide⟩ : DmaSem sig)) 0 ∗ semVal (V d c i, SemLoc.dma (⟨6, by decide⟩ : DmaSem sig)) 0 ∗ semVal (V d c i, SemLoc.dma (⟨7, by decide⟩ : DmaSem sig)) 0 ∗ semVal (V d c i, SemLoc.dma (⟨8, by decide⟩ : DmaSem sig)) 0 ∗ semVal (V d c i, SemLoc.dma (⟨9, by decide⟩ : DmaSem sig)) 0 ∗ semVal (V d c i, SemLoc.dma (⟨10, by decide⟩ : DmaSem sig)) 0 ∗ semVal (V d c i, SemLoc.dma (⟨11, by decide⟩ : DmaSem sig)) 0 ∗ semVal (V d c i, SemLoc.dma (⟨12, by decide⟩ : DmaSem sig)) 0 ∗ semVal (V d c i, SemLoc.dma (⟨13, by decide⟩ : DmaSem sig)) 0 ∗ semVal (V d c i, SemLoc.dma (⟨14, by decide⟩ : DmaSem sig)) 0 ∗ semVal (V d c i, SemLoc.dma (⟨15, by decide⟩ : DmaSem sig)) 0 ∗ semVal (V d c i, SemLoc.dma (⟨16, by decide⟩ : DmaSem sig)) 0 ∗ semVal (V d c i, SemLoc.dma (⟨17, by decide⟩ : DmaSem sig)) 0 ∗ semVal (V d c i, SemLoc.dma (⟨18, by decide⟩ : DmaSem sig)) 0 ∗ semVal (V d c i, SemLoc.dma (⟨19, by decide⟩ : DmaSem sig)) 0 ∗ semVal (V d c i, SemLoc.dma (⟨20, by decide⟩ : DmaSem sig)) 0) := by
  rw [ownSems0_V21]; rfl

/-! ## What a trip leaves, brought back to the invariant's form -/

theorem gF_of_raw (hV1 : ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) C) hn hin)) →
        ∀ i ∈ (sAt offS inbS).view.set, (sAt offS inbS).view.writes (Elt F) prev [⟨Rect.whole S64x128, pay⟩] i = SV c i) (sem : DmaSem sig) (b : Fin 10) (c : ℕ) (hc : c < 100)
    {offS : Fin 3 → Nat} (inbS : ∀ a, offS a + S1x64x128.size a ≤ S10x64x128.size a) (hs : offS = ![b.val, 0, 0])
    {off : Fin 2 → Nat} (inbL : ∀ a, off a + S1x64.size a ≤ S50x128.size a) (hl : off = listOff c)
    (prev : Buf (Elt F) ((V d (cV L) (jV L)).loc cc0_scratch1)) (pay : S64x128.Idx → Elt F .f32)
    (hpay : ∃ hn hin, pay = SparseCore.gatherPayload gathers_S100000x128_S64x128 ((aWs).view.read (Elt F) Wt)
          (SparseCore.rows ((lAt off inbL).view.read (Elt F) C) hn hin)) :
    (Transfers.Flight countersEmb (V d (cV L) (jV L)) (SemLoc.dma sem) (default : HIx 1) 262144
      iprop((((sAt offS inbS).view.loc (V d (cV L) (jV L)) ↦[(sAt offS inbS).view.set]{fullShare} (sAt offS inbS).view.writes (Elt F) prev [⟨Rect.whole S64x128, pay⟩])
          ∗ ((lAt off inbL).view.loc (V d (cV L) (jV L)) ↦[(lAt off inbL).view.set]{fullShare} C)) ∗ (TOKp d L q Wt b)) : sProp 𝕄)
      ⊢ gF d L q Wt C SV sem offS inbS b c := by
  have hv := hV1 c hc b inbS hs inbL hl prev pay hpay
  subst hl
  refine Transfers.Flight_mono countersEmb _ ?_
  iintro ⟨⟨Hd, Ho⟩, Hs⟩
  isplitl [Hd Ho]
  · isplitl [Hd]
    · iapply (Entails.of_eq (pointsTo_congr hv)); iexact Hd
    · iexact Ho
  · iexact Hs

theorem wF_of_raw (hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = SV c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = OV i) (sem : DmaSem sig) (b : Fin 10) (c : ℕ) (hc : c < 100)
    {offS : Fin 3 → Nat} (inbS : ∀ a, offS a + S1x64x128.size a ≤ S10x64x128.size a) (hs : offS = ![b.val, 0, 0])
    {off : Fin 3 → Nat} (inbO : ∀ a, off a + S1x64x128.size a ≤ S50x4096x128.size a) (ho : off = chunkOff (widL L) c)
    (prevO : Buf (Elt F) (oLoc d)) (f : Buf (Elt F) ((V d (cV L) (jV L)).loc cc0_scratch1)) (Dp : S64x128.Idx → Elt F .f32)
    (hf : ∀ i ∈ (sAt offS inbS).view.set, f i = SV c i) (hD : Dp = ReadAs.same.apply ((sAt offS inbS).view.read (Elt F) f)) :
    (Transfers.Flight countersEmb (V d (cV L) (jV L)) (SemLoc.dma sem) (default : HIx 1) 262144
      iprop(((oAt off inbO).view.loc (V d (cV L) (jV L)) ↦[(oAt off inbO).view.set]{fullShare} (oAt off inbO).view.writes (Elt F) prevO [⟨Rect.whole S64x128, Dp⟩])
          ∗ ((sAt offS inbS).view.loc (V d (cV L) (jV L)) ↦[(sAt offS inbS).view.set]{fullShare} f)) : sProp 𝕄)
      ⊢ wF d L OV SV sem offS inbS c := by
  subst ho
  have hv := hV2 c hc b inbS hs prevO f hf Dp hD
  refine Transfers.Flight_mono countersEmb _ ?_
  iintro ⟨Hd, Hs⟩
  isplitl [Hd]
  · iapply (Entails.of_eq (pointsTo_congr hv)); iexact Hd
  · iapply (Entails.of_eq (pointsTo_congr hf)); iexact Hs

theorem OUTp_of_raw (hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = SV c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = OV i) (b : Fin 10) (c : ℕ) (hc : c < 100)
    {offS : Fin 3 → Nat} (inbS : ∀ a, offS a + S1x64x128.size a ≤ S10x64x128.size a) (hs : offS = ![b.val, 0, 0])
    {off : Fin 3 → Nat} (inbO : ∀ a, off a + S1x64x128.size a ≤ S50x4096x128.size a) (ho : off = chunkOff (widL L) c)
    (prevO : Buf (Elt F) (oLoc d)) (f : Buf (Elt F) ((V d (cV L) (jV L)).loc cc0_scratch1)) (Dp : S64x128.Idx → Elt F .f32)
    (hf : ∀ i ∈ (sAt offS inbS).view.set, f i = SV c i) (hD : Dp = ReadAs.same.apply ((sAt offS inbS).view.read (Elt F) f)) :
    ((oAt off inbO).view.loc (V d (cV L) (jV L)) ↦[(oAt off inbO).view.set]{fullShare} (oAt off inbO).view.writes (Elt F) prevO [⟨Rect.whole S64x128, Dp⟩] : sProp 𝕄)
      ⊢ OUTp d L c OV := by
  subst ho
  exact Entails.of_eq (pointsTo_congr (hV2 c hc b inbS hs prevO f hf Dp hD))

omit [FloatOps F] in
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.Proof.WordKernel

end
-- ==== Proof.WordBody.lean ====
/-
  A tile's task, from what it is handed to what it hands back.

  The tile is handed its slab of the transposed id table, a share of the embedding table and its block of the
  result. It fetches the slab into its index block; every row number there is a row of the table, because every
  id is (the claim's precondition), so each of its hundred gathers is in range. Slab, block, scratch and share
  are dealt into the pieces the transfers move — a list window, a result chunk and a share token per transfer,
  ten slots — and the task is run: the fetch; the first ten gathers and three write-outs; the loop, by its
  invariant; the last seven write-outs and the last waits. At the end every chunk of the block holds, at row p
  and column q, entry q of the table row named by the id at the chunk's position p: the block is the lookup of the
  ids restricted to the tile's columns. The pieces are put together again and handed back.
  The table's entries are here the thirty-two-bit words of the printed program: every step moves them, none computes
  with them, so the statements read as they would over any kind of entry.
-/
import proofs.«206438_g5171140624678_cont_8to1_c_1053_28_alg».proof.Proof.WordInv
import proofs.«206438_g5171140624678_cont_8to1_c_1053_28_alg».proof.Proof.WordIface
import proofs.«206438_g5171140624678_cont_8to1_c_1053_28_alg».proof.Proof.Transposes

noncomputable section

namespace Cert.Proof.WordKernel

open Cert.Kernel Cert.Kernel.Gen Cert.Proof.Bridge

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Every row number a gather reads is a row of the table: a list window of the index block, after the block's
    fetch, holds words of the tile's slab of the transposed id table, each below one hundred thousand. -/
theorem inb_of_range (fI : Buf (Elt F) (iLoc d)) (hI : ∀ j, (fI j).toNat < 100000)
    (fs : Buf (Elt F) ((V d (cV L) (jV L)).loc cc0_scratch0)) (pay : S50x128.Idx → Elt F .i32)
    (hpay : pay = (iSlab L).view.read (Elt F) fI)
    (row : Fin 2 → Nat) (hk : ∀ a, row a + S1x64.size a ≤ S50x128.size a)
    (hst : ∀ a, (Rect.unit (s := S50x128) row S1x64.size hk).stride a = 1)
    (hq : (Rect.unit (s := S50x128) row S1x64.size hk).shape.Squeezes S64) :
    ∀ x, (View.read (Elt F) (((sI).slice (Rect.unit (s := S50x128) row S1x64.size hk) hst).squeeze S64 hq).view
        (View.write (Elt F) (sI).view fs pay Finset.univ) x).toNat < 100000 := by
  subst hpay; intro x
  have e : View.read (Elt F) (((sI).slice (Rect.unit (s := S50x128) row S1x64.size hk) hst).squeeze S64 hq).view
        (View.write (Elt F) (sI).view fs ((iSlab L).view.read (Elt F) fI) Finset.univ) x
      = View.read (Elt F) (sI).view (View.write (Elt F) (sI).view fs ((iSlab L).view.read (Elt F) fI) Finset.univ)
          ((Rect.unit (s := S50x128) row S1x64.size hk).emb ((Shape.reshapeEquiv hq.numel_eq) x)) := by
    rw [View.read_apply, View.read_apply]; rfl
  rw [e, View.write_whole_univ]
  simp only [Memref.view_whole, View.read_whole]
  rw [show ∀ j, (iSlab L).view.read (Elt F) fI j = fI ((iSlab L).view.emb j) from fun j => (View.read_apply _ _).trans (cast_eq _ _)]
  exact hI _

/-! ## Dealing the pieces, and putting them together again -/

omit [FloatOps F] in
theorem pts_iSlab (f : Buf (Elt F) (iLoc d)) :
    ((iSlab L).view.loc (V d (cV L) (jV L)) ↦[(iSlab L).view.set]{fullShare} f : sProp 𝕄) = (iLoc d ↦[iSet (widL L)]{fullShare} f) := by
  rw [set_iSlab]

omit [FloatOps F] in
/-- the tile's block of the result: the first group's ten chunks and the groups above -/
theorem out_entry (f : Buf (Elt F) (oLoc d)) :
    (oLoc d ↦[oSet (widL L)]{fullShare} f : sProp 𝕄)
      = iprop((OUTp d L (10 * 0 + 0) f ∗ OUTp d L (10 * 0 + 1) f ∗ OUTp d L (10 * 0 + 2) f ∗ OUTp d L (10 * 0 + 3) f ∗ OUTp d L (10 * 0 + 4) f ∗ OUTp d L (10 * 0 + 5) f ∗ OUTp d L (10 * 0 + 6) f ∗ OUTp d L (10 * 0 + 7) f ∗ OUTp d L (10 * 0 + 8) f ∗ OUTp d L (10 * 0 + 9) f) ∗ bigSep (Finset.Ico 1 10) (grpO d L f)) := by
  rw [oPts_chunks, tens_head]; rfl
omit [FloatOps F] in
/-- the last group's ten chunks and the groups below: the tile's block again -/
theorem out_exit (f : Buf (Elt F) (oLoc d)) (n : ℕ) (hn : n + 1 = 10) :
    (iprop((OUTp d L (10 * n + 0) f ∗ OUTp d L (10 * n + 1) f ∗ OUTp d L (10 * n + 2) f ∗ OUTp d L (10 * n + 3) f ∗ OUTp d L (10 * n + 4) f ∗ OUTp d L (10 * n + 5) f ∗ OUTp d L (10 * n + 6) f ∗ OUTp d L (10 * n + 7) f ∗ OUTp d L (10 * n + 8) f ∗ OUTp d L (10 * n + 9) f) ∗ bigSep (Finset.range n) (grpO d L f)) : sProp 𝕄)
      = (oLoc d ↦[oSet (widL L)]{fullShare} f) := by
  rw [← push_O, hn, oPts_chunks, bigSep_tens]; rfl
omit [FloatOps F] in
/-- the index block: the first group's ten list windows and the groups above -/
theorem lst_entry (C : Buf (Elt F) ((V d (cV L) (jV L)).loc cc0_scratch0)) :
    ((sI).view.loc (V d (cV L) (jV L)) ↦{fullShare} C : sProp 𝕄)
      = iprop((LSTp d L C (10 * 0 + 0) ∗ LSTp d L C (10 * 0 + 1) ∗ LSTp d L C (10 * 0 + 2) ∗ LSTp d L C (10 * 0 + 3) ∗ LSTp d L C (10 * 0 + 4) ∗ LSTp d L C (10 * 0 + 5) ∗ LSTp d L C (10 * 0 + 6) ∗ LSTp d L C (10 * 0 + 7) ∗ LSTp d L C (10 * 0 + 8) ∗ LSTp d L C (10 * 0 + 9)) ∗ bigSep (Finset.Ico 1 10) (grpL d L C)) := by
  show ((V d (cV L) (jV L)).loc cc0_scratch0 ↦{fullShare} C : sProp 𝕄) = _
  rw [sI_lists, tens_head]; rfl
omit [FloatOps F] in
theorem lst_exit (C : Buf (Elt F) ((V d (cV L) (jV L)).loc cc0_scratch0)) (n : ℕ) (hn : n + 1 = 10) :
    (iprop((LSTp d L C (10 * n + 0) ∗ LSTp d L C (10 * n + 1) ∗ LSTp d L C (10 * n + 2) ∗ LSTp d L C (10 * n + 3) ∗ LSTp d L C (10 * n + 4) ∗ LSTp d L C (10 * n + 5) ∗ LSTp d L C (10 * n + 6) ∗ LSTp d L C (10 * n + 7) ∗ LSTp d L C (10 * n + 8) ∗ LSTp d L C (10 * n + 9)) ∗ bigSep (Finset.range n) (grpL d L C)) : sProp 𝕄)
      = ((V d (cV L) (jV L)).loc cc0_scratch0 ↦{fullShare} C) := by
  rw [← push_L, hn, sI_lists, bigSep_tens]; rfl
omit [FloatOps F] in
/-- the scratch of slots whole is its ten slots, and back at whatever each holds -/
theorem slots_entry (f : Buf (Elt F) ((V d (cV L) (jV L)).loc cc0_scratch1)) :
    ((V d (cV L) (jV L)).loc cc0_scratch1 ↦{fullShare} f : sProp 𝕄) ⊢ iprop(SLOTp d L ![0, 0, 0] inb_S10x64x128_S1x64x128_0_0_0 f ∗ SLOTp d L ![1, 0, 0] inb_S10x64x128_S1x64x128_1_0_0 f ∗ SLOTp d L ![2, 0, 0] inb_S10x64x128_S1x64x128_2_0_0 f ∗ SLOTp d L ![3, 0, 0] inb_S10x64x128_S1x64x128_3_0_0 f ∗ SLOTp d L ![4, 0, 0] inb_S10x64x128_S1x64x128_4_0_0 f ∗ SLOTp d L ![5, 0, 0] inb_S10x64x128_S1x64x128_5_0_0 f ∗ SLOTp d L ![6, 0, 0] inb_S10x64x128_S1x64x128_6_0_0 f ∗ SLOTp d L ![7, 0, 0] inb_S10x64x128_S1x64x128_7_0_0 f ∗ SLOTp d L ![8, 0, 0] inb_S10x64x128_S1x64x128_8_0_0 f ∗ SLOTp d L ![9, 0, 0] inb_S10x64x128_S1x64x128_9_0_0 f) :=
  sR_split10 d (cV L) (jV L) f
omit [FloatOps F] in
theorem slots_exit (f0 f1 f2 f3 f4 f5 f6 f7 f8 f9 : Buf (Elt F) ((V d (cV L) (jV L)).loc cc0_scratch1)) :
    (iprop(SLOTp d L ![0, 0, 0] inb_S10x64x128_S1x64x128_0_0_0 f0 ∗ SLOTp d L ![1, 0, 0] inb_S10x64x128_S1x64x128_1_0_0 f1 ∗ SLOTp d L ![2, 0, 0] inb_S10x64x128_S1x64x128_2_0_0 f2 ∗ SLOTp d L ![3, 0, 0] inb_S10x64x128_S1x64x128_3_0_0 f3 ∗ SLOTp d L ![4, 0, 0] inb_S10x64x128_S1x64x128_4_0_0 f4 ∗ SLOTp d L ![5, 0, 0] inb_S10x64x128_S1x64x128_5_0_0 f5 ∗ SLOTp d L ![6, 0, 0] inb_S10x64x128_S1x64x128_6_0_0 f6 ∗ SLOTp d L ![7, 0, 0] inb_S10x64x128_S1x64x128_7_0_0 f7 ∗ SLOTp d L ![8, 0, 0] inb_S10x64x128_S1x64x128_8_0_0 f8 ∗ SLOTp d L ![9, 0, 0] inb_S10x64x128_S1x64x128_9_0_0 f9) : sProp 𝕄) ⊢ iprop(∃ f, (V d (cV L) (jV L)).loc cc0_scratch1 ↦{fullShare} f) :=
  sR_join10 d (cV L) (jV L) f0 f1 f2 f3 f4 f5 f6 f7 f8 f9
omit [FloatOps F] in
/-- a share of the table: a remainder and one token per gather semaphore, and back -/
theorem toks_entry (q : PosShare TreeShare) (Wt : Buf (Elt F) (xLoc d)) :
    (xLoc d ↦{q} Wt : sProp 𝕄) ⊢ iprop((xLoc d ↦{Transfers.shareDrop q 10} Wt) ∗ TOKp d L q Wt 0 ∗ TOKp d L q Wt 1 ∗ TOKp d L q Wt 2 ∗ TOKp d L q Wt 3 ∗ TOKp d L q Wt 4 ∗ TOKp d L q Wt 5 ∗ TOKp d L q Wt 6 ∗ TOKp d L q Wt 7 ∗ TOKp d L q Wt 8 ∗ TOKp d L q Wt 9) := by
  refine toks10_split.trans ?_
  iintro ⟨Hrem, H0, H1, H2, H3, H4, H5, H6, H7, H8, H9⟩
  isplitl [Hrem]; · iexact Hrem
  isplitl [H0]; · iapply (Entails.of_eq (pts_aWs (F := F) d (cV L) (jV L) _ _).symm); iexact H0
  isplitl [H1]; · iapply (Entails.of_eq (pts_aWs (F := F) d (cV L) (jV L) _ _).symm); iexact H1
  isplitl [H2]; · iapply (Entails.of_eq (pts_aWs (F := F) d (cV L) (jV L) _ _).symm); iexact H2
  isplitl [H3]; · iapply (Entails.of_eq (pts_aWs (F := F) d (cV L) (jV L) _ _).symm); iexact H3
  isplitl [H4]; · iapply (Entails.of_eq (pts_aWs (F := F) d (cV L) (jV L) _ _).symm); iexact H4
  isplitl [H5]; · iapply (Entails.of_eq (pts_aWs (F := F) d (cV L) (jV L) _ _).symm); iexact H5
  isplitl [H6]; · iapply (Entails.of_eq (pts_aWs (F := F) d (cV L) (jV L) _ _).symm); iexact H6
  isplitl [H7]; · iapply (Entails.of_eq (pts_aWs (F := F) d (cV L) (jV L) _ _).symm); iexact H7
  isplitl [H8]; · iapply (Entails.of_eq (pts_aWs (F := F) d (cV L) (jV L) _ _).symm); iexact H8
  iapply (Entails.of_eq (pts_aWs (F := F) d (cV L) (jV L) _ _).symm); iexact H9
omit [FloatOps F] in
theorem toks_exit (q : PosShare TreeShare) (Wt : Buf (Elt F) (xLoc d)) :
    (iprop((xLoc d ↦{Transfers.shareDrop q 10} Wt) ∗ TOKp d L q Wt 0 ∗ TOKp d L q Wt 1 ∗ TOKp d L q Wt 2 ∗ TOKp d L q Wt 3 ∗ TOKp d L q Wt 4 ∗ TOKp d L q Wt 5 ∗ TOKp d L q Wt 6 ∗ TOKp d L q Wt 7 ∗ TOKp d L q Wt 8 ∗ TOKp d L q Wt 9) : sProp 𝕄) ⊢ (xLoc d ↦{q} Wt) := by
  iintro ⟨Hrem, H0, H1, H2, H3, H4, H5, H6, H7, H8, H9⟩
  iapply toks10_join
  isplitl [Hrem]; · iexact Hrem
  isplitl [H0]; · iapply (Entails.of_eq (pts_aWs (F := F) d (cV L) (jV L) _ _)); iexact H0
  isplitl [H1]; · iapply (Entails.of_eq (pts_aWs (F := F) d (cV L) (jV L) _ _)); iexact H1
  isplitl [H2]; · iapply (Entails.of_eq (pts_aWs (F := F) d (cV L) (jV L) _ _)); iexact H2
  isplitl [H3]; · iapply (Entails.of_eq (pts_aWs (F := F) d (cV L) (jV L) _ _)); iexact H3
  isplitl [H4]; · iapply (Entails.of_eq (pts_aWs (F := F) d (cV L) (jV L) _ _)); iexact H4
  isplitl [H5]; · iapply (Entails.of_eq (pts_aWs (F := F) d (cV L) (jV L) _ _)); iexact H5
  isplitl [H6]; · iapply (Entails.of_eq (pts_aWs (F := F) d (cV L) (jV L) _ _)); iexact H6
  isplitl [H7]; · iapply (Entails.of_eq (pts_aWs (F := F) d (cV L) (jV L) _ _)); iexact H7
  isplitl [H8]; · iapply (Entails.of_eq (pts_aWs (F := F) d (cV L) (jV L) _ _)); iexact H8
  iapply (Entails.of_eq (pts_aWs (F := F) d (cV L) (jV L) _ _)); iexact H9

/-! ## The values: what a gather and a write-out land -/

variable (It : Buf (Elt F) (iLoc d)) (Wt : Buf (Elt F) (xLoc d))

omit [FloatOps F] in
theorem hV1_tile (fi : Buf (Elt F) ((V d (cV L) (jV L)).loc cc0_scratch0)) :
    ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) (View.write (Elt F) (sI).view fi ((iSlab L).view.read (Elt F) It) Finset.univ)) hn hin)) →
        ∀ i ∈ (sAt offS inbS).view.set, (sAt offS inbS).view.writes (Elt F) prev [⟨Rect.whole S64x128, pay⟩] i = (slotVal It Wt (widL L)) c i := by
  intro c hc b offS inbS hs off inbL hl prev pay hp
  obtain ⟨hn, hin, hp⟩ := hp
  subst hs hl hp
  exact gather_lands It Wt (widL L) b c _ (slab_block L It fi) hn hin prev
omit [FloatOps F] in
theorem hV2_tile :
    ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = (slotVal It Wt (widL L)) c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = (lookupT It Wt : Buf (Elt F) (oLoc d)) i := by
  intro c hc b offS inbS hs prevO f hf Dp hD
  subst hs
  exact write_lands It Wt (widL L) b c f hf Dp hD prevO

/-! ## The task -/

set_option maxHeartbeats 32000000 in
/-- The task of the tile at grid point `L`: from its slab of the id table, its share of the table and its block
    of the result, with its own scratch and semaphores, to the block holding the rows its ids name. -/
theorem tile_run (hIt : ∀ j, (It j).toNat < 100000) (O0 : Buf (Elt F) (oLoc d))
    (O : CellTallies nD τ sig (HIx 1)) (W : Waits sig (HIx 1)) (hO : ∀ g, O g none = 0) :
    (iprop(levAts (K (F := F)).L (K (F := F)).lev ∗ emp ∗ goPts d It Wt O0 (widL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L aI (Memref.isWhole_whole _) aW (Memref.isWhole_whole _) aO (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19 cc0_scratch20 cc0_scratch21
            cc0_scoped0)
          fun _ => iprop(tdPts d It Wt (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V facts d (cV L) (jV L), SparseCore.Cfg.scopedSems0_V (Val := Elt F) d (cV L) (jV L), ownSems0_lit, ownBufs_V2]
  unfold goPts tdPts
  iintro ⟨#Hlv, -, ⟨HIt, Hx, HoB⟩, ⟨⟨%fi, Hi⟩, ⟨%fr, Hr⟩, Hbrest⟩, ⟨Hs0, Hs1, Hs2, Hs3, Hs4, Hs5, Hs6, Hs7, Hs8, Hs9, Hs10, Hs11, Hs12, Hs13, Hs14, Hs15, Hs16, Hs17, Hs18, Hs19, Hs20⟩, HO⟩
  ihave Hmw := ((K (F := F)).mayWaits_none (thr := V d (cV L) (jV L)) hO) $$ Hlv
  -- the pieces the transfers move
  ihave HI := (Entails.of_eq (pts_iSlab (F := F) d L _).symm) $$ HIt
  ihave Hx := (toks_entry (F := F) d L _ _) $$ Hx
  icases Hx with ⟨Hxrem, HW0, HW1, HW2, HW3, HW4, HW5, HW6, HW7, HW8, HW9⟩
  ihave HoB := (Entails.of_eq (out_entry (F := F) d L _)) $$ HoB
  icases HoB with ⟨⟨Ho0, Ho1, Ho2, Ho3, Ho4, Ho5, Ho6, Ho7, Ho8, Ho9⟩, HaO⟩
  ihave Hi := (Entails.of_eq (show ((sI).view.loc (V d (cV L) (jV L)) ↦{fullShare} fi : sProp 𝕄) = ((V d (cV L) (jV L)).loc cc0_scratch0 ↦{fullShare} fi) from rfl).symm) $$ Hi
  ihave Hr := (slots_entry (F := F) d L fr) $$ Hr
  icases Hr with ⟨Hr0, Hr1, Hr2, Hr3, Hr4, Hr5, Hr6, Hr7, Hr8, Hr9⟩
  -- the index block's fetch and its wait
  sl_exec (disch := first | exact View.amount_pos _ _ (by decide) | exact View.dmaCredit_pos _ (by decide) | decide)
  have hinb := fun fs row hk hst hq => inb_of_range (F := F) d L It hIt fs (tile_run.sl.dma0 d L It) rfl row hk hst hq
  have hV1 : ∀ (c : ℕ), c < 100 → ∀ (b : Fin 10) {offS : Fin 3 → Nat} (inbS : ∀ a, offS a + S1x64x128.size a ≤ S10x64x128.size a), offS = ![b.val, 0, 0] →
      ∀ {off : Fin 2 → Nat} (inbL : ∀ a, off a + S1x64.size a ≤ S50x128.size a), off = listOff c →
      ∀ (prev : Buf (Elt F) ((V d (cV L) (jV L)).loc cc0_scratch1)) (pay : S64x128.Idx → Elt F .f32),
        (∃ hn hin, pay = SparseCore.gatherPayload gathers_S100000x128_S64x128 ((aWs).view.read (Elt F) Wt)
          (SparseCore.rows ((lAt off inbL).view.read (Elt F) (View.write (Elt F) (sI).view fi (tile_run.sl.dma0 d L It) Finset.univ)) hn hin)) →
        ∀ i ∈ (sAt offS inbS).view.set, (sAt offS inbS).view.writes (Elt F) prev [⟨Rect.whole S64x128, pay⟩] i = (slotVal It Wt (widL L)) c i := hV1_tile (F := F) d L It Wt fi
  have hV2 : ∀ (c : ℕ), c < 100 → ∀ (b : Fin 10) {offS : Fin 3 → Nat} (inbS : ∀ a, offS a + S1x64x128.size a ≤ S10x64x128.size a), offS = ![b.val, 0, 0] →
      ∀ (prevO : Buf (Elt F) (oLoc d)) (f : Buf (Elt F) ((V d (cV L) (jV L)).loc cc0_scratch1)),
      (∀ i ∈ (sAt offS inbS).view.set, f i = (slotVal It Wt (widL L)) c i) → ∀ (Dp : S64x128.Idx → Elt F .f32), Dp = ReadAs.same.apply ((sAt offS inbS).view.read (Elt F) f) →
        ∀ i ∈ (oChunkM (widL L) c).view.set, (oChunkM (widL L) c).view.writes (Elt F) prevO [⟨Rect.whole S64x128, Dp⟩] i = (lookupT It Wt : Buf (Elt F) (oLoc d)) i := hV2_tile (F := F) d L It Wt
  ihave Hi := (Entails.of_eq (lst_entry (F := F) d L (View.write (Elt F) (sI).view fi (tile_run.sl.dma0 d L It) Finset.univ))) $$ Hi
  icases Hi with ⟨⟨Hl0, Hl1, Hl2, Hl3, Hl4, Hl5, Hl6, Hl7, Hl8, Hl9⟩, HaL⟩
  -- the first three write-outs spell their chunks through the straight-line offsets
  ihave Ho0 := (Entails.of_eq (OUTp_at (F := F) d L (k0_off2_inb L 0) (10 * 0 + 0) (off2_chunk L 0 _ rfl) _)) $$ Ho0
  ihave Ho1 := (Entails.of_eq (OUTp_at (F := F) d L (k0_off2_inb L 1) (10 * 0 + 1) (off2_chunk L 1 _ rfl) _)) $$ Ho1
  ihave Ho2 := (Entails.of_eq (OUTp_at (F := F) d L (k0_off3_inb L) (10 * 0 + 2) (off3_chunk L) _)) $$ Ho2
  -- seven gathers, then three steps
  sl_exec (disch := first | exact View.amount_pos _ _ (by decide) | exact View.dmaCredit_pos _ (by decide) | decide)
  iclear HW3 HW4 HW5 HW6 HW7 HW8 HW9
  sl_for (inv d L (Transfers.shareTok fullShare 32 (widL L)) O W Wt O0 (lookupT It Wt : Buf (Elt F) (oLoc d)) (View.write (Elt F) (sI).view fi (tile_run.sl.dma0 d L It) Finset.univ) (slotVal It Wt (widL L))) $$ [Hmw Hs3 Hs4 Hs5 Hs6 Hs7 Hs8 Hs9 Hs10 Hs11 Hs12 Hs0 Hs1 Hs2 HW0 HW1 HW2 Hs13 Hs14 Hs15 Hs16 Hs17 Hs18 Hs19 Ho3 Ho4 Ho5 Ho6 Ho7 Ho8 Ho9 Hl0 Hl1 Hl2 HaO HaL HO]
  case region =>
    intro k _
    unfold inv
    iintro ⟨Hmw, ⟨Hg3, Hg4, Hg5, Hg6, Hg7, Hg8, Hg9⟩, ⟨Hw0, Hw1, Hw2⟩, ⟨Hs0, Hs1, Hs2⟩, ⟨HW0, HW1, HW2⟩, ⟨Hs13, Hs14, Hs15, Hs16, Hs17, Hs18, Hs19⟩, ⟨Ho3, Ho4, Ho5, Ho6, Ho7, Ho8, Ho9⟩, ⟨Hl0, Hl1, Hl2⟩, HaO, HaL, HdO, HdL, %W', %hW', HO⟩
    have hk9 : k.val + 1 < 10 := by have := lt_of_lt_of_le k.isLt k0_t1_abs.2.1; omega
    ihave HaO := (Entails.of_eq (pop_O (F := F) d L O0 k.val hk9)) $$ HaO
    icases HaO with ⟨⟨Hp0, Hp1, Hp2, Hp3, Hp4, Hp5, Hp6, Hp7, Hp8, Hp9⟩, HaO⟩
    ihave HaL := (Entails.of_eq (pop_L (F := F) d L _ k.val hk9)) $$ HaL
    icases HaL with ⟨⟨Hq0, Hq1, Hq2, Hq3, Hq4, Hq5, Hq6, Hq7, Hq8, Hq9⟩, HaL⟩
    ihave Ho3 := (Entails.of_eq (OUTp_at (F := F) d L (k0_off4_inb L k 0) (10 * k.val + 3) (off4_chunk L k 0 _ (by simp only [Fin.val_ofNat]; omega)) _)) $$ Ho3
    ihave Ho4 := (Entails.of_eq (OUTp_at (F := F) d L (k0_off4_inb L k 1) (10 * k.val + 4) (off4_chunk L k 1 _ (by simp only [Fin.val_ofNat]; omega)) _)) $$ Ho4
    ihave Ho5 := (Entails.of_eq (OUTp_at (F := F) d L (k0_off4_inb L k 2) (10 * k.val + 5) (off4_chunk L k 2 _ (by simp only [Fin.val_ofNat]; omega)) _)) $$ Ho5
    ihave Ho6 := (Entails.of_eq (OUTp_at (F := F) d L (k0_off4_inb L k 3) (10 * k.val + 6) (off4_chunk L k 3 _ (by simp only [Fin.val_ofNat]; omega)) _)) $$ Ho6
    ihave Ho7 := (Entails.of_eq (OUTp_at (F := F) d L (k0_off4_inb L k 4) (10 * k.val + 7) (off4_chunk L k 4 _ (by simp only [Fin.val_ofNat]; omega)) _)) $$ Ho7
    ihave Ho8 := (Entails.of_eq (OUTp_at (F := F) d L (k0_off4_inb L k 5) (10 * k.val + 8) (off4_chunk L k 5 _ (by simp only [Fin.val_ofNat]; omega)) _)) $$ Ho8
    ihave Ho9 := (Entails.of_eq (OUTp_at (F := F) d L (k0_off4_inb L k 6) (10 * k.val + 9) (off4_chunk L k 6 _ (by simp only [Fin.val_ofNat]; omega)) _)) $$ Ho9
    ihave Hp0 := (Entails.of_eq (OUTp_at (F := F) d L (k0_off4_inb L k 7) (10 * (k.val + 1) + 0) (off4_chunk L k 7 _ (by simp only [Fin.val_ofNat]; omega)) _)) $$ Hp0
    ihave Hp1 := (Entails.of_eq (OUTp_at (F := F) d L (k0_off4_inb L k 8) (10 * (k.val + 1) + 1) (off4_chunk L k 8 _ (by simp only [Fin.val_ofNat]; omega)) _)) $$ Hp1
    ihave Hp2 := (Entails.of_eq (OUTp_at (F := F) d L (k0_off4_inb L k 9) (10 * (k.val + 1) + 2) (off4_chunk L k 9 _ (by simp only [Fin.val_ofNat]; omega)) _)) $$ Hp2
    ihave Hq0 := (Entails.of_eq (LSTp_at (F := F) d L _ (k0_off6_inb k 0) (10 * (k.val + 1) + 0) (off6_list k 0 _ (by simp only [Fin.val_ofNat]; omega)))) $$ Hq0
    ihave Hq1 := (Entails.of_eq (LSTp_at (F := F) d L _ (k0_off6_inb k 1) (10 * (k.val + 1) + 1) (off6_list k 1 _ (by simp only [Fin.val_ofNat]; omega)))) $$ Hq1
    ihave Hq2 := (Entails.of_eq (LSTp_at (F := F) d L _ (k0_off6_inb k 2) (10 * (k.val + 1) + 2) (off6_list k 2 _ (by simp only [Fin.val_ofNat]; omega)))) $$ Hq2
    ihave Hq3 := (Entails.of_eq (LSTp_at (F := F) d L _ (k0_off6_inb k 3) (10 * (k.val + 1) + 3) (off6_list k 3 _ (by simp only [Fin.val_ofNat]; omega)))) $$ Hq3
    ihave Hq4 := (Entails.of_eq (LSTp_at (F := F) d L _ (k0_off6_inb k 4) (10 * (k.val + 1) + 4) (off6_list k 4 _ (by simp only [Fin.val_ofNat]; omega)))) $$ Hq4
    ihave Hq5 := (Entails.of_eq (LSTp_at (F := F) d L _ (k0_off6_inb k 5) (10 * (k.val + 1) + 5) (off6_list k 5 _ (by simp only [Fin.val_ofNat]; omega)))) $$ Hq5
    ihave Hq6 := (Entails.of_eq (LSTp_at (F := F) d L _ (k0_off6_inb k 6) (10 * (k.val + 1) + 6) (off6_list k 6 _ (by simp only [Fin.val_ofNat]; omega)))) $$ Hq6
    ihave Hq7 := (Entails.of_eq (LSTp_at (F := F) d L _ (k0_off6_inb k 7) (10 * (k.val + 1) + 7) (off6_list k 7 _ (by simp only [Fin.val_ofNat]; omega)))) $$ Hq7
    ihave Hq8 := (Entails.of_eq (LSTp_at (F := F) d L _ (k0_off6_inb k 8) (10 * (k.val + 1) + 8) (off6_list k 8 _ (by simp only [Fin.val_ofNat]; omega)))) $$ Hq8
    ihave Hq9 := (Entails.of_eq (LSTp_at (F := F) d L _ (k0_off6_inb k 9) (10 * (k.val + 1) + 9) (off6_list k 9 _ (by simp only [Fin.val_ofNat]; omega)))) $$ Hq9
    sl_exec (disch := first | exact View.amount_pos _ _ (by decide) | exact View.dmaCredit_pos _ (by decide) | decide)
    icases Hg3_dst with ⟨Hsl3, Hls3⟩
    sl_exec (disch := first | exact View.amount_pos _ _ (by decide) | exact View.dmaCredit_pos _ (by decide) | decide)
    icases Hg4_dst with ⟨Hsl4, Hls4⟩
    sl_exec (disch := first | exact View.amount_pos _ _ (by decide) | exact View.dmaCredit_pos _ (by decide) | decide)
    icases Hg5_dst with ⟨Hsl5, Hls5⟩
    sl_exec (disch := first | exact View.amount_pos _ _ (by decide) | exact View.dmaCredit_pos _ (by decide) | decide)
    icases Hg6_dst with ⟨Hsl6, Hls6⟩
    sl_exec (disch := first | exact View.amount_pos _ _ (by decide) | exact View.dmaCredit_pos _ (by decide) | decide)
    icases Hg7_dst with ⟨Hsl7, Hls7⟩
    sl_exec (disch := first | exact View.amount_pos _ _ (by decide) | exact View.dmaCredit_pos _ (by decide) | decide)
    icases Hg8_dst with ⟨Hsl8, Hls8⟩
    sl_exec (disch := first | exact View.amount_pos _ _ (by decide) | exact View.dmaCredit_pos _ (by decide) | decide)
    icases Hg9_dst with ⟨Hsl9, Hls9⟩
    sl_exec (disch := first | exact View.amount_pos _ _ (by decide) | exact View.dmaCredit_pos _ (by decide) | decide)
    sl_step
    iclear Hg3_src Hg4_src Hg5_src Hg6_src Hg7_src Hg8_src Hg9_src
    have hk : k.val < 9 := lt_of_lt_of_le k.isLt k0_t1_abs.2.1
    isplitl [Hmw]; · iexact Hmw
    isplitl [Hg3 Hg4 Hg5 Hg6 Hg7 Hg8 Hg9]
    · isplitl [Hg3]
      · iapply (gF_of_raw (F := F) d L (Transfers.shareTok fullShare 32 (widL L)) Wt (View.write (Elt F) (sI).view fi (tile_run.sl.dma0 d L It) Finset.univ) (slotVal It Wt (widL L)) hV1 _ 3 (10 * (k.val + 1) + 3) (by omega) inb_S10x64x128_S1x64x128_3_0_0 rfl (k0_off6_inb k 3) (off6_list k 3 _ (by simp only [Fin.val_ofNat]; omega)) _ _ ?hp3) $$ Hg3
        case hp3 => exact ⟨_, _, rfl⟩
      isplitl [Hg4]
      · iapply (gF_of_raw (F := F) d L (Transfers.shareTok fullShare 32 (widL L)) Wt (View.write (Elt F) (sI).view fi (tile_run.sl.dma0 d L It) Finset.univ) (slotVal It Wt (widL L)) hV1 _ 4 (10 * (k.val + 1) + 4) (by omega) inb_S10x64x128_S1x64x128_4_0_0 rfl (k0_off6_inb k 4) (off6_list k 4 _ (by simp only [Fin.val_ofNat]; omega)) _ _ ?hp4) $$ Hg4
        case hp4 => exact ⟨_, _, rfl⟩
      isplitl [Hg5]
      · iapply (gF_of_raw (F := F) d L (Transfers.shareTok fullShare 32 (widL L)) Wt (View.write (Elt F) (sI).view fi (tile_run.sl.dma0 d L It) Finset.univ) (slotVal It Wt (widL L)) hV1 _ 5 (10 * (k.val + 1) + 5) (by omega) inb_S10x64x128_S1x64x128_5_0_0 rfl (k0_off6_inb k 5) (off6_list k 5 _ (by simp only [Fin.val_ofNat]; omega)) _ _ ?hp5) $$ Hg5
        case hp5 => exact ⟨_, _, rfl⟩
      isplitl [Hg6]
      · iapply (gF_of_raw (F := F) d L (Transfers.shareTok fullShare 32 (widL L)) Wt (View.write (Elt F) (sI).view fi (tile_run.sl.dma0 d L It) Finset.univ) (slotVal It Wt (widL L)) hV1 _ 6 (10 * (k.val + 1) + 6) (by omega) inb_S10x64x128_S1x64x128_6_0_0 rfl (k0_off6_inb k 6) (off6_list k 6 _ (by simp only [Fin.val_ofNat]; omega)) _ _ ?hp6) $$ Hg6
        case hp6 => exact ⟨_, _, rfl⟩
      isplitl [Hg7]
      · iapply (gF_of_raw (F := F) d L (Transfers.shareTok fullShare 32 (widL L)) Wt (View.write (Elt F) (sI).view fi (tile_run.sl.dma0 d L It) Finset.univ) (slotVal It Wt (widL L)) hV1 _ 7 (10 * (k.val + 1) + 7) (by omega) inb_S10x64x128_S1x64x128_7_0_0 rfl (k0_off6_inb k 7) (off6_list k 7 _ (by simp only [Fin.val_ofNat]; omega)) _ _ ?hp7) $$ Hg7
        case hp7 => exact ⟨_, _, rfl⟩
      isplitl [Hg8]
      · iapply (gF_of_raw (F := F) d L (Transfers.shareTok fullShare 32 (widL L)) Wt (View.write (Elt F) (sI).view fi (tile_run.sl.dma0 d L It) Finset.univ) (slotVal It Wt (widL L)) hV1 _ 8 (10 * (k.val + 1) + 8) (by omega) inb_S10x64x128_S1x64x128_8_0_0 rfl (k0_off6_inb k 8) (off6_list k 8 _ (by simp only [Fin.val_ofNat]; omega)) _ _ ?hp8) $$ Hg8
        case hp8 => exact ⟨_, _, rfl⟩
      iapply (gF_of_raw (F := F) d L (Transfers.shareTok fullShare 32 (widL L)) Wt (View.write (Elt F) (sI).view fi (tile_run.sl.dma0 d L It) Finset.univ) (slotVal It Wt (widL L)) hV1 _ 9 (10 * (k.val + 1) + 9) (by omega) inb_S10x64x128_S1x64x128_9_0_0 rfl (k0_off6_inb k 9) (off6_list k 9 _ (by simp only [Fin.val_ofNat]; omega)) _ _ ?hp9) $$ Hg9
      case hp9 => exact ⟨_, _, rfl⟩
    isplitl [Hw0 Hw1 Hw2]
    · isplitl [Hw0]
      · iapply (wF_of_raw (F := F) d L (lookupT It Wt : Buf (Elt F) (oLoc d)) (slotVal It Wt (widL L)) hV2 _ 0 (10 * (k.val + 1) + 0) (by omega) inb_S10x64x128_S1x64x128_0_0_0 rfl (k0_off4_inb L k 7) (off4_chunk L k 7 _ (by simp only [Fin.val_ofNat]; omega)) _ _ _ ?hf0 ?hD0) $$ Hw0
        case hD0 => rfl
        case hf0 => exact hV1 (10 * (k.val + 1) + 0) (by omega) 0 inb_S10x64x128_S1x64x128_0_0_0 rfl (k0_off6_inb k 0) (off6_list k 0 _ (by simp only [Fin.val_ofNat]; omega)) _ _ ⟨_, _, rfl⟩
      isplitl [Hw1]
      · iapply (wF_of_raw (F := F) d L (lookupT It Wt : Buf (Elt F) (oLoc d)) (slotVal It Wt (widL L)) hV2 _ 1 (10 * (k.val + 1) + 1) (by omega) inb_S10x64x128_S1x64x128_1_0_0 rfl (k0_off4_inb L k 8) (off4_chunk L k 8 _ (by simp only [Fin.val_ofNat]; omega)) _ _ _ ?hf1 ?hD1) $$ Hw1
        case hD1 => rfl
        case hf1 => exact hV1 (10 * (k.val + 1) + 1) (by omega) 1 inb_S10x64x128_S1x64x128_1_0_0 rfl (k0_off6_inb k 1) (off6_list k 1 _ (by simp only [Fin.val_ofNat]; omega)) _ _ ⟨_, _, rfl⟩
      iapply (wF_of_raw (F := F) d L (lookupT It Wt : Buf (Elt F) (oLoc d)) (slotVal It Wt (widL L)) hV2 _ 2 (10 * (k.val + 1) + 2) (by omega) inb_S10x64x128_S1x64x128_2_0_0 rfl (k0_off4_inb L k 9) (off4_chunk L k 9 _ (by simp only [Fin.val_ofNat]; omega)) _ _ _ ?hf2 ?hD2) $$ Hw2
      case hD2 => rfl
      case hf2 => exact hV1 (10 * (k.val + 1) + 2) (by omega) 2 inb_S10x64x128_S1x64x128_2_0_0 rfl (k0_off6_inb k 2) (off6_list k 2 _ (by simp only [Fin.val_ofNat]; omega)) _ _ ⟨_, _, rfl⟩
    isplitl [Hs0 Hs1 Hs2]
    · isplitl [Hs0]
      · iexact Hs0
      isplitl [Hs1]
      · iexact Hs1
      iexact Hs2
    isplitl [HW0 HW1 HW2]
    · isplitl [HW0]
      · iexact HW0
      isplitl [HW1]
      · iexact HW1
      iexact HW2
    isplitl [Hs13 Hs14 Hs15 Hs16 Hs17 Hs18 Hs19]
    · isplitl [Hs13]
      · iexact Hs13
      isplitl [Hs14]
      · iexact Hs14
      isplitl [Hs15]
      · iexact Hs15
      isplitl [Hs16]
      · iexact Hs16
      isplitl [Hs17]
      · iexact Hs17
      isplitl [Hs18]
      · iexact Hs18
      iexact Hs19
    isplitl [Hp3 Hp4 Hp5 Hp6 Hp7 Hp8 Hp9]
    · isplitl [Hp3]
      · iexact Hp3
      isplitl [Hp4]
      · iexact Hp4
      isplitl [Hp5]
      · iexact Hp5
      isplitl [Hp6]
      · iexact Hp6
      isplitl [Hp7]
      · iexact Hp7
      isplitl [Hp8]
      · iexact Hp8
      iexact Hp9
    isplitl [Hq0 Hq1 Hq2]
    · isplitl [Hq0]
      · iapply (Entails.of_eq (LSTp_at (F := F) d L (View.write (Elt F) (sI).view fi (tile_run.sl.dma0 d L It) Finset.univ) (k0_off6_inb k 0) (10 * (k.val + 1) + 0) (off6_list k 0 _ (by simp only [Fin.val_ofNat]; omega))).symm) $$ Hq0
      isplitl [Hq1]
      · iapply (Entails.of_eq (LSTp_at (F := F) d L (View.write (Elt F) (sI).view fi (tile_run.sl.dma0 d L It) Finset.univ) (k0_off6_inb k 1) (10 * (k.val + 1) + 1) (off6_list k 1 _ (by simp only [Fin.val_ofNat]; omega))).symm) $$ Hq1
      iapply (Entails.of_eq (LSTp_at (F := F) d L (View.write (Elt F) (sI).view fi (tile_run.sl.dma0 d L It) Finset.univ) (k0_off6_inb k 2) (10 * (k.val + 1) + 2) (off6_list k 2 _ (by simp only [Fin.val_ofNat]; omega))).symm) $$ Hq2
    isplitl [HaO]; · iexact HaO
    isplitl [HaL]; · iexact HaL
    isplitl [HdO Hw0_dst Hw1_dst Hw2_dst Ho3 Ho4 Ho5 Ho6 Ho7 Ho8 Ho9]
    · iapply (Entails.of_eq (push_O (F := F) d L (lookupT It Wt : Buf (Elt F) (oLoc d)) k.val).symm)
      isplitr [HdO]
      · isplitl [Hw0_dst]
        · iexact Hw0_dst
        isplitl [Hw1_dst]
        · iexact Hw1_dst
        isplitl [Hw2_dst]
        · iexact Hw2_dst
        isplitl [Ho3]
        · iapply (OUTp_of_raw (F := F) d L (lookupT It Wt : Buf (Elt F) (oLoc d)) (slotVal It Wt (widL L)) hV2 3 (10 * k.val + 3) (by omega) inb_S10x64x128_S1x64x128_3_0_0 rfl (k0_off4_inb L k 0) (off4_chunk L k 0 _ (by simp only [Fin.val_ofNat]; omega)) _ ((slotVal It Wt (widL L)) (10 * k.val + 3)) _ (fun _ _ => rfl) ?hDo3) $$ Ho3
          case hDo3 => rfl
        isplitl [Ho4]
        · iapply (OUTp_of_raw (F := F) d L (lookupT It Wt : Buf (Elt F) (oLoc d)) (slotVal It Wt (widL L)) hV2 4 (10 * k.val + 4) (by omega) inb_S10x64x128_S1x64x128_4_0_0 rfl (k0_off4_inb L k 1) (off4_chunk L k 1 _ (by simp only [Fin.val_ofNat]; omega)) _ ((slotVal It Wt (widL L)) (10 * k.val + 4)) _ (fun _ _ => rfl) ?hDo4) $$ Ho4
          case hDo4 => rfl
        isplitl [Ho5]
        · iapply (OUTp_of_raw (F := F) d L (lookupT It Wt : Buf (Elt F) (oLoc d)) (slotVal It Wt (widL L)) hV2 5 (10 * k.val + 5) (by omega) inb_S10x64x128_S1x64x128_5_0_0 rfl (k0_off4_inb L k 2) (off4_chunk L k 2 _ (by simp only [Fin.val_ofNat]; omega)) _ ((slotVal It Wt (widL L)) (10 * k.val + 5)) _ (fun _ _ => rfl) ?hDo5) $$ Ho5
          case hDo5 => rfl
        isplitl [Ho6]
        · iapply (OUTp_of_raw (F := F) d L (lookupT It Wt : Buf (Elt F) (oLoc d)) (slotVal It Wt (widL L)) hV2 6 (10 * k.val + 6) (by omega) inb_S10x64x128_S1x64x128_6_0_0 rfl (k0_off4_inb L k 3) (off4_chunk L k 3 _ (by simp only [Fin.val_ofNat]; omega)) _ ((slotVal It Wt (widL L)) (10 * k.val + 6)) _ (fun _ _ => rfl) ?hDo6) $$ Ho6
          case hDo6 => rfl
        isplitl [Ho7]
        · iapply (OUTp_of_raw (F := F) d L (lookupT It Wt : Buf (Elt F) (oLoc d)) (slotVal It Wt (widL L)) hV2 7 (10 * k.val + 7) (by omega) inb_S10x64x128_S1x64x128_7_0_0 rfl (k0_off4_inb L k 4) (off4_chunk L k 4 _ (by simp only [Fin.val_ofNat]; omega)) _ ((slotVal It Wt (widL L)) (10 * k.val + 7)) _ (fun _ _ => rfl) ?hDo7) $$ Ho7
          case hDo7 => rfl
        isplitl [Ho8]
        · iapply (OUTp_of_raw (F := F) d L (lookupT It Wt : Buf (Elt F) (oLoc d)) (slotVal It Wt (widL L)) hV2 8 (10 * k.val + 8) (by omega) inb_S10x64x128_S1x64x128_8_0_0 rfl (k0_off4_inb L k 5) (off4_chunk L k 5 _ (by simp only [Fin.val_ofNat]; omega)) _ ((slotVal It Wt (widL L)) (10 * k.val + 8)) _ (fun _ _ => rfl) ?hDo8) $$ Ho8
          case hDo8 => rfl
        iapply (OUTp_of_raw (F := F) d L (lookupT It Wt : Buf (Elt F) (oLoc d)) (slotVal It Wt (widL L)) hV2 9 (10 * k.val + 9) (by omega) inb_S10x64x128_S1x64x128_9_0_0 rfl (k0_off4_inb L k 6) (off4_chunk L k 6 _ (by simp only [Fin.val_ofNat]; omega)) _ ((slotVal It Wt (widL L)) (10 * k.val + 9)) _ (fun _ _ => rfl) ?hDo9) $$ Ho9
        case hDo9 => rfl
      · iexact HdO
    isplitl [HdL Hl0 Hl1 Hl2 Hls3 Hls4 Hls5 Hls6 Hls7 Hls8 Hls9]
    · iapply (Entails.of_eq (push_L (F := F) d L (View.write (Elt F) (sI).view fi (tile_run.sl.dma0 d L It) Finset.univ) k.val).symm)
      isplitr [HdL]
      · isplitl [Hl0]
        · iexact Hl0
        isplitl [Hl1]
        · iexact Hl1
        isplitl [Hl2]
        · iexact Hl2
        isplitl [Hls3]
        · iexact Hls3
        isplitl [Hls4]
        · iexact Hls4
        isplitl [Hls5]
        · iexact Hls5
        isplitl [Hls6]
        · iexact Hls6
        isplitl [Hls7]
        · iexact Hls7
        isplitl [Hls8]
        · iexact Hls8
        iexact Hls9
      · iexact HdL
    iexists _; isplitr
    on_goal 2 => iexact HO
    ipureintro; exact ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (hW'))))))))))))))))))))
  · unfold inv
    isplitl [Hmw]; · iexact Hmw
    isplitl [Hs3 Hs4 Hs5 Hs6 Hs7 Hs8 Hs9]
    · isplitl [Hs3]
      · iapply (gF_of_raw (F := F) d L (Transfers.shareTok fullShare 32 (widL L)) Wt (View.write (Elt F) (sI).view fi (tile_run.sl.dma0 d L It) Finset.univ) (slotVal It Wt (widL L)) hV1 _ 3 (10 * 0 + 3) (by omega) inb_S10x64x128_S1x64x128_3_0_0 rfl (listOff_inb _) rfl _ _ ?hp3) $$ Hs3
        case hp3 => exact ⟨_, _, rfl⟩
      isplitl [Hs4]
      · iapply (gF_of_raw (F := F) d L (Transfers.shareTok fullShare 32 (widL L)) Wt (View.write (Elt F) (sI).view fi (tile_run.sl.dma0 d L It) Finset.univ) (slotVal It Wt (widL L)) hV1 _ 4 (10 * 0 + 4) (by omega) inb_S10x64x128_S1x64x128_4_0_0 rfl (listOff_inb _) rfl _ _ ?hp4) $$ Hs4
        case hp4 => exact ⟨_, _, rfl⟩
      isplitl [Hs5]
      · iapply (gF_of_raw (F := F) d L (Transfers.shareTok fullShare 32 (widL L)) Wt (View.write (Elt F) (sI).view fi (tile_run.sl.dma0 d L It) Finset.univ) (slotVal It Wt (widL L)) hV1 _ 5 (10 * 0 + 5) (by omega) inb_S10x64x128_S1x64x128_5_0_0 rfl (listOff_inb _) rfl _ _ ?hp5) $$ Hs5
        case hp5 => exact ⟨_, _, rfl⟩
      isplitl [Hs6]
      · iapply (gF_of_raw (F := F) d L (Transfers.shareTok fullShare 32 (widL L)) Wt (View.write (Elt F) (sI).view fi (tile_run.sl.dma0 d L It) Finset.univ) (slotVal It Wt (widL L)) hV1 _ 6 (10 * 0 + 6) (by omega) inb_S10x64x128_S1x64x128_6_0_0 rfl (listOff_inb _) rfl _ _ ?hp6) $$ Hs6
        case hp6 => exact ⟨_, _, rfl⟩
      isplitl [Hs7]
      · iapply (gF_of_raw (F := F) d L (Transfers.shareTok fullShare 32 (widL L)) Wt (View.write (Elt F) (sI).view fi (tile_run.sl.dma0 d L It) Finset.univ) (slotVal It Wt (widL L)) hV1 _ 7 (10 * 0 + 7) (by omega) inb_S10x64x128_S1x64x128_7_0_0 rfl (listOff_inb _) rfl _ _ ?hp7) $$ Hs7
        case hp7 => exact ⟨_, _, rfl⟩
      isplitl [Hs8]
      · iapply (gF_of_raw (F := F) d L (Transfers.shareTok fullShare 32 (widL L)) Wt (View.write (Elt F) (sI).view fi (tile_run.sl.dma0 d L It) Finset.univ) (slotVal It Wt (widL L)) hV1 _ 8 (10 * 0 + 8) (by omega) inb_S10x64x128_S1x64x128_8_0_0 rfl (listOff_inb _) rfl _ _ ?hp8) $$ Hs8
        case hp8 => exact ⟨_, _, rfl⟩
      iapply (gF_of_raw (F := F) d L (Transfers.shareTok fullShare 32 (widL L)) Wt (View.write (Elt F) (sI).view fi (tile_run.sl.dma0 d L It) Finset.univ) (slotVal It Wt (widL L)) hV1 _ 9 (10 * 0 + 9) (by omega) inb_S10x64x128_S1x64x128_9_0_0 rfl (listOff_inb _) rfl _ _ ?hp9) $$ Hs9
      case hp9 => exact ⟨_, _, rfl⟩
    isplitl [Hs10 Hs11 Hs12]
    · isplitl [Hs10]
      · iapply (wF_of_raw (F := F) d L (lookupT It Wt : Buf (Elt F) (oLoc d)) (slotVal It Wt (widL L)) hV2 _ 0 (10 * 0 + 0) (by omega) inb_S10x64x128_S1x64x128_0_0_0 rfl (k0_off2_inb L 0) (off2_chunk L 0 _ rfl) _ _ _ ?hf0 ?hD0) $$ Hs10
        case hD0 => rfl
        case hf0 => exact hV1 (10 * 0 + 0) (by omega) 0 inb_S10x64x128_S1x64x128_0_0_0 rfl (listOff_inb _) rfl _ _ ⟨_, _, rfl⟩
      isplitl [Hs11]
      · iapply (wF_of_raw (F := F) d L (lookupT It Wt : Buf (Elt F) (oLoc d)) (slotVal It Wt (widL L)) hV2 _ 1 (10 * 0 + 1) (by omega) inb_S10x64x128_S1x64x128_1_0_0 rfl (k0_off2_inb L 1) (off2_chunk L 1 _ rfl) _ _ _ ?hf1 ?hD1) $$ Hs11
        case hD1 => rfl
        case hf1 => exact hV1 (10 * 0 + 1) (by omega) 1 inb_S10x64x128_S1x64x128_1_0_0 rfl (listOff_inb _) rfl _ _ ⟨_, _, rfl⟩
      iapply (wF_of_raw (F := F) d L (lookupT It Wt : Buf (Elt F) (oLoc d)) (slotVal It Wt (widL L)) hV2 _ 2 (10 * 0 + 2) (by omega) inb_S10x64x128_S1x64x128_2_0_0 rfl (k0_off3_inb L) (off3_chunk L) _ _ _ ?hf2 ?hD2) $$ Hs12
      case hD2 => rfl
      case hf2 => exact hV1 (10 * 0 + 2) (by omega) 2 inb_S10x64x128_S1x64x128_2_0_0 rfl (listOff_inb _) rfl _ _ ⟨_, _, rfl⟩
    isplitl [Hs0 Hs1 Hs2]
    · isplitl [Hs0]
      · iexact Hs0
      isplitl [Hs1]
      · iexact Hs1
      iexact Hs2
    isplitl [HW0 HW1 HW2]
    · isplitl [HW0]
      · iexact HW0
      isplitl [HW1]
      · iexact HW1
      iexact HW2
    isplitl [Hs13 Hs14 Hs15 Hs16 Hs17 Hs18 Hs19]
    · isplitl [Hs13]
      · iexact Hs13
      isplitl [Hs14]
      · iexact Hs14
      isplitl [Hs15]
      · iexact Hs15
      isplitl [Hs16]
      · iexact Hs16
      isplitl [Hs17]
      · iexact Hs17
      isplitl [Hs18]
      · iexact Hs18
      iexact Hs19
    isplitl [Ho3 Ho4 Ho5 Ho6 Ho7 Ho8 Ho9]
    · isplitl [Ho3]
      · iexact Ho3
      isplitl [Ho4]
      · iexact Ho4
      isplitl [Ho5]
      · iexact Ho5
      isplitl [Ho6]
      · iexact Ho6
      isplitl [Ho7]
      · iexact Ho7
      isplitl [Ho8]
      · iexact Ho8
      iexact Ho9
    isplitl [Hl0 Hl1 Hl2]
    · isplitl [Hl0]
      · iexact Hl0
      isplitl [Hl1]
      · iexact Hl1
      iexact Hl2
    isplitl [HaO]; · iexact HaO
    isplitl [HaL]; · iexact HaL
    isplitl []; · rw [Finset.range_zero, bigSep_empty]; iempintro
    isplitl []; · rw [Finset.range_zero, bigSep_empty]; iempintro
    iexists _; isplitr
    on_goal 2 => iexact HO
    ipureintro; exact ins_ok _ (ins_ok _ (ins_ok _ (ins_ok _ ((fun p hp => Or.inl hp)))))
  -- after the loop: the last seven write-outs, the last waits
  iintro %acc HI
  unfold inv
  icases HI with ⟨Hmw, ⟨Hg3, Hg4, Hg5, Hg6, Hg7, Hg8, Hg9⟩, ⟨Hw0, Hw1, Hw2⟩, ⟨Hs0, Hs1, Hs2⟩, ⟨HW0, HW1, HW2⟩, ⟨Hs13, Hs14, Hs15, Hs16, Hs17, Hs18, Hs19⟩, ⟨Ho3, Ho4, Ho5, Ho6, Ho7, Ho8, Ho9⟩, ⟨Hl0, Hl1, Hl2⟩, HaO, HaL, HdO, HdL, %W', %hW', HO⟩
  have hT : (Scf.trips k0_t1_loop.lb k0_t1_loop.ub k0_t1_loop.st) = 9 := by decide
  ihave Ho3 := (Entails.of_eq (OUTp_at (F := F) d L (k0_off7_inb L) (10 * (Scf.trips k0_t1_loop.lb k0_t1_loop.ub k0_t1_loop.st) + 3) ((off7_chunk L).trans (congrArg (chunkOff (widL L)) (by rw [hT]))) _)) $$ Ho3
  ihave Ho4 := (Entails.of_eq (OUTp_at (F := F) d L (k0_off9_inb L 0) (10 * (Scf.trips k0_t1_loop.lb k0_t1_loop.ub k0_t1_loop.st) + 4) (off9_chunk L 0 _ (by rw [hT]; rfl)) _)) $$ Ho4
  ihave Ho5 := (Entails.of_eq (OUTp_at (F := F) d L (k0_off9_inb L 1) (10 * (Scf.trips k0_t1_loop.lb k0_t1_loop.ub k0_t1_loop.st) + 5) (off9_chunk L 1 _ (by rw [hT]; rfl)) _)) $$ Ho5
  ihave Ho6 := (Entails.of_eq (OUTp_at (F := F) d L (k0_off10_inb L 0) (10 * (Scf.trips k0_t1_loop.lb k0_t1_loop.ub k0_t1_loop.st) + 6) (off10_chunk L 0 _ (by rw [hT]; rfl)) _)) $$ Ho6
  ihave Ho7 := (Entails.of_eq (OUTp_at (F := F) d L (k0_off10_inb L 1) (10 * (Scf.trips k0_t1_loop.lb k0_t1_loop.ub k0_t1_loop.st) + 7) (off10_chunk L 1 _ (by rw [hT]; rfl)) _)) $$ Ho7
  ihave Ho8 := (Entails.of_eq (OUTp_at (F := F) d L (k0_off11_inb L 0) (10 * (Scf.trips k0_t1_loop.lb k0_t1_loop.ub k0_t1_loop.st) + 8) (off11_chunk L 0 _ (by rw [hT]; rfl)) _)) $$ Ho8
  ihave Ho9 := (Entails.of_eq (OUTp_at (F := F) d L (k0_off11_inb L 1) (10 * (Scf.trips k0_t1_loop.lb k0_t1_loop.ub k0_t1_loop.st) + 9) (off11_chunk L 1 _ (by rw [hT]; rfl)) _)) $$ Ho9
  sl_exec (disch := first | exact View.amount_pos _ _ (by decide) | exact View.dmaCredit_pos _ (by decide) | decide)
  icases Hg3_dst with ⟨Hsl3, Hls3⟩
  sl_exec (disch := first | exact View.amount_pos _ _ (by decide) | exact View.dmaCredit_pos _ (by decide) | decide)
  icases Hg4_dst with ⟨Hsl4, Hls4⟩
  sl_exec (disch := first | exact View.amount_pos _ _ (by decide) | exact View.dmaCredit_pos _ (by decide) | decide)
  icases Hg5_dst with ⟨Hsl5, Hls5⟩
  sl_exec (disch := first | exact View.amount_pos _ _ (by decide) | exact View.dmaCredit_pos _ (by decide) | decide)
  icases Hg6_dst with ⟨Hsl6, Hls6⟩
  sl_exec (disch := first | exact View.amount_pos _ _ (by decide) | exact View.dmaCredit_pos _ (by decide) | decide)
  icases Hg7_dst with ⟨Hsl7, Hls7⟩
  sl_exec (disch := first | exact View.amount_pos _ _ (by decide) | exact View.dmaCredit_pos _ (by decide) | decide)
  icases Hg8_dst with ⟨Hsl8, Hls8⟩
  sl_exec (disch := first | exact View.amount_pos _ _ (by decide) | exact View.dmaCredit_pos _ (by decide) | decide)
  icases Hg9_dst with ⟨Hsl9, Hls9⟩
  sl_exec (disch := first | exact View.amount_pos _ _ (by decide) | exact View.dmaCredit_pos _ (by decide) | decide)
  sl_step
  iclear HaO HaL Hmw
  isplitl [HI Hxrem HW0 HW1 HW2 Hg3_src Hg4_src Hg5_src Hg6_src Hg7_src Hg8_src Hg9_src HdO Hw0_dst Hw1_dst Hw2_dst Ho3 Ho4 Ho5 Ho6 Ho7 Ho8 Ho9]
  · isplitl [HI]; · iapply (Entails.of_eq (pts_iSlab (F := F) d L _)); iexact HI
    isplitl [Hxrem HW0 HW1 HW2 Hg3_src Hg4_src Hg5_src Hg6_src Hg7_src Hg8_src Hg9_src]
    · iapply (toks_exit (F := F) d L _ _)
      isplitl [Hxrem]; · iexact Hxrem
      isplitl [HW0]
      · iexact HW0
      isplitl [HW1]
      · iexact HW1
      isplitl [HW2]
      · iexact HW2
      isplitl [Hg3_src]
      · iexact Hg3_src
      isplitl [Hg4_src]
      · iexact Hg4_src
      isplitl [Hg5_src]
      · iexact Hg5_src
      isplitl [Hg6_src]
      · iexact Hg6_src
      isplitl [Hg7_src]
      · iexact Hg7_src
      isplitl [Hg8_src]
      · iexact Hg8_src
      iexact Hg9_src
    · iapply (Entails.of_eq (out_exit (F := F) d L (lookupT It Wt : Buf (Elt F) (oLoc d)) (Scf.trips k0_t1_loop.lb k0_t1_loop.ub k0_t1_loop.st) (by rw [hT])))
      isplitr [HdO]
      · isplitl [Hw0_dst]
        · iexact Hw0_dst
        isplitl [Hw1_dst]
        · iexact Hw1_dst
        isplitl [Hw2_dst]
        · iexact Hw2_dst
        isplitl [Ho3]
        · iapply (OUTp_of_raw (F := F) d L (lookupT It Wt : Buf (Elt F) (oLoc d)) (slotVal It Wt (widL L)) hV2 3 (10 * (Scf.trips k0_t1_loop.lb k0_t1_loop.ub k0_t1_loop.st) + 3) (by rw [hT]; decide) inb_S10x64x128_S1x64x128_3_0_0 rfl (k0_off7_inb L) ((off7_chunk L).trans (congrArg (chunkOff (widL L)) (by rw [hT]))) _ ((slotVal It Wt (widL L)) (10 * (Scf.trips k0_t1_loop.lb k0_t1_loop.ub k0_t1_loop.st) + 3)) _ (fun _ _ => rfl) ?hDe3) $$ Ho3
          case hDe3 => rfl
        isplitl [Ho4]
        · iapply (OUTp_of_raw (F := F) d L (lookupT It Wt : Buf (Elt F) (oLoc d)) (slotVal It Wt (widL L)) hV2 4 (10 * (Scf.trips k0_t1_loop.lb k0_t1_loop.ub k0_t1_loop.st) + 4) (by rw [hT]; decide) inb_S10x64x128_S1x64x128_4_0_0 rfl (k0_off9_inb L 0) (off9_chunk L 0 _ (by rw [hT]; rfl)) _ ((slotVal It Wt (widL L)) (10 * (Scf.trips k0_t1_loop.lb k0_t1_loop.ub k0_t1_loop.st) + 4)) _ (fun _ _ => rfl) ?hDe4) $$ Ho4
          case hDe4 => rfl
        isplitl [Ho5]
        · iapply (OUTp_of_raw (F := F) d L (lookupT It Wt : Buf (Elt F) (oLoc d)) (slotVal It Wt (widL L)) hV2 5 (10 * (Scf.trips k0_t1_loop.lb k0_t1_loop.ub k0_t1_loop.st) + 5) (by rw [hT]; decide) inb_S10x64x128_S1x64x128_5_0_0 rfl (k0_off9_inb L 1) (off9_chunk L 1 _ (by rw [hT]; rfl)) _ ((slotVal It Wt (widL L)) (10 * (Scf.trips k0_t1_loop.lb k0_t1_loop.ub k0_t1_loop.st) + 5)) _ (fun _ _ => rfl) ?hDe5) $$ Ho5
          case hDe5 => rfl
        isplitl [Ho6]
        · iapply (OUTp_of_raw (F := F) d L (lookupT It Wt : Buf (Elt F) (oLoc d)) (slotVal It Wt (widL L)) hV2 6 (10 * (Scf.trips k0_t1_loop.lb k0_t1_loop.ub k0_t1_loop.st) + 6) (by rw [hT]; decide) inb_S10x64x128_S1x64x128_6_0_0 rfl (k0_off10_inb L 0) (off10_chunk L 0 _ (by rw [hT]; rfl)) _ ((slotVal It Wt (widL L)) (10 * (Scf.trips k0_t1_loop.lb k0_t1_loop.ub k0_t1_loop.st) + 6)) _ (fun _ _ => rfl) ?hDe6) $$ Ho6
          case hDe6 => rfl
        isplitl [Ho7]
        · iapply (OUTp_of_raw (F := F) d L (lookupT It Wt : Buf (Elt F) (oLoc d)) (slotVal It Wt (widL L)) hV2 7 (10 * (Scf.trips k0_t1_loop.lb k0_t1_loop.ub k0_t1_loop.st) + 7) (by rw [hT]; decide) inb_S10x64x128_S1x64x128_7_0_0 rfl (k0_off10_inb L 1) (off10_chunk L 1 _ (by rw [hT]; rfl)) _ ((slotVal It Wt (widL L)) (10 * (Scf.trips k0_t1_loop.lb k0_t1_loop.ub k0_t1_loop.st) + 7)) _ (fun _ _ => rfl) ?hDe7) $$ Ho7
          case hDe7 => rfl
        isplitl [Ho8]
        · iapply (OUTp_of_raw (F := F) d L (lookupT It Wt : Buf (Elt F) (oLoc d)) (slotVal It Wt (widL L)) hV2 8 (10 * (Scf.trips k0_t1_loop.lb k0_t1_loop.ub k0_t1_loop.st) + 8) (by rw [hT]; decide) inb_S10x64x128_S1x64x128_8_0_0 rfl (k0_off11_inb L 0) (off11_chunk L 0 _ (by rw [hT]; rfl)) _ ((slotVal It Wt (widL L)) (10 * (Scf.trips k0_t1_loop.lb k0_t1_loop.ub k0_t1_loop.st) + 8)) _ (fun _ _ => rfl) ?hDe8) $$ Ho8
          case hDe8 => rfl
        iapply (OUTp_of_raw (F := F) d L (lookupT It Wt : Buf (Elt F) (oLoc d)) (slotVal It Wt (widL L)) hV2 9 (10 * (Scf.trips k0_t1_loop.lb k0_t1_loop.ub k0_t1_loop.st) + 9) (by rw [hT]; decide) inb_S10x64x128_S1x64x128_9_0_0 rfl (k0_off11_inb L 1) (off11_chunk L 1 _ (by rw [hT]; rfl)) _ ((slotVal It Wt (widL L)) (10 * (Scf.trips k0_t1_loop.lb k0_t1_loop.ub k0_t1_loop.st) + 9)) _ (fun _ _ => rfl) ?hDe9) $$ Ho9
        case hDe9 => rfl
      · iexact HdO
  isplitl [HdL Hl0 Hl1 Hl2 Hls3 Hls4 Hls5 Hls6 Hls7 Hls8 Hls9 Hw0_src Hw1_src Hw2_src Hsl3 Hsl4 Hsl5 Hsl6 Hsl7 Hsl8 Hsl9 Hbrest]
  · isplitl [HdL Hl0 Hl1 Hl2 Hls3 Hls4 Hls5 Hls6 Hls7 Hls8 Hls9]
    · iexists _
      iapply (Entails.of_eq (lst_exit (F := F) d L (View.write (Elt F) (sI).view fi (tile_run.sl.dma0 d L It) Finset.univ) (Scf.trips k0_t1_loop.lb k0_t1_loop.ub k0_t1_loop.st) (by rw [hT])))
      isplitr [HdL]
      · isplitl [Hl0]
        · iexact Hl0
        isplitl [Hl1]
        · iexact Hl1
        isplitl [Hl2]
        · iexact Hl2
        isplitl [Hls3]
        · iexact Hls3
        isplitl [Hls4]
        · iexact Hls4
        isplitl [Hls5]
        · iexact Hls5
        isplitl [Hls6]
        · iexact Hls6
        isplitl [Hls7]
        · iexact Hls7
        isplitl [Hls8]
        · iexact Hls8
        iexact Hls9
      · iexact HdL
    isplitl [Hw0_src Hw1_src Hw2_src Hsl3 Hsl4 Hsl5 Hsl6 Hsl7 Hsl8 Hsl9]
    · iapply (slots_exit (F := F) d L _ _ _ _ _ _ _ _ _ _)
      isplitl [Hw0_src]
      · iexact Hw0_src
      isplitl [Hw1_src]
      · iexact Hw1_src
      isplitl [Hw2_src]
      · iexact Hw2_src
      isplitl [Hsl3]
      · iexact Hsl3
      isplitl [Hsl4]
      · iexact Hsl4
      isplitl [Hsl5]
      · iexact Hsl5
      isplitl [Hsl6]
      · iexact Hsl6
      isplitl [Hsl7]
      · iexact Hsl7
      isplitl [Hsl8]
      · iexact Hsl8
      iexact Hsl9
    · iexact Hbrest
  isplitl [Hs0 Hs1 Hs2 Hg3 Hg4 Hg5 Hg6 Hg7 Hg8 Hg9 Hw0 Hw1 Hw2 Hs13 Hs14 Hs15 Hs16 Hs17 Hs18 Hs19 Hs20]
  · isplitl [Hs0]
    · iexact Hs0
    isplitl [Hs1]
    · iexact Hs1
    isplitl [Hs2]
    · iexact Hs2
    isplitl [Hg3]
    · iexact Hg3
    isplitl [Hg4]
    · iexact Hg4
    isplitl [Hg5]
    · iexact Hg5
    isplitl [Hg6]
    · iexact Hg6
    isplitl [Hg7]
    · iexact Hg7
    isplitl [Hg8]
    · iexact Hg8
    isplitl [Hg9]
    · iexact Hg9
    isplitl [Hw0]
    · iexact Hw0
    isplitl [Hw1]
    · iexact Hw1
    isplitl [Hw2]
    · iexact Hw2
    isplitl [Hs13]
    · iexact Hs13
    isplitl [Hs14]
    · iexact Hs14
    isplitl [Hs15]
    · iexact Hs15
    isplitl [Hs16]
    · iexact Hs16
    isplitl [Hs17]
    · iexact Hs17
    isplitl [Hs18]
    · iexact Hs18
    isplitl [Hs19]
    · iexact Hs19
    iexact Hs20
  iexists _; isplitr
  on_goal 2 => iexact HO
  ipureintro; exact ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (ins_ok _ (hW')))))))))))))))))

/-- Every tile's task, at the launch memory `m`, when every token id names a row of the table. -/
theorem tile_body (m : (ℓ : Loc nD τ sig) → Buf (Elt F) ℓ) (hI : ∀ d : Dev nD, InRange (m ((SparseCore.T d).loc main_arg0))) :
    BodyObl m := by
  intro d L O W hO
  refine tile_run (F := F) d L (It m d) (Wt m d) ?_ (O0 m d) O W hO
  intro j
  obtain ⟨s, n, rfl⟩ : ∃ (s : Fin 50) (n : Fin 4096), j = ValueIdx.ix2 s n := ⟨j 0, j 1, ValueIdx.eq_ix2 j⟩
  unfold It
  rw [transpose_ids_apply]
  exact hI d _

end Cert.Proof.WordKernel

end
-- ==== Proof.lean ====
/-
  The kernel gathers rows of an embedding table by token id: the host exchanges the axes of the array of ids, each of
  thirty-two tiles fetches its slab of ids and copies, chunk by chunk, the table rows they name into its block of the
  result, and the host exchanges the result's first two axes back.  The reference indexes the table by the ids.  For ids
  between 0 and 99999 both results are the lookup of the ids in the table — entry (n, s, q) is entry q of the row
  that id (n, s) names — and neither changes its arguments; the same holds of the kernel over machine words.
-/
import proofs.«206438_g5171140624678_cont_8to1_c_1053_28_alg».proof.Defs
import proofs.«206438_g5171140624678_cont_8to1_c_1053_28_alg».proof.Proof.Gen.Kernel
import proofs.«206438_g5171140624678_cont_8to1_c_1053_28_alg».proof.Proof.Gen.Kernel.Skeleton
import proofs.«206438_g5171140624678_cont_8to1_c_1053_28_alg».proof.Proof.Gen.KernelIdeal
import proofs.«206438_g5171140624678_cont_8to1_c_1053_28_alg».proof.Proof.Gen.KernelIdeal.Skeleton
import proofs.«206438_g5171140624678_cont_8to1_c_1053_28_alg».proof.Proof.Gen.ReferenceIdeal
import proofs.«206438_g5171140624678_cont_8to1_c_1053_28_alg».proof.Proof.Gen.ReferenceIdeal.Read
import proofs.«206438_g5171140624678_cont_8to1_c_1053_28_alg».proof.Proof.Gen.Pre_input_domain
import proofs.«206438_g5171140624678_cont_8to1_c_1053_28_alg».proof.Proof.RefSide
import proofs.«206438_g5171140624678_cont_8to1_c_1053_28_alg».proof.Proof.IdealLaunch
import proofs.«206438_g5171140624678_cont_8to1_c_1053_28_alg».proof.Proof.WordLaunch
import proofs.«206438_g5171140624678_cont_8to1_c_1053_28_alg».proof.Proof.IdealBody
import proofs.«206438_g5171140624678_cont_8to1_c_1053_28_alg».proof.Proof.WordBody
import Idealize.ShloMosaic.Adequacy
import Idealize.ShloMosaic.Init

noncomputable section

namespace Cert.Proof

open Idealize.ShloMosaic Idealize.SL.Sem Cert.Kernel

/-- The row numbers are in range on every device, from the precondition. -/
theorem inRange_word [Cert.Pre_input_domain.Facts]
    (m : (ℓ : Loc Cert.Kernel.nD Cert.Kernel.τ Cert.Kernel.sig) → Buf (Elt Bits) ℓ) (hpre : Cert.Pre_Kernel m) (d : Dev Cert.Kernel.nD) :
    Bridge.InRange (m ((SparseCore.T d).loc Cert.Kernel.main_arg0)) := Bridge.inRange_of_pre _ _ (hpre d)
theorem inRange_ideal [Cert.Pre_input_domain.Facts]
    (m : (ℓ : Loc Cert.KernelIdeal.nD Cert.KernelIdeal.τ Cert.KernelIdeal.sig) → Buf (Elt Ideal) ℓ) (hpre : Cert.Pre_KernelIdeal m) (d : Dev Cert.KernelIdeal.nD) :
    Bridge.InRange (m ((SparseCore.T d).loc Cert.KernelIdeal.main_arg0)) := Bridge.inRange_of_pre _ _ (hpre d)

theorem claim : Cert.Claim := ⟨Cert.Kernel.Gen.facts, Cert.KernelIdeal.Gen.facts, Cert.ReferenceIdeal.Gen.facts, Cert.Pre_input_domain.Gen.facts,
  -- the printed kernel runs and keeps its arguments
  fun m g hpre => (θ_run Cert.Kernel.defs _ _).mono (fun _ h c => ⟨(h c).2.1, (h c).2.2⟩)
    (Cert.Proof.WordKernel.run_main (F := Bits) m g (Cert.Proof.WordKernel.tile_body m (inRange_word m hpre))),
  -- so does the kernel read over extended reals
  fun m g hpre => (θ_run Cert.KernelIdeal.defs _ _).mono (fun _ h c => ⟨(h c).2.1, (h c).2.2⟩)
    (Cert.Proof.IdealKernel.run_main (F := Ideal) m g (Cert.Proof.IdealKernel.tile_body m (inRange_ideal m hpre))),
  -- and the reference
  fun m g _ => (θ_run Cert.ReferenceIdeal.defs _ _).mono (fun _ h c => (h c).2) (Cert.ReferenceIdeal.Value.run (F := Ideal) m g),
  trivial,
  -- both results are the lookup of the row numbers in the table
  fun m g m' g' hpre hagree => by
    refine ⟨fun c => (Bridge.lookup (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Buf (Elt Ideal) _), ?_, ?_⟩
    · exact Cert.Proof.IdealKernel.run_main (F := Ideal) m g (Cert.Proof.IdealKernel.tile_body m (inRange_ideal m hpre))
    · refine (θ_run Cert.ReferenceIdeal.defs _ _).mono (fun _ h c => ?_) (Cert.ReferenceIdeal.Value.run (F := Ideal) m' g')
      obtain ⟨h6, h0, h1⟩ := h c
      refine ⟨?_, h0, h1⟩
      rw [h6, (hagree c).1, (hagree c).2]
      exact Bridge.reference_eq_lookup (F := Ideal) _ _ (inRange_ideal m hpre c)⟩

end Cert.Proof

end
